-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x3 : Shape := ⟨2, ![2000, 3]⟩
abbrev S2000 : Shape := ⟨1, ![2000]⟩
abbrev S64000 : Shape := ⟨1, ![64000]⟩
abbrev S_ : Shape := ⟨0, ![]⟩

class Facts : Prop where
  bcast_S_S2000x3 : S_.BroadcastsInDim S2000x3 (![] : Fin 0 → Fin S2000x3.rank)
  reducesTo_S2000x3_S_d0_1 : S2000x3.ReducesTo [0, 1] S_
  h_S_ : 0 < S_.numel

variable [Facts]

def fn {F : FTy → Type} [FloatOps F] (main_arg0 : FVec F S2000x3 .f32) (main_arg1 : IVec S2000 32) (main_arg2 : IVec S64000 32) : IVec S_ 1 :=
  let main_v0 : FVec F S2000x3 .f32 := Host.absf main_arg0
  let main_cst : FVec F S_ .f32 := constant S_ .f32 0x7F800000#32
  let main_v1 : FVec F S2000x3 .f32 := broadcastInDim S2000x3 ![] bcast_S_S2000x3 main_cst
  let main_v2 : IVec S2000x3 1 := cmpf .olt main_v0 main_v1
  let main_c : IVec S_ 1 := constantI S_ 1 1#1
  let main_v3 : IVec S_ 1 := (fun x v => Host.reduce IntOp.andi x v reducesTo_S2000x3_S_d0_1 h_S_) main_v2 main_c
  main_v3
-- ==== Kernel.lean ====
abbrev S2000x3 : Shape := ⟨2, ![2000, 3]⟩
abbrev S2000 : Shape := ⟨1, ![2000]⟩
abbrev S64000 : Shape := ⟨1, ![64000]⟩
abbrev S496 : Shape := ⟨1, ![496]⟩
abbrev S2000x32 : Shape := ⟨2, ![2000, 32]⟩
abbrev S32 : Shape := ⟨1, ![32]⟩
abbrev S1x32 : Shape := ⟨2, ![1, 32]⟩
abbrev S2000x1 : Shape := ⟨2, ![2000, 1]⟩
abbrev S_ : Shape := ⟨0, ![]⟩
abbrev S2000x32x1 : Shape := ⟨3, ![2000, 32, 1]⟩
abbrev S2000x32x3 : Shape := ⟨3, ![2000, 32, 3]⟩
abbrev S2000x1x3 : Shape := ⟨3, ![2000, 1, 3]⟩
abbrev S2048x32 : Shape := ⟨2, ![2048, 32]⟩
abbrev S32x2048 : Shape := ⟨2, ![32, 2048]⟩
abbrev S496x1 : Shape := ⟨2, ![496, 1]⟩
abbrev S496x2048 : Shape := ⟨2, ![496, 2048]⟩
abbrev S51x2048 : Shape := ⟨2, ![51, 2048]⟩
abbrev S32x256 : Shape := ⟨2, ![32, 256]⟩
abbrev S496x256 : Shape := ⟨2, ![496, 256]⟩
abbrev S51x256 : Shape := ⟨2, ![51, 256]⟩
abbrev S256 : Shape := ⟨1, ![256]⟩
abbrev S1x256 : Shape := ⟨2, ![1, 256]⟩
abbrev S8x256 : Shape := ⟨2, ![8, 256]⟩
abbrev S43x256 : Shape := ⟨2, ![43, 256]⟩
abbrev S51x2000 : Shape := ⟨2, ![51, 2000]⟩
abbrev S2000x51 : Shape := ⟨2, ![2000, 51]⟩

abbrev nBuf : Space → Nat
  | .hbm => 167
  | .vmem => 14
  | .smem => 0
  | _ => 0

abbrev hbmTy0_0 (i : Nat) : BufTy := match i % 128 with
  | 0 => ⟨S2000x3, .f32⟩
  | 1 => ⟨S2000, .i32⟩
  | 2 => ⟨S64000, .i32⟩
  | 3 => ⟨S496, .i32⟩
  | 4 => ⟨S496, .i1⟩
  | 5 => ⟨S496, .i32⟩
  | 6 => ⟨S496, .i1⟩
  | 7 => ⟨S496, .i1⟩
  | 8 => ⟨S496, .i1⟩
  | 9 => ⟨S496, .i1⟩
  | 10 => ⟨S496, .i1⟩
  | 11 => ⟨S496, .i1⟩
  | 12 => ⟨S496, .i1⟩
  | 13 => ⟨S496, .i1⟩
  | 14 => ⟨S496, .i1⟩
  | 15 => ⟨S2000x32, .i32⟩
  | 16 => ⟨S32, .i32⟩
  | 17 => ⟨S1x32, .i32⟩
  | 18 => ⟨S2000x1, .i32⟩
  | 19 => ⟨S2000x32, .i32⟩
  | 20 => ⟨S2000x32, .i32⟩
  | 21 => ⟨S2000x32, .i1⟩
  | 22 => ⟨S_, .i32⟩
  | 23 => ⟨S2000x32, .i32⟩
  | 24 => ⟨S2000x32, .i1⟩
  | 25 => ⟨S_, .i32⟩
  | 26 => ⟨S2000x32, .i32⟩
  | 27 => ⟨S2000x32, .i32⟩
  | 28 => ⟨S2000x32, .i32⟩
  | 29 => ⟨S2000x32x1, .i32⟩
  | 30 => ⟨S2000x32x3, .f32⟩
  | 31 => ⟨S2000x1x3, .f32⟩
  | 32 => ⟨S2000x32x3, .f32⟩
  | 33 => ⟨S2000x32x3, .f32⟩
  | 34 => ⟨S2000x32x3, .f32⟩
  | 35 => ⟨S_, .f32⟩
  | 36 => ⟨S2000x32, .f32⟩
  | 37 => ⟨S2000x32, .f32⟩
  | 38 => ⟨S_, .f32⟩
  | 39 => ⟨S2000x32, .f32⟩
  | 40 => ⟨S2000x32, .i1⟩
  | 41 => ⟨S2000x32, .i1⟩
  | 42 => ⟨S_, .f32⟩
  | 43 => ⟨S_, .f32⟩
  | 44 => ⟨S2048x32, .f32⟩
  | 45 => ⟨S2000x32, .f32⟩
  | 46 => ⟨S_, .f32⟩
  | 47 => ⟨S_, .f32⟩
  | 48 => ⟨S2048x32, .f32⟩
  | 49 => ⟨S2000x32x1, .f32⟩
  | 50 => ⟨S2000x32, .f32⟩
  | 51 => ⟨S_, .f32⟩
  | 52 => ⟨S_, .f32⟩
  | 53 => ⟨S2048x32, .f32⟩
  | 54 => ⟨S2000x32x1, .f32⟩
  | 55 => ⟨S2000x32, .f32⟩
  | 56 => ⟨S_, .f32⟩
  | 57 => ⟨S_, .f32⟩
  | 58 => ⟨S2048x32, .f32⟩
  | 59 => ⟨S2000x32x1, .f32⟩
  | 60 => ⟨S2000x32, .f32⟩
  | 61 => ⟨S_, .f32⟩
  | 62 => ⟨S_, .f32⟩
  | 63 => ⟨S2048x32, .f32⟩
  | 64 => ⟨S32x2048, .f32⟩
  | 65 => ⟨S32x2048, .f32⟩
  | 66 => ⟨S32x2048, .f32⟩
  | 67 => ⟨S32x2048, .f32⟩
  | 68 => ⟨S32x2048, .f32⟩
  | 69 => ⟨S_, .i32⟩
  | 70 => ⟨S496, .i32⟩
  | 71 => ⟨S496, .i32⟩
  | 72 => ⟨S496, .i32⟩
  | 73 => ⟨S496x1, .i32⟩
  | 74 => ⟨S496x2048, .f32⟩
  | 75 => ⟨S_, .i32⟩
  | 76 => ⟨S496, .i32⟩
  | 77 => ⟨S496, .i32⟩
  | 78 => ⟨S496, .i32⟩
  | 79 => ⟨S496x1, .i32⟩
  | 80 => ⟨S496x2048, .f32⟩
  | 81 => ⟨S_, .i32⟩
  | 82 => ⟨S496, .i32⟩
  | 83 => ⟨S496, .i32⟩
  | 84 => ⟨S496, .i32⟩
  | 85 => ⟨S496x1, .i32⟩
  | 86 => ⟨S496x2048, .f32⟩
  | 87 => ⟨S_, .i32⟩
  | 88 => ⟨S496, .i32⟩
  | 89 => ⟨S496, .i32⟩
  | 90 => ⟨S496, .i32⟩
  | 91 => ⟨S496x1, .i32⟩
  | 92 => ⟨S496x2048, .f32⟩
  | 93 => ⟨S_, .i32⟩
  | 94 => ⟨S496, .i32⟩
  | 95 => ⟨S496, .i32⟩
  | 96 => ⟨S496, .i32⟩
  | 97 => ⟨S496x1, .i32⟩
  | 98 => ⟨S496x2048, .f32⟩
  | 99 => ⟨S_, .i32⟩
  | 100 => ⟨S496, .i32⟩
  | 101 => ⟨S496, .i32⟩
  | 102 => ⟨S496, .i32⟩
  | 103 => ⟨S496x1, .i32⟩
  | 104 => ⟨S496x2048, .f32⟩
  | 105 => ⟨S496x2048, .f32⟩
  | 106 => ⟨S_, .i32⟩
  | 107 => ⟨S496, .i32⟩
  | 108 => ⟨S496, .i32⟩
  | 109 => ⟨S496, .i32⟩
  | 110 => ⟨S496x1, .i32⟩
  | 111 => ⟨S496x2048, .f32⟩
  | 112 => ⟨S_, .i32⟩
  | 113 => ⟨S496, .i32⟩
  | 114 => ⟨S496, .i32⟩
  | 115 => ⟨S496, .i32⟩
  | 116 => ⟨S496x1, .i32⟩
  | 117 => ⟨S496x2048, .f32⟩
  | 118 => ⟨S496x2048, .f32⟩
  | 119 => ⟨S_, .i32⟩
  | 120 => ⟨S496, .i32⟩
  | 121 => ⟨S496, .i32⟩
  | 122 => ⟨S496, .i32⟩
  | 123 => ⟨S496x1, .i32⟩
  | 124 => ⟨S496x2048, .f32⟩
  | 125 => ⟨S_, .i32⟩
  | 126 => ⟨S496, .i32⟩
  | 127 => ⟨S496, .i32⟩
  | _ => ⟨S2000x3, .f32⟩

abbrev hbmTy0_1 (i : Nat) : BufTy := match i % 128 with
  | 0 => ⟨S496, .i32⟩
  | 1 => ⟨S496x1, .i32⟩
  | 2 => ⟨S496x2048, .f32⟩
  | 3 => ⟨S496x2048, .f32⟩
  | 4 => ⟨S496x2048, .f32⟩
  | 5 => ⟨S496x2048, .f32⟩
  | 6 => ⟨S496x2048, .f32⟩
  | 7 => ⟨S496x2048, .f32⟩
  | 8 => ⟨S496x2048, .f32⟩
  | 9 => ⟨S_, .f32⟩
  | 10 => ⟨S496x2048, .f32⟩
  | 11 => ⟨S496x2048, .i1⟩
  | 12 => ⟨S_, .f32⟩
  | 13 => ⟨S496x2048, .f32⟩
  | 14 => ⟨S496x2048, .i1⟩
  | 15 => ⟨S_, .f32⟩
  | 16 => ⟨S_, .f32⟩
  | 17 => ⟨S496x2048, .f32⟩
  | 18 => ⟨S496x2048, .f32⟩
  | 19 => ⟨S496x2048, .f32⟩
  | 20 => ⟨S_, .f32⟩
  | 21 => ⟨S_, .f32⟩
  | 22 => ⟨S496x2048, .f32⟩
  | 23 => ⟨S496x2048, .f32⟩
  | 24 => ⟨S_, .f32⟩
  | 25 => ⟨S496x2048, .f32⟩
  | 26 => ⟨S496x2048, .i1⟩
  | 27 => ⟨S_, .f32⟩
  | 28 => ⟨S496x2048, .f32⟩
  | 29 => ⟨S496x2048, .i1⟩
  | 30 => ⟨S496x2048, .i1⟩
  | 31 => ⟨S_, .f32⟩
  | 32 => ⟨S496x2048, .f32⟩
  | 33 => ⟨S496x2048, .i1⟩
  | 34 => ⟨S496x2048, .i1⟩
  | 35 => ⟨S496x2048, .f32⟩
  | 36 => ⟨S51x2048, .f32⟩
  | 37 => ⟨S51x2000, .f32⟩
  | 38 => ⟨S2000x51, .f32⟩
  | _ => ⟨S2000x3, .f32⟩

abbrev hbmTy (i : Nat) : BufTy := match i / 128 with
  | 0 => hbmTy0_0 i
  | 1 => hbmTy0_1 i
  | _ => ⟨S2000x3, .f32⟩

abbrev bufTy : (tb : Table) → Fin (tcTables nBuf tb) → BufTy
  | .hbm, ⟨i, _⟩ => hbmTy i
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S496x256, .f32⟩
  | .local _ .vmem, ⟨5, _⟩ => ⟨S496x256, .f32⟩
  | .local _ .vmem, ⟨6, _⟩ => ⟨S496x256, .f32⟩
  | .local _ .vmem, ⟨7, _⟩ => ⟨S496x256, .f32⟩
  | .local _ .vmem, ⟨8, _⟩ => ⟨S496x256, .f32⟩
  | .local _ .vmem, ⟨9, _⟩ => ⟨S496x256, .f32⟩
  | .local _ .vmem, ⟨10, _⟩ => ⟨S496x256, .f32⟩
  | .local _ .vmem, ⟨11, _⟩ => ⟨S496x256, .f32⟩
  | .local _ .vmem, ⟨12, _⟩ => ⟨S51x256, .f32⟩
  | .local _ .vmem, ⟨13, _⟩ => ⟨S51x256, .f32⟩
  | _, _ => ⟨S2000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_11 : Ref sig .tc := ⟨.hbm, 22, rfl⟩
abbrev main_v7 : Ref sig .tc := ⟨.hbm, 23, rfl⟩
abbrev main_v8 : Ref sig .tc := ⟨.hbm, 24, rfl⟩
abbrev main_c_12 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_13 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_14 : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_cst_15 : Ref sig .tc := ⟨.hbm, 46, rfl⟩
abbrev main_call1_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_16 : Ref sig .tc := ⟨.hbm, 51, rfl⟩
abbrev main_call2_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_17 : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_18 : Ref sig .tc := ⟨.hbm, 61, rfl⟩
abbrev main_call4_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_19 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_20 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_21 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_22 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_23 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_24 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_25 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_26 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_27 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_28 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_29 : Ref sig .tc := ⟨.hbm, 137, rfl⟩
abbrev main_v98 : Ref sig .tc := ⟨.hbm, 138, rfl⟩
abbrev main_v99 : Ref sig .tc := ⟨.hbm, 139, rfl⟩
abbrev main_cst_30 : Ref sig .tc := ⟨.hbm, 140, rfl⟩
abbrev main_v100 : Ref sig .tc := ⟨.hbm, 141, rfl⟩
abbrev main_v101 : Ref sig .tc := ⟨.hbm, 142, rfl⟩
abbrev main_cst_31 : Ref sig .tc := ⟨.hbm, 143, rfl⟩
abbrev main_call5_v0 : Ref sig .tc := ⟨.hbm, 144, rfl⟩
abbrev main_call5_v1 : Ref sig .tc := ⟨.hbm, 145, rfl⟩
abbrev main_v102 : Ref sig .tc := ⟨.hbm, 146, rfl⟩
abbrev main_v103 : Ref sig .tc := ⟨.hbm, 147, rfl⟩
abbrev main_cst_32 : Ref sig .tc := ⟨.hbm, 148, rfl⟩
abbrev main_call6_v0 : Ref sig .tc := ⟨.hbm, 149, rfl⟩
abbrev main_call6_v1 : Ref sig .tc := ⟨.hbm, 150, rfl⟩
abbrev main_v104 : Ref sig .tc := ⟨.hbm, 151, rfl⟩
abbrev main_cst_33 : Ref sig .tc := ⟨.hbm, 152, rfl⟩
abbrev main_v105 : Ref sig .tc := ⟨.hbm, 153, rfl⟩
abbrev main_v106 : Ref sig .tc := ⟨.hbm, 154, rfl⟩
abbrev main_cst_34 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_35 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S496x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S496x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S496x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S496x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S51x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64000_S2000x32 : S64000.ShapeCasts S2000x32
  bcast_S32_S1x32_1 : S32.BroadcastsInDim S1x32 (![1] : Fin 1 → Fin S1x32.rank)
  bcast_S2000_S2000x1_0 : S2000.BroadcastsInDim S2000x1 (![0] : Fin 1 → Fin S2000x1.rank)
  bcast_S1x32_S2000x32_0_1 : S1x32.BroadcastsInDim S2000x32 (![0, 1] : Fin 2 → Fin S2000x32.rank)
  bcast_S2000x1_S2000x32_0_1 : S2000x1.BroadcastsInDim S2000x32 (![0, 1] : Fin 2 → Fin S2000x32.rank)
  bcast_S_S2000x32 : S_.BroadcastsInDim S2000x32 (![] : Fin 0 → Fin S2000x32.rank)
  bcast_S2000x32_S2000x32x1_0_1 : S2000x32.BroadcastsInDim S2000x32x1 (![0, 1] : Fin 2 → Fin S2000x32x1.rank)
  bcast_S2000x3_S2000x1x3_0_2 : S2000x3.BroadcastsInDim S2000x1x3 (![0, 2] : Fin 2 → Fin S2000x1x3.rank)
  bcast_S2000x1x3_S2000x32x3_0_1_2 : S2000x1x3.BroadcastsInDim S2000x32x3 (![0, 1, 2] : Fin 3 → Fin S2000x32x3.rank)
  reducesTo_S2000x32x3_S2000x32_d2 : S2000x32x3.ReducesTo [2] S2000x32
  h_S_ : 0 < S_.numel
  pads_S2000x32_S2048x32_0480_000 : S2000x32.Pads (![0, 0] : Fin 2 → Nat) ![48, 0] ![0, 0] S2048x32
  slices_S2000x32x3_S2000x32x1_0_0_0 : S2000x32x3.Slices ![0, 0, 0] S2000x32x1
  shapeCasts_S2000x32x1_S2000x32 : S2000x32x1.ShapeCasts S2000x32
  slices_S2000x32x3_S2000x32x1_0_0_1 : S2000x32x3.Slices ![0, 0, 1] S2000x32x1
  slices_S2000x32x3_S2000x32x1_0_0_2 : S2000x32x3.Slices ![0, 0, 2] S2000x32x1
  transposes_S2048x32_S32x2048_1_0 : S2048x32.Transposes [1, 0] S32x2048
  bcast_S_S496 : S_.BroadcastsInDim S496 (![] : Fin 0 → Fin S496.rank)
  bcast_S496_S496x1_0 : S496.BroadcastsInDim S496x1 (![0] : Fin 1 → Fin S496x1.rank)
  bcast_S_S496x2048 : S_.BroadcastsInDim S496x2048 (![] : Fin 0 → Fin S496x2048.rank)
  inb_S32x256_S32x256_0_0 : ∀ a, (![0, 0] : Fin 2 → Nat) a + S32x256.size a ≤ S32x256.size a
  h_S32x256 : 0 < S32x256.numel
  shapeCasts_S32x256_S32x256 : S32x256.ShapeCasts S32x256
  reduces_S32x256_S256 : S32x256.Reduces [0] S256
  shapeCasts_S256_S1x256 : S256.ShapeCasts S1x256
  concatenates_S1x256_S1x256_S1x256_S1x256_S1x256_S1x256_S1x256_S1x256_S8x256_d0 : Shape.Concatenates [S1x256, S1x256, S1x256, S1x256, S1x256, S1x256, S1x256, S1x256] S8x256 0
  inb_S496x256_S496x256_0_0 : ∀ a, (![0, 0] : Fin 2 → Nat) a + S496x256.size a ≤ S496x256.size a
  h_S496x256 : 0 < S496x256.numel
  shapeCasts_S496x256_S496x256 : S496x256.ShapeCasts S496x256
  natLt_1_32 : 1 < 32
  reduces_S496x256_S256 : S496x256.Reduces [0] S256
  concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S43x256_d0 : Shape.Concatenates (S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: []) S43x256 0
  concatenates_S8x256_S43x256_S51x256_d0 : Shape.Concatenates [S8x256, S43x256] S51x256 0
  inb_S51x256_S51x256_0_0 : ∀ a, (![0, 0] : Fin 2 → Nat) a + S51x256.size a ≤ S51x256.size a
  h_S51x256 : 0 < S51x256.numel
  slices_S51x2048_S51x2000_0_0 : S51x2048.Slices ![0, 0] S51x2000
  transposes_S51x2000_S2000x51_1_0 : S51x2000.Transposes [1, 0] S2000x51
  gather_S2000x3_S2000x32x1_S2000x32x3_2_0_n_n_0_2_13_wf : GatherDims.WF S2000x3 S2000x32x1 S2000x32x3 [2] [0] [] [0] [] 2 ![1, 3]
  gather_S32x2048_S496x1_S496x2048_1_0_n_n_0_1_12048_wf : GatherDims.WF S32x2048 S496x1 S496x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x2048.size a
  hwx0_0 : ∀ i : grid0.Coords, EltTy.bits .f32 = 32 ∨ (Rect.block (s := S32x2048) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x2048.size a
  hwx0_1 : ∀ i : grid0.Coords, EltTy.bits .f32 = 32 ∨ (Rect.block (s := S32x2048) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S496x256.size a ≤ S496x2048.size a
  hwx0_2 : ∀ i : grid0.Coords, EltTy.bits .f32 = 32 ∨ (Rect.block (s := S496x2048) S496x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S496x256.size a ≤ S496x2048.size a
  hwx0_3 : ∀ i : grid0.Coords, EltTy.bits .f32 = 32 ∨ (Rect.block (s := S496x2048) S496x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S496x256.size a ≤ S496x2048.size a
  hwx0_4 : ∀ i : grid0.Coords, EltTy.bits .f32 = 32 ∨ (Rect.block (s := S496x2048) S496x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S496x256.size a ≤ S496x2048.size a
  hwx0_5 : ∀ i : grid0.Coords, EltTy.bits .f32 = 32 ∨ (Rect.block (s := S496x2048) S496x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S51x256.size a ≤ S51x2048.size a
  hwx0_6 : ∀ i : grid0.Coords, EltTy.bits .f32 = 32 ∨ (Rect.block (s := S51x2048) S51x256.size (cc0_transform_6 i) (hinb0_6 i)).WholeWords (EltTy.packing .f32)

variable [Facts₀]

def gather_S2000x3_S2000x32x1_S2000x32x3_2_0_n_n_0_2_13 : GatherDims S2000x3 S2000x32x1 S2000x32x3 where
  offsetDims := [2]
  collapsedSliceDims := [0]
  operandBatchingDims := []
  startIndicesBatchingDims := []
  startIndexMap := [0]
  indexVectorDim := 2
  sliceSizes := ![1, 3]
  wf := gather_S2000x3_S2000x32x1_S2000x32x3_2_0_n_n_0_2_13_wf
def gather_S32x2048_S496x1_S496x2048_1_0_n_n_0_1_12048 : GatherDims S32x2048 S496x1 S496x2048 where
  offsetDims := [1]
  collapsedSliceDims := [0]
  operandBatchingDims := []
  startIndicesBatchingDims := []
  startIndexMap := [0]
  indexVectorDim := 1
  sliceSizes := ![1, 2048]
  wf := gather_S32x2048_S496x1_S496x2048_1_0_n_n_0_1_12048_wf

abbrev win0_0 : Pipeline.Window sig grid0 :=
  Pipeline.Window.ofSpec (Memref.whole main_v35) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S496x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S496x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v97) S496x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v113) S496x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v114) S51x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2000x3 : Shape := ⟨2, ![2000, 3]⟩
abbrev S2000 : Shape := ⟨1, ![2000]⟩
abbrev S64000 : Shape := ⟨1, ![64000]⟩
abbrev S8 : Shape := ⟨1, ![8]⟩
abbrev S1x1x8 : Shape := ⟨3, ![1, 1, 8]⟩
abbrev S496 : Shape := ⟨1, ![496]⟩
abbrev S43 : Shape := ⟨1, ![43]⟩
abbrev S1x1x43 : Shape := ⟨3, ![1, 1, 43]⟩
abbrev S2000x32 : Shape := ⟨2, ![2000, 32]⟩
abbrev S32 : Shape := ⟨1, ![32]⟩
abbrev S1x32 : Shape := ⟨2, ![1, 32]⟩
abbrev S2000x1 : Shape := ⟨2, ![2000, 1]⟩
abbrev S_ : Shape := ⟨0, ![]⟩
abbrev S2000x32x1 : Shape := ⟨3, ![2000, 32, 1]⟩
abbrev S2000x32x3 : Shape := ⟨3, ![2000, 32, 3]⟩
abbrev S2000x1x3 : Shape := ⟨3, ![2000, 1, 3]⟩
abbrev S2000x32x8 : Shape := ⟨3, ![2000, 32, 8]⟩
abbrev S2000x8 : Shape := ⟨2, ![2000, 8]⟩
abbrev S496x1 : Shape := ⟨2, ![496, 1]⟩
abbrev S2000x496 : Shape := ⟨2, ![2000, 496]⟩
abbrev S2000x496x3 : Shape := ⟨3, ![2000, 496, 3]⟩
abbrev S2000x496x1 : Shape := ⟨3, ![2000, 496, 1]⟩
abbrev S2000x496x43 : Shape := ⟨3, ![2000, 496, 43]⟩
abbrev S2000x43 : Shape := ⟨2, ![2000, 43]⟩
abbrev S2000x51 : Shape := ⟨2, ![2000, 51]⟩

abbrev nBuf : Space → Nat
  | .hbm => 267
  | .vmem => 0
  | .smem => 0
  | _ => 0

abbrev hbmTy0_0 (i : Nat) : BufTy := match i % 128 with
  | 0 => ⟨S2000x3, .f32⟩
  | 1 => ⟨S2000, .i32⟩
  | 2 => ⟨S64000, .i32⟩
  | 3 => ⟨S8, .f32⟩
  | 4 => ⟨S1x1x8, .f32⟩
  | 5 => ⟨S1x1x8, .f32⟩
  | 6 => ⟨S496, .i32⟩
  | 7 => ⟨S496, .i1⟩
  | 8 => ⟨S496, .i32⟩
  | 9 => ⟨S496, .i1⟩
  | 10 => ⟨S496, .i1⟩
  | 11 => ⟨S496, .i1⟩
  | 12 => ⟨S496, .i1⟩
  | 13 => ⟨S496, .i1⟩
  | 14 => ⟨S496, .i1⟩
  | 15 => ⟨S43, .f32⟩
  | 16 => ⟨S1x1x43, .f32⟩
  | 17 => ⟨S43, .f32⟩
  | 18 => ⟨S1x1x43, .f32⟩
  | 19 => ⟨S1x1x43, .f32⟩
  | 20 => ⟨S43, .f32⟩
  | 21 => ⟨S1x1x43, .f32⟩
  | 22 => ⟨S2000x32, .i32⟩
  | 23 => ⟨S32, .i32⟩
  | 24 => ⟨S1x32, .i32⟩
  | 25 => ⟨S2000x1, .i32⟩
  | 26 => ⟨S2000x32, .i32⟩
  | 27 => ⟨S2000x32, .i32⟩
  | 28 => ⟨S2000x32, .i1⟩
  | 29 => ⟨S_, .i32⟩
  | 30 => ⟨S2000x32, .i32⟩
  | 31 => ⟨S2000x32, .i1⟩
  | 32 => ⟨S_, .i32⟩
  | 33 => ⟨S2000x32, .i32⟩
  | 34 => ⟨S2000x32, .i32⟩
  | 35 => ⟨S2000x32, .i32⟩
  | 36 => ⟨S2000x32x1, .i32⟩
  | 37 => ⟨S2000x32x3, .f32⟩
  | 38 => ⟨S2000x1x3, .f32⟩
  | 39 => ⟨S2000x32x3, .f32⟩
  | 40 => ⟨S2000x32x3, .f32⟩
  | 41 => ⟨S2000x32x3, .f32⟩
  | 42 => ⟨S_, .f32⟩
  | 43 => ⟨S2000x32, .f32⟩
  | 44 => ⟨S2000x32, .f32⟩
  | 45 => ⟨S_, .f32⟩
  | 46 => ⟨S2000x32, .f32⟩
  | 47 => ⟨S2000x32, .i1⟩
  | 48 => ⟨S2000x32, .i1⟩
  | 49 => ⟨S_, .f32⟩
  | 50 => ⟨S2000x32, .f32⟩
  | 51 => ⟨S2000x32, .i1⟩
  | 52 => ⟨S_, .f32⟩
  | 53 => ⟨S2000x32, .f32⟩
  | 54 => ⟨S2000x32, .f32⟩
  | 55 => ⟨S_, .f32⟩
  | 56 => ⟨S2000x32, .f32⟩
  | 57 => ⟨S2000x32, .f32⟩
  | 58 => ⟨S2000x32, .f32⟩
  | 59 => ⟨S_, .f32⟩
  | 60 => ⟨S2000x32, .f32⟩
  | 61 => ⟨S2000x32, .f32⟩
  | 62 => ⟨S_, .f32⟩
  | 63 => ⟨S2000x32, .f32⟩
  | 64 => ⟨S2000x32, .f32⟩
  | 65 => ⟨S_, .f32⟩
  | 66 => ⟨S_, .f32⟩
  | 67 => ⟨S2000x32, .f32⟩
  | 68 => ⟨S2000x32, .f32⟩
  | 69 => ⟨S2000x32x1, .f32⟩
  | 70 => ⟨S2000x32x8, .f32⟩
  | 71 => ⟨S2000x32x8, .f32⟩
  | 72 => ⟨S2000x32x8, .f32⟩
  | 73 => ⟨S2000x32x8, .f32⟩
  | 74 => ⟨S2000x32x8, .f32⟩
  | 75 => ⟨S2000x32x8, .f32⟩
  | 76 => ⟨S2000x32x8, .f32⟩
  | 77 => ⟨S2000x32x1, .f32⟩
  | 78 => ⟨S2000x32x8, .f32⟩
  | 79 => ⟨S2000x32x8, .f32⟩
  | 80 => ⟨S2000x32x1, .i1⟩
  | 81 => ⟨S2000x32x1, .f32⟩
  | 82 => ⟨S2000x32x8, .f32⟩
  | 83 => ⟨S2000x32x8, .f32⟩
  | 84 => ⟨S_, .f32⟩
  | 85 => ⟨S2000x8, .f32⟩
  | 86 => ⟨S_, .i32⟩
  | 87 => ⟨S496, .i32⟩
  | 88 => ⟨S496, .i32⟩
  | 89 => ⟨S496, .i32⟩
  | 90 => ⟨S496x1, .i32⟩
  | 91 => ⟨S2000x496, .f32⟩
  | 92 => ⟨S_, .i32⟩
  | 93 => ⟨S496, .i32⟩
  | 94 => ⟨S496, .i32⟩
  | 95 => ⟨S496, .i32⟩
  | 96 => ⟨S496x1, .i32⟩
  | 97 => ⟨S2000x496, .f32⟩
  | 98 => ⟨S_, .i32⟩
  | 99 => ⟨S496, .i32⟩
  | 100 => ⟨S496, .i32⟩
  | 101 => ⟨S496, .i32⟩
  | 102 => ⟨S496x1, .i32⟩
  | 103 => ⟨S2000x496x3, .f32⟩
  | 104 => ⟨S_, .i32⟩
  | 105 => ⟨S496, .i32⟩
  | 106 => ⟨S496, .i32⟩
  | 107 => ⟨S496, .i32⟩
  | 108 => ⟨S496x1, .i32⟩
  | 109 => ⟨S2000x496x3, .f32⟩
  | 110 => ⟨S2000x496x3, .f32⟩
  | 111 => ⟨S2000x496x3, .f32⟩
  | 112 => ⟨S_, .f32⟩
  | 113 => ⟨S2000x496, .f32⟩
  | 114 => ⟨S_, .f32⟩
  | 115 => ⟨S2000x496, .f32⟩
  | 116 => ⟨S2000x496, .i1⟩
  | 117 => ⟨S_, .f32⟩
  | 118 => ⟨S2000x496, .f32⟩
  | 119 => ⟨S2000x496, .i1⟩
  | 120 => ⟨S_, .f32⟩
  | 121 => ⟨S_, .f32⟩
  | 122 => ⟨S2000x496, .f32⟩
  | 123 => ⟨S2000x496, .f32⟩
  | 124 => ⟨S2000x496, .f32⟩
  | 125 => ⟨S_, .f32⟩
  | 126 => ⟨S_, .f32⟩
  | 127 => ⟨S2000x496, .f32⟩
  | _ => ⟨S2000x3, .f32⟩

abbrev hbmTy0_1 (i : Nat) : BufTy := match i % 128 with
  | 0 => ⟨S2000x496, .f32⟩
  | 1 => ⟨S_, .i32⟩
  | 2 => ⟨S496, .i32⟩
  | 3 => ⟨S496, .i32⟩
  | 4 => ⟨S496, .i32⟩
  | 5 => ⟨S496x1, .i32⟩
  | 6 => ⟨S2000x496, .i1⟩
  | 7 => ⟨S_, .i32⟩
  | 8 => ⟨S496, .i32⟩
  | 9 => ⟨S496, .i32⟩
  | 10 => ⟨S496, .i32⟩
  | 11 => ⟨S496x1, .i32⟩
  | 12 => ⟨S2000x496, .i1⟩
  | 13 => ⟨S2000x496, .i1⟩
  | 14 => ⟨S_, .i32⟩
  | 15 => ⟨S496, .i32⟩
  | 16 => ⟨S496, .i32⟩
  | 17 => ⟨S496, .i32⟩
  | 18 => ⟨S496x1, .i32⟩
  | 19 => ⟨S2000x496, .f32⟩
  | 20 => ⟨S_, .f32⟩
  | 21 => ⟨S2000x496, .f32⟩
  | 22 => ⟨S2000x496, .i1⟩
  | 23 => ⟨S2000x496, .i1⟩
  | 24 => ⟨S_, .f32⟩
  | 25 => ⟨S2000x496, .f32⟩
  | 26 => ⟨S2000x496, .i1⟩
  | 27 => ⟨S2000x496, .i1⟩
  | 28 => ⟨S2000x496, .f32⟩
  | 29 => ⟨S2000x496, .f32⟩
  | 30 => ⟨S2000x496, .f32⟩
  | 31 => ⟨S2000x496, .f32⟩
  | 32 => ⟨S_, .f32⟩
  | 33 => ⟨S2000x496, .f32⟩
  | 34 => ⟨S2000x496, .f32⟩
  | 35 => ⟨S2000x496, .f32⟩
  | 36 => ⟨S2000x496, .f32⟩
  | 37 => ⟨S2000x496x1, .f32⟩
  | 38 => ⟨S2000x496x43, .f32⟩
  | 39 => ⟨S2000x496x43, .f32⟩
  | 40 => ⟨S2000x496x43, .f32⟩
  | 41 => ⟨S_, .f32⟩
  | 42 => ⟨S2000x496x43, .f32⟩
  | 43 => ⟨S2000x496x43, .f32⟩
  | 44 => ⟨S_, .f32⟩
  | 45 => ⟨S2000x496x43, .f32⟩
  | 46 => ⟨S2000x496x43, .i1⟩
  | 47 => ⟨S_, .f32⟩
  | 48 => ⟨S_, .f32⟩
  | 49 => ⟨S2000x496x43, .f32⟩
  | 50 => ⟨S2000x496x43, .f32⟩
  | 51 => ⟨S2000x496x43, .f32⟩
  | 52 => ⟨S2000x496x43, .f32⟩
  | 53 => ⟨S2000x496x43, .f32⟩
  | 54 => ⟨S2000x496x43, .f32⟩
  | 55 => ⟨S2000x496, .f32⟩
  | 56 => ⟨S2000x496, .f32⟩
  | 57 => ⟨S2000x496, .f32⟩
  | 58 => ⟨S2000x496, .f32⟩
  | 59 => ⟨S2000x496x1, .f32⟩
  | 60 => ⟨S2000x496x43, .f32⟩
  | 61 => ⟨S2000x496x43, .f32⟩
  | 62 => ⟨S2000x496x43, .f32⟩
  | 63 => ⟨S2000x496x43, .f32⟩
  | 64 => ⟨S_, .f32⟩
  | 65 => ⟨S2000x496, .f32⟩
  | 66 => ⟨S2000x496, .i1⟩
  | 67 => ⟨S_, .f32⟩
  | 68 => ⟨S2000x496, .f32⟩
  | 69 => ⟨S2000x496, .f32⟩
  | 70 => ⟨S_, .f32⟩
  | 71 => ⟨S2000x496, .f32⟩
  | 72 => ⟨S2000x496, .f32⟩
  | 73 => ⟨S2000x496, .f32⟩
  | 74 => ⟨S_, .f32⟩
  | 75 => ⟨S2000x496, .f32⟩
  | 76 => ⟨S2000x496, .f32⟩
  | 77 => ⟨S_, .f32⟩
  | 78 => ⟨S2000x496, .f32⟩
  | 79 => ⟨S2000x496, .f32⟩
  | 80 => ⟨S_, .f32⟩
  | 81 => ⟨S_, .f32⟩
  | 82 => ⟨S2000x496, .f32⟩
  | 83 => ⟨S2000x496, .f32⟩
  | 84 => ⟨S_, .f32⟩
  | 85 => ⟨S2000x496, .f32⟩
  | 86 => ⟨S2000x496, .i1⟩
  | 87 => ⟨S_, .f32⟩
  | 88 => ⟨S2000x496, .f32⟩
  | 89 => ⟨S2000x496, .f32⟩
  | 90 => ⟨S_, .f32⟩
  | 91 => ⟨S2000x496, .f32⟩
  | 92 => ⟨S2000x496, .f32⟩
  | 93 => ⟨S2000x496, .f32⟩
  | 94 => ⟨S_, .f32⟩
  | 95 => ⟨S2000x496, .f32⟩
  | 96 => ⟨S2000x496, .f32⟩
  | 97 => ⟨S_, .f32⟩
  | 98 => ⟨S2000x496, .f32⟩
  | 99 => ⟨S2000x496, .f32⟩
  | 100 => ⟨S_, .f32⟩
  | 101 => ⟨S_, .f32⟩
  | 102 => ⟨S2000x496, .f32⟩
  | 103 => ⟨S2000x496, .f32⟩
  | 104 => ⟨S2000x496, .f32⟩
  | 105 => ⟨S_, .f32⟩
  | 106 => ⟨S2000x496, .f32⟩
  | 107 => ⟨S2000x496, .i1⟩
  | 108 => ⟨S_, .f32⟩
  | 109 => ⟨S2000x496, .f32⟩
  | 110 => ⟨S2000x496, .f32⟩
  | 111 => ⟨S_, .f32⟩
  | 112 => ⟨S2000x496, .f32⟩
  | 113 => ⟨S2000x496, .f32⟩
  | 114 => ⟨S2000x496, .f32⟩
  | 115 => ⟨S_, .f32⟩
  | 116 => ⟨S2000x496, .f32⟩
  | 117 => ⟨S2000x496, .f32⟩
  | 118 => ⟨S_, .f32⟩
  | 119 => ⟨S2000x496, .f32⟩
  | 120 => ⟨S2000x496, .f32⟩
  | 121 => ⟨S_, .f32⟩
  | 122 => ⟨S_, .f32⟩
  | 123 => ⟨S2000x496, .f32⟩
  | 124 => ⟨S2000x496, .f32⟩
  | 125 => ⟨S2000x496, .f32⟩
  | 126 => ⟨S2000x496x43, .f32⟩
  | 127 => ⟨S2000x496x43, .f32⟩
  | _ => ⟨S2000x3, .f32⟩

abbrev hbmTy0_2 (i : Nat) : BufTy := match i % 128 with
  | 0 => ⟨S2000x496x43, .f32⟩
  | 1 => ⟨S2000x496x1, .f32⟩
  | 2 => ⟨S2000x496x43, .f32⟩
  | 3 => ⟨S2000x496x43, .f32⟩
  | 4 => ⟨S2000x496x1, .i1⟩
  | 5 => ⟨S2000x496x1, .f32⟩
  | 6 => ⟨S2000x496x43, .f32⟩
  | 7 => ⟨S2000x496x43, .f32⟩
  | 8 => ⟨S_, .f32⟩
  | 9 => ⟨S2000x43, .f32⟩
  | 10 => ⟨S2000x51, .f32⟩
  | _ => ⟨S2000x3, .f32⟩

abbrev hbmTy (i : Nat) : BufTy := match i / 128 with
  | 0 => hbmTy0_0 i
  | 1 => hbmTy0_1 i
  | 2 => hbmTy0_2 i
  | _ => ⟨S2000x3, .f32⟩

abbrev bufTy : (tb : Table) → Fin (tcTables nBuf tb) → BufTy
  | .hbm, ⟨i, _⟩ => hbmTy i
  | _, _ => ⟨S2000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_c : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_cst_9 : Ref sig .tc := ⟨.hbm, 15, rfl⟩
abbrev main_v1 : Ref sig .tc := ⟨.hbm, 16, rfl⟩
abbrev main_cst_10 : Ref sig .tc := ⟨.hbm, 17, rfl⟩
abbrev main_v2 : Ref sig .tc := ⟨.hbm, 18, rfl⟩
abbrev main_cst_11 : Ref sig .tc := ⟨.hbm, 19, rfl⟩
abbrev main_cst_12 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_13 : Ref sig .tc := ⟨.hbm, 29, rfl⟩
abbrev main_v11 : Ref sig .tc := ⟨.hbm, 30, rfl⟩
abbrev main_v12 : Ref sig .tc := ⟨.hbm, 31, rfl⟩
abbrev main_c_14 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_15 : Ref sig .tc := ⟨.hbm, 42, rfl⟩
abbrev main_v22 : Ref sig .tc := ⟨.hbm, 43, rfl⟩
abbrev main_v23 : Ref sig .tc := ⟨.hbm, 44, rfl⟩
abbrev main_cst_16 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_17 : Ref sig .tc := ⟨.hbm, 49, rfl⟩
abbrev main_v27 : Ref sig .tc := ⟨.hbm, 50, rfl⟩
abbrev main_v28 : Ref sig .tc := ⟨.hbm, 51, rfl⟩
abbrev main_cst_18 : Ref sig .tc := ⟨.hbm, 52, rfl⟩
abbrev main_v29 : Ref sig .tc := ⟨.hbm, 53, rfl⟩
abbrev main_v30 : Ref sig .tc := ⟨.hbm, 54, rfl⟩
abbrev main_cst_19 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_20 : Ref sig .tc := ⟨.hbm, 59, rfl⟩
abbrev main_v34 : Ref sig .tc := ⟨.hbm, 60, rfl⟩
abbrev main_v35 : Ref sig .tc := ⟨.hbm, 61, rfl⟩
abbrev main_cst_21 : Ref sig .tc := ⟨.hbm, 62, rfl⟩
abbrev main_v36 : Ref sig .tc := ⟨.hbm, 63, rfl⟩
abbrev main_v37 : Ref sig .tc := ⟨.hbm, 64, rfl⟩
abbrev main_cst_22 : Ref sig .tc := ⟨.hbm, 65, rfl⟩
abbrev main_call0_v0 : Ref sig .tc := ⟨.hbm, 66, rfl⟩
abbrev main_call0_v1 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_23 : Ref sig .tc := ⟨.hbm, 84, rfl⟩
abbrev main_v54 : Ref sig .tc := ⟨.hbm, 85, rfl⟩
abbrev main_c_24 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_25 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_26 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_27 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_28 : Ref sig .tc := ⟨.hbm, 112, rfl⟩
abbrev main_v77 : Ref sig .tc := ⟨.hbm, 113, rfl⟩
abbrev main_cst_29 : Ref sig .tc := ⟨.hbm, 114, rfl⟩
abbrev main_v78 : Ref sig .tc := ⟨.hbm, 115, rfl⟩
abbrev main_v79 : Ref sig .tc := ⟨.hbm, 116, rfl⟩
abbrev main_cst_30 : Ref sig .tc := ⟨.hbm, 117, rfl⟩
abbrev main_v80 : Ref sig .tc := ⟨.hbm, 118, rfl⟩
abbrev main_v81 : Ref sig .tc := ⟨.hbm, 119, rfl⟩
abbrev main_cst_31 : Ref sig .tc := ⟨.hbm, 120, rfl⟩
abbrev main_call1_v0 : Ref sig .tc := ⟨.hbm, 121, rfl⟩
abbrev main_call1_v1 : Ref sig .tc := ⟨.hbm, 122, rfl⟩
abbrev main_v82 : Ref sig .tc := ⟨.hbm, 123, rfl⟩
abbrev main_v83 : Ref sig .tc := ⟨.hbm, 124, rfl⟩
abbrev main_cst_32 : Ref sig .tc := ⟨.hbm, 125, rfl⟩
abbrev main_call2_v0 : Ref sig .tc := ⟨.hbm, 126, rfl⟩
abbrev main_call2_v1 : Ref sig .tc := ⟨.hbm, 127, rfl⟩
abbrev main_v84 : Ref sig .tc := ⟨.hbm, 128, rfl⟩
abbrev main_c_33 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_34 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_35 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_36 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_37 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_38 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_39 : Ref sig .tc := ⟨.hbm, 169, rfl⟩
abbrev main_v119 : Ref sig .tc := ⟨.hbm, 170, rfl⟩
abbrev main_v120 : Ref sig .tc := ⟨.hbm, 171, rfl⟩
abbrev main_cst_40 : Ref sig .tc := ⟨.hbm, 172, rfl⟩
abbrev main_v121 : Ref sig .tc := ⟨.hbm, 173, rfl⟩
abbrev main_v122 : Ref sig .tc := ⟨.hbm, 174, rfl⟩
abbrev main_cst_41 : Ref sig .tc := ⟨.hbm, 175, rfl⟩
abbrev main_call3_v0 : Ref sig .tc := ⟨.hbm, 176, rfl⟩
abbrev main_call3_v1 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_42 : Ref sig .tc := ⟨.hbm, 192, rfl⟩
abbrev main_v137 : Ref sig .tc := ⟨.hbm, 193, rfl⟩
abbrev main_v138 : Ref sig .tc := ⟨.hbm, 194, rfl⟩
abbrev main_cst_43 : Ref sig .tc := ⟨.hbm, 195, rfl⟩
abbrev main_v139 : Ref sig .tc := ⟨.hbm, 196, rfl⟩
abbrev main_v140 : Ref sig .tc := ⟨.hbm, 197, rfl⟩
abbrev main_cst_44 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_45 : Ref sig .tc := ⟨.hbm, 202, rfl⟩
abbrev main_v144 : Ref sig .tc := ⟨.hbm, 203, rfl⟩
abbrev main_v145 : Ref sig .tc := ⟨.hbm, 204, rfl⟩
abbrev main_cst_46 : Ref sig .tc := ⟨.hbm, 205, rfl⟩
abbrev main_v146 : Ref sig .tc := ⟨.hbm, 206, rfl⟩
abbrev main_v147 : Ref sig .tc := ⟨.hbm, 207, rfl⟩
abbrev main_cst_47 : Ref sig .tc := ⟨.hbm, 208, rfl⟩
abbrev main_call4_v0 : Ref sig .tc := ⟨.hbm, 209, rfl⟩
abbrev main_call4_v1 : Ref sig .tc := ⟨.hbm, 210, rfl⟩
abbrev main_v148 : Ref sig .tc := ⟨.hbm, 211, rfl⟩
abbrev main_cst_48 : Ref sig .tc := ⟨.hbm, 212, rfl⟩
abbrev main_v149 : Ref sig .tc := ⟨.hbm, 213, rfl⟩
abbrev main_v150 : Ref sig .tc := ⟨.hbm, 214, rfl⟩
abbrev main_cst_49 : Ref sig .tc := ⟨.hbm, 215, rfl⟩
abbrev main_v151 : Ref sig .tc := ⟨.hbm, 216, rfl⟩
abbrev main_v152 : Ref sig .tc := ⟨.hbm, 217, rfl⟩
abbrev main_cst_50 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_cst_51 : Ref sig .tc := ⟨.hbm, 222, rfl⟩
abbrev main_v156 : Ref sig .tc := ⟨.hbm, 223, rfl⟩
abbrev main_v157 : Ref sig .tc := ⟨.hbm, 224, rfl⟩
abbrev main_cst_52 : Ref sig .tc := ⟨.hbm, 225, rfl⟩
abbrev main_v158 : Ref sig .tc := ⟨.hbm, 226, rfl⟩
abbrev main_v159 : Ref sig .tc := ⟨.hbm, 227, rfl⟩
abbrev main_cst_53 : Ref sig .tc := ⟨.hbm, 228, rfl⟩
abbrev main_call5_v0 : Ref sig .tc := ⟨.hbm, 229, rfl⟩
abbrev main_call5_v1 : Ref sig .tc := ⟨.hbm, 230, rfl⟩
abbrev main_v160 : Ref sig .tc := ⟨.hbm, 231, rfl⟩
abbrev main_v161 : Ref sig .tc := ⟨.hbm, 232, rfl⟩
abbrev main_cst_54 : Ref sig .tc := ⟨.hbm, 233, rfl⟩
abbrev main_v162 : Ref sig .tc := ⟨.hbm, 234, rfl⟩
abbrev main_v163 : Ref sig .tc := ⟨.hbm, 235, rfl⟩
abbrev main_cst_55 : Ref sig .tc := ⟨.hbm, 236, rfl⟩
abbrev main_v164 : Ref sig .tc := ⟨.hbm, 237, rfl⟩
abbrev main_v165 : Ref sig .tc := ⟨.hbm, 238, rfl⟩
abbrev main_cst_56 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_cst_57 : Ref sig .tc := ⟨.hbm, 243, rfl⟩
abbrev main_v169 : Ref sig .tc := ⟨.hbm, 244, rfl⟩
abbrev main_v170 : Ref sig .tc := ⟨.hbm, 245, rfl⟩
abbrev main_cst_58 : Ref sig .tc := ⟨.hbm, 246, rfl⟩
abbrev main_v171 : Ref sig .tc := ⟨.hbm, 247, rfl⟩
abbrev main_v172 : Ref sig .tc := ⟨.hbm, 248, rfl⟩
abbrev main_cst_59 : Ref sig .tc := ⟨.hbm, 249, rfl⟩
abbrev main_call6_v0 : Ref sig .tc := ⟨.hbm, 250, rfl⟩
abbrev main_call6_v1 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_cst_60 : Ref sig .tc := ⟨.hbm, 264, rfl⟩
abbrev main_v185 : Ref sig .tc := ⟨.hbm, 265, rfl⟩
abbrev main_v186 : Ref sig .tc := ⟨.hbm, 266, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S43_S1x1x43_2 : S43.BroadcastsInDim S1x1x43 (![2] : Fin 1 → Fin S1x1x43.rank)
  shapeCasts_S64000_S2000x32 : S64000.ShapeCasts S2000x32
  bcast_S32_S1x32_1 : S32.BroadcastsInDim S1x32 (![1] : Fin 1 → Fin S1x32.rank)
  bcast_S2000_S2000x1_0 : S2000.BroadcastsInDim S2000x1 (![0] : Fin 1 → Fin S2000x1.rank)
  bcast_S1x32_S2000x32_0_1 : S1x32.BroadcastsInDim S2000x32 (![0, 1] : Fin 2 → Fin S2000x32.rank)
  bcast_S2000x1_S2000x32_0_1 : S2000x1.BroadcastsInDim S2000x32 (![0, 1] : Fin 2 → Fin S2000x32.rank)
  bcast_S_S2000x32 : S_.BroadcastsInDim S2000x32 (![] : Fin 0 → Fin S2000x32.rank)
  bcast_S2000x32_S2000x32x1_0_1 : S2000x32.BroadcastsInDim S2000x32x1 (![0, 1] : Fin 2 → Fin S2000x32x1.rank)
  bcast_S2000x3_S2000x1x3_0_2 : S2000x3.BroadcastsInDim S2000x1x3 (![0, 2] : Fin 2 → Fin S2000x1x3.rank)
  bcast_S2000x1x3_S2000x32x3_0_1_2 : S2000x1x3.BroadcastsInDim S2000x32x3 (![0, 1, 2] : Fin 3 → Fin S2000x32x3.rank)
  reducesTo_S2000x32x3_S2000x32_d2 : S2000x32x3.ReducesTo [2] S2000x32
  h_S_ : 0 < S_.numel
  bcast_S2000x32x1_S2000x32x8_0_1_2 : S2000x32x1.BroadcastsInDim S2000x32x8 (![0, 1, 2] : Fin 3 → Fin S2000x32x8.rank)
  bcast_S1x1x8_S2000x32x8_0_1_2 : S1x1x8.BroadcastsInDim S2000x32x8 (![0, 1, 2] : Fin 3 → Fin S2000x32x8.rank)
  reducesTo_S2000x32x8_S2000x8_d1 : S2000x32x8.ReducesTo [1] S2000x8
  bcast_S_S496 : S_.BroadcastsInDim S496 (![] : Fin 0 → Fin S496.rank)
  bcast_S496_S496x1_0 : S496.BroadcastsInDim S496x1 (![0] : Fin 1 → Fin S496x1.rank)
  reducesTo_S2000x496x3_S2000x496_d2 : S2000x496x3.ReducesTo [2] S2000x496
  bcast_S_S2000x496 : S_.BroadcastsInDim S2000x496 (![] : Fin 0 → Fin S2000x496.rank)
  bcast_S2000x496_S2000x496x1_0_1 : S2000x496.BroadcastsInDim S2000x496x1 (![0, 1] : Fin 2 → Fin S2000x496x1.rank)
  bcast_S1x1x43_S2000x496x43_0_1_2 : S1x1x43.BroadcastsInDim S2000x496x43 (![0, 1, 2] : Fin 3 → Fin S2000x496x43.rank)
  bcast_S2000x496x1_S2000x496x43_0_1_2 : S2000x496x1.BroadcastsInDim S2000x496x43 (![0, 1, 2] : Fin 3 → Fin S2000x496x43.rank)
  bcast_S_S2000x496x43 : S_.BroadcastsInDim S2000x496x43 (![] : Fin 0 → Fin S2000x496x43.rank)
  reducesTo_S2000x496x43_S2000x43_d1 : S2000x496x43.ReducesTo [1] S2000x43
  concatenates_S2000x8_S2000x43_S2000x51_d1 : Shape.Concatenates [S2000x8, S2000x43] S2000x51 1
  gather_S2000x3_S2000x32x1_S2000x32x3_2_0_n_n_0_2_13_wf : GatherDims.WF S2000x3 S2000x32x1 S2000x32x3 [2] [0] [] [0] [] 2 ![1, 3]
  gather_S2000x32_S496x1_S2000x496_0_1_n_n_1_1_20001_wf : GatherDims.WF S2000x32 S496x1 S2000x496 [0] [1] [] [1] [] 1 ![2000, 1]
  gather_S2000x32x3_S496x1_S2000x496x3_02_1_n_n_1_1_200013_wf : GatherDims.WF S2000x32x3 S496x1 S2000x496x3 [0, 2] [1] [] [1] [] 1 ![2000, 1, 3]

variable [Facts₀]

def gather_S2000x3_S2000x32x1_S2000x32x3_2_0_n_n_0_2_13 : GatherDims S2000x3 S2000x32x1 S2000x32x3 where
  offsetDims := [2]
  collapsedSliceDims := [0]
  operandBatchingDims := []
  startIndicesBatchingDims := []
  startIndexMap := [0]
  indexVectorDim := 2
  sliceSizes := ![1, 3]
  wf := gather_S2000x3_S2000x32x1_S2000x32x3_2_0_n_n_0_2_13_wf
def gather_S2000x32_S496x1_S2000x496_0_1_n_n_1_1_20001 : GatherDims S2000x32 S496x1 S2000x496 where
  offsetDims := [0]
  collapsedSliceDims := [1]
  operandBatchingDims := []
  startIndicesBatchingDims := []
  startIndexMap := [1]
  indexVectorDim := 1
  sliceSizes := ![2000, 1]
  wf := gather_S2000x32_S496x1_S2000x496_0_1_n_n_1_1_20001_wf
def gather_S2000x32x3_S496x1_S2000x496x3_02_1_n_n_1_1_200013 : GatherDims S2000x32x3 S496x1 S2000x496x3 where
  offsetDims := [0, 2]
  collapsedSliceDims := [1]
  operandBatchingDims := []
  startIndicesBatchingDims := []
  startIndexMap := [1]
  indexVectorDim := 1
  sliceSizes := ![2000, 1, 3]
  wf := gather_S2000x32x3_S496x1_S2000x496x3_02_1_n_n_1_1_200013_wf

class Facts : Prop extends Facts₀ where

variable [Facts]
-- ==== Proof.KerRun.lean ====
/-
  The symmetry-function program's run, read at its result: after the run the result array holds what the two layout
  operations after the region (a slice to the first 2000 columns, a transpose) make of the region's output array,
  and the three argument arrays are as launched.
-/
import proofs.«126887_j40243843564182_2_alg».proof.Proof.Gen.KernelIdeal.Frame
import Idealize.ShloMosaic.Lib.Pipeline.Value
import Idealize.ShloMosaic.PureOps.Ideal

noncomputable section

namespace Cert.KernelIdeal.KerValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the run leaves in the result array [2000,51]: the operations after the region applied to the memory the
    region leaves. -/
def kout (c : Dev nD) : Buf (Elt Ideal) ((c.tc : Thread nD τ).loc main_v116) :=
  Pipeline.afterTail₀ cfgs (Gen.dats m) 0 (Gen.V0 m) [Gen.hostOps1] c main_v116

/-- The run: the result array ends at `kout`, the arguments as launched. -/
theorem run : θ_run defs (onTc (τ := τ) (main (F := Ideal))) ⟨m, fun _ => 0, ρ⟩ (fun r => ∀ c : Dev nD,
      r.2.mem ((c.tc : Thread nD τ).loc main_v116) = kout m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨(h c).2 main_v116 (Pipeline.mem_restRefs_of main_v116 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KerValue

end
-- ==== Proof.KerBlocks.lean ====
/-
  From blocks to the array. The region runs over 8 grid points; point t reads, of each of the six input arrays, all
  rows and the columns 256 t … 256 t + 255, and writes the same columns of the output array [51,2048]. Hence, if the
  body's output at row f and lane q is a function ROW f of lane q's columns of its six input blocks, the output array
  at (f, col) is ROW f of column col of the six input arrays.
-/
import proofs.«126887_j40243843564182_2_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx

variable (m : (ℓ : Loc nD τ sig) → Buf (Elt Ideal) ℓ)

/-- The block index of every window at point t: 0 along the rows, t along the columns. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- The grid has 8 points. -/
theorem lt_N (t : Fin cfg0.N) : t.val < 8 := lt_of_lt_of_eq t.isLt N_0

/-- Entry (k, q) of input window 0's block at point t is entry (k, 256 t + q) of its array. -/
theorem iblk0_apply (c : Dev nD) (t : Fin cfg0.N) (k : Fin 32) (q : Fin 256) (col : Fin 2048) (hcol : col.val = 256 * t.val + q.val) :
    (iblk m c 0 t : Vec Ideal S32x256 .f32) (ix2 k q) = (V m c main_v35 : S32x2048.Idx → EReal) (ix2 k col) := by
  have e0 : win0_0.index t (0 : Fin 2) = 0 := (idx_facts t).1
  have e1 : win0_0.index t (1 : Fin 2) = t.val := (idx_facts t).2.1
  unfold iblk
  rw [View.read_apply]
  show V m c main_v35 _ = V m c main_v35 _
  congr 1
  funext a
  apply Fin.ext
  match a with
  | ⟨0, _⟩ => show win0_0.index t (0 : Fin 2) * 32 + 1 * k.val = k.val; rw [e0]; omega
  | ⟨1, _⟩ => show win0_0.index t (1 : Fin 2) * 256 + 1 * q.val = col.val; rw [e1, hcol]; omega

/-- Entry (k, q) of input window 1's block at point t is entry (k, 256 t + q) of its array. -/
theorem iblk1_apply (c : Dev nD) (t : Fin cfg0.N) (k : Fin 32) (q : Fin 256) (col : Fin 2048) (hcol : col.val = 256 * t.val + q.val) :
    (iblk m c 1 t : Vec Ideal S32x256 .f32) (ix2 k q) = (V m c main_v36 : S32x2048.Idx → EReal) (ix2 k col) := by
  have e0 : win0_1.index t (0 : Fin 2) = 0 := (idx_facts t).2.2.1
  have e1 : win0_1.index t (1 : Fin 2) = t.val := (idx_facts t).2.2.2.1
  unfold iblk
  rw [View.read_apply]
  show V m c main_v36 _ = V m c main_v36 _
  congr 1
  funext a
  apply Fin.ext
  match a with
  | ⟨0, _⟩ => show win0_1.index t (0 : Fin 2) * 32 + 1 * k.val = k.val; rw [e0]; omega
  | ⟨1, _⟩ => show win0_1.index t (1 : Fin 2) * 256 + 1 * q.val = col.val; rw [e1, hcol]; omega

/-- Entry (k, q) of input window 2's block at point t is entry (k, 256 t + q) of its array. -/
theorem iblk2_apply (c : Dev nD) (t : Fin cfg0.N) (k : Fin 496) (q : Fin 256) (col : Fin 2048) (hcol : col.val = 256 * t.val + q.val) :
    (iblk m c 2 t : Vec Ideal S496x256 .f32) (ix2 k q) = (V m c main_v44 : S496x2048.Idx → EReal) (ix2 k col) := by
  have e0 : win0_2.index t (0 : Fin 2) = 0 := (idx_facts t).2.2.2.2.1
  have e1 : win0_2.index t (1 : Fin 2) = t.val := (idx_facts t).2.2.2.2.2.1
  unfold iblk
  rw [View.read_apply]
  show V m c main_v44 _ = V m c main_v44 _
  congr 1
  funext a
  apply Fin.ext
  match a with
  | ⟨0, _⟩ => show win0_2.index t (0 : Fin 2) * 496 + 1 * k.val = k.val; rw [e0]; omega
  | ⟨1, _⟩ => show win0_2.index t (1 : Fin 2) * 256 + 1 * q.val = col.val; rw [e1, hcol]; omega

/-- Entry (k, q) of input window 3's block at point t is entry (k, 256 t + q) of its array. -/
theorem iblk3_apply (c : Dev nD) (t : Fin cfg0.N) (k : Fin 496) (q : Fin 256) (col : Fin 2048) (hcol : col.val = 256 * t.val + q.val) :
    (iblk m c 3 t : Vec Ideal S496x256 .f32) (ix2 k q) = (V m c main_v49 : S496x2048.Idx → EReal) (ix2 k col) := by
  have e0 : win0_3.index t (0 : Fin 2) = 0 := (idx_facts t).2.2.2.2.2.2.1
  have e1 : win0_3.index t (1 : Fin 2) = t.val := (idx_facts t).2.2.2.2.2.2.2.1
  unfold iblk
  rw [View.read_apply]
  show V m c main_v49 _ = V m c main_v49 _
  congr 1
  funext a
  apply Fin.ext
  match a with
  | ⟨0, _⟩ => show win0_3.index t (0 : Fin 2) * 496 + 1 * k.val = k.val; rw [e0]; omega
  | ⟨1, _⟩ => show win0_3.index t (1 : Fin 2) * 256 + 1 * q.val = col.val; rw [e1, hcol]; omega

/-- Entry (k, q) of input window 4's block at point t is entry (k, 256 t + q) of its array. -/
theorem iblk4_apply (c : Dev nD) (t : Fin cfg0.N) (k : Fin 496) (q : Fin 256) (col : Fin 2048) (hcol : col.val = 256 * t.val + q.val) :
    (iblk m c 4 t : Vec Ideal S496x256 .f32) (ix2 k q) = (V m c main_v97 : S496x2048.Idx → EReal) (ix2 k col) := by
  have e0 : win0_4.index t (0 : Fin 2) = 0 := (idx_facts t).2.2.2.2.2.2.2.2.1
  have e1 : win0_4.index t (1 : Fin 2) = t.val := (idx_facts t).2.2.2.2.2.2.2.2.2.1
  unfold iblk
  rw [View.read_apply]
  show V m c main_v97 _ = V m c main_v97 _
  congr 1
  funext a
  apply Fin.ext
  match a with
  | ⟨0, _⟩ => show win0_4.index t (0 : Fin 2) * 496 + 1 * k.val = k.val; rw [e0]; omega
  | ⟨1, _⟩ => show win0_4.index t (1 : Fin 2) * 256 + 1 * q.val = col.val; rw [e1, hcol]; omega

/-- Entry (k, q) of input window 5's block at point t is entry (k, 256 t + q) of its array. -/
theorem iblk5_apply (c : Dev nD) (t : Fin cfg0.N) (k : Fin 496) (q : Fin 256) (col : Fin 2048) (hcol : col.val = 256 * t.val + q.val) :
    (iblk m c 5 t : Vec Ideal S496x256 .f32) (ix2 k q) = (V m c main_v113 : S496x2048.Idx → EReal) (ix2 k col) := by
  have e0 : win0_5.index t (0 : Fin 2) = 0 := (idx_facts t).2.2.2.2.2.2.2.2.2.2.1
  have e1 : win0_5.index t (1 : Fin 2) = t.val := (idx_facts t).2.2.2.2.2.2.2.2.2.2.2.1
  unfold iblk
  rw [View.read_apply]
  show V m c main_v113 _ = V m c main_v113 _
  congr 1
  funext a
  apply Fin.ext
  match a with
  | ⟨0, _⟩ => show win0_5.index t (0 : Fin 2) * 496 + 1 * k.val = k.val; rw [e0]; omega
  | ⟨1, _⟩ => show win0_5.index t (1 : Fin 2) * 256 + 1 * q.val = col.val; rw [e1, hcol]; omega

/-- Entry (f, q) of the output window's block at point t sits at entry (f, 256 t + q) of the output array. -/
theorem emb6 (t : Fin cfg0.N) (f : Fin 51) (q : Fin 256) (col : Fin 2048) (hcol : col.val = 256 * t.val + q.val) :
    ((cfg0.win 6).blk t).view.emb (ix2 f q : S51x256.Idx) = (ix2 f col : S51x2048.Idx) := by
  have e0 : win0_6.index t (0 : Fin 2) = 0 := (idx_facts t).2.2.2.2.2.2.2.2.2.2.2.2.1
  have e1 : win0_6.index t (1 : Fin 2) = t.val := (idx_facts t).2.2.2.2.2.2.2.2.2.2.2.2.2
  funext a
  apply Fin.ext
  match a with
  | ⟨0, _⟩ => show win0_6.index t (0 : Fin 2) * 51 + 1 * f.val = f.val; rw [e0]; omega
  | ⟨1, _⟩ => show win0_6.index t (1 : Fin 2) * 256 + 1 * q.val = col.val; rw [e1, hcol]; omega

section Rows

variable (ROW : Fin 51 → (Fin 32 → EReal) → (Fin 32 → EReal) → (Fin 496 → EReal) → (Fin 496 → EReal) → (Fin 496 → EReal) → (Fin 496 → EReal) → EReal)

/-- The output array [51,2048] as one function of the six input arrays: entry (f, col) is ROW f of their columns col. -/
def outArr (c : Dev nD) : S51x2048.Idx → EReal := fun i =>
  ROW (i 0) (fun k => (V m c main_v35 : S32x2048.Idx → EReal) (ix2 k (i 1))) (fun k => (V m c main_v36 : S32x2048.Idx → EReal) (ix2 k (i 1)))
    (fun p => (V m c main_v44 : S496x2048.Idx → EReal) (ix2 p (i 1))) (fun p => (V m c main_v49 : S496x2048.Idx → EReal) (ix2 p (i 1)))
    (fun p => (V m c main_v97 : S496x2048.Idx → EReal) (ix2 p (i 1))) (fun p => (V m c main_v113 : S496x2048.Idx → EReal) (ix2 p (i 1)))

variable {ROW}
variable (hrow : ∀ (x0 x1 : Vec Ideal S32x256 .f32) (x2 x3 x4 x5 : Vec Ideal S496x256 .f32) (f : Fin 51) (q : Fin 256),
    Gen.out0_6 (F := Ideal) x0 x1 x2 x3 x4 x5 (ix2 f q)
      = ROW f (fun k => x0 (ix2 k q)) (fun k => x1 (ix2 k q)) (fun p => x2 (ix2 p q)) (fun p => x3 (ix2 p q)) (fun p => x4 (ix2 p q)) (fun p => x5 (ix2 p q)))

include hrow in
/-- One lane of one point, over any blocks and arrays: if lane q of each input block is column col of its array, row f
    of the body's output at lane q is ROW f of the arrays' columns col. -/
theorem out_point (x0 x1 : Vec Ideal S32x256 .f32) (x2 x3 x4 x5 : Vec Ideal S496x256 .f32)
    (A0 A1 : S32x2048.Idx → EReal) (A2 A3 A4 A5 : S496x2048.Idx → EReal) (f : Fin 51) (q : Fin 256) (col : Fin 2048)
    (h0 : ∀ k, x0 (ix2 k q) = A0 (ix2 k col)) (h1 : ∀ k, x1 (ix2 k q) = A1 (ix2 k col))
    (h2 : ∀ p, x2 (ix2 p q) = A2 (ix2 p col)) (h3 : ∀ p, x3 (ix2 p q) = A3 (ix2 p col))
    (h4 : ∀ p, x4 (ix2 p q) = A4 (ix2 p col)) (h5 : ∀ p, x5 (ix2 p q) = A5 (ix2 p col)) :
    Gen.out0_6 (F := Ideal) x0 x1 x2 x3 x4 x5 (ix2 f q)
      = ROW f (fun k => A0 (ix2 k col)) (fun k => A1 (ix2 k col)) (fun p => A2 (ix2 p col)) (fun p => A3 (ix2 p col))
          (fun p => A4 (ix2 p col)) (fun p => A5 (ix2 p col)) := by
  rw [hrow x0 x1 x2 x3 x4 x5 f q, funext h0, funext h1, funext h2, funext h3, funext h4, funext h5]

/-- The output window is not cut at the array's end: what a point writes back of a staging buffer is the buffer. -/
theorem cut6 {α : Type} (t : Fin cfg0.N) (X : S51x256.Idx → α) (j : S51x256.Idx) :
    (cfg0.win 6).cut (grid0.coords t) X j = X j := rfl

include hrow in
/-- What point t writes back is block t of `outArr`. -/
theorem flushed_eq (c : Dev nD) (t : Fin cfg0.N) :
    (dats m 0 c).flushed 6 t = ((cfg0.win 6).blk t).view.read (Elt Ideal) (outArr m ROW c) := by
  show (cfg0.win 6).cut (grid0.coords t) ((dats m 0 c).after 6 t) = _
  rw [after0_6]
  funext j
  obtain ⟨f, q, rfl⟩ : ∃ (f : Fin 51) (q : Fin 256), j = (ix2 f q : S51x256.Idx) := ⟨j 0, j 1, eq_ix2 j⟩
  have ht := lt_N t
  have hq := q.isLt
  rw [View.read_apply, emb6 t f q ⟨256 * t.val + q.val, by omega⟩ rfl]
  refine (cut6 t _ (ix2 f q)).trans ?_
  exact out_point hrow (iblk m c 0 t) (iblk m c 1 t) (iblk m c 2 t) (iblk m c 3 t) (iblk m c 4 t) (iblk m c 5 t)
    (V m c main_v35) (V m c main_v36) (V m c main_v44) (V m c main_v49) (V m c main_v97) (V m c main_v113) f q ⟨256 * t.val + q.val, by omega⟩
    (fun k => iblk0_apply m c t k q _ rfl) (fun k => iblk1_apply m c t k q _ rfl) (fun p => iblk2_apply m c t p q _ rfl)
    (fun p => iblk3_apply m c t p q _ rfl) (fun p => iblk4_apply m c t p q _ rfl) (fun p => iblk5_apply m c t p q _ rfl)

/-- An index of the output array is in point t's block iff each coordinate is in the block's range on its axis. -/
theorem mem_blk6 (t : Fin cfg0.N) (i : S51x2048.Idx) :
    i ∈ ((cfg0.win 6).blk t).view.set ↔ ∀ a : Fin 2, win0_6.index t a * S51x256.size a ≤ (i a).val ∧ (i a).val < win0_6.index t a * S51x256.size a + S51x256.size a := by
  show i ∈ ((View.whole main_v114).slice (win0_6.rect t)).set ↔ _
  rw [View.set_slice_whole, Rect.mem_set_unit]
  exact Iff.rfl

/-- Column col lies in the block of point col / 256. -/
theorem cover6 (i : S51x2048.Idx) : ∃ t : Fin cfg0.N, (cfg0.win 6).flush t = true ∧ i ∈ ((cfg0.win 6).blk t).view.set := by
  have hi0 : (i 0).val < 51 := (i 0).isLt
  have hi1 : (i 1).val < 2048 := (i 1).isLt
  have hN : cfg0.N = 8 := N_0
  let t : Fin cfg0.N := ⟨(i 1).val / 256, by rw [hN]; omega⟩
  have e0 : win0_6.index t (0 : Fin 2) = 0 := (idx_facts t).2.2.2.2.2.2.2.2.2.2.2.2.1
  have e1 : win0_6.index t (1 : Fin 2) = (i 1).val / 256 := (idx_facts t).2.2.2.2.2.2.2.2.2.2.2.2.2
  refine ⟨t, flush0_6 t, ?_⟩
  rw [mem_blk6]
  intro a
  match a with
  | ⟨0, _⟩ => show win0_6.index t (0 : Fin 2) * 51 ≤ (i 0).val ∧ (i 0).val < win0_6.index t (0 : Fin 2) * 51 + 51; rw [e0]; omega
  | ⟨1, _⟩ => show win0_6.index t (1 : Fin 2) * 256 ≤ (i 1).val ∧ (i 1).val < win0_6.index t (1 : Fin 2) * 256 + 256; rw [e1]; omega

include hrow in
/-- The output array after the region is `outArr`. -/
theorem arr6 (c : Dev nD) : (dats m 0 c).arrAt 6 cfg0.N = outArr m ROW c :=
  (dats m 0 c).arrAt_eq_of_cover 6 (outArr m ROW c) (fun t _ => flushed_eq m hrow c t) cover6

end Rows

end Cert.KernelIdeal.KerValue

end
-- ==== Proof.KerOut.lean ====
/-
  The result at an index. After the region two layout operations make the result: the output array [51,2048] cut to
  its first 2000 columns, then transposed to [2000,51]. So entry (n, f) of the result is entry (f, n) of the output
  array: row f of the body's output for column n of the six input arrays.
-/
import proofs.«126887_j40243843564182_2_alg».proof.Proof.KerRun
import proofs.«126887_j40243843564182_2_alg».proof.Proof.KerBlocks
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx

variable (m : (ℓ : Loc nD τ sig) → Buf (Elt Ideal) ℓ)

/-- The result array is the transpose of the first 2000 columns of the array the region leaves in its output window. -/
theorem kout_eq (c : Dev nD) :
    kout m c = transpose S2000x51 [1, 0]
      (extractStridedSlice S51x2000 ![0, 0] ((dats m 0 c).arrAt 6 cfg0.N : S51x2048.Idx → EReal) slices_S51x2048_S51x2000_0_0)
      transposes_S51x2000_S2000x51_1_0 := by
  unfold kout Pipeline.afterTail₀
  show StableHlo.after hostOps1 _ (Proc.devRef .tc main_v116) = _
  after_results
  rw [Pipeline.withArrays_arr spec0 launch0.win.arr_inj c _ _ 6]

/-- Entry (n, f) of the result: row f of the body's output for column n of the six input arrays. -/
theorem kout_apply {ROW : Fin 51 → (Fin 32 → EReal) → (Fin 32 → EReal) → (Fin 496 → EReal) → (Fin 496 → EReal) → (Fin 496 → EReal) → (Fin 496 → EReal) → EReal}
    (hrow : ∀ (x0 x1 : Vec Ideal S32x256 .f32) (x2 x3 x4 x5 : Vec Ideal S496x256 .f32) (f : Fin 51) (q : Fin 256),
      Gen.out0_6 (F := Ideal) x0 x1 x2 x3 x4 x5 (ix2 f q)
        = ROW f (fun k => x0 (ix2 k q)) (fun k => x1 (ix2 k q)) (fun p => x2 (ix2 p q)) (fun p => x3 (ix2 p q)) (fun p => x4 (ix2 p q)) (fun p => x5 (ix2 p q)))
    (c : Dev nD) (n : Fin 2000) (f : Fin 51) :
    (kout m c : S2000x51.Idx → EReal) (ix2 n f)
      = ROW f (fun k => (V m c main_v35 : S32x2048.Idx → EReal) (ix2 k ⟨n.val, by omega⟩))
          (fun k => (V m c main_v36 : S32x2048.Idx → EReal) (ix2 k ⟨n.val, by omega⟩))
          (fun p => (V m c main_v44 : S496x2048.Idx → EReal) (ix2 p ⟨n.val, by omega⟩))
          (fun p => (V m c main_v49 : S496x2048.Idx → EReal) (ix2 p ⟨n.val, by omega⟩))
          (fun p => (V m c main_v97 : S496x2048.Idx → EReal) (ix2 p ⟨n.val, by omega⟩))
          (fun p => (V m c main_v113 : S496x2048.Idx → EReal) (ix2 p ⟨n.val, by omega⟩)) := by
  have hn := n.isLt
  rw [kout_eq, arr6 m hrow c]
  refine (transpose_apply _ _ _ (ix2 n f : S2000x51.Idx) (ix2 f n : S51x2000.Idx) fun b => ?_).trans ?_
  · match b with
    | ⟨0, _⟩ => rfl
    | ⟨1, _⟩ => rfl
  refine (extractStridedSlice_apply _ _ _ (ix2 f n : S51x2000.Idx) (ix2 f ⟨n.val, by omega⟩ : S51x2048.Idx) fun a => ?_).trans ?_
  · match a with
    | ⟨0, _⟩ => show f.val = 0 + f.val; omega
    | ⟨1, _⟩ => show n.val = 0 + n.val; omega
  rfl

end Cert.KernelIdeal.KerValue

end
-- ==== Proof.LibStretches.lean ====
/-
  A straight line of host operations read stretch by stretch, and contents carried to a typed reference and back.

  The buffer contents after a line of operations are a fold of the operations' results over the contents it starts
  from. Cut the line in two: the contents after the whole line are the fold over the second stretch of the contents
  after the first. A long line is read this way one stretch at a time, each stretch from what the one before left, a
  buffer a stretch does not write keeping its contents.

  Inside a function the program calls, a buffer is reached through a reference that carries its tensor type; contents
  are moved to the buffer's own type along an equation of types and back along its inverse. There and back is the
  identity, whatever the reference: with the pairs removed this way, a read-back of such a function's operations
  compares with a plain term without unfolding any operation.
-/
import Idealize.ShloMosaic.Lib.StableHlo.Run

namespace Cert.LibStretches

open Idealize.ShloMosaic Idealize.ShloMosaic.StableHlo

variable {τ : Topo} {sig : RefSig} {Val : EltTy → Type}

/-- The contents after two stretches run in turn: the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried to a typed reference's buffer and back are the contents. -/
theorem ofBuf_toBuf {T : BufTy} (x : TRef sig T) (v : T.Contents Val) : x.ofBuf (x.toBuf v) = v := by
  obtain ⟨r, h, _, _⟩ := x
  subst h
  rfl

/-- Contents carried from a typed reference's buffer and back to it are the contents. -/
theorem toBuf_ofBuf {T : BufTy} (x : TRef sig T) (v : x.ref.ty.Contents Val) : x.toBuf (x.ofBuf v) = v := by
  obtain ⟨r, h, _, _⟩ := x
  subst h
  rfl

end Cert.LibStretches
-- ==== Proof.KerStretch.lean ====
/-
  The host operations before the region, read stretch by stretch. The contents the region finds are the fold of
  fifteen stretches of operations over the launched memory. Naming the contents after the first k stretches, a buffer
  that no later stretch writes holds at the region what it held after k stretches, and the contents after k + 1
  stretches are stretch k's fold over the contents after k. Each operation is then read once, inside its own stretch,
  over an arbitrary starting valuation.
-/
import proofs.«126887_j40243843564182_2_alg».proof.Proof.Gen.KernelIdeal.Frame
import proofs.«126887_j40243843564182_2_alg».proof.Proof.LibStretches
import Idealize.ShloMosaic.Lib.StableHlo.Run
import Idealize.ShloMosaic.PureOps.Ideal

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.StableHlo

variable (m : (ℓ : Loc nD τ sig) → Buf (Elt Ideal) ℓ) (c : Dev nD)

/-- The stretches of host operations before the region, in program order. -/
abbrev stretches : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14]

/-- The buffer contents after the first k stretches. -/
def Wk (k : Nat) : Valuation τ sig (Elt Ideal) :=
  StableHlo.after (List.flatten (stretches.take k)) (fun b => m (c, b))

/-- A buffer that none of the stretches from k on writes holds, when the region is entered, what it held after the
    first k stretches. -/
theorem V_eq_Wk (k : Nat) (b : Ref sig .tc)
    (h : (List.flatten (stretches.drop k)).Forall fun op => Proc.devRef .tc b ∉ op.writes) :
    V m c b = Wk m c k (Proc.devRef .tc b) := by
  show StableHlo.after (List.flatten stretches) (fun b => m (c, b)) (Proc.devRef .tc b) = _
  unfold Wk
  conv_lhs => rw [← List.take_append_drop k stretches]
  rw [List.flatten_append, Cert.LibStretches.after_append]
  exact StableHlo.after_of_forall_not_mem _ _ (List.forall_iff_forall_mem.mp h)

/-- The contents after k + 1 stretches are stretch k's fold over the contents after k. -/
theorem Wk_succ (k : Nat) (hk : k < stretches.length) :
    Wk m c (k + 1) = StableHlo.after (stretches[k]) (Wk m c k) := by
  unfold Wk
  rw [List.take_succ_eq_append_getElem hk, List.flatten_append, Cert.LibStretches.after_append]
  simp only [List.flatten_cons, List.flatten_nil, List.append_nil]

theorem W_step0 : Wk m c 1 = StableHlo.after hostOps0 (Wk m c 0) := Wk_succ m c 0 (by decide)
theorem W_step1 : Wk m c 2 = StableHlo.after hostOps0_1 (Wk m c 1) := Wk_succ m c 1 (by decide)
theorem W_step2 : Wk m c 3 = StableHlo.after hostOps0_2 (Wk m c 2) := Wk_succ m c 2 (by decide)
theorem W_step3 : Wk m c 4 = StableHlo.after hostOps0_3 (Wk m c 3) := Wk_succ m c 3 (by decide)
theorem W_step4 : Wk m c 5 = StableHlo.after hostOps0_4 (Wk m c 4) := Wk_succ m c 4 (by decide)
theorem W_step5 : Wk m c 6 = StableHlo.after hostOps0_5 (Wk m c 5) := Wk_succ m c 5 (by decide)
theorem W_step6 : Wk m c 7 = StableHlo.after hostOps0_6 (Wk m c 6) := Wk_succ m c 6 (by decide)
theorem W_step7 : Wk m c 8 = StableHlo.after hostOps0_7 (Wk m c 7) := Wk_succ m c 7 (by decide)
theorem W_step8 : Wk m c 9 = StableHlo.after hostOps0_8 (Wk m c 8) := Wk_succ m c 8 (by decide)
theorem W_step9 : Wk m c 10 = StableHlo.after hostOps0_9 (Wk m c 9) := Wk_succ m c 9 (by decide)
theorem W_step10 : Wk m c 11 = StableHlo.after hostOps0_10 (Wk m c 10) := Wk_succ m c 10 (by decide)
theorem W_step11 : Wk m c 12 = StableHlo.after hostOps0_11 (Wk m c 11) := Wk_succ m c 11 (by decide)
theorem W_step12 : Wk m c 13 = StableHlo.after hostOps0_12 (Wk m c 12) := Wk_succ m c 12 (by decide)
theorem W_step13 : Wk m c 14 = StableHlo.after hostOps0_13 (Wk m c 13) := Wk_succ m c 13 (by decide)
theorem W_step14 : Wk m c 15 = StableHlo.after hostOps0_14 (Wk m c 14) := Wk_succ m c 14 (by decide)

/-- The side condition of `V_eq_Wk` at a literal k and a literal buffer: no operation of the later stretches has the
    buffer as its result, each inequality of references decided. -/
macro "keeps" : tactic =>
  `(tactic| (
    simp only [stretches, List.drop_succ_cons, List.drop_zero, List.drop_nil, hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals first | exact StableHlo.devRef_ne_of_ne (by decide) | trivial))

end Cert.KernelIdeal.KerValue

end
-- ==== Proof.KerRead.lean ====
/-
  Reading one host operation. Cut a stretch at position k: the operations before it, the operation, the rest. The
  buffer the operation writes holds, when the region is entered, the operation's result over the contents just before
  it — provided nothing later writes it; and a buffer that nothing from position k on writes holds what it held just
  before the operation. Together they read an operation's result as its function of its operands' final contents,
  without opening any operand.
-/
import proofs.«126887_j40243843564182_2_alg».proof.Proof.KerStretch

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.StableHlo

variable (m : (ℓ : Loc nD τ sig) → Buf (Elt Ideal) ℓ) (c : Dev nD)

/-- The contents just before position k of stretch s. -/
abbrev Wat (s : Nat) (ops : List (HloOp τ sig (Elt Ideal))) (k : Nat) : Valuation τ sig (Elt Ideal) :=
  StableHlo.after (ops.take k) (Wk m c s)

/-- The buffer written at position k of stretch s, written by nothing later, holds the operation's result over the
    contents just before it. -/
theorem V_at (s : Nat) (hs : s < stretches.length) (ops : List (HloOp τ sig (Elt Ideal))) (hops : stretches[s]'hs = ops)
    (k : Nat) (op : HloOp τ sig (Elt Ideal)) (rest : List (HloOp τ sig (Elt Ideal))) (hdrop : ops.drop k = op :: rest)
    (y : Ref sig .tc)
    (hin : rest.Forall fun o => Proc.devRef .tc y ∉ o.writes)
    (hpost : (List.flatten (stretches.drop (s + 1))).Forall fun o => Proc.devRef .tc y ∉ o.writes) :
    V m c y = op.result (Wat m c s ops k) (Proc.devRef .tc y) := by
  rw [V_eq_Wk m c (s + 1) y hpost, Wk_succ m c s hs, hops]
  conv_lhs => rw [← List.take_append_drop k ops, hdrop]
  rw [Cert.LibStretches.after_append, after_cons]
  exact StableHlo.after_of_forall_not_mem _ _ (List.forall_iff_forall_mem.mp hin)

/-- A buffer that nothing from position k of stretch s on writes holds what it held just before that position. -/
theorem V_before (s : Nat) (hs : s < stretches.length) (ops : List (HloOp τ sig (Elt Ideal))) (hops : stretches[s]'hs = ops)
    (k : Nat) (x : Ref sig .tc)
    (hin : (ops.drop k).Forall fun o => Proc.devRef .tc x ∉ o.writes)
    (hpost : (List.flatten (stretches.drop (s + 1))).Forall fun o => Proc.devRef .tc x ∉ o.writes) :
    V m c x = Wat m c s ops k (Proc.devRef .tc x) := by
  rw [V_eq_Wk m c (s + 1) x hpost, Wk_succ m c s hs, hops]
  conv_lhs => rw [← List.take_append_drop k ops]
  rw [Cert.LibStretches.after_append]
  exact StableHlo.after_of_forall_not_mem _ _ (List.forall_iff_forall_mem.mp hin)

/-- Rewrite the contents of buffer `y`, written at position `k` of stretch `s` (the list `ops`), to that operation's
    result over the contents just before it. -/
macro "read_at " m:ident c:ident s:num ops:ident k:num y:ident : tactic =>
  `(tactic| rw [V_at $m $c $s (by decide) $ops rfl $k _ _ rfl $y (by keeps) (by keeps)])

/-- Rewrite the contents of buffer `x`, which nothing from position `k` of stretch `s` on writes, to its contents just
    before that position. -/
macro "read_in " m:ident c:ident s:num ops:ident k:num x:ident : tactic =>
  `(tactic| rw [V_before $m $c $s (by decide) $ops rfl $k $x (by keeps) (by keeps)])

end Cert.KernelIdeal.KerValue

end
-- ==== Proof.Sym.lean ====
/-
  Atom-centred symmetry functions of a neighbour list: 8 radial features (a Gaussian of the distance times a
  cosine cutoff, summed over the 32 neighbour slots of an atom) and 43 angular features (for every unordered
  pair of slots, a power of 1 ± cos of the angle at the atom, a Gaussian of the three squared sides and the
  product of the three cutoffs, summed over the 496 pairs). This file names, over the extended reals, the
  quantities of one atom and one slot / one pair, once in the grouping one program uses and once in the
  other's, so that what is left to prove between them is scalar algebra.
-/
import Idealize.ShloMosaic.PureOps.Ideal
import Idealize.ShloMosaic.PureOps.Ideal.Laws
import Idealize.ShloMosaic.Lib.ValueIdx

noncomputable section

namespace Cert.Sym

open Idealize.ShloMosaic

/-- A binary32 word read as the extended real it denotes. -/
abbrev lit (b : BitVec 32) : EReal := Ideal.ofBits .f32 b

/-- A truth value read as the number 0 or 1. -/
abbrev bitR (b : BitVec 1) : EReal := ((b.toNat : ℝ) : EReal)

/-- The slot an index word selects on an axis of 32 slots: the word read as a signed integer, brought into 0 … 31. -/
def pairIdx (b : BitVec 32) : Fin 32 := ⟨min b.toInt.toNat 31, by omega⟩

/-- What both programs know of the geometry: per atom and slot the displacement to the neighbour, its squared
    length and whether the slot is in use; and the two slot tables that enumerate the unordered pairs. -/
structure Geo where
  rv : Fin 2000 → Fin 32 → Fin 3 → EReal
  rsq : Fin 2000 → Fin 32 → EReal
  vd : Fin 2000 → Fin 32 → BitVec 1
  jw : Fin 496 → BitVec 32
  kw : Fin 496 → BitVec 32

variable (g : Geo)

/-- First slot of pair `p`. -/
def Geo.pj (p : Fin 496) : Fin 32 := pairIdx (g.jw p)
/-- Second slot of pair `p`. -/
def Geo.pk (p : Fin 496) : Fin 32 := pairIdx (g.kw p)
/-- Distance from atom `n` to the neighbour in slot `k`. -/
def Geo.r (n : Fin 2000) (k : Fin 32) : EReal := Ideal.sqrt (g.rsq n k)
/-- The slot counts: it is in use and the neighbour lies within the cutoff radius 8 (squared: 64). -/
def Geo.mask (n : Fin 2000) (k : Fin 32) : BitVec 1 :=
  IntOp.andi (g.vd n k) (Ideal.cmp .ole (g.rsq n k) (lit 0x42800000#32))

/-- The cosine cutoff: (cos(π x / 8) + 1) / 2 below the radius 8, zero from there on. -/
def fc (x : EReal) : EReal :=
  Scalar.select (Ideal.cmp .olt x (lit 0x41000000#32))
    (lit 0x3F000000#32 * (Ideal.cos (Ideal.div (lit 0x40490FDB#32 * x) (lit 0x41000000#32)) + lit 0x3F800000#32))
    (lit 0x00000000#32)

/-- The square root of a squared length, with the value 0 kept for a length that is not positive. -/
def guardSqrt (s : EReal) : EReal :=
  Scalar.select (Ideal.cmp .ogt s (lit 0x00000000#32))
    (Ideal.sqrt (Scalar.select (Ideal.cmp .ogt s (lit 0x00000000#32)) s (lit 0x3F800000#32)))
    (lit 0x00000000#32)

/-! ## Radial features -/

/-- One slot's radial term with the Gaussian centred at the word `z`: exp(e (r − z)²) fc(r), counted or not. -/
def radTermShift (e z : BitVec 32) (r : EReal) (mk : BitVec 1) : EReal :=
  (Ideal.exp (lit e * ((r - lit z) * (r - lit z))) * fc r) * bitR mk

/-- One slot's radial term centred at zero: exp(e r²) fc(r), counted or not. -/
def radTerm (e : BitVec 32) (r : EReal) (mk : BitVec 1) : EReal :=
  (Ideal.exp (lit e * (r * r)) * fc r) * bitR mk

/-- A radial feature of atom `n` with a centre word, summed over the slots from zero. -/
def radialShift (e z : BitVec 32) (n : Fin 2000) : EReal :=
  lit 0x00000000#32 + ∑ k : Fin 32, radTermShift e z (g.r n k) (g.mask n k)

/-- A radial feature of atom `n` centred at zero, summed over the slots from zero. -/
def radial (e : BitVec 32) (n : Fin 2000) : EReal :=
  lit 0x00000000#32 + ∑ k : Fin 32, radTerm e (g.r n k) (g.mask n k)

/-! ## One pair of slots -/

/-- Distance to the pair's first neighbour. -/
def Geo.rij (n : Fin 2000) (p : Fin 496) : EReal := g.r n (g.pj p)
/-- Distance to the pair's second neighbour. -/
def Geo.rik (n : Fin 2000) (p : Fin 496) : EReal := g.r n (g.pk p)
/-- Component `d` of the vector between the pair's two neighbours. -/
def Geo.djk (n : Fin 2000) (p : Fin 496) (d : Fin 3) : EReal := g.rv n (g.pk p) d - g.rv n (g.pj p) d

/-- Squared distance between the two neighbours, the three squares summed from zero. -/
def Geo.rjksqSum (n : Fin 2000) (p : Fin 496) : EReal :=
  lit 0x00000000#32 + ∑ d : Fin 3, g.djk n p d * g.djk n p d

/-- Squared distance between the two neighbours, the three squares added left to right. -/
def Geo.rjksqChain (n : Fin 2000) (p : Fin 496) : EReal :=
  (g.djk n p 0 * g.djk n p 0 + g.djk n p 1 * g.djk n p 1) + g.djk n p 2 * g.djk n p 2

/-- The triangle counts: both slots count and the two neighbours are within the radius of each other;
    the second slot's conditions spelt out one by one. -/
def Geo.triSpelt (n : Fin 2000) (p : Fin 496) (s : EReal) : BitVec 1 :=
  IntOp.andi
    (IntOp.andi (IntOp.andi (g.mask n (g.pj p)) (g.vd n (g.pk p)))
      (Ideal.cmp .ole (g.rsq n (g.pk p)) (lit 0x42800000#32)))
    (Ideal.cmp .ole (guardSqrt s) (lit 0x41000000#32))

/-- The triangle counts, read off the two slots' 0/1 counts by comparing them with one half. -/
def Geo.triHalf (n : Fin 2000) (p : Fin 496) (s : EReal) : BitVec 1 :=
  IntOp.andi
    (IntOp.andi (Ideal.cmp .ogt (bitR (g.mask n (g.pj p))) (lit 0x3F000000#32))
      (Ideal.cmp .ogt (bitR (g.mask n (g.pk p))) (lit 0x3F000000#32)))
    (Ideal.cmp .ole (guardSqrt s) (lit 0x41000000#32))

/-- Cosine of the angle at the atom by the law of cosines, from the two sides `a`, `b` and the squared third side `s`. -/
def cosA (a b s : EReal) : EReal := Ideal.div ((a * a + b * b) - s) ((lit 0x40000000#32 * a) * b)
/-- Sum of the three squared sides. -/
def ssumA (a b s : EReal) : EReal := (a * a + b * b) + s
/-- Product of the three cutoffs. -/
def fcprod (a b s : EReal) : EReal := (fc a * fc b) * fc (guardSqrt s)

/-! ## Angular features, the form with a table of signs, exponents and weights -/

/-- One pair's angular term for sign word `lam`, exponent word `zeta`, Gaussian word `eta` and weight word `coef`:
    weight · (1 + lam cos)^zeta where that base is positive (else 0) · exp(eta Σ sides²) · cutoffs · counted. -/
def angTermTable (lam zeta eta coef : BitVec 32) (a b s : EReal) (tri : BitVec 1) : EReal :=
  ((((lit coef *
        (Ideal.pow
            (Scalar.select (Ideal.cmp .ogt (lit 0x3F800000#32 + lit lam * cosA a b s) (lit 0x00000000#32))
              (lit 0x3F800000#32 + lit lam * cosA a b s) (lit 0x3F800000#32))
            (lit zeta)
          * bitR (Ideal.cmp .ogt (lit 0x3F800000#32 + lit lam * cosA a b s) (lit 0x00000000#32))))
      * Ideal.exp (lit eta * ssumA a b s))
    * fcprod a b s)
  * bitR tri)

/-- An angular feature of atom `n` in the table form, summed over the pairs from zero. -/
def angularTable (lam zeta eta coef : BitVec 32) (n : Fin 2000) : EReal :=
  lit 0x00000000#32 + ∑ p : Fin 496,
    angTermTable lam zeta eta coef (g.rij n p) (g.rik n p) (g.rjksqSum n p) (g.triSpelt n p (g.rjksqSum n p))

/-! ## Angular features, the form with shared powers -/

/-- 1 + c where positive, else 1. -/
def baseP (c : EReal) : EReal :=
  Scalar.select (Ideal.cmp .ogt (lit 0x3F800000#32 + c) (lit 0x00000000#32)) (lit 0x3F800000#32 + c) (lit 0x3F800000#32)
/-- 1 − c where positive, else 1. -/
def baseM (c : EReal) : EReal :=
  Scalar.select (Ideal.cmp .ogt (lit 0x3F800000#32 - c) (lit 0x00000000#32)) (lit 0x3F800000#32 - c) (lit 0x3F800000#32)
/-- Whether 1 + c is positive, as 0 or 1. -/
def posP (c : EReal) : EReal := bitR (Ideal.cmp .ogt (lit 0x3F800000#32 + c) (lit 0x00000000#32))
/-- Whether 1 − c is positive, as 0 or 1. -/
def posM (c : EReal) : EReal := bitR (Ideal.cmp .ogt (lit 0x3F800000#32 - c) (lit 0x00000000#32))

/-- The seven angular factors as functions of the cosine, powers by repeated squaring: exponent 1, 2, 4 for
    both signs and 16 for the plus sign, each with its weight 2^(1 − exponent). -/
def featM1 (c : EReal) : EReal := baseM c * posM c
def featP1 (c : EReal) : EReal := baseP c * posP c
def featM2 (c : EReal) : EReal := ((baseM c * baseM c) * posM c) * lit 0x3F000000#32
def featP2 (c : EReal) : EReal := ((baseP c * baseP c) * posP c) * lit 0x3F000000#32
def featM4 (c : EReal) : EReal := (((baseM c * baseM c) * (baseM c * baseM c)) * posM c) * lit 0x3E000000#32
def featP4 (c : EReal) : EReal := (((baseP c * baseP c) * (baseP c * baseP c)) * posP c) * lit 0x3E000000#32
def featP16 (c : EReal) : EReal :=
  (((((baseP c * baseP c) * (baseP c * baseP c)) * ((baseP c * baseP c) * (baseP c * baseP c)))
      * (((baseP c * baseP c) * (baseP c * baseP c)) * ((baseP c * baseP c) * (baseP c * baseP c)))) * posP c)
    * lit 0x38000000#32

/-- One pair's angular term for a factor `feat` of the cosine and Gaussian word `eta`:
    feat(cos) · (exp(eta Σ sides²) · (cutoffs · counted)). -/
def angTermShared (feat : EReal → EReal) (eta : BitVec 32) (a b s x : EReal) : EReal :=
  feat (cosA a b s) * (Ideal.exp (lit eta * ssumA a b s) * (fcprod a b s * x))

/-- An angular feature of atom `n` in the shared-power form, summed over the pairs from zero. -/
def angularShared (feat : EReal → EReal) (eta : BitVec 32) (n : Fin 2000) : EReal :=
  lit 0x00000000#32 + ∑ p : Fin 496,
    angTermShared feat eta (g.rij n p) (g.rik n p) (g.rjksqChain n p) (bitR (g.triHalf n p (g.rjksqChain n p)))

end Cert.Sym
-- ==== Proof.KerGeo.lean ====
/-
  The geometry the kernel program computes before its region, as the record the symmetry functions are stated over:
  per atom and neighbour slot the displacement vector, its squared length and whether the slot is in use, and the two
  tables of slots that enumerate the unordered pairs.
-/
import proofs.«126887_j40243843564182_2_alg».proof.Proof.Gen.KernelIdeal.Frame
import proofs.«126887_j40243843564182_2_alg».proof.Proof.Sym
import Idealize.ShloMosaic.Lib.ValueIdx
import Idealize.ShloMosaic.PureOps.Ideal

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx

variable (m : (ℓ : Loc nD τ sig) → Buf (Elt Ideal) ℓ) (c : Dev nD)

/-- Displacement vectors (the gathered neighbour position minus the atom's), their squared lengths (the three
    squares summed from zero), the slot-in-use bits (slot number below the atom's neighbour count), and the first and
    second slot of each of the 496 pairs. -/
def geo : Cert.Sym.Geo :=
  ⟨fun n k d => (V m c main_v16 : S2000x32x3.Idx → EReal) (ix3 n k d),
   fun n k => (V m c main_v18 : S2000x32.Idx → EReal) (ix2 n k),
   fun n k => (V m c main_v6 : S2000x32.Idx → BitVec 1) (ix2 n k),
   lit0, lit1⟩

end Cert.KernelIdeal.KerValue

end
-- ==== Proof.KerLayout.lean ====
/-
  Layout operations of the host program read at an index: a pad inside the operand's extent, and a unit-width slice
  of the last axis followed by the reshape that drops that axis.
-/
import Idealize.ShloMosaic.PureOps.ShapeOps
import Idealize.ShloMosaic.Lib.Pipeline.Value
import Idealize.ShloMosaic.Lib.ValueIdx

namespace Cert.KernelIdeal.KerLayout

open Idealize.ShloMosaic

variable {α : Type}

/-- A padded array read at an index that falls on the operand: the operand at the index `k` whose coordinates are
    the result's, the low padding taken off and divided by the interior step. -/
theorem pad_apply_inside {s t u : Shape} (lo hi interior : Fin s.rank → Nat) (x : s.Idx → α) (v : u.Idx → α)
    (h : s.Pads lo hi interior t) (hu : 0 < u.numel) (j : t.Idx) (k : s.Idx)
    (hk : ∀ a : Fin s.rank, lo a ≤ (j (a.cast h.1)).val ∧ ((j (a.cast h.1)).val - lo a) % (interior a + 1) = 0
      ∧ ((j (a.cast h.1)).val - lo a) / (interior a + 1) = (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a :=
    fun a => ⟨(hk a).1, (hk a).2.1, by rw [(hk a).2.2]; exact (k a).isLt⟩
  rw [dif_pos hin]
  exact congrArg x (funext fun a => Fin.ext (hk a).2.2)

end Cert.KernelIdeal.KerLayout
-- ==== Proof.KerArr0.lean ====
/-
  The first input array of the region, [32,2048]: entry (k, n) for an atom n < 2000 is the distance from atom n to
  the neighbour in slot k — the square root of the squared length, padded with rows of 1.0 to 2048 atoms, transposed.
-/
import proofs.«126887_j40243843564182_2_alg».proof.Proof.KerRead
import proofs.«126887_j40243843564182_2_alg».proof.Proof.KerGeo
import proofs.«126887_j40243843564182_2_alg».proof.Proof.KerLayout

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx Idealize.ShloMosaic.StableHlo Cert.KernelIdeal.KerLayout

variable (m : (ℓ : Loc nD τ sig) → Buf (Elt Ideal) ℓ) (c : Dev nD)

/-- The array is the transpose of the padded distances. -/
theorem v35_eq : (V m c main_v35 : S32x2048.Idx → EReal)
    = transpose S32x2048 [1, 0] (V m c main_v23 : S2048x32.Idx → EReal) transposes_S2048x32_S32x2048_1_0 := by
  read_at m c 10 hostOps0_10 0 main_v35
  read_in m c 10 hostOps0_10 0 main_v23
  rw [unary_result]

/-- The padded distances: the distances with the padding value below them. -/
theorem v23_eq : (V m c main_v23 : S2048x32.Idx → EReal)
    = pad S2048x32 ![0, 0] ![48, 0] ![0, 0] (V m c main_v19 : S2000x32.Idx → EReal) (V m c main_cst_14 : S_.Idx → EReal)
        pads_S2000x32_S2048x32_0480_000 h_S_ := by
  rw [V_eq_Wk m c 2 main_v23 (by keeps), V_eq_Wk m c 1 main_v19 (by keeps), V_eq_Wk m c 1 main_cst_14 (by keeps), W_step1]
  generalize Wk m c 1 = W
  dsimp only [hostOps0_1]
  after_results
  rfl

/-- The distances: the square roots of the squared lengths. -/
theorem v19_eq : (V m c main_v19 : S2000x32.Idx → EReal)
    = Host.sqrt (F := Ideal) (φ := .f32) (V m c main_v18 : S2000x32.Idx → EReal) := by
  read_at m c 0 hostOps0 34 main_v19
  read_in m c 0 hostOps0 34 main_v18
  rw [unary_result]

/-- Entry (k, n) of the first input array is the distance from atom n to the neighbour in slot k. -/
theorem arr0 (n : Fin 2000) (k : Fin 32) :
    (V m c main_v35 : S32x2048.Idx → EReal) (ix2 k ⟨n.val, by omega⟩) = (geo m c).r n k := by
  have hn := n.isLt
  rw [v35_eq]
  refine (transpose_apply _ _ _ (ix2 k ⟨n.val, by omega⟩ : S32x2048.Idx) (ix2 ⟨n.val, by omega⟩ k : S2048x32.Idx) fun b => ?_).trans ?_
  · match b with
    | ⟨0, _⟩ => rfl
    | ⟨1, _⟩ => rfl
  rw [v23_eq]
  refine (pad_apply_inside _ _ _ _ _ _ _ (ix2 ⟨n.val, by omega⟩ k : S2048x32.Idx) (ix2 n k : S2000x32.Idx) fun a => ?_).trans ?_
  · match a with
    | ⟨0, _⟩ => exact ⟨Nat.zero_le _, by show (n.val - 0) % (0 + 1) = 0; omega, by show (n.val - 0) / (0 + 1) = n.val; omega⟩
    | ⟨1, _⟩ => exact ⟨Nat.zero_le _, by show (k.val - 0) % (0 + 1) = 0; omega, by show (k.val - 0) / (0 + 1) = k.val; omega⟩
  rw [v19_eq]
  rfl

end Cert.KernelIdeal.KerValue

end
-- ==== Proof.KerArr1.lean ====
/-
  The second input array of the region, [32,2048]: entry (k, n) for an atom n < 2000 is 1 if neighbour slot k of atom n
  counts (the slot is in use and the squared distance is at most 64), else 0 — the bit turned into a number, padded
  with rows of 0 to 2048 atoms, transposed.
-/
import proofs.«126887_j40243843564182_2_alg».proof.Proof.KerRead
import proofs.«126887_j40243843564182_2_alg».proof.Proof.KerGeo
import proofs.«126887_j40243843564182_2_alg».proof.Proof.KerLayout

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx Idealize.ShloMosaic.StableHlo Cert.KernelIdeal.KerLayout

variable (m : (ℓ : Loc nD τ sig) → Buf (Elt Ideal) ℓ) (c : Dev nD)

/-- The array is the transpose of the padded counts. -/
theorem v36_eq : (V m c main_v36 : S32x2048.Idx → EReal)
    = transpose S32x2048 [1, 0] (V m c main_v25 : S2048x32.Idx → EReal) transposes_S2048x32_S32x2048_1_0 := by
  read_at m c 10 hostOps0_10 1 main_v36
  read_in m c 10 hostOps0_10 1 main_v25
  rw [unary_result]

/-- The padded counts: the counts with the padding value below them. -/
theorem v25_eq : (V m c main_v25 : S2048x32.Idx → EReal)
    = pad S2048x32 ![0, 0] ![48, 0] ![0, 0] (V m c main_v24 : S2000x32.Idx → EReal) (V m c main_cst_15 : S_.Idx → EReal)
        pads_S2000x32_S2048x32_0480_000 h_S_ := by
  rw [V_eq_Wk m c 4 main_v25 (by keeps), V_eq_Wk m c 3 main_v24 (by keeps), V_eq_Wk m c 3 main_cst_15 (by keeps), W_step3]
  generalize Wk m c 3 = W
  dsimp only [hostOps0_3]
  after_results
  rfl

/-- The counts as numbers. -/
theorem v24_eq : (V m c main_v24 : S2000x32.Idx → EReal)
    = uitofp (F := Ideal) .f32 (V m c main_v22 : S2000x32.Idx → BitVec 1) := by
  read_at m c 2 hostOps0_2 0 main_v24
  read_in m c 2 hostOps0_2 0 main_v22
  rw [unary_result]

/-- A slot counts when it is in use and within the radius. -/
theorem v22_eq : (V m c main_v22 : S2000x32.Idx → BitVec 1)
    = andi (V m c main_v6 : S2000x32.Idx → BitVec 1) (V m c main_v21 : S2000x32.Idx → BitVec 1) := by
  read_at m c 0 hostOps0 38 main_v22
  read_in m c 0 hostOps0 38 main_v6
  read_in m c 0 hostOps0 38 main_v21
  rw [binary_result]

/-- Within the radius: the squared distance is at most the constant. -/
theorem v21_eq : (V m c main_v21 : S2000x32.Idx → BitVec 1)
    = cmpf (F := Ideal) (φ := .f32) .ole (V m c main_v18 : S2000x32.Idx → EReal) (V m c main_v20 : S2000x32.Idx → EReal) := by
  read_at m c 0 hostOps0 37 main_v21
  read_in m c 0 hostOps0 37 main_v18
  read_in m c 0 hostOps0 37 main_v20
  rw [binary_result]

/-- The constant spread over the array. -/
theorem v20_eq : (V m c main_v20 : S2000x32.Idx → EReal)
    = broadcastInDim S2000x32 ![] bcast_S_S2000x32 (V m c main_cst_13 : S_.Idx → EReal) := by
  read_at m c 0 hostOps0 36 main_v20
  read_in m c 0 hostOps0 36 main_cst_13
  rw [unary_result]

/-- The constant 64. -/
theorem cst13_eq : (V m c main_cst_13 : S_.Idx → EReal) = constant (F := Ideal) S_ .f32 0x42800000#32 := by
  read_at m c 0 hostOps0 35 main_cst_13
  rw [nullary_result]

/-- Entry (k, n) of the second input array is the 0/1 count of neighbour slot k of atom n. -/
theorem arr1 (n : Fin 2000) (k : Fin 32) :
    (V m c main_v36 : S32x2048.Idx → EReal) (ix2 k ⟨n.val, by omega⟩) = Cert.Sym.bitR ((geo m c).mask n k) := by
  have hn := n.isLt
  rw [v36_eq]
  refine (transpose_apply _ _ _ (ix2 k ⟨n.val, by omega⟩ : S32x2048.Idx) (ix2 ⟨n.val, by omega⟩ k : S2048x32.Idx) fun b => ?_).trans ?_
  · match b with
    | ⟨0, _⟩ => rfl
    | ⟨1, _⟩ => rfl
  rw [v25_eq]
  refine (pad_apply_inside _ _ _ _ _ _ _ (ix2 ⟨n.val, by omega⟩ k : S2048x32.Idx) (ix2 n k : S2000x32.Idx) fun a => ?_).trans ?_
  · match a with
    | ⟨0, _⟩ => exact ⟨Nat.zero_le _, by show (n.val - 0) % (0 + 1) = 0; omega, by show (n.val - 0) / (0 + 1) = n.val; omega⟩
    | ⟨1, _⟩ => exact ⟨Nat.zero_le _, by show (k.val - 0) % (0 + 1) = 0; omega, by show (k.val - 0) / (0 + 1) = k.val; omega⟩
  rw [v24_eq, v22_eq, v21_eq, v20_eq, cst13_eq]
  rfl

end Cert.KernelIdeal.KerValue

end
-- ==== Proof.KerStep.lean ====
/-
  One host operation as one equation between final buffer contents: the result buffer is the operation's function of
  its operand buffers. One tactic per number of operands.
-/
import proofs.«126887_j40243843564182_2_alg».proof.Proof.KerRead

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.StableHlo

/-- An operation with no operand, at position `k` of stretch `s`, result `y`. -/
macro "step0 " m:ident c:ident s:num ops:ident k:num y:ident : tactic =>
  `(tactic| (read_at $m $c $s $ops $k $y; rw [nullary_result]))

/-- An operation with one operand `x`. -/
macro "step1 " m:ident c:ident s:num ops:ident k:num y:ident x:ident : tactic =>
  `(tactic| (read_at $m $c $s $ops $k $y; read_in $m $c $s $ops $k $x; rw [unary_result]))

/-- An operation with two operands `a`, `b` (write the operand once if it is used twice). -/
macro "step2 " m:ident c:ident s:num ops:ident k:num y:ident a:ident b:ident : tactic =>
  `(tactic| (read_at $m $c $s $ops $k $y; read_in $m $c $s $ops $k $a; read_in $m $c $s $ops $k $b; rw [binary_result]))

/-- An operation applied to the same operand twice. -/
macro "step2same " m:ident c:ident s:num ops:ident k:num y:ident a:ident : tactic =>
  `(tactic| (read_at $m $c $s $ops $k $y; read_in $m $c $s $ops $k $a; rw [binary_result]))

/-- An operation with three operands. -/
macro "step3 " m:ident c:ident s:num ops:ident k:num y:ident a:ident b:ident d:ident : tactic =>
  `(tactic| (read_at $m $c $s $ops $k $y; read_in $m $c $s $ops $k $a; read_in $m $c $s $ops $k $b; read_in $m $c $s $ops $k $d;
              rw [ternary_result]))

end Cert.KernelIdeal.KerValue

end
-- ==== Proof.KerTables.lean ====
/-
  The constants the program starts from: the two slot tables of the 496 unordered pairs (first slot, second slot), and
  the ten all-false selectors of its index arithmetic.
-/
import proofs.«126887_j40243843564182_2_alg».proof.Proof.KerStep

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.StableHlo

variable (m : (ℓ : Loc nD τ sig) → Buf (Elt Ideal) ℓ) (c : Dev nD)

/-- The table of first slots. -/
theorem c_eq : (V m c main_c : S496.Idx → BitVec 32) = fun i => lit0 (S496.rowMajor i) := by
  step0 m c 0 hostOps0 0 main_c
  rfl
/-- The table of second slots. -/
theorem c1_eq : (V m c main_c_1 : S496.Idx → BitVec 32) = fun i => lit1 (S496.rowMajor i) := by
  step0 m c 0 hostOps0 2 main_c_1
  rfl

/-- The selectors: all false. -/
theorem sel0_eq : (V m c main_c_0 : S496.Idx → BitVec 1) = constantI S496 1 0#1 := by
  step0 m c 0 hostOps0 1 main_c_0
theorem sel2_eq : (V m c main_c_2 : S496.Idx → BitVec 1) = constantI S496 1 0#1 := by
  step0 m c 0 hostOps0 3 main_c_2
theorem sel3_eq : (V m c main_c_3 : S496.Idx → BitVec 1) = constantI S496 1 0#1 := by
  step0 m c 0 hostOps0 4 main_c_3
theorem sel4_eq : (V m c main_c_4 : S496.Idx → BitVec 1) = constantI S496 1 0#1 := by
  step0 m c 0 hostOps0 5 main_c_4
theorem sel5_eq : (V m c main_c_5 : S496.Idx → BitVec 1) = constantI S496 1 0#1 := by
  step0 m c 0 hostOps0 6 main_c_5
theorem sel6_eq : (V m c main_c_6 : S496.Idx → BitVec 1) = constantI S496 1 0#1 := by
  step0 m c 0 hostOps0 7 main_c_6
theorem sel7_eq : (V m c main_c_7 : S496.Idx → BitVec 1) = constantI S496 1 0#1 := by
  step0 m c 0 hostOps0 8 main_c_7
theorem sel8_eq : (V m c main_c_8 : S496.Idx → BitVec 1) = constantI S496 1 0#1 := by
  step0 m c 0 hostOps0 9 main_c_8
theorem sel9_eq : (V m c main_c_9 : S496.Idx → BitVec 1) = constantI S496 1 0#1 := by
  step0 m c 0 hostOps0 10 main_c_9
theorem sel10_eq : (V m c main_c_10 : S496.Idx → BitVec 1) = constantI S496 1 0#1 := by
  step0 m c 0 hostOps0 11 main_c_10

/-- The three operations of one pair gather, all in the long stretch: the gather `y` (position `ky`) of the array `src` at
    the index array `ib`; the index array (position `ki`), the spread of `sb`; and `sb` (position `ks`), the select on
    `sel` between `alt` and the table `tb`. Rewrites the contents of `y` to that composite of the contents of `src`,
    `sel`, `alt` and `tb`. -/
macro "pair_gather " m:ident c:ident y:ident ky:num src:ident ib:ident ki:num sb:ident ks:num sel:ident alt:ident tb:ident : tactic =>
  `(tactic| rw [
    show (V $m $c $y : S496x2048.Idx → EReal)
        = Host.gather gather_S32x2048_S496x1_S496x2048_1_0_n_n_0_1_12048 (V $m $c $src : S32x2048.Idx → EReal) (V $m $c $ib : S496x1.Idx → BitVec 32)
      from by step2 $m $c 10 hostOps0_10 $ky $y $src $ib,
    show (V $m $c $ib : S496x1.Idx → BitVec 32) = broadcastInDim S496x1 ![0] bcast_S496_S496x1_0 (V $m $c $sb : S496.Idx → BitVec 32)
      from by step1 $m $c 10 hostOps0_10 $ki $ib $sb,
    show (V $m $c $sb : S496.Idx → BitVec 32)
        = select (V $m $c $sel : S496.Idx → BitVec 1) (V $m $c $alt : S496.Idx → BitVec 32) (V $m $c $tb : S496.Idx → BitVec 32)
      from by step3 $m $c 10 hostOps0_10 $ks $sb $sel $alt $tb])

end Cert.KernelIdeal.KerValue

end
-- ==== Proof.LibFiniteReals.lean ====
/-
  Finite extended reals. An extended real is FINITE when it is the coercion of a real number; on finite values the
  extended reals' arithmetic is the reals', so negation distributes over sums and division is multiplication by the
  inverse. This module states the predicate, with its nonnegative and positive refinements, and its closure under the
  operations a loss is written with: sums, products, differences, quotients by a positive value, maxima, suprema over a
  nonempty finite set, square roots of nonnegative values, exponentials, logarithms of positive values.
-/
import Idealize.ShloMosaic.PureOps.Ideal
import Mathlib.Algebra.BigOperators.Fin

noncomputable section

namespace Cert.Law

open Idealize.ShloMosaic

/-- `x` is a real number. -/
def IsR (x : EReal) : Prop := ∃ r : ℝ, x = (r : EReal)
/-- `x` is a nonnegative real number. -/
def IsNN (x : EReal) : Prop := ∃ r : ℝ, 0 ≤ r ∧ x = (r : EReal)
/-- `x` is a positive real number. -/
def IsPos (x : EReal) : Prop := ∃ r : ℝ, 0 < r ∧ x = (r : EReal)

variable {x y : EReal}

theorem IsPos.isNN (h : IsPos x) : IsNN x := let ⟨r, hr, e⟩ := h; ⟨r, hr.le, e⟩
theorem IsNN.isR (h : IsNN x) : IsR x := let ⟨r, _, e⟩ := h; ⟨r, e⟩
theorem IsPos.isR (h : IsPos x) : IsR x := h.isNN.isR

theorem isNN_zero : IsNN 0 := ⟨0, le_rfl, rfl⟩
theorem isNN_one : IsNN 1 := ⟨1, zero_le_one, rfl⟩
theorem isR_zero : IsR 0 := isNN_zero.isR
theorem isR_one : IsR 1 := isNN_one.isR

theorem IsR.add (hx : IsR x) (hy : IsR y) : IsR (x + y) := by
  obtain ⟨a, rfl⟩ := hx; obtain ⟨b, rfl⟩ := hy; exact ⟨a + b, (EReal.coe_add a b).symm⟩
theorem IsR.sub (hx : IsR x) (hy : IsR y) : IsR (x - y) := by
  obtain ⟨a, rfl⟩ := hx; obtain ⟨b, rfl⟩ := hy; exact ⟨a - b, (EReal.coe_sub a b).symm⟩
theorem IsR.mul (hx : IsR x) (hy : IsR y) : IsR (x * y) := by
  obtain ⟨a, rfl⟩ := hx; obtain ⟨b, rfl⟩ := hy; exact ⟨a * b, (EReal.coe_mul a b).symm⟩
theorem IsR.neg (hx : IsR x) : IsR (-x) := by
  obtain ⟨a, rfl⟩ := hx; exact ⟨-a, (EReal.coe_neg a).symm⟩
/-- A square is nonnegative. -/
theorem IsR.mul_self (hx : IsR x) : IsNN (x * x) := by
  obtain ⟨a, rfl⟩ := hx; exact ⟨a * a, mul_self_nonneg a, (EReal.coe_mul a a).symm⟩
theorem IsNN.add (hx : IsNN x) (hy : IsNN y) : IsNN (x + y) := by
  obtain ⟨a, ha, rfl⟩ := hx; obtain ⟨b, hb, rfl⟩ := hy
  exact ⟨a + b, add_nonneg ha hb, (EReal.coe_add a b).symm⟩
theorem IsNN.add_pos (hx : IsNN x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem IsPos.add (hx : IsPos x) (hy : IsPos y) : IsPos (x + y) := hx.isNN.add_pos hy

/-- A finite sum of real numbers is a real number. -/
theorem IsR.sum {ι : Type*} (s : Finset ι) (f : ι → EReal) (h : ∀ i ∈ s, IsR (f i)) : IsR (∑ i ∈ s, f i) :=
  Finset.sum_induction f IsR (fun _ _ => IsR.add) isR_zero h
/-- A finite sum of nonnegative real numbers is one. -/
theorem IsNN.sum {ι : Type*} (s : Finset ι) (f : ι → EReal) (h : ∀ i ∈ s, IsNN (f i)) : IsNN (∑ i ∈ s, f i) :=
  Finset.sum_induction f IsNN (fun _ _ => IsNN.add) isNN_zero h
/-- A nonempty finite sum of positive real numbers is one. -/
theorem IsPos.sum {ι : Type*} (s : Finset ι) (hs : s.Nonempty) (f : ι → EReal) (h : ∀ i ∈ s, IsPos (f i)) :
    IsPos (∑ i ∈ s, f i) :=
  Finset.sum_induction_nonempty f IsPos (fun _ _ => IsPos.add) hs h

/-- The quotient of a real number by a positive one is real: division by a nonzero real is multiplication by its
    inverse. -/
theorem IsR.div (hx : IsR x) (hy : IsPos y) : IsR (Ideal.div x y) := by
  obtain ⟨a, rfl⟩ := hx; obtain ⟨b, hb, rfl⟩ := hy
  rw [Ideal.div_coe hb.ne']; exact ⟨a * (1 / b), (EReal.coe_mul _ _).symm⟩

/-- The greater of a real number and a positive one is positive. -/
theorem IsR.max_pos (hx : IsR x) (hy : IsPos y) : IsPos (max x y) := by
  obtain ⟨a, rfl⟩ := hx; obtain ⟨b, hb, rfl⟩ := hy
  rcases le_total (a : EReal) (b : EReal) with h | h
  · rw [max_eq_right h]; exact ⟨b, hb, rfl⟩
  · rw [max_eq_left h]; exact ⟨a, lt_of_lt_of_le hb (EReal.coe_le_coe_iff.mp h), rfl⟩

/-- The square root of a nonnegative real number is one. -/
theorem IsNN.sqrt (hx : IsNN x) : IsNN (Ideal.sqrt x) := by
  obtain ⟨a, ha, rfl⟩ := hx
  rw [Ideal.sqrt_coe, if_neg (not_lt.mpr ha)]; exact ⟨Real.sqrt a, Real.sqrt_nonneg a, rfl⟩

/-- The exponential of a real number is a positive real. -/
theorem IsR.exp (hx : IsR x) : IsPos (Ideal.exp x) := by
  obtain ⟨a, rfl⟩ := hx; exact ⟨Real.exp a, Real.exp_pos a, rfl⟩

/-- The logarithm of a positive real number is real. -/
theorem IsPos.log (hx : IsPos x) : IsR (Ideal.log x) := by
  obtain ⟨a, ha, rfl⟩ := hx
  rw [Ideal.log_coe, if_neg (not_le.mpr ha)]; exact ⟨Real.log a, rfl⟩

/-- The supremum of real numbers over a nonempty finite set is one of them, so it is real. -/
theorem IsR.sup {ι : Type*} (s : Finset ι) (hs : s.Nonempty) (f : ι → EReal) (h : ∀ i ∈ s, IsR (f i)) :
    IsR (s.sup f) := by
  obtain ⟨i, hi, e⟩ := Finset.exists_mem_eq_sup s hs f
  rw [e]; exact h i hi

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- With every factor a real number, subtracting a finite sum of products from zero is summing the products with
    their first factors negated. (On the extended reals at large negation does not distribute over a sum: a term
    `+∞` beside a term `-∞` breaks it. Finiteness of every term is what makes the two spellings agree.) -/
theorem zero_sub_sum_mul {ι : Type*} [Fintype ι] (t l : ι → EReal) (ht : ∀ i, IsR (t i)) (hl : ∀ i, IsR (l i)) :
    0 - ∑ i, t i * l i = ∑ i, (-(t i)) * l i := by
  choose a ha using ht
  choose b hb using hl
  have e1 : ∀ i, t i * l i = ((a i * b i : ℝ) : EReal) := fun i => by rw [ha i, hb i, EReal.coe_mul]
  have e2 : ∀ i, (-(t i)) * l i = ((-(a i * b i) : ℝ) : EReal) := fun i => by
    rw [ha i, hb i, ← neg_mul, EReal.coe_mul, EReal.coe_neg]
  simp only [e1, e2]
  rw [← coe_sum, ← coe_sum, Finset.sum_neg_distrib]
  show ((0 : ℝ) : EReal) - _ = _
  rw [← EReal.coe_sub, zero_sub]

end Cert.Law

end
-- ==== Proof.LibGraphConv.lean ====
/-
  Message passing along the edges of a graph, over the extended reals.

  A ROW GATHER reads, for edge e, the row of an [N, C] table named by a signed index word (clamped into [0, N − 1]);
  a ROW SCATTER-ADD adds, for edge e, a row of an [E, C] array into the row of an [N, C] accumulator named by a signed
  index word, dropping the edge when the word is outside [0, N).  With s(e), t(e) the source and target words:

      out(n, c) = Σ_{e : t(e) = n} upd(e, c).

  THE LAW (`conv_factor`).  Let d : [N] hold nonnegative REAL numbers.  Then, for any table P (its entries may be
  infinite),

      ( Σ_{e : t(e) = n} P(s(e), c) · d(s(e)) ) · d(n)  =  Σ_{e : t(e) = n} P(s(e), c) · ( d(s(e)) · d(t(e)) ):

  scaling the table before the gather and the sum after the scatter is scaling each message by the product of the two
  end points' factors.  Every edge that lands in row n has t(e) = n, so the second factor is constant over the sum and
  comes out of it; a factor comes out of a sum of extended reals when it is a nonnegative real, whatever the summands
  (for a negative or infinite factor, +∞ beside −∞ among the summands would break it).
-/
import Idealize.ShloMosaic.Lib.ValueIdx
import Idealize.ShloMosaic.PureOps.Ideal.Laws
import proofs.«126887_j40243843564182_2_alg».proof.Proof.LibFiniteReals

noncomputable section

namespace Cert.GraphConv

open Idealize.ShloMosaic Idealize.ShloMosaic.ValueIdx Cert.Law

variable {N E C w : ℕ}

/-! ## The dimension numbers of `table[idx]` along the rows, and of the matching scatter -/

/-- Row gather of an [N, C] table at [E, 1] index words into [E, C]. -/
abbrev rowGather (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of a vector [N] at [E, 1] index words into [E]. -/
abbrev vecGather (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter of [E, C] updates into an [N, C] accumulator at [E, 1] index words. -/
abbrev rowScatter (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row an index word names in a gather: the word read signed, clamped into [0, N − 1]. -/
def clampRow (hN : 0 < N) (v : BitVec w) : Fin N := ⟨min v.toInt.toNat (N - 1), by omega⟩

/-- THE ROW GATHER READ AT (e, c): the table at row `clampRow (idx(e, 0))`, column c. -/
theorem rowGather_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow hN (idx (ix2 e (0 : Fin 1)))) c) := by
  unfold Host.gather
  congr 1
  funext a
  refine Fin.ext ?_
  have hsi : (rowGather N E C wf).siIdx (ix2 e c) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl), hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show ¬ (1 : Fin 2) ∈ (rowGather N E C wf).startIndexMap from
        fun h => absurd (congrArg Fin.val (List.mem_singleton.mp h)) Nat.one_ne_zero)]
    have ho : (rowGather N E C wf).offCoord (ix2 e c) 1 = c.val := by
      unfold GatherDims.offCoord
      rw [dif_pos (show (1 : Fin 2) ∈ (rowGather N E C wf).sKept from
        (GatherDims.mem_sKept _ _).mpr ⟨fun h => absurd (congrArg Fin.val (List.mem_singleton.mp h)) Nat.one_ne_zero, List.not_mem_nil⟩)]
      rfl
    rw [hs, ho]; omega

/-- THE VECTOR GATHER READ AT e: the vector at `clampRow (idx(e, 0))`. -/
theorem vecGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- WHERE A ROW SCATTER LANDS: update (e, c) lands on element i only if the index word of edge e, read signed, is
    i's row. -/
theorem rowScatter_lands (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : Int) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hstart : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hwin : (rowScatter N E C wf).window (ix2 e c) 0 = 0 := by
    unfold ScatterDims.window
    rw [dif_neg (show ¬ (0 : Fin 2) ∈ (rowScatter N E C wf).sKept from by
      simp [ScatterDims.sKept, Shape.kept, List.mem_filter])]
  unfold ScatterDims.resultIdx? at h
  split at h
  · rename_i hin
    have h0 := hin 0
    have hi : (fun a => (⟨((rowScatter N E C wf).start (ix2 e c) idx a + (rowScatter N E C wf).window (ix2 e c) a).toNat,
        by have := hin a; omega⟩ : Fin ((⟨2, ![N, C]⟩ : Shape).size a))) = i := Option.some.inj h
    have hv : ((rowScatter N E C wf).start (ix2 e c) idx 0 + (rowScatter N E C wf).window (ix2 e c) 0).toNat = (i 0).val := by
      rw [← hi]
    rw [hstart, hwin] at h0 hv
    omega
  · exact absurd h (by simp)

/-! ## A nonnegative real factor comes out of a finite sum of extended reals -/

theorem sum_mul_of_isNN {ι : Type*} (s : Finset ι) (f : ι → EReal) {d : EReal} (hd : IsNN d) :
    (∑ j ∈ s, f j) * d = ∑ j ∈ s, f j * d := by
  classical
  obtain ⟨r, hr, rfl⟩ := hd
  induction s using Finset.induction_on with
  | empty => simp
  | insert j s hj ih =>
    rw [Finset.sum_insert hj, Finset.sum_insert hj,
      EReal.right_distrib_of_nonneg_of_ne_top (EReal.coe_nonneg.mpr hr) (EReal.coe_ne_top r), ih]

/-! ## The law -/

/-- SCALE–GATHER–SCATTER–SCALE IS GATHER–SCALE BY BOTH ENDS–SCATTER, for a nonnegative real factor vector `D`.
    `DB` is `D` spread over the columns of [N, C]; `NB` is the per-edge product of the two gathered factors spread
    over the columns of [E, C]; `dst'` is the target index word as the reference's gather sees it, equal to the
    scatter's word `dst` whenever that word is a row of the table. -/
theorem conv_factor (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (P : FVec Ideal ⟨2, ![N, C]⟩ .f32) (D : FVec Ideal ⟨1, ![N]⟩ .f32) (hD : ∀ n, IsNN (D n))
    (Z : FVec Ideal ⟨2, ![N, C]⟩ .f32) (hZ : ∀ i, Z i = 0)
    (src dst dst' : IVec ⟨2, ![E, 1]⟩ w)
    (hdst : ∀ e : Fin E, ∀ n : Fin N, (dst (ix2 e (0 : Fin 1))).toInt = (n.val : Int) →
      dst' (ix2 e (0 : Fin 1)) = dst (ix2 e (0 : Fin 1)))
    (DB : FVec Ideal ⟨2, ![N, C]⟩ .f32) (hDB : ∀ n c, DB (ix2 n c) = D (ix1 n))
    (NB : FVec Ideal ⟨2, ![E, C]⟩ .f32)
    (hNB : ∀ e c, NB (ix2 e c) = Host.gather (vecGather N E wfv) D src (ix1 e) * Host.gather (vecGather N E wfv) D dst' (ix1 e)) :
    mulf (Host.scatterAdd (rowScatter N E C wfs) Z dst (Host.gather (rowGather N E C wfg) (mulf P DB) src)) DB
      = Host.scatterAdd (rowScatter N E C wfs) Z dst (mulf (Host.gather (rowGather N E C wfg) P src) NB) := by
  funext i
  obtain ⟨n, c, rfl⟩ : ∃ (n : Fin N) (c : Fin C), i = ix2 n c := ⟨i 0, i 1, eq_ix2 i⟩
  rw [mulf_apply, hDB]
  show (Z (ix2 n c) + ∑ j ∈ Finset.univ.filter (fun j => (rowScatter N E C wfs).resultIdx? j dst = some (ix2 n c)),
      Host.gather (rowGather N E C wfg) (mulf P DB) src j) * D (ix1 n)
    = Z (ix2 n c) + ∑ j ∈ Finset.univ.filter (fun j => (rowScatter N E C wfs).resultIdx? j dst = some (ix2 n c)),
      mulf (Host.gather (rowGather N E C wfg) P src) NB j
  rw [hZ, zero_add, zero_add, sum_mul_of_isNN _ _ (hD (ix1 n))]
  refine Finset.sum_congr rfl fun j hj => ?_
  obtain ⟨e, c', rfl⟩ : ∃ (e : Fin E) (c' : Fin C), j = ix2 e c' := ⟨j 0, j 1, eq_ix2 j⟩
  have hland : (dst (ix2 e (0 : Fin 1))).toInt = (n.val : Int) :=
    rowScatter_lands wfs dst e c' (ix2 n c) (Finset.mem_filter.mp hj).2
  have hw : dst' (ix2 e (0 : Fin 1)) = dst (ix2 e (0 : Fin 1)) := hdst e n hland
  have hrow : clampRow hN (dst' (ix2 e (0 : Fin 1))) = n := by
    refine Fin.ext ?_
    show min (dst' (ix2 e (0 : Fin 1))).toInt.toNat (N - 1) = n.val
    rw [hw, hland, Int.toNat_natCast]
    have hn : n.val < N := n.isLt
    omega
  rw [mulf_apply, rowGather_apply hN wfg, rowGather_apply hN wfg, mulf_apply, hDB, hNB,
    vecGather_apply hN wfv, vecGather_apply hN wfv, hrow, mul_assoc]

end Cert.GraphConv

end
-- ==== Proof.KerGather.lean ====
/-
  The row gather at a pair table. The program gathers rows of a [32,2048] array at the 496 words of a slot table; the
  index array it builds is the table itself (a select between "table + 32" and the table on an all-false selector),
  spread to [496,1]. Row p of the result is therefore the array's row at the slot the table's word p selects.
-/
import proofs.«126887_j40243843564182_2_alg».proof.Proof.Gen.KernelIdeal.Frame
import proofs.«126887_j40243843564182_2_alg».proof.Proof.Sym
import proofs.«126887_j40243843564182_2_alg».proof.Proof.LibGraphConv
import Idealize.ShloMosaic.Lib.Pipeline.Value
import Idealize.ShloMosaic.Lib.ValueIdx
import Idealize.ShloMosaic.PureOps.Ideal

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx

/-- The slot a gather reads for an index word on the axis of 32 slots is the pair's slot. -/
theorem clampRow_eq (v : BitVec 32) : Cert.GraphConv.clampRow (N := 32) (by decide) v = Cert.Sym.pairIdx v := Fin.ext rfl

/-- The program's gather record is the row gather of a [32,2048] table at [496,1] index words. -/
theorem gather_eq : gather_S32x2048_S496x1_S496x2048_1_0_n_n_0_1_12048
    = Cert.GraphConv.rowGather 32 496 2048 gather_S32x2048_S496x1_S496x2048_1_0_n_n_0_1_12048_wf := rfl

/-- The row gather through the program's index array, read at (p, col): the operand at the slot the table's word p
    selects, column col. -/
theorem pairGather_apply {α : Type} (x : S32x2048.Idx → α) (alt : S496.Idx → BitVec 32) (tbl : Fin 496 → BitVec 32)
    (p : Fin 496) (col : Fin 2048) :
    Host.gather gather_S32x2048_S496x1_S496x2048_1_0_n_n_0_1_12048 x
        (broadcastInDim S496x1 ![0] bcast_S496_S496x1_0
          (select (constantI S496 1 0#1) alt (fun i => tbl (S496.rowMajor i)))) (ix2 p col)
      = x (ix2 (Cert.Sym.pairIdx (tbl p)) col) := by
  rw [gather_eq, Cert.GraphConv.rowGather_apply (by decide), clampRow_eq]
  have hw : broadcastInDim S496x1 ![0] bcast_S496_S496x1_0
      (select (constantI S496 1 0#1) alt (fun i => tbl (S496.rowMajor i))) (ix2 p (0 : Fin 1)) = tbl p := by
    refine (broadcastInDim_apply _ _ _ (ix2 p (0 : Fin 1) : S496x1.Idx) (ix1 p : S496.Idx) fun a => ?_).trans ?_
    · match a with
      | ⟨0, _⟩ => rfl
    show Scalar.select (0#1) (alt (ix1 p)) (tbl (S496.rowMajor (ix1 p))) = tbl p
    rw [select_zero]
    exact congrArg tbl (Fin.ext (Shape.rowMajor_val_one _))
  rw [hw]

end Cert.KernelIdeal.KerValue

end
-- ==== Proof.KerArr23.lean ====
/-
  The third and fourth input arrays of the region, [496,2048]: entry (p, n) for an atom n < 2000 is the distance from
  atom n to the first, respectively the second, neighbour of pair p — rows of the distance array gathered at the two
  slot tables.
-/
import proofs.«126887_j40243843564182_2_alg».proof.Proof.KerTables
import proofs.«126887_j40243843564182_2_alg».proof.Proof.KerGather
import proofs.«126887_j40243843564182_2_alg».proof.Proof.KerArr0

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx Idealize.ShloMosaic.StableHlo

variable (m : (ℓ : Loc nD τ sig) → Buf (Elt Ideal) ℓ) (c : Dev nD)

set_option maxHeartbeats 4000000 in
/-- Row p of the third array is the distance array's row at the first slot of pair p. -/
theorem v44_apply (p : Fin 496) (col : Fin 2048) :
    (V m c main_v44 : S496x2048.Idx → EReal) (ix2 p col)
      = (V m c main_v35 : S32x2048.Idx → EReal) (ix2 (Cert.Sym.pairIdx (lit0 p)) col) := by
  pair_gather m c main_v44 10 main_v35 main_v43 9 main_v42 8 main_c_0 main_v41 main_c
  rw [sel0_eq, c_eq]
  exact pairGather_apply _ _ lit0 p col

set_option maxHeartbeats 4000000 in
/-- Row p of the fourth array is the distance array's row at the second slot of pair p. -/
theorem v49_apply (p : Fin 496) (col : Fin 2048) :
    (V m c main_v49 : S496x2048.Idx → EReal) (ix2 p col)
      = (V m c main_v35 : S32x2048.Idx → EReal) (ix2 (Cert.Sym.pairIdx (lit1 p)) col) := by
  pair_gather m c main_v49 16 main_v35 main_v48 15 main_v47 14 main_c_2 main_v46 main_c_1
  rw [sel2_eq, c1_eq]
  exact pairGather_apply _ _ lit1 p col

/-- Entry (p, n) of the third input array is the distance from atom n to the first neighbour of pair p. -/
theorem arr2 (n : Fin 2000) (p : Fin 496) :
    (V m c main_v44 : S496x2048.Idx → EReal) (ix2 p ⟨n.val, by omega⟩) = (geo m c).rij n p := by
  rw [v44_apply]
  exact arr0 m c n _

/-- Entry (p, n) of the fourth input array is the distance from atom n to the second neighbour of pair p. -/
theorem arr3 (n : Fin 2000) (p : Fin 496) :
    (V m c main_v49 : S496x2048.Idx → EReal) (ix2 p ⟨n.val, by omega⟩) = (geo m c).rik n p := by
  rw [v49_apply]
  exact arr0 m c n _

end Cert.KernelIdeal.KerValue

end
-- ==== Proof.KerComp.lean ====
/-
  The three component arrays of the region's prologue, [32,2048]: entry (k, n) of array d is coordinate d of the
  displacement from atom n to the neighbour in slot k — a unit-width slice of the displacement vectors at coordinate d,
  the unit axis dropped, padded to 2048 atoms, transposed.
-/
import proofs.«126887_j40243843564182_2_alg».proof.Proof.KerStep
import proofs.«126887_j40243843564182_2_alg».proof.Proof.KerGeo
import proofs.«126887_j40243843564182_2_alg».proof.Proof.KerLayout

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx Idealize.ShloMosaic.StableHlo Cert.KernelIdeal.KerLayout

variable (m : (ℓ : Loc nD τ sig) → Buf (Elt Ideal) ℓ) (c : Dev nD)

/-- A unit-width slice of the last axis at coordinate d, the unit axis dropped, read at (n, k): the operand at (n, k, d). -/
theorem slice_drop_apply {α : Type} (x : S2000x32x3.Idx → α) (off : Fin 3 → Nat) (d : Fin 3)
    (h0 : off 0 = 0) (h1 : off 1 = 0) (h2 : off 2 = d.val) (hs : S2000x32x3.Slices off S2000x32x1)
    (hc : S2000x32x1.ShapeCasts S2000x32) (n : Fin 2000) (k : Fin 32) :
    shapeCast S2000x32 (extractStridedSlice S2000x32x1 off x hs) hc (ix2 n k) = x (ix3 n k d) := by
  refine (shapeCast_apply _ _ (ix2 n k : S2000x32.Idx) (ix3 n k (0 : Fin 1) : S2000x32x1.Idx) ?_).trans ?_
  · rw [Shape.rowMajor_val_three, Shape.rowMajor_val_two]
    show (n.val * 32 + k.val) * 1 + 0 = n.val * 32 + k.val
    omega
  refine extractStridedSlice_apply _ _ _ (ix3 n k (0 : Fin 1) : S2000x32x1.Idx) (ix3 n k d : S2000x32x3.Idx) fun a => ?_
  match a with
  | ⟨0, _⟩ => show n.val = off 0 + n.val; rw [h0]; omega
  | ⟨1, _⟩ => show k.val = off 1 + k.val; rw [h1]; omega
  | ⟨2, _⟩ => show d.val = off 2 + 0; rw [h2]; omega

/-- Component 0: the transposed array. -/
theorem v37_eq : (V m c main_v37 : S32x2048.Idx → EReal)
    = transpose S32x2048 [1, 0] (V m c main_v28 : S2048x32.Idx → EReal) transposes_S2048x32_S32x2048_1_0 := by
  step1 m c 10 hostOps0_10 2 main_v37 main_v28

/-- Component 0: the padded array. -/
theorem v28_eq : (V m c main_v28 : S2048x32.Idx → EReal)
    = pad S2048x32 ![0, 0] ![48, 0] ![0, 0] (V m c main_v27 : S2000x32.Idx → EReal) (V m c main_cst_16 : S_.Idx → EReal)
        pads_S2000x32_S2048x32_0480_000 h_S_ := by
  rw [V_eq_Wk m c 6 main_v28 (by keeps), V_eq_Wk m c 5 main_v27 (by keeps), V_eq_Wk m c 5 main_cst_16 (by keeps), W_step5]
  generalize Wk m c 5 = W
  dsimp only [hostOps0_5]
  after_results
  rfl

/-- Component 0: coordinate 0 of the displacement vectors, the unit axis dropped. -/
theorem v27_eq : (V m c main_v27 : S2000x32.Idx → EReal)
    = shapeCast S2000x32 (extractStridedSlice S2000x32x1 ![0, 0, 0] (V m c main_v16 : S2000x32x3.Idx → EReal) slices_S2000x32x3_S2000x32x1_0_0_0)
        shapeCasts_S2000x32x1_S2000x32 := by
  rw [V_eq_Wk m c 5 main_v27 (by keeps), V_eq_Wk m c 4 main_v16 (by keeps), W_step4]
  generalize Wk m c 4 = W
  dsimp only [hostOps0_4]
  after_results
  rfl

/-- Entry (k, n) of component array 0 is coordinate 0 of the displacement from atom n to the neighbour in slot k. -/
theorem comp0 (n : Fin 2000) (k : Fin 32) :
    (V m c main_v37 : S32x2048.Idx → EReal) (ix2 k ⟨n.val, by omega⟩) = (geo m c).rv n k 0 := by
  have hn := n.isLt
  rw [v37_eq]
  refine (transpose_apply _ _ _ (ix2 k ⟨n.val, by omega⟩ : S32x2048.Idx) (ix2 ⟨n.val, by omega⟩ k : S2048x32.Idx) fun b => ?_).trans ?_
  · match b with
    | ⟨0, _⟩ => rfl
    | ⟨1, _⟩ => rfl
  rw [v28_eq]
  refine (pad_apply_inside _ _ _ _ _ _ _ (ix2 ⟨n.val, by omega⟩ k : S2048x32.Idx) (ix2 n k : S2000x32.Idx) fun a => ?_).trans ?_
  · match a with
    | ⟨0, _⟩ => exact ⟨Nat.zero_le _, by show (n.val - 0) % (0 + 1) = 0; omega, by show (n.val - 0) / (0 + 1) = n.val; omega⟩
    | ⟨1, _⟩ => exact ⟨Nat.zero_le _, by show (k.val - 0) % (0 + 1) = 0; omega, by show (k.val - 0) / (0 + 1) = k.val; omega⟩
  rw [v27_eq]
  exact slice_drop_apply _ ![0, 0, 0] (0 : Fin 3) rfl rfl rfl _ _ n k

/-- Component 1: the transposed array. -/
theorem v38_eq : (V m c main_v38 : S32x2048.Idx → EReal)
    = transpose S32x2048 [1, 0] (V m c main_v31 : S2048x32.Idx → EReal) transposes_S2048x32_S32x2048_1_0 := by
  step1 m c 10 hostOps0_10 3 main_v38 main_v31

/-- Component 1: the padded array. -/
theorem v31_eq : (V m c main_v31 : S2048x32.Idx → EReal)
    = pad S2048x32 ![0, 0] ![48, 0] ![0, 0] (V m c main_v30 : S2000x32.Idx → EReal) (V m c main_cst_17 : S_.Idx → EReal)
        pads_S2000x32_S2048x32_0480_000 h_S_ := by
  rw [V_eq_Wk m c 8 main_v31 (by keeps), V_eq_Wk m c 7 main_v30 (by keeps), V_eq_Wk m c 7 main_cst_17 (by keeps), W_step7]
  generalize Wk m c 7 = W
  dsimp only [hostOps0_7]
  after_results
  rfl

/-- Component 1: coordinate 1 of the displacement vectors, the unit axis dropped. -/
theorem v30_eq : (V m c main_v30 : S2000x32.Idx → EReal)
    = shapeCast S2000x32 (extractStridedSlice S2000x32x1 ![0, 0, 1] (V m c main_v16 : S2000x32x3.Idx → EReal) slices_S2000x32x3_S2000x32x1_0_0_1)
        shapeCasts_S2000x32x1_S2000x32 := by
  rw [V_eq_Wk m c 7 main_v30 (by keeps), V_eq_Wk m c 6 main_v16 (by keeps), W_step6]
  generalize Wk m c 6 = W
  dsimp only [hostOps0_6]
  after_results
  rfl

/-- Entry (k, n) of component array 1 is coordinate 1 of the displacement from atom n to the neighbour in slot k. -/
theorem comp1 (n : Fin 2000) (k : Fin 32) :
    (V m c main_v38 : S32x2048.Idx → EReal) (ix2 k ⟨n.val, by omega⟩) = (geo m c).rv n k 1 := by
  have hn := n.isLt
  rw [v38_eq]
  refine (transpose_apply _ _ _ (ix2 k ⟨n.val, by omega⟩ : S32x2048.Idx) (ix2 ⟨n.val, by omega⟩ k : S2048x32.Idx) fun b => ?_).trans ?_
  · match b with
    | ⟨0, _⟩ => rfl
    | ⟨1, _⟩ => rfl
  rw [v31_eq]
  refine (pad_apply_inside _ _ _ _ _ _ _ (ix2 ⟨n.val, by omega⟩ k : S2048x32.Idx) (ix2 n k : S2000x32.Idx) fun a => ?_).trans ?_
  · match a with
    | ⟨0, _⟩ => exact ⟨Nat.zero_le _, by show (n.val - 0) % (0 + 1) = 0; omega, by show (n.val - 0) / (0 + 1) = n.val; omega⟩
    | ⟨1, _⟩ => exact ⟨Nat.zero_le _, by show (k.val - 0) % (0 + 1) = 0; omega, by show (k.val - 0) / (0 + 1) = k.val; omega⟩
  rw [v30_eq]
  exact slice_drop_apply _ ![0, 0, 1] (1 : Fin 3) rfl rfl rfl _ _ n k

/-- Component 2: the transposed array. -/
theorem v39_eq : (V m c main_v39 : S32x2048.Idx → EReal)
    = transpose S32x2048 [1, 0] (V m c main_v34 : S2048x32.Idx → EReal) transposes_S2048x32_S32x2048_1_0 := by
  step1 m c 10 hostOps0_10 4 main_v39 main_v34

/-- Component 2: the padded array. -/
theorem v34_eq : (V m c main_v34 : S2048x32.Idx → EReal)
    = pad S2048x32 ![0, 0] ![48, 0] ![0, 0] (V m c main_v33 : S2000x32.Idx → EReal) (V m c main_cst_18 : S_.Idx → EReal)
        pads_S2000x32_S2048x32_0480_000 h_S_ := by
  rw [V_eq_Wk m c 10 main_v34 (by keeps), V_eq_Wk m c 9 main_v33 (by keeps), V_eq_Wk m c 9 main_cst_18 (by keeps), W_step9]
  generalize Wk m c 9 = W
  dsimp only [hostOps0_9]
  after_results
  rfl

/-- Component 2: coordinate 2 of the displacement vectors, the unit axis dropped. -/
theorem v33_eq : (V m c main_v33 : S2000x32.Idx → EReal)
    = shapeCast S2000x32 (extractStridedSlice S2000x32x1 ![0, 0, 2] (V m c main_v16 : S2000x32x3.Idx → EReal) slices_S2000x32x3_S2000x32x1_0_0_2)
        shapeCasts_S2000x32x1_S2000x32 := by
  rw [V_eq_Wk m c 9 main_v33 (by keeps), V_eq_Wk m c 8 main_v16 (by keeps), W_step8]
  generalize Wk m c 8 = W
  dsimp only [hostOps0_8]
  after_results
  rfl

/-- Entry (k, n) of component array 2 is coordinate 2 of the displacement from atom n to the neighbour in slot k. -/
theorem comp2 (n : Fin 2000) (k : Fin 32) :
    (V m c main_v39 : S32x2048.Idx → EReal) (ix2 k ⟨n.val, by omega⟩) = (geo m c).rv n k 2 := by
  have hn := n.isLt
  rw [v39_eq]
  refine (transpose_apply _ _ _ (ix2 k ⟨n.val, by omega⟩ : S32x2048.Idx) (ix2 ⟨n.val, by omega⟩ k : S2048x32.Idx) fun b => ?_).trans ?_
  · match b with
    | ⟨0, _⟩ => rfl
    | ⟨1, _⟩ => rfl
  rw [v34_eq]
  refine (pad_apply_inside _ _ _ _ _ _ _ (ix2 ⟨n.val, by omega⟩ k : S2048x32.Idx) (ix2 n k : S2000x32.Idx) fun a => ?_).trans ?_
  · match a with
    | ⟨0, _⟩ => exact ⟨Nat.zero_le _, by show (n.val - 0) % (0 + 1) = 0; omega, by show (n.val - 0) / (0 + 1) = n.val; omega⟩
    | ⟨1, _⟩ => exact ⟨Nat.zero_le _, by show (k.val - 0) % (0 + 1) = 0; omega, by show (k.val - 0) / (0 + 1) = k.val; omega⟩
  rw [v33_eq]
  exact slice_drop_apply _ ![0, 0, 2] (2 : Fin 3) rfl rfl rfl _ _ n k

end Cert.KernelIdeal.KerValue

end
-- ==== Proof.KerArr4.lean ====
/-
  Towards the fifth input array of the region, [496,2048], the squared distance between the two neighbours of a pair:
  per coordinate the component array's rows gathered at the second and at the first slot table, their difference, its
  square, and the three squares added left to right — each operation as an equation between buffer contents.
-/
import proofs.«126887_j40243843564182_2_alg».proof.Proof.KerTables
import proofs.«126887_j40243843564182_2_alg».proof.Proof.KerGather
import proofs.«126887_j40243843564182_2_alg».proof.Proof.KerComp

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx Idealize.ShloMosaic.StableHlo

variable (m : (ℓ : Loc nD τ sig) → Buf (Elt Ideal) ℓ) (c : Dev nD)

/-! ## The six gathers: per coordinate, the component array's rows at the second and at the first slot of each pair -/

set_option maxHeartbeats 4000000 in
theorem v64_apply (p : Fin 496) (col : Fin 2048) :
    (V m c main_v64 : S496x2048.Idx → EReal) (ix2 p col)
      = (V m c main_v37 : S32x2048.Idx → EReal) (ix2 (Cert.Sym.pairIdx (lit1 p)) col) := by
  pair_gather m c main_v64 34 main_v37 main_v63 33 main_v62 32 main_c_5 main_v61 main_c_1
  rw [sel5_eq, c1_eq]
  exact pairGather_apply _ _ lit1 p col

set_option maxHeartbeats 4000000 in
theorem v69_apply (p : Fin 496) (col : Fin 2048) :
    (V m c main_v69 : S496x2048.Idx → EReal) (ix2 p col)
      = (V m c main_v37 : S32x2048.Idx → EReal) (ix2 (Cert.Sym.pairIdx (lit0 p)) col) := by
  pair_gather m c main_v69 40 main_v37 main_v68 39 main_v67 38 main_c_6 main_v66 main_c
  rw [sel6_eq, c_eq]
  exact pairGather_apply _ _ lit0 p col

set_option maxHeartbeats 4000000 in
theorem v75_apply (p : Fin 496) (col : Fin 2048) :
    (V m c main_v75 : S496x2048.Idx → EReal) (ix2 p col)
      = (V m c main_v38 : S32x2048.Idx → EReal) (ix2 (Cert.Sym.pairIdx (lit1 p)) col) := by
  pair_gather m c main_v75 47 main_v38 main_v74 46 main_v73 45 main_c_7 main_v72 main_c_1
  rw [sel7_eq, c1_eq]
  exact pairGather_apply _ _ lit1 p col

set_option maxHeartbeats 4000000 in
theorem v80_apply (p : Fin 496) (col : Fin 2048) :
    (V m c main_v80 : S496x2048.Idx → EReal) (ix2 p col)
      = (V m c main_v38 : S32x2048.Idx → EReal) (ix2 (Cert.Sym.pairIdx (lit0 p)) col) := by
  pair_gather m c main_v80 53 main_v38 main_v79 52 main_v78 51 main_c_8 main_v77 main_c
  rw [sel8_eq, c_eq]
  exact pairGather_apply _ _ lit0 p col

set_option maxHeartbeats 4000000 in
theorem v86_apply (p : Fin 496) (col : Fin 2048) :
    (V m c main_v86 : S496x2048.Idx → EReal) (ix2 p col)
      = (V m c main_v39 : S32x2048.Idx → EReal) (ix2 (Cert.Sym.pairIdx (lit1 p)) col) := by
  pair_gather m c main_v86 60 main_v39 main_v85 59 main_v84 58 main_c_9 main_v83 main_c_1
  rw [sel9_eq, c1_eq]
  exact pairGather_apply _ _ lit1 p col

set_option maxHeartbeats 4000000 in
theorem v91_apply (p : Fin 496) (col : Fin 2048) :
    (V m c main_v91 : S496x2048.Idx → EReal) (ix2 p col)
      = (V m c main_v39 : S32x2048.Idx → EReal) (ix2 (Cert.Sym.pairIdx (lit0 p)) col) := by
  pair_gather m c main_v91 66 main_v39 main_v90 65 main_v89 64 main_c_10 main_v88 main_c
  rw [sel10_eq, c_eq]
  exact pairGather_apply _ _ lit0 p col

/-! ## The differences, their squares and the sum -/

theorem v70_eq : (V m c main_v70 : S496x2048.Idx → EReal)
    = subf (F := Ideal) (φ := .f32) (V m c main_v64 : S496x2048.Idx → EReal) (V m c main_v69 : S496x2048.Idx → EReal) := by
  step2 m c 10 hostOps0_10 41 main_v70 main_v64 main_v69
theorem v81_eq : (V m c main_v81 : S496x2048.Idx → EReal)
    = subf (F := Ideal) (φ := .f32) (V m c main_v75 : S496x2048.Idx → EReal) (V m c main_v80 : S496x2048.Idx → EReal) := by
  step2 m c 10 hostOps0_10 54 main_v81 main_v75 main_v80
theorem v92_eq : (V m c main_v92 : S496x2048.Idx → EReal)
    = subf (F := Ideal) (φ := .f32) (V m c main_v86 : S496x2048.Idx → EReal) (V m c main_v91 : S496x2048.Idx → EReal) := by
  step2 m c 10 hostOps0_10 67 main_v92 main_v86 main_v91
theorem v93_eq : (V m c main_v93 : S496x2048.Idx → EReal)
    = mulf (F := Ideal) (φ := .f32) (V m c main_v70 : S496x2048.Idx → EReal) (V m c main_v70 : S496x2048.Idx → EReal) := by
  step2same m c 10 hostOps0_10 68 main_v93 main_v70
theorem v94_eq : (V m c main_v94 : S496x2048.Idx → EReal)
    = mulf (F := Ideal) (φ := .f32) (V m c main_v81 : S496x2048.Idx → EReal) (V m c main_v81 : S496x2048.Idx → EReal) := by
  step2same m c 10 hostOps0_10 69 main_v94 main_v81
theorem v95_eq : (V m c main_v95 : S496x2048.Idx → EReal)
    = addf (F := Ideal) (φ := .f32) (V m c main_v93 : S496x2048.Idx → EReal) (V m c main_v94 : S496x2048.Idx → EReal) := by
  step2 m c 10 hostOps0_10 70 main_v95 main_v93 main_v94
theorem v96_eq : (V m c main_v96 : S496x2048.Idx → EReal)
    = mulf (F := Ideal) (φ := .f32) (V m c main_v92 : S496x2048.Idx → EReal) (V m c main_v92 : S496x2048.Idx → EReal) := by
  step2same m c 10 hostOps0_10 71 main_v96 main_v92
theorem v97_eq : (V m c main_v97 : S496x2048.Idx → EReal)
    = addf (F := Ideal) (φ := .f32) (V m c main_v95 : S496x2048.Idx → EReal) (V m c main_v96 : S496x2048.Idx → EReal) := by
  step2 m c 10 hostOps0_10 72 main_v97 main_v95 main_v96

end Cert.KernelIdeal.KerValue

end
-- ==== Proof.KerArr4At.lean ====
/-
  The fifth input array of the region, [496,2048]: entry (p, n) for an atom n < 2000 is the squared distance between
  the two neighbours of pair p of atom n — per coordinate the second neighbour's displacement minus the first's,
  squared, the three squares added left to right.
-/
import proofs.«126887_j40243843564182_2_alg».proof.Proof.KerArr4

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx

variable (m : (ℓ : Loc nD τ sig) → Buf (Elt Ideal) ℓ) (c : Dev nD)

/-- Entry (p, n) of the fifth input array is the squared distance between the two neighbours of pair p of atom n. -/
theorem arr4 (n : Fin 2000) (p : Fin 496) :
    (V m c main_v97 : S496x2048.Idx → EReal) (ix2 p ⟨n.val, by omega⟩) = (geo m c).rjksqChain n p := by
  rw [v97_eq, v95_eq, v96_eq, v93_eq, v94_eq, v70_eq, v81_eq, v92_eq]
  simp only [addf_apply, mulf_apply, subf_apply]
  rw [v64_apply, v69_apply, v75_apply, v80_apply, v86_apply, v91_apply]
  rw [comp0 m c n (Cert.Sym.pairIdx (lit1 p)), comp0 m c n (Cert.Sym.pairIdx (lit0 p)),
    comp1 m c n (Cert.Sym.pairIdx (lit1 p)), comp1 m c n (Cert.Sym.pairIdx (lit0 p)),
    comp2 m c n (Cert.Sym.pairIdx (lit1 p)), comp2 m c n (Cert.Sym.pairIdx (lit0 p))]
  rfl

end Cert.KernelIdeal.KerValue

end
-- ==== Proof.KerArr5.lean ====
/-
  The sixth input array of the region, [496,2048]: entry (p, n) for an atom n < 2000 is 1 if the triangle of atom n
  and the two neighbours of pair p counts — both slots' 0/1 counts exceed one half and the two neighbours are within
  the radius 8 of each other, their distance being the guarded square root of the squared distance — else 0.
-/
import proofs.«126887_j40243843564182_2_alg».proof.Proof.KerTables
import proofs.«126887_j40243843564182_2_alg».proof.Proof.KerGather
import proofs.«126887_j40243843564182_2_alg».proof.Proof.KerArr1
import proofs.«126887_j40243843564182_2_alg».proof.Proof.KerArr4At

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx Idealize.ShloMosaic.StableHlo

variable (m : (ℓ : Loc nD τ sig) → Buf (Elt Ideal) ℓ) (c : Dev nD)

/-! ## The two slots' counts: rows of the count array at the first and at the second slot of each pair -/

set_option maxHeartbeats 4000000 in
theorem v54_apply (p : Fin 496) (col : Fin 2048) :
    (V m c main_v54 : S496x2048.Idx → EReal) (ix2 p col)
      = (V m c main_v36 : S32x2048.Idx → EReal) (ix2 (Cert.Sym.pairIdx (lit0 p)) col) := by
  pair_gather m c main_v54 22 main_v36 main_v53 21 main_v52 20 main_c_3 main_v51 main_c
  rw [sel3_eq, c_eq]
  exact pairGather_apply _ _ lit0 p col

set_option maxHeartbeats 4000000 in
theorem v59_apply (p : Fin 496) (col : Fin 2048) :
    (V m c main_v59 : S496x2048.Idx → EReal) (ix2 p col)
      = (V m c main_v36 : S32x2048.Idx → EReal) (ix2 (Cert.Sym.pairIdx (lit1 p)) col) := by
  pair_gather m c main_v59 28 main_v36 main_v58 27 main_v57 26 main_c_4 main_v56 main_c_1
  rw [sel4_eq, c1_eq]
  exact pairGather_apply _ _ lit1 p col

/-! ## The guarded square root of the squared distance, operation by operation -/

theorem cst29_eq : (V m c main_cst_29 : S_.Idx → EReal) = constant (F := Ideal) S_ .f32 0x00000000#32 := by
  step0 m c 10 hostOps0_10 73 main_cst_29
theorem v98_eq : (V m c main_v98 : S496x2048.Idx → EReal)
    = broadcastInDim S496x2048 ![] bcast_S_S496x2048 (V m c main_cst_29 : S_.Idx → EReal) := by
  step1 m c 10 hostOps0_10 74 main_v98 main_cst_29
theorem v99_eq : (V m c main_v99 : S496x2048.Idx → BitVec 1)
    = cmpf (F := Ideal) (φ := .f32) .ogt (V m c main_v97 : S496x2048.Idx → EReal) (V m c main_v98 : S496x2048.Idx → EReal) := by
  step2 m c 10 hostOps0_10 75 main_v99 main_v97 main_v98
theorem cst30_eq : (V m c main_cst_30 : S_.Idx → EReal) = constant (F := Ideal) S_ .f32 0x00000000#32 := by
  step0 m c 10 hostOps0_10 76 main_cst_30
theorem v100_eq : (V m c main_v100 : S496x2048.Idx → EReal)
    = broadcastInDim S496x2048 ![] bcast_S_S496x2048 (V m c main_cst_30 : S_.Idx → EReal) := by
  step1 m c 10 hostOps0_10 77 main_v100 main_cst_30
theorem v101_eq : (V m c main_v101 : S496x2048.Idx → BitVec 1)
    = cmpf (F := Ideal) (φ := .f32) .ogt (V m c main_v97 : S496x2048.Idx → EReal) (V m c main_v100 : S496x2048.Idx → EReal) := by
  step2 m c 10 hostOps0_10 78 main_v101 main_v97 main_v100
theorem cst31_eq : (V m c main_cst_31 : S_.Idx → EReal) = constant (F := Ideal) S_ .f32 0x3F800000#32 := by
  step0 m c 10 hostOps0_10 79 main_cst_31

/-- The squared distance where positive, else 1. -/
theorem v102_eq : (V m c main_v102 : S496x2048.Idx → EReal)
    = select (V m c main_v101 : S496x2048.Idx → BitVec 1) (V m c main_v97 : S496x2048.Idx → EReal)
        (broadcastInDim S496x2048 ![] bcast_S_S496x2048 (V m c main_cst_31 : S_.Idx → EReal)) := by
  rw [V_eq_Wk m c 12 main_v102 (by keeps), V_eq_Wk m c 11 main_v101 (by keeps), V_eq_Wk m c 11 main_v97 (by keeps),
    V_eq_Wk m c 11 main_cst_31 (by keeps), W_step11]
  generalize Wk m c 11 = W
  dsimp only [hostOps0_11]
  after_results
  rfl

theorem v103_eq : (V m c main_v103 : S496x2048.Idx → EReal)
    = Host.sqrt (F := Ideal) (φ := .f32) (V m c main_v102 : S496x2048.Idx → EReal) := by
  step1 m c 12 hostOps0_12 0 main_v103 main_v102
theorem cst32_eq : (V m c main_cst_32 : S_.Idx → EReal) = constant (F := Ideal) S_ .f32 0x00000000#32 := by
  step0 m c 12 hostOps0_12 1 main_cst_32

/-- Its square root where the squared distance is positive, else 0. -/
theorem v104_eq : (V m c main_v104 : S496x2048.Idx → EReal)
    = select (V m c main_v99 : S496x2048.Idx → BitVec 1) (V m c main_v103 : S496x2048.Idx → EReal)
        (broadcastInDim S496x2048 ![] bcast_S_S496x2048 (V m c main_cst_32 : S_.Idx → EReal)) := by
  rw [V_eq_Wk m c 14 main_v104 (by keeps), V_eq_Wk m c 13 main_v99 (by keeps), V_eq_Wk m c 13 main_v103 (by keeps),
    V_eq_Wk m c 13 main_cst_32 (by keeps), W_step13]
  generalize Wk m c 13 = W
  dsimp only [hostOps0_13]
  after_results
  rfl

/-- The triangle's count as a number, from the two slots' counts and the guarded distance. -/
theorem v113_eq : (V m c main_v113 : S496x2048.Idx → EReal)
    = uitofp (F := Ideal) .f32
        (andi
          (andi
            (cmpf (F := Ideal) (φ := .f32) .ogt (V m c main_v54 : S496x2048.Idx → EReal)
              (broadcastInDim S496x2048 ![] bcast_S_S496x2048 (constant (F := Ideal) S_ .f32 0x3F000000#32)))
            (cmpf (F := Ideal) (φ := .f32) .ogt (V m c main_v59 : S496x2048.Idx → EReal)
              (broadcastInDim S496x2048 ![] bcast_S_S496x2048 (constant (F := Ideal) S_ .f32 0x3F000000#32))))
          (cmpf (F := Ideal) (φ := .f32) .ole (V m c main_v104 : S496x2048.Idx → EReal)
            (broadcastInDim S496x2048 ![] bcast_S_S496x2048 (constant (F := Ideal) S_ .f32 0x41000000#32)))) := by
  rw [V_eq_Wk m c 15 main_v113 (by keeps), V_eq_Wk m c 14 main_v54 (by keeps), V_eq_Wk m c 14 main_v59 (by keeps),
    V_eq_Wk m c 14 main_v104 (by keeps), W_step14]
  generalize Wk m c 14 = W
  dsimp only [hostOps0_14]
  after_results

/-- The whole chain at one index, over any three arrays: the two counts `a`, `b` and the squared distance `s`. -/
theorem tri_point (a b s : S496x2048.Idx → EReal) (i : S496x2048.Idx) :
    uitofp (F := Ideal) .f32
        (andi
          (andi
            (cmpf (F := Ideal) (φ := .f32) .ogt a
              (broadcastInDim S496x2048 ![] bcast_S_S496x2048 (constant (F := Ideal) S_ .f32 0x3F000000#32)))
            (cmpf (F := Ideal) (φ := .f32) .ogt b
              (broadcastInDim S496x2048 ![] bcast_S_S496x2048 (constant (F := Ideal) S_ .f32 0x3F000000#32))))
          (cmpf (F := Ideal) (φ := .f32) .ole
            (select (cmpf (F := Ideal) (φ := .f32) .ogt s (broadcastInDim S496x2048 ![] bcast_S_S496x2048 (constant (F := Ideal) S_ .f32 0x00000000#32)))
              (Host.sqrt (F := Ideal) (φ := .f32)
                (select (cmpf (F := Ideal) (φ := .f32) .ogt s (broadcastInDim S496x2048 ![] bcast_S_S496x2048 (constant (F := Ideal) S_ .f32 0x00000000#32)))
                  s (broadcastInDim S496x2048 ![] bcast_S_S496x2048 (constant (F := Ideal) S_ .f32 0x3F800000#32))))
              (broadcastInDim S496x2048 ![] bcast_S_S496x2048 (constant (F := Ideal) S_ .f32 0x00000000#32)))
            (broadcastInDim S496x2048 ![] bcast_S_S496x2048 (constant (F := Ideal) S_ .f32 0x41000000#32)))) i
      = Cert.Sym.bitR
          (IntOp.andi
            (IntOp.andi (Ideal.cmp .ogt (a i) (Cert.Sym.lit 0x3F000000#32)) (Ideal.cmp .ogt (b i) (Cert.Sym.lit 0x3F000000#32)))
            (Ideal.cmp .ole (Cert.Sym.guardSqrt (s i)) (Cert.Sym.lit 0x41000000#32))) := rfl

/-- Entry (p, n) of the sixth input array is the 0/1 count of the triangle of atom n and pair p. -/
theorem arr5 (n : Fin 2000) (p : Fin 496) :
    (V m c main_v113 : S496x2048.Idx → EReal) (ix2 p ⟨n.val, by omega⟩)
      = Cert.Sym.bitR ((geo m c).triHalf n p ((geo m c).rjksqChain n p)) := by
  rw [v113_eq, v104_eq, v103_eq, v102_eq, v99_eq, v101_eq, v98_eq, v100_eq, cst29_eq, cst30_eq, cst31_eq, cst32_eq, tri_point,
    v54_apply, v59_apply, arr4]
  rw [arr1 m c n (Cert.Sym.pairIdx (lit0 p)), arr1 m c n (Cert.Sym.pairIdx (lit1 p))]
  rfl

end Cert.KernelIdeal.KerValue

end
-- ==== Proof.LibColReduce.lean ====
/-
  Reductions of a matrix read at an index, with the accumulator's word spelt out.

  A device reduction carries a proof that its accumulator word is the reduction's neutral element. In a printed
  program that proof is the reflexivity of the literal word (the all-zero word for a sum, the word of minus infinity
  for a maximum), and a rewriting lemma has to state its hypothesis at that literal word to meet it. Here: the sum
  over axis 1 of an [n, m] matrix at row p is the sum of the row; the maximum over axis 1 is the fold of max from the
  accumulator's value over the row; the sum over axis 0 at column d is the sum of the column.
-/
import Idealize.ShloMosaic.Lib.ValueIdx
import Idealize.ShloMosaic.PureOps.Ideal.Laws

noncomputable section

namespace Cert.LibColReduce

open Idealize.ShloMosaic Idealize.ShloMosaic.ValueIdx

variable {n m : ℕ}

/-- Over row p, the operand index with second coordinate k is (p, k). -/
theorem lift_row (h : (⟨2, ![n, m]⟩ : Shape).Reduces [(1 : Fin 2)] ⟨1, ![n]⟩) (p : Fin n) (k : Fin m) :
    h.lift (ix1 p) k = ix2 p k := by
  funext c
  apply Fin.ext
  show h.liftVal (ix1 p) k.val c = (ix2 p k c).val
  unfold Shape.Reduces.liftVal
  match c with
  | ⟨0, _⟩ => rw [dif_neg (by simp), dif_pos (by simp)]
  | ⟨1, _⟩ => rw [dif_pos (by simp)]

/-- Over column d, the operand index with first coordinate r is (r, d). -/
theorem lift_col (h : (⟨2, ![n, m]⟩ : Shape).Reduces [(0 : Fin 2)] ⟨1, ![m]⟩) (d : Fin m) (r : Fin n) :
    h.lift (ix1 d) r = ix2 r d := by
  funext c
  apply Fin.ext
  show h.liftVal (ix1 d) r.val c = (ix2 r d c).val
  unfold Shape.Reduces.liftVal
  match c with
  | ⟨0, _⟩ => rw [dif_pos (by simp)]
  | ⟨1, _⟩ => rw [dif_neg (by simp), dif_neg (by simp)]; rfl

/-- The f32 sum over axis 1 into the zero word, at row p: the sum of the row. -/
theorem add_row (src : FVec Ideal ⟨2, ![n, m]⟩ .f32) (h : (⟨2, ![n, m]⟩ : Shape).Reduces [(1 : Fin 2)] ⟨1, ![n]⟩)
    (hφ : FKind.Formats .f32) (hacc : (0x00000000#32 : BitVec 32) = 0x00000000#32) (p : Fin n) :
    multiReduction .add [(1 : Fin 2)] ⟨1, ![n]⟩ src 0x00000000#32 h hφ hacc (ix1 p) = ∑ k : Fin m, src (ix2 p k) := by
  refine (Ideal.multiReduction_add_single src 0x00000000#32 h hφ hacc (ix1 p)).trans ?_
  show ∑ k : Fin m, src (h.lift (ix1 p) k) = _
  exact Finset.sum_congr rfl fun k _ => congrArg src (lift_row h p k)

/-- The f32 maximum over axis 1 from the word of minus infinity, at row p: the fold of max over the row. -/
theorem max_row (src : FVec Ideal ⟨2, ![n, m]⟩ .f32) (h : (⟨2, ![n, m]⟩ : Shape).Reduces [(1 : Fin 2)] ⟨1, ![n]⟩)
    (hφ : FKind.Formats .f32) (hacc : (0xFF800000#32 : BitVec 32) = 0xFF800000#32) (p : Fin n) :
    multiReduction .maximumf [(1 : Fin 2)] ⟨1, ![n]⟩ src 0xFF800000#32 h hφ hacc (ix1 p)
      = (Finset.univ : Finset (Fin m)).fold max (Ideal.ofBits .f32 0xFF800000#32) (fun k => src (ix2 p k)) := by
  refine (Ideal.multiReduction_maximumf_single src 0xFF800000#32 h hφ hacc (ix1 p)).trans ?_
  show (Finset.univ : Finset (Fin m)).fold max (Ideal.ofBits .f32 0xFF800000#32) (src ∘ h.lift (ix1 p)) = _
  exact congrArg (fun g => (Finset.univ : Finset (Fin m)).fold max (Ideal.ofBits .f32 0xFF800000#32) g)
    (funext fun k => congrArg src (lift_row h p k))

/-- The f32 sum over axis 0 into the zero word, at column d: the sum of the column. -/
theorem add_col (src : FVec Ideal ⟨2, ![n, m]⟩ .f32) (h : (⟨2, ![n, m]⟩ : Shape).Reduces [(0 : Fin 2)] ⟨1, ![m]⟩)
    (hφ : FKind.Formats .f32) (hacc : (0x00000000#32 : BitVec 32) = 0x00000000#32) (d : Fin m) :
    multiReduction .add [(0 : Fin 2)] ⟨1, ![m]⟩ src 0x00000000#32 h hφ hacc (ix1 d) = ∑ r : Fin n, src (ix2 r d) := by
  refine (Ideal.multiReduction_add_single src 0x00000000#32 h hφ hacc (ix1 d)).trans ?_
  show ∑ r : Fin n, src (h.lift (ix1 d) r) = _
  exact Finset.sum_congr rfl fun r _ => congrArg src (lift_col h d r)

end Cert.LibColReduce

end
-- ==== Proof.KerPayLib.lean ====
/-
  Reading the pieces of a stacked block: a [R, 256] array summed down its columns and set as a [1, 256] slab, a list
  of such slabs stacked along the rows, and the two-part stack of an 8-row and a 43-row block.
-/
import proofs.«126887_j40243843564182_2_alg».proof.KernelIdeal
import proofs.«126887_j40243843564182_2_alg».proof.Proof.LibColReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KerPay

open Idealize.ShloMosaic Idealize.ShloMosaic.ValueIdx Cert.KernelIdeal

/-- The offsets (0, 0) are the zero offsets. -/
theorem hz2 : (![0, 0] : Fin 2 → Nat) = fun _ => 0 := by funext a; fin_cases a <;> rfl

/-- The column sums of a [R, 256] array, set as a one-row slab, read at lane q: the sum of column q. -/
theorem slab_apply {R : ℕ} (src : FVec Ideal ⟨2, ![R, 256]⟩ .f32)
    (h : (⟨2, ![R, 256]⟩ : Shape).Reduces [(0 : Fin 2)] ⟨1, ![256]⟩) (hφ : FKind.Formats .f32)
    (hacc : (0x00000000#32 : BitVec 32) = 0x00000000#32)
    (hc : (⟨1, ![256]⟩ : Shape).ShapeCasts ⟨2, ![1, 256]⟩) (u : Fin 1) (q : Fin 256) :
    shapeCast ⟨2, ![1, 256]⟩ (multiReduction .add [(0 : Fin 2)] ⟨1, ![256]⟩ src 0x00000000#32 h hφ hacc) hc (ix2 u q)
      = ∑ p : Fin R, src (ix2 p q) := by
  rw [shapeCast_a_1a_apply]
  exact Cert.LibColReduce.add_col src h hφ hacc q

/-- The extents along the rows of the first k of N one-row slabs add up to k. -/
theorem pre_sum (xs : List ((s : Shape) × (s.Idx → EReal))) (N k : ℕ) (hk : k ≤ N)
    (hmap : xs.map (·.1) = List.replicate N (⟨2, ![1, 256]⟩ : Shape)) :
    (((xs.take k).map (·.1)).map fun s => if h : s.rank = 2 then s.size ((0 : Fin 2).cast h.symm) else 0).sum = k := by
  have h1 : (if h : (⟨2, ![1, 256]⟩ : Shape).rank = 2 then (⟨2, ![1, 256]⟩ : Shape).size ((0 : Fin 2).cast h.symm) else 0) = 1 := rfl
  rw [List.map_take, hmap, List.take_replicate, List.map_replicate, List.sum_replicate, h1, smul_eq_mul, mul_one,
    Nat.min_eq_left hk]

/-- A stack of N one-row slabs along the rows, read at row k and lane q: the k-th slab at lane q. -/
theorem slabs_apply {N : ℕ} (xs : List ((s : Shape) × (s.Idx → EReal)))
    (h : Shape.Concatenates (xs.map (·.1)) ⟨2, ![N, 256]⟩ (0 : Fin 2)) (k : Fin N) (x : (⟨2, ![1, 256]⟩ : Shape).Idx → EReal)
    (hmap : xs.map (·.1) = List.replicate N (⟨2, ![1, 256]⟩ : Shape))
    (hxk : xs[k.val]? = some ⟨⟨2, ![1, 256]⟩, x⟩) (q : Fin 256) :
    concatenate ⟨2, ![N, 256]⟩ (0 : Fin 2) xs h (ix2 k q) = x (ix2 (0 : Fin 1) q) := by
  have hlen : xs.length = N := by
    have := congrArg List.length hmap
    rwa [List.length_map, List.length_replicate] at this
  have hk : k.val < xs.length := hlen ▸ k.isLt
  have hxk' : xs[k.val] = ⟨⟨2, ![1, 256]⟩, x⟩ := by
    have := List.getElem?_eq_getElem hk
    rw [hxk] at this
    exact (Option.some.inj this).symm
  refine concatenate_apply_piece (0 : Fin 2) xs h (ix2 k q) k.val hk ⟨2, ![1, 256]⟩ x hxk' rfl k.val
    (pre_sum xs N k.val (Nat.le_of_lt k.isLt) hmap) (ix2 (0 : Fin 1) q) ?_ ?_
  · intro b hb
    match b, hb with
    | ⟨0, _⟩, hb => exact absurd rfl hb
    | ⟨1, _⟩, _ => rfl
  · show k.val + 0 = k.val
    rfl

end Cert.KernelIdeal.KerPay
-- ==== Proof.KerPay2RowsA.lean ====
import proofs.«126887_j40243843564182_2_alg».proof.Proof.Gen.KernelIdeal.Skeleton
import proofs.«126887_j40243843564182_2_alg».proof.Proof.KerPayLib

set_option maxRecDepth 16384
open Idealize.ShloMosaic Idealize.ShloMosaic.ValueIdx Cert.KernelIdeal Cert.KernelIdeal.Gen
noncomputable section
namespace Cert.KernelIdeal.KerPay

variable (v189 v192 v195 v198 v201 v204 v211 v214 v217 v220 v223 v226 v233 v236 v239 v242 v245 v248 v255 v258 v261 v264 v267 v270 v277 v280 v283 v286 v289 v292 v299 v302 v305 v308 : FVec Ideal S1x256 .f32) (v309 v312 v319 v322 v325 v328 v331 v334 v337 : FVec Ideal S496x256 .f32) (q : Fin 256)

/-- Row 0 of the 43-row stack: its argument number 0, a one-row slab. -/
theorem pay2_row_0 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨0, by decide⟩ : Fin 43) q : S43x256.Idx)
    = v189 (ix2 (0 : Fin 1) q : S1x256.Idx) := by
  unfold k0_pay2
  refine (slabs_apply _ _ (⟨0, by decide⟩ : Fin 43) ?x ?hmap ?hxk q).trans ?main
  case hxk => rfl
  case hmap => rfl
  rfl

/-- Row 1 of the 43-row stack: its argument number 1, a one-row slab. -/
theorem pay2_row_1 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨1, by decide⟩ : Fin 43) q : S43x256.Idx)
    = v192 (ix2 (0 : Fin 1) q : S1x256.Idx) := by
  unfold k0_pay2
  refine (slabs_apply _ _ (⟨1, by decide⟩ : Fin 43) ?x ?hmap ?hxk q).trans ?main
  case hxk => rfl
  case hmap => rfl
  rfl

/-- Row 2 of the 43-row stack: its argument number 2, a one-row slab. -/
theorem pay2_row_2 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨2, by decide⟩ : Fin 43) q : S43x256.Idx)
    = v195 (ix2 (0 : Fin 1) q : S1x256.Idx) := by
  unfold k0_pay2
  refine (slabs_apply _ _ (⟨2, by decide⟩ : Fin 43) ?x ?hmap ?hxk q).trans ?main
  case hxk => rfl
  case hmap => rfl
  rfl

/-- Row 3 of the 43-row stack: its argument number 3, a one-row slab. -/
theorem pay2_row_3 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨3, by decide⟩ : Fin 43) q : S43x256.Idx)
    = v198 (ix2 (0 : Fin 1) q : S1x256.Idx) := by
  unfold k0_pay2
  refine (slabs_apply _ _ (⟨3, by decide⟩ : Fin 43) ?x ?hmap ?hxk q).trans ?main
  case hxk => rfl
  case hmap => rfl
  rfl

/-- Row 4 of the 43-row stack: its argument number 4, a one-row slab. -/
theorem pay2_row_4 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨4, by decide⟩ : Fin 43) q : S43x256.Idx)
    = v201 (ix2 (0 : Fin 1) q : S1x256.Idx) := by
  unfold k0_pay2
  refine (slabs_apply _ _ (⟨4, by decide⟩ : Fin 43) ?x ?hmap ?hxk q).trans ?main
  case hxk => rfl
  case hmap => rfl
  rfl

/-- Row 5 of the 43-row stack: its argument number 5, a one-row slab. -/
theorem pay2_row_5 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨5, by decide⟩ : Fin 43) q : S43x256.Idx)
    = v204 (ix2 (0 : Fin 1) q : S1x256.Idx) := by
  unfold k0_pay2
  refine (slabs_apply _ _ (⟨5, by decide⟩ : Fin 43) ?x ?hmap ?hxk q).trans ?main
  case hxk => rfl
  case hmap => rfl
  rfl

/-- Row 6 of the 43-row stack: its argument number 6, a one-row slab. -/
theorem pay2_row_6 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨6, by decide⟩ : Fin 43) q : S43x256.Idx)
    = v211 (ix2 (0 : Fin 1) q : S1x256.Idx) := by
  unfold k0_pay2
  refine (slabs_apply _ _ (⟨6, by decide⟩ : Fin 43) ?x ?hmap ?hxk q).trans ?main
  case hxk => rfl
  case hmap => rfl
  rfl

/-- Row 7 of the 43-row stack: its argument number 7, a one-row slab. -/
theorem pay2_row_7 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨7, by decide⟩ : Fin 43) q : S43x256.Idx)
    = v214 (ix2 (0 : Fin 1) q : S1x256.Idx) := by
  unfold k0_pay2
  refine (slabs_apply _ _ (⟨7, by decide⟩ : Fin 43) ?x ?hmap ?hxk q).trans ?main
  case hxk => rfl
  case hmap => rfl
  rfl

/-- Row 8 of the 43-row stack: its argument number 8, a one-row slab. -/
theorem pay2_row_8 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨8, by decide⟩ : Fin 43) q : S43x256.Idx)
    = v217 (ix2 (0 : Fin 1) q : S1x256.Idx) := by
  unfold k0_pay2
  refine (slabs_apply _ _ (⟨8, by decide⟩ : Fin 43) ?x ?hmap ?hxk q).trans ?main
  case hxk => rfl
  case hmap => rfl
  rfl

/-- Row 9 of the 43-row stack: its argument number 9, a one-row slab. -/
theorem pay2_row_9 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨9, by decide⟩ : Fin 43) q : S43x256.Idx)
    = v220 (ix2 (0 : Fin 1) q : S1x256.Idx) := by
  unfold k0_pay2
  refine (slabs_apply _ _ (⟨9, by decide⟩ : Fin 43) ?x ?hmap ?hxk q).trans ?main
  case hxk => rfl
  case hmap => rfl
  rfl

/-- Row 10 of the 43-row stack: its argument number 10, a one-row slab. -/
theorem pay2_row_10 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨10, by decide⟩ : Fin 43) q : S43x256.Idx)
    = v223 (ix2 (0 : Fin 1) q : S1x256.Idx) := by
  unfold k0_pay2
  refine (slabs_apply _ _ (⟨10, by decide⟩ : Fin 43) ?x ?hmap ?hxk q).trans ?main
  case hxk => rfl
  case hmap => rfl
  rfl

/-- Row 11 of the 43-row stack: its argument number 11, a one-row slab. -/
theorem pay2_row_11 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨11, by decide⟩ : Fin 43) q : S43x256.Idx)
    = v226 (ix2 (0 : Fin 1) q : S1x256.Idx) := by
  unfold k0_pay2
  refine (slabs_apply _ _ (⟨11, by decide⟩ : Fin 43) ?x ?hmap ?hxk q).trans ?main
  case hxk => rfl
  case hmap => rfl
  rfl

/-- Row 12 of the 43-row stack: its argument number 12, a one-row slab. -/
theorem pay2_row_12 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨12, by decide⟩ : Fin 43) q : S43x256.Idx)
    = v233 (ix2 (0 : Fin 1) q : S1x256.Idx) := by
  unfold k0_pay2
  refine (slabs_apply _ _ (⟨12, by decide⟩ : Fin 43) ?x ?hmap ?hxk q).trans ?main
  case hxk => rfl
  case hmap => rfl
  rfl

/-- Row 13 of the 43-row stack: its argument number 13, a one-row slab. -/
theorem pay2_row_13 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨13, by decide⟩ : Fin 43) q : S43x256.Idx)
    = v236 (ix2 (0 : Fin 1) q : S1x256.Idx) := by
  unfold k0_pay2
  refine (slabs_apply _ _ (⟨13, by decide⟩ : Fin 43) ?x ?hmap ?hxk q).trans ?main
  case hxk => rfl
  case hmap => rfl
  rfl

/-- Row 14 of the 43-row stack: its argument number 14, a one-row slab. -/
theorem pay2_row_14 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨14, by decide⟩ : Fin 43) q : S43x256.Idx)
    = v239 (ix2 (0 : Fin 1) q : S1x256.Idx) := by
  unfold k0_pay2
  refine (slabs_apply _ _ (⟨14, by decide⟩ : Fin 43) ?x ?hmap ?hxk q).trans ?main
  case hxk => rfl
  case hmap => rfl
  rfl

/-- Row 15 of the 43-row stack: its argument number 15, a one-row slab. -/
theorem pay2_row_15 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨15, by decide⟩ : Fin 43) q : S43x256.Idx)
    = v242 (ix2 (0 : Fin 1) q : S1x256.Idx) := by
  unfold k0_pay2
  refine (slabs_apply _ _ (⟨15, by decide⟩ : Fin 43) ?x ?hmap ?hxk q).trans ?main
  case hxk => rfl
  case hmap => rfl
  rfl

/-- Row 16 of the 43-row stack: its argument number 16, a one-row slab. -/
theorem pay2_row_16 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨16, by decide⟩ : Fin 43) q : S43x256.Idx)
    = v245 (ix2 (0 : Fin 1) q : S1x256.Idx) := by
  unfold k0_pay2
  refine (slabs_apply _ _ (⟨16, by decide⟩ : Fin 43) ?x ?hmap ?hxk q).trans ?main
  case hxk => rfl
  case hmap => rfl
  rfl

/-- Row 17 of the 43-row stack: its argument number 17, a one-row slab. -/
theorem pay2_row_17 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨17, by decide⟩ : Fin 43) q : S43x256.Idx)
    = v248 (ix2 (0 : Fin 1) q : S1x256.Idx) := by
  unfold k0_pay2
  refine (slabs_apply _ _ (⟨17, by decide⟩ : Fin 43) ?x ?hmap ?hxk q).trans ?main
  case hxk => rfl
  case hmap => rfl
  rfl

/-- Row 18 of the 43-row stack: its argument number 18, a one-row slab. -/
theorem pay2_row_18 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨18, by decide⟩ : Fin 43) q : S43x256.Idx)
    = v255 (ix2 (0 : Fin 1) q : S1x256.Idx) := by
  unfold k0_pay2
  refine (slabs_apply _ _ (⟨18, by decide⟩ : Fin 43) ?x ?hmap ?hxk q).trans ?main
  case hxk => rfl
  case hmap => rfl
  rfl

/-- Row 19 of the 43-row stack: its argument number 19, a one-row slab. -/
theorem pay2_row_19 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨19, by decide⟩ : Fin 43) q : S43x256.Idx)
    = v258 (ix2 (0 : Fin 1) q : S1x256.Idx) := by
  unfold k0_pay2
  refine (slabs_apply _ _ (⟨19, by decide⟩ : Fin 43) ?x ?hmap ?hxk q).trans ?main
  case hxk => rfl
  case hmap => rfl
  rfl

/-- Row 20 of the 43-row stack: its argument number 20, a one-row slab. -/
theorem pay2_row_20 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨20, by decide⟩ : Fin 43) q : S43x256.Idx)
    = v261 (ix2 (0 : Fin 1) q : S1x256.Idx) := by
  unfold k0_pay2
  refine (slabs_apply _ _ (⟨20, by decide⟩ : Fin 43) ?x ?hmap ?hxk q).trans ?main
  case hxk => rfl
  case hmap => rfl
  rfl

/-- Row 21 of the 43-row stack: its argument number 21, a one-row slab. -/
theorem pay2_row_21 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨21, by decide⟩ : Fin 43) q : S43x256.Idx)
    = v264 (ix2 (0 : Fin 1) q : S1x256.Idx) := by
  unfold k0_pay2
  refine (slabs_apply _ _ (⟨21, by decide⟩ : Fin 43) ?x ?hmap ?hxk q).trans ?main
  case hxk => rfl
  case hmap => rfl
  rfl

end Cert.KernelIdeal.KerPay
-- ==== Proof.KerPay2RowsB.lean ====
import proofs.«126887_j40243843564182_2_alg».proof.Proof.Gen.KernelIdeal.Skeleton
import proofs.«126887_j40243843564182_2_alg».proof.Proof.KerPayLib

set_option maxRecDepth 16384
open Idealize.ShloMosaic Idealize.ShloMosaic.ValueIdx Cert.KernelIdeal Cert.KernelIdeal.Gen
noncomputable section
namespace Cert.KernelIdeal.KerPay

variable (v189 v192 v195 v198 v201 v204 v211 v214 v217 v220 v223 v226 v233 v236 v239 v242 v245 v248 v255 v258 v261 v264 v267 v270 v277 v280 v283 v286 v289 v292 v299 v302 v305 v308 : FVec Ideal S1x256 .f32) (v309 v312 v319 v322 v325 v328 v331 v334 v337 : FVec Ideal S496x256 .f32) (q : Fin 256)

/-- Row 22 of the 43-row stack: its argument number 22, a one-row slab. -/
theorem pay2_row_22 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨22, by decide⟩ : Fin 43) q : S43x256.Idx)
    = v267 (ix2 (0 : Fin 1) q : S1x256.Idx) := by
  unfold k0_pay2
  refine (slabs_apply _ _ (⟨22, by decide⟩ : Fin 43) ?x ?hmap ?hxk q).trans ?main
  case hxk => rfl
  case hmap => rfl
  rfl

/-- Row 23 of the 43-row stack: its argument number 23, a one-row slab. -/
theorem pay2_row_23 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨23, by decide⟩ : Fin 43) q : S43x256.Idx)
    = v270 (ix2 (0 : Fin 1) q : S1x256.Idx) := by
  unfold k0_pay2
  refine (slabs_apply _ _ (⟨23, by decide⟩ : Fin 43) ?x ?hmap ?hxk q).trans ?main
  case hxk => rfl
  case hmap => rfl
  rfl

/-- Row 24 of the 43-row stack: its argument number 24, a one-row slab. -/
theorem pay2_row_24 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨24, by decide⟩ : Fin 43) q : S43x256.Idx)
    = v277 (ix2 (0 : Fin 1) q : S1x256.Idx) := by
  unfold k0_pay2
  refine (slabs_apply _ _ (⟨24, by decide⟩ : Fin 43) ?x ?hmap ?hxk q).trans ?main
  case hxk => rfl
  case hmap => rfl
  rfl

/-- Row 25 of the 43-row stack: its argument number 25, a one-row slab. -/
theorem pay2_row_25 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨25, by decide⟩ : Fin 43) q : S43x256.Idx)
    = v280 (ix2 (0 : Fin 1) q : S1x256.Idx) := by
  unfold k0_pay2
  refine (slabs_apply _ _ (⟨25, by decide⟩ : Fin 43) ?x ?hmap ?hxk q).trans ?main
  case hxk => rfl
  case hmap => rfl
  rfl

/-- Row 26 of the 43-row stack: its argument number 26, a one-row slab. -/
theorem pay2_row_26 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨26, by decide⟩ : Fin 43) q : S43x256.Idx)
    = v283 (ix2 (0 : Fin 1) q : S1x256.Idx) := by
  unfold k0_pay2
  refine (slabs_apply _ _ (⟨26, by decide⟩ : Fin 43) ?x ?hmap ?hxk q).trans ?main
  case hxk => rfl
  case hmap => rfl
  rfl

/-- Row 27 of the 43-row stack: its argument number 27, a one-row slab. -/
theorem pay2_row_27 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨27, by decide⟩ : Fin 43) q : S43x256.Idx)
    = v286 (ix2 (0 : Fin 1) q : S1x256.Idx) := by
  unfold k0_pay2
  refine (slabs_apply _ _ (⟨27, by decide⟩ : Fin 43) ?x ?hmap ?hxk q).trans ?main
  case hxk => rfl
  case hmap => rfl
  rfl

/-- Row 28 of the 43-row stack: its argument number 28, a one-row slab. -/
theorem pay2_row_28 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨28, by decide⟩ : Fin 43) q : S43x256.Idx)
    = v289 (ix2 (0 : Fin 1) q : S1x256.Idx) := by
  unfold k0_pay2
  refine (slabs_apply _ _ (⟨28, by decide⟩ : Fin 43) ?x ?hmap ?hxk q).trans ?main
  case hxk => rfl
  case hmap => rfl
  rfl

/-- Row 29 of the 43-row stack: its argument number 29, a one-row slab. -/
theorem pay2_row_29 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨29, by decide⟩ : Fin 43) q : S43x256.Idx)
    = v292 (ix2 (0 : Fin 1) q : S1x256.Idx) := by
  unfold k0_pay2
  refine (slabs_apply _ _ (⟨29, by decide⟩ : Fin 43) ?x ?hmap ?hxk q).trans ?main
  case hxk => rfl
  case hmap => rfl
  rfl

/-- Row 30 of the 43-row stack: its argument number 30, a one-row slab. -/
theorem pay2_row_30 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨30, by decide⟩ : Fin 43) q : S43x256.Idx)
    = v299 (ix2 (0 : Fin 1) q : S1x256.Idx) := by
  unfold k0_pay2
  refine (slabs_apply _ _ (⟨30, by decide⟩ : Fin 43) ?x ?hmap ?hxk q).trans ?main
  case hxk => rfl
  case hmap => rfl
  rfl

/-- Row 31 of the 43-row stack: its argument number 31, a one-row slab. -/
theorem pay2_row_31 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨31, by decide⟩ : Fin 43) q : S43x256.Idx)
    = v302 (ix2 (0 : Fin 1) q : S1x256.Idx) := by
  unfold k0_pay2
  refine (slabs_apply _ _ (⟨31, by decide⟩ : Fin 43) ?x ?hmap ?hxk q).trans ?main
  case hxk => rfl
  case hmap => rfl
  rfl

/-- Row 32 of the 43-row stack: its argument number 32, a one-row slab. -/
theorem pay2_row_32 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨32, by decide⟩ : Fin 43) q : S43x256.Idx)
    = v305 (ix2 (0 : Fin 1) q : S1x256.Idx) := by
  unfold k0_pay2
  refine (slabs_apply _ _ (⟨32, by decide⟩ : Fin 43) ?x ?hmap ?hxk q).trans ?main
  case hxk => rfl
  case hmap => rfl
  rfl

/-- Row 33 of the 43-row stack: its argument number 33, a one-row slab. -/
theorem pay2_row_33 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨33, by decide⟩ : Fin 43) q : S43x256.Idx)
    = v308 (ix2 (0 : Fin 1) q : S1x256.Idx) := by
  unfold k0_pay2
  refine (slabs_apply _ _ (⟨33, by decide⟩ : Fin 43) ?x ?hmap ?hxk q).trans ?main
  case hxk => rfl
  case hmap => rfl
  rfl

/-- Row 34 of the 43-row stack: the column sums of its argument number 34. -/
theorem pay2_row_34 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨34, by decide⟩ : Fin 43) q : S43x256.Idx)
    = ∑ p : Fin 496, v309 (ix2 p q : S496x256.Idx) := by
  unfold k0_pay2
  refine (slabs_apply _ _ (⟨34, by decide⟩ : Fin 43) ?x ?hmap ?hxk q).trans ?main
  case hxk => rfl
  case hmap => rfl
  exact slab_apply _ _ _ _ _ _ q

/-- Row 35 of the 43-row stack: the column sums of its argument number 35. -/
theorem pay2_row_35 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨35, by decide⟩ : Fin 43) q : S43x256.Idx)
    = ∑ p : Fin 496, v312 (ix2 p q : S496x256.Idx) := by
  unfold k0_pay2
  refine (slabs_apply _ _ (⟨35, by decide⟩ : Fin 43) ?x ?hmap ?hxk q).trans ?main
  case hxk => rfl
  case hmap => rfl
  exact slab_apply _ _ _ _ _ _ q

/-- Row 36 of the 43-row stack: the column sums of its argument number 36. -/
theorem pay2_row_36 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨36, by decide⟩ : Fin 43) q : S43x256.Idx)
    = ∑ p : Fin 496, v319 (ix2 p q : S496x256.Idx) := by
  unfold k0_pay2
  refine (slabs_apply _ _ (⟨36, by decide⟩ : Fin 43) ?x ?hmap ?hxk q).trans ?main
  case hxk => rfl
  case hmap => rfl
  exact slab_apply _ _ _ _ _ _ q

/-- Row 37 of the 43-row stack: the column sums of its argument number 37. -/
theorem pay2_row_37 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨37, by decide⟩ : Fin 43) q : S43x256.Idx)
    = ∑ p : Fin 496, v322 (ix2 p q : S496x256.Idx) := by
  unfold k0_pay2
  refine (slabs_apply _ _ (⟨37, by decide⟩ : Fin 43) ?x ?hmap ?hxk q).trans ?main
  case hxk => rfl
  case hmap => rfl
  exact slab_apply _ _ _ _ _ _ q

/-- Row 38 of the 43-row stack: the column sums of its argument number 38. -/
theorem pay2_row_38 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨38, by decide⟩ : Fin 43) q : S43x256.Idx)
    = ∑ p : Fin 496, v325 (ix2 p q : S496x256.Idx) := by
  unfold k0_pay2
  refine (slabs_apply _ _ (⟨38, by decide⟩ : Fin 43) ?x ?hmap ?hxk q).trans ?main
  case hxk => rfl
  case hmap => rfl
  exact slab_apply _ _ _ _ _ _ q

/-- Row 39 of the 43-row stack: the column sums of its argument number 39. -/
theorem pay2_row_39 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨39, by decide⟩ : Fin 43) q : S43x256.Idx)
    = ∑ p : Fin 496, v328 (ix2 p q : S496x256.Idx) := by
  unfold k0_pay2
  refine (slabs_apply _ _ (⟨39, by decide⟩ : Fin 43) ?x ?hmap ?hxk q).trans ?main
  case hxk => rfl
  case hmap => rfl
  exact slab_apply _ _ _ _ _ _ q

/-- Row 40 of the 43-row stack: the column sums of its argument number 40. -/
theorem pay2_row_40 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨40, by decide⟩ : Fin 43) q : S43x256.Idx)
    = ∑ p : Fin 496, v331 (ix2 p q : S496x256.Idx) := by
  unfold k0_pay2
  refine (slabs_apply _ _ (⟨40, by decide⟩ : Fin 43) ?x ?hmap ?hxk q).trans ?main
  case hxk => rfl
  case hmap => rfl
  exact slab_apply _ _ _ _ _ _ q

/-- Row 41 of the 43-row stack: the column sums of its argument number 41. -/
theorem pay2_row_41 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨41, by decide⟩ : Fin 43) q : S43x256.Idx)
    = ∑ p : Fin 496, v334 (ix2 p q : S496x256.Idx) := by
  unfold k0_pay2
  refine (slabs_apply _ _ (⟨41, by decide⟩ : Fin 43) ?x ?hmap ?hxk q).trans ?main
  case hxk => rfl
  case hmap => rfl
  exact slab_apply _ _ _ _ _ _ q

/-- Row 42 of the 43-row stack: the column sums of its argument number 42. -/
theorem pay2_row_42 : k0_pay2 (F := Ideal) v189 v192 v195 v198 v201 v204 v211 v214 v217 v220 v223 v226 v233 v236 v239 v242 v245 v248 v255 v258 v261 v264 v267 v270 v277 v280 v283 v286 v289 v292 v299 v302 v305 v308 v309 v312 v319 v322 v325 v328 v331 v334 v337 (ix2 (⟨42, by decide⟩ : Fin 43) q : S43x256.Idx)
    = ∑ p : Fin 496, v337 (ix2 p q : S496x256.Idx) := by
  unfold k0_pay2
  refine (slabs_apply _ _ (⟨42, by decide⟩ : Fin 43) ?x ?hmap ?hxk q).trans ?main
  case hxk => rfl
  case hmap => rfl
  exact slab_apply _ _ _ _ _ _ q

end Cert.KernelIdeal.KerPay
-- ==== Proof.KerPayPoint.lean ====
/-
  The body's intermediate arrays as functions of the input blocks, index by index: every operation of the body
  other than the column sums and the stacking acts elementwise, so each intermediate array at an index is a scalar
  expression of the input blocks at that index — the cutoff, the guarded root, the cosine by the law of cosines, the
  sum of squared sides, the two bases 1 ± cos made positive, their powers by repeated squaring, and the Gaussian of
  the squared sides times the mask.
-/
import proofs.«126887_j40243843564182_2_alg».proof.Proof.Gen.KernelIdeal.Skeleton
import proofs.«126887_j40243843564182_2_alg».proof.Proof.Sym
import Idealize.ShloMosaic.Lib.Pipeline.Value

set_option maxRecDepth 16384

noncomputable section

namespace Cert.KernelIdeal.KerPay

open Idealize.ShloMosaic Cert.KernelIdeal Cert.KernelIdeal.Gen Cert.Sym

/-- A truth value widened to 32 bits and read as a signed integer is its value 0 or 1. -/
theorem bit_signed (b : BitVec 1) : (((b.setWidth 32).toInt : ℝ) : EReal) = bitR b := by
  obtain ⟨⟨v, hv⟩⟩ := b
  have : v = 0 ∨ v = 1 := by omega
  rcases this with rfl | rfl <;> rfl

variable (v : Vec Ideal S32x256 .f32) (u : Vec Ideal S496x256 .f32)
variable (A B C T S M Fe : FVec Ideal S496x256 .f32)

/-! ### The blocks as loaded -/
theorem pay4_eq : k0_pay4 (F := Ideal) v = v := shapeCast_self _ _
theorem pay5_eq : k0_pay5 (F := Ideal) v = v := shapeCast_self _ _
theorem pay13_eq : k0_pay13 (F := Ideal) u = u := shapeCast_self _ _
theorem pay14_eq : k0_pay14 (F := Ideal) u = u := shapeCast_self _ _
theorem pay15_eq : k0_pay15 (F := Ideal) u = u := shapeCast_self _ _
theorem pay16_eq : k0_pay16 (F := Ideal) u = u := shapeCast_self _ _

/-! ### The radial part: cutoff, square, the Gaussian with word 0xBE000000 -/
theorem pay6_eq : k0_pay6 (F := Ideal) v = fun i => fc (v i) := by
  funext i; unfold k0_pay6; rw [pay4_eq]; rfl
theorem pay7_eq : k0_pay7 (F := Ideal) v = fun i => v i * v i := by
  funext i; unfold k0_pay7; rw [pay4_eq]; rfl
theorem pay11_eq : k0_pay11 (F := Ideal) v = fun i => Ideal.exp (lit 0xBE000000#32 * (v i * v i)) := by
  funext i; unfold k0_pay11; rw [pay7_eq]; rfl

/-! ### One pair: guarded root, cutoffs, cosine, sum of squares -/
theorem pay17_eq : k0_pay17 (F := Ideal) = fun _ => lit 0x00000000#32 := rfl
theorem pay18_eq : k0_pay18 (F := Ideal) C k0_pay17 = fun i => guardSqrt (C i) := by funext i; rfl
theorem pay19_eq : k0_pay19 (F := Ideal) A B = fun i => fc (A i) * fc (B i) := by funext i; rfl
theorem pay20_eq : k0_pay20 (F := Ideal) C k0_pay17 = fun i => Ideal.cmp .olt (guardSqrt (C i)) (lit 0x41000000#32) := by
  funext i; rfl
theorem pay21_eq : k0_pay21 (F := Ideal) C k0_pay17
    = fun i => Ideal.cos (Ideal.div (lit 0x40490FDB#32 * guardSqrt (C i)) (lit 0x41000000#32)) := by funext i; rfl
theorem pay24_eq : k0_pay24 (F := Ideal) A B C = fun i => cosA (A i) (B i) (C i) := by funext i; rfl
theorem pay25_eq : k0_pay25 (F := Ideal) A B C = fun i => ssumA (A i) (B i) (C i) := by funext i; rfl
/-- The product of the three cutoffs times the triangle mask. -/
theorem pay26_eq : k0_pay26 (F := Ideal) T (k0_pay19 A B) (k0_pay20 C k0_pay17) (k0_pay21 C k0_pay17)
    = fun i => fcprod (A i) (B i) (C i) * T i := by funext i; rfl

/-! ### The bases 1 ± cos made positive, whether they were, and their powers -/
theorem pay31_eq : k0_pay31 (F := Ideal) A B C = fun i => baseP (cosA (A i) (B i) (C i)) := by funext i; rfl
theorem pay32_eq : k0_pay32 (F := Ideal) A B C = fun i => baseM (cosA (A i) (B i) (C i)) := by funext i; rfl
theorem pay33_eq : k0_pay33 (F := Ideal) A B C = fun i => posP (cosA (A i) (B i) (C i)) := by
  funext i; exact bit_signed _
theorem pay34_eq : k0_pay34 (F := Ideal) A B C = fun i => posM (cosA (A i) (B i) (C i)) := by
  funext i; exact bit_signed _
theorem pay37_eq : k0_pay37 (F := Ideal) A B C
    = fun i => (baseP (cosA (A i) (B i) (C i)) * baseP (cosA (A i) (B i) (C i))) * (baseP (cosA (A i) (B i) (C i)) * baseP (cosA (A i) (B i) (C i))) := by
  funext i; rfl
theorem pay38_eq : k0_pay38 (F := Ideal) A B C
    = fun i => (baseM (cosA (A i) (B i) (C i)) * baseM (cosA (A i) (B i) (C i))) * (baseM (cosA (A i) (B i) (C i)) * baseM (cosA (A i) (B i) (C i))) := by
  funext i; rfl

/-! ### The seven factors -/
theorem pay40_eq : k0_pay40 (F := Ideal) A B C = fun i => featP1 (cosA (A i) (B i) (C i)) := by
  funext i; show _ * _ = _; rw [show k0_pay33 (F := Ideal) A B C i = posP (cosA (A i) (B i) (C i)) from congrFun (pay33_eq A B C) i]; rfl
theorem pay41_eq : k0_pay41 (F := Ideal) A B C = fun i => featM1 (cosA (A i) (B i) (C i)) := by
  funext i; show _ * _ = _; rw [show k0_pay34 (F := Ideal) A B C i = posM (cosA (A i) (B i) (C i)) from congrFun (pay34_eq A B C) i]; rfl
theorem pay42_eq : k0_pay42 (F := Ideal) A B C = fun i => featP2 (cosA (A i) (B i) (C i)) := by
  funext i; show (_ * _) * _ = _; rw [show k0_pay33 (F := Ideal) A B C i = posP (cosA (A i) (B i) (C i)) from congrFun (pay33_eq A B C) i]; rfl
theorem pay43_eq : k0_pay43 (F := Ideal) A B C = fun i => featM2 (cosA (A i) (B i) (C i)) := by
  funext i; show (_ * _) * _ = _; rw [show k0_pay34 (F := Ideal) A B C i = posM (cosA (A i) (B i) (C i)) from congrFun (pay34_eq A B C) i]; rfl
theorem pay44_eq : k0_pay44 (F := Ideal) (k0_pay33 A B C) (k0_pay37 A B C) = fun i => featP4 (cosA (A i) (B i) (C i)) := by
  funext i; show (_ * _) * _ = _; rw [show k0_pay33 (F := Ideal) A B C i = posP (cosA (A i) (B i) (C i)) from congrFun (pay33_eq A B C) i]; rfl
theorem pay45_eq : k0_pay45 (F := Ideal) (k0_pay34 A B C) (k0_pay38 A B C) = fun i => featM4 (cosA (A i) (B i) (C i)) := by
  funext i; show (_ * _) * _ = _; rw [show k0_pay34 (F := Ideal) A B C i = posM (cosA (A i) (B i) (C i)) from congrFun (pay34_eq A B C) i]; rfl
theorem pay46_eq : k0_pay46 (F := Ideal) (k0_pay33 A B C) (k0_pay39 A B C) = fun i => featP16 (cosA (A i) (B i) (C i)) := by
  funext i; show (_ * _) * _ = _; rw [show k0_pay33 (F := Ideal) A B C i = posP (cosA (A i) (B i) (C i)) from congrFun (pay33_eq A B C) i]; rfl

/-! ### The Gaussian of the squared sides times the mask, one per Gaussian word -/
theorem pay47_eq : k0_pay47 (F := Ideal) S M = fun i => Ideal.exp (lit 0xB8D1B717#32 * S i) * M i := by funext i; rfl
theorem pay54_eq : k0_pay54 (F := Ideal) S M = fun i => Ideal.exp (lit 0xBB449BA6#32 * S i) * M i := by funext i; rfl
theorem pay62_eq : k0_pay62 (F := Ideal) S M = fun i => Ideal.exp (lit 0xBC03126F#32 * S i) * M i := by funext i; rfl
theorem pay69_eq : k0_pay69 (F := Ideal) S M = fun i => Ideal.exp (lit 0xBC75C28F#32 * S i) * M i := by funext i; rfl
theorem pay76_eq : k0_pay76 (F := Ideal) S M = fun i => Ideal.exp (lit 0xBCCCCCCD#32 * S i) * M i := by funext i; rfl
theorem pay83_eq : k0_pay83 (F := Ideal) S M = fun i => Ideal.exp (lit 0xBD3851EC#32 * S i) * M i := by funext i; rfl
theorem pay1_eq : k0_pay1 (F := Ideal) S M = fun i => Ideal.exp (lit 0xBDA3D70A#32 * S i) * M i := by funext i; rfl

end Cert.KernelIdeal.KerPay
-- ==== Proof.SymRows.lean ====
/-
  One atom's 51 features as functions of that atom's columns of the six arrays the device kernel reads: the 32
  distances and 0/1 counts of its neighbour slots, and per pair of slots the two distances, the squared third side
  and the 0/1 triangle count. Rows 0–7 are the radial features, one per Gaussian word; rows 8–49 are the angular
  features in seven groups of six (one Gaussian word per group, the six factors M1, P1, M2, P2, M4, P4 in turn);
  row 50 is the factor P16 with the last Gaussian word.
-/
import proofs.«126887_j40243843564182_2_alg».proof.Proof.Sym

noncomputable section

namespace Cert.Sym

open Idealize.ShloMosaic

/-- The eight radial Gaussian words, in row order. -/
def radWord : Fin 8 → BitVec 32 :=
  ![0xBB6BEDFA#32, 0xBD1374BC#32, 0xBD916873#32, 0xBE000000#32, 0xBE5B22D1#32, 0xBEB6C8B4#32, 0xBF36C8B4#32, 0xBFB6C8B4#32]

/-- The seven angular Gaussian words, in group order. -/
def angWord : Fin 7 → BitVec 32 :=
  ![0xB8D1B717#32, 0xBB449BA6#32, 0xBC03126F#32, 0xBC75C28F#32, 0xBCCCCCCD#32, 0xBD3851EC#32, 0xBDA3D70A#32]

/-- The six factors of a group, in row order. -/
def feat6 : Fin 6 → EReal → EReal := ![featM1, featP1, featM2, featP2, featM4, featP4]

/-- A radial row: over the 32 slots, exp(e r²) fc(r) times the slot's 0/1 count. -/
def radRow (e : BitVec 32) (r mk : Fin 32 → EReal) : EReal :=
  ∑ k : Fin 32, (Ideal.exp (lit e * (r k * r k)) * fc (r k)) * mk k

/-- An angular row: over the 496 pairs, the factor of the cosine times the Gaussian, the cutoffs and the count. -/
def angRow (feat : EReal → EReal) (eta : BitVec 32) (a b s x : Fin 496 → EReal) : EReal :=
  ∑ p : Fin 496, angTermShared feat eta (a p) (b p) (s p) (x p)

/-- Row `f` of one atom's features from its columns. -/
def KRow (f : Fin 51) (r mk : Fin 32 → EReal) (a b s x : Fin 496 → EReal) : EReal :=
  if h : f.val < 8 then radRow (radWord ⟨f.val, h⟩) r mk
  else if h2 : f.val < 50 then
    angRow (feat6 ⟨(f.val - 8) % 6, Nat.mod_lt _ (by decide)⟩) (angWord ⟨(f.val - 8) / 6, by omega⟩) a b s x
  else angRow featP16 (angWord 6) a b s x

end Cert.Sym
-- ==== Proof.KerRowLib.lean ====
import proofs.«126887_j40243843564182_2_alg».proof.Proof.Gen.KernelIdeal.Frame
import proofs.«126887_j40243843564182_2_alg».proof.Proof.KerPayLib
import proofs.«126887_j40243843564182_2_alg».proof.Proof.KerPay2RowsA
import proofs.«126887_j40243843564182_2_alg».proof.Proof.KerPay2RowsB
import proofs.«126887_j40243843564182_2_alg».proof.Proof.KerPayPoint
import proofs.«126887_j40243843564182_2_alg».proof.Proof.SymRows

set_option maxRecDepth 16384
open Idealize.ShloMosaic Idealize.ShloMosaic.ValueIdx Cert.KernelIdeal Cert.KernelIdeal.Gen Cert.Sym
noncomputable section
namespace Cert.KernelIdeal.KerPay

variable (x0 x1 : Vec Ideal S32x256 .f32) (x2 x3 x4 x5 : Vec Ideal S496x256 .f32) (q : Fin 256)

/-- Rows 0–7 of the stored block are the rows of its 8-row part. -/
theorem pay3_left (a : FVec Ideal S8x256 .f32) (b : FVec Ideal S43x256 .f32) (f : Fin 51) (j : Fin 8) (hf : f.val = j.val) :
    k0_pay3 (F := Ideal) a b (ix2 f q : S51x256.Idx) = a (ix2 j q : S8x256.Idx) := by
  unfold k0_pay3
  exact concatenate_pair_apply_left (t := S51x256) (s₁ := S8x256) (s₂ := S43x256) (0 : Fin 2) a b _ (ix2 f q) rfl (ix2 j q)
    (by intro c; match c with | ⟨0, _⟩ => exact hf.symm | ⟨1, _⟩ => rfl)

/-- Rows 8–50 of the stored block are the rows of its 43-row part. -/
theorem pay3_right (a : FVec Ideal S8x256 .f32) (b : FVec Ideal S43x256 .f32) (f : Fin 51) (j : Fin 43) (hf : f.val = 8 + j.val) :
    k0_pay3 (F := Ideal) a b (ix2 f q : S51x256.Idx) = b (ix2 j q : S43x256.Idx) := by
  unfold k0_pay3
  exact concatenate_pair_apply_right (t := S51x256) (s₁ := S8x256) (s₂ := S43x256) (0 : Fin 2) a b _ (ix2 f q) rfl rfl (ix2 j q)
    (by intro c hc; match c, hc with | ⟨0, _⟩, hc => exact absurd rfl hc | ⟨1, _⟩, _ => rfl)
    (by show j.val + 8 = f.val; omega)

/-! ### One script per part of the stored block

Row j of the 8-row part: the stored block at that row is the j-th one-row slab of the part, a column sum of an
elementwise product of the Gaussian, the cutoff and the slot count; row j of the 43-row part likewise, a column sum of
a factor of the cosine times the Gaussian of the squared sides, the cutoffs and the triangle count. -/

set_option hygiene false in
/-- Opens the stored block at row j of its 8-row part down to the sum over the 32 slots and closes the goal. -/
macro "open_rad_row " j:term : tactic => `(tactic| (
  unfold out0_6
  rw [View.canon_unit_zero hz2]
  simp only [View.ld_unit_zero (S := S32x256) hz2, View.ld_unit_zero (S := S496x256) hz2]
  rw [pay3_left _ _ _ _ ($j : Fin 8) rfl]
  unfold k0_pay12
  refine (slabs_apply _ _ ($j : Fin 8) ?x ?hmap ?hxk _).trans ?main
  case hxk => rfl
  case hmap => rfl
  try simp only [k0_pay8, k0_pay9, k0_pay10]
  rw [slab_apply]
  simp only [pay5_eq, pay6_eq, pay7_eq, pay11_eq]
  rfl))

set_option hygiene false in
/-- Opens the stored block at row j of its 43-row part, by the fact `l` saying what that row of the stack is, down to
    the sum over the 496 pairs, and closes the goal. -/
macro "open_ang_row " j:term " by " l:term : tactic => `(tactic| (
  unfold out0_6
  rw [View.canon_unit_zero hz2]
  simp only [View.ld_unit_zero (S := S32x256) hz2, View.ld_unit_zero (S := S496x256) hz2]
  rw [pay3_right _ _ _ _ ($j : Fin 43) rfl]
  rw [$l:term]
  try simp only [k0_pay48, k0_pay49, k0_pay50, k0_pay51, k0_pay52, k0_pay53, k0_pay55, k0_pay56, k0_pay57, k0_pay59,
    k0_pay60, k0_pay61, k0_pay63, k0_pay64, k0_pay65, k0_pay66, k0_pay67, k0_pay68, k0_pay70, k0_pay71, k0_pay72,
    k0_pay73, k0_pay74, k0_pay75, k0_pay77, k0_pay78, k0_pay79, k0_pay80, k0_pay81, k0_pay82, k0_pay84, k0_pay85,
    k0_pay86, k0_pay87]
  try rw [slab_apply]
  simp only [k0_pay58, k0_pay88, pay13_eq, pay14_eq, pay15_eq, pay16_eq, pay25_eq, pay26_eq, pay40_eq, pay41_eq,
    pay42_eq, pay43_eq, pay44_eq, pay45_eq, pay46_eq, pay1_eq, pay47_eq, pay54_eq, pay62_eq, pay69_eq, pay76_eq, pay83_eq]
  rfl))

end Cert.KernelIdeal.KerPay
-- ==== Proof.KerRowsRad.lean ====
import proofs.«126887_j40243843564182_2_alg».proof.Proof.KerRowLib

set_option maxRecDepth 16384
open Idealize.ShloMosaic Idealize.ShloMosaic.ValueIdx Cert.KernelIdeal Cert.KernelIdeal.Gen Cert.Sym
noncomputable section
namespace Cert.KernelIdeal.KerPay

variable (x0 x1 : Vec Ideal S32x256 .f32) (x2 x3 x4 x5 : Vec Ideal S496x256 .f32) (q : Fin 256)

/-- Row 0: the radial feature with Gaussian word 0xBB6BEDFA. -/
theorem row_0 : out0_6 (F := Ideal) x0 x1 x2 x3 x4 x5 (ix2 (⟨0, by decide⟩ : Fin 51) q : S51x256.Idx)
    = radRow 0xBB6BEDFA#32 (fun k => x0 (ix2 k q : S32x256.Idx)) (fun k => x1 (ix2 k q : S32x256.Idx)) := by
  open_rad_row (⟨0, by decide⟩ : Fin 8)

/-- Row 1: the radial feature with Gaussian word 0xBD1374BC. -/
theorem row_1 : out0_6 (F := Ideal) x0 x1 x2 x3 x4 x5 (ix2 (⟨1, by decide⟩ : Fin 51) q : S51x256.Idx)
    = radRow 0xBD1374BC#32 (fun k => x0 (ix2 k q : S32x256.Idx)) (fun k => x1 (ix2 k q : S32x256.Idx)) := by
  open_rad_row (⟨1, by decide⟩ : Fin 8)

/-- Row 2: the radial feature with Gaussian word 0xBD916873. -/
theorem row_2 : out0_6 (F := Ideal) x0 x1 x2 x3 x4 x5 (ix2 (⟨2, by decide⟩ : Fin 51) q : S51x256.Idx)
    = radRow 0xBD916873#32 (fun k => x0 (ix2 k q : S32x256.Idx)) (fun k => x1 (ix2 k q : S32x256.Idx)) := by
  open_rad_row (⟨2, by decide⟩ : Fin 8)

/-- Row 3: the radial feature with Gaussian word 0xBE000000. -/
theorem row_3 : out0_6 (F := Ideal) x0 x1 x2 x3 x4 x5 (ix2 (⟨3, by decide⟩ : Fin 51) q : S51x256.Idx)
    = radRow 0xBE000000#32 (fun k => x0 (ix2 k q : S32x256.Idx)) (fun k => x1 (ix2 k q : S32x256.Idx)) := by
  open_rad_row (⟨3, by decide⟩ : Fin 8)

/-- Row 4: the radial feature with Gaussian word 0xBE5B22D1. -/
theorem row_4 : out0_6 (F := Ideal) x0 x1 x2 x3 x4 x5 (ix2 (⟨4, by decide⟩ : Fin 51) q : S51x256.Idx)
    = radRow 0xBE5B22D1#32 (fun k => x0 (ix2 k q : S32x256.Idx)) (fun k => x1 (ix2 k q : S32x256.Idx)) := by
  open_rad_row (⟨4, by decide⟩ : Fin 8)

/-- Row 5: the radial feature with Gaussian word 0xBEB6C8B4. -/
theorem row_5 : out0_6 (F := Ideal) x0 x1 x2 x3 x4 x5 (ix2 (⟨5, by decide⟩ : Fin 51) q : S51x256.Idx)
    = radRow 0xBEB6C8B4#32 (fun k => x0 (ix2 k q : S32x256.Idx)) (fun k => x1 (ix2 k q : S32x256.Idx)) := by
  open_rad_row (⟨5, by decide⟩ : Fin 8)

/-- Row 6: the radial feature with Gaussian word 0xBF36C8B4. -/
theorem row_6 : out0_6 (F := Ideal) x0 x1 x2 x3 x4 x5 (ix2 (⟨6, by decide⟩ : Fin 51) q : S51x256.Idx)
    = radRow 0xBF36C8B4#32 (fun k => x0 (ix2 k q : S32x256.Idx)) (fun k => x1 (ix2 k q : S32x256.Idx)) := by
  open_rad_row (⟨6, by decide⟩ : Fin 8)

/-- Row 7: the radial feature with Gaussian word 0xBFB6C8B4. -/
theorem row_7 : out0_6 (F := Ideal) x0 x1 x2 x3 x4 x5 (ix2 (⟨7, by decide⟩ : Fin 51) q : S51x256.Idx)
    = radRow 0xBFB6C8B4#32 (fun k => x0 (ix2 k q : S32x256.Idx)) (fun k => x1 (ix2 k q : S32x256.Idx)) := by
  open_rad_row (⟨7, by decide⟩ : Fin 8)

end Cert.KernelIdeal.KerPay
-- ==== Proof.KerRowsA.lean ====
import proofs.«126887_j40243843564182_2_alg».proof.Proof.KerRowLib

set_option maxRecDepth 16384
open Idealize.ShloMosaic Idealize.ShloMosaic.ValueIdx Cert.KernelIdeal Cert.KernelIdeal.Gen Cert.Sym
noncomputable section
namespace Cert.KernelIdeal.KerPay

variable (x0 x1 : Vec Ideal S32x256 .f32) (x2 x3 x4 x5 : Vec Ideal S496x256 .f32) (q : Fin 256)

/-- Row 8: the angular feature with factor featM1 and Gaussian word 0xB8D1B717. -/
theorem row_8 : out0_6 (F := Ideal) x0 x1 x2 x3 x4 x5 (ix2 (⟨8, by decide⟩ : Fin 51) q : S51x256.Idx)
    = angRow featM1 0xB8D1B717#32 (fun p => x2 (ix2 p q : S496x256.Idx)) (fun p => x3 (ix2 p q : S496x256.Idx)) (fun p => x4 (ix2 p q : S496x256.Idx)) (fun p => x5 (ix2 p q : S496x256.Idx)) := by
  open_ang_row (⟨0, by decide⟩ : Fin 43) by pay2_row_0

/-- Row 9: the angular feature with factor featP1 and Gaussian word 0xB8D1B717. -/
theorem row_9 : out0_6 (F := Ideal) x0 x1 x2 x3 x4 x5 (ix2 (⟨9, by decide⟩ : Fin 51) q : S51x256.Idx)
    = angRow featP1 0xB8D1B717#32 (fun p => x2 (ix2 p q : S496x256.Idx)) (fun p => x3 (ix2 p q : S496x256.Idx)) (fun p => x4 (ix2 p q : S496x256.Idx)) (fun p => x5 (ix2 p q : S496x256.Idx)) := by
  open_ang_row (⟨1, by decide⟩ : Fin 43) by pay2_row_1

/-- Row 10: the angular feature with factor featM2 and Gaussian word 0xB8D1B717. -/
theorem row_10 : out0_6 (F := Ideal) x0 x1 x2 x3 x4 x5 (ix2 (⟨10, by decide⟩ : Fin 51) q : S51x256.Idx)
    = angRow featM2 0xB8D1B717#32 (fun p => x2 (ix2 p q : S496x256.Idx)) (fun p => x3 (ix2 p q : S496x256.Idx)) (fun p => x4 (ix2 p q : S496x256.Idx)) (fun p => x5 (ix2 p q : S496x256.Idx)) := by
  open_ang_row (⟨2, by decide⟩ : Fin 43) by pay2_row_2

/-- Row 11: the angular feature with factor featP2 and Gaussian word 0xB8D1B717. -/
theorem row_11 : out0_6 (F := Ideal) x0 x1 x2 x3 x4 x5 (ix2 (⟨11, by decide⟩ : Fin 51) q : S51x256.Idx)
    = angRow featP2 0xB8D1B717#32 (fun p => x2 (ix2 p q : S496x256.Idx)) (fun p => x3 (ix2 p q : S496x256.Idx)) (fun p => x4 (ix2 p q : S496x256.Idx)) (fun p => x5 (ix2 p q : S496x256.Idx)) := by
  open_ang_row (⟨3, by decide⟩ : Fin 43) by pay2_row_3

/-- Row 12: the angular feature with factor featM4 and Gaussian word 0xB8D1B717. -/
theorem row_12 : out0_6 (F := Ideal) x0 x1 x2 x3 x4 x5 (ix2 (⟨12, by decide⟩ : Fin 51) q : S51x256.Idx)
    = angRow featM4 0xB8D1B717#32 (fun p => x2 (ix2 p q : S496x256.Idx)) (fun p => x3 (ix2 p q : S496x256.Idx)) (fun p => x4 (ix2 p q : S496x256.Idx)) (fun p => x5 (ix2 p q : S496x256.Idx)) := by
  open_ang_row (⟨4, by decide⟩ : Fin 43) by pay2_row_4

/-- Row 13: the angular feature with factor featP4 and Gaussian word 0xB8D1B717. -/
theorem row_13 : out0_6 (F := Ideal) x0 x1 x2 x3 x4 x5 (ix2 (⟨13, by decide⟩ : Fin 51) q : S51x256.Idx)
    = angRow featP4 0xB8D1B717#32 (fun p => x2 (ix2 p q : S496x256.Idx)) (fun p => x3 (ix2 p q : S496x256.Idx)) (fun p => x4 (ix2 p q : S496x256.Idx)) (fun p => x5 (ix2 p q : S496x256.Idx)) := by
  open_ang_row (⟨5, by decide⟩ : Fin 43) by pay2_row_5

/-- Row 14: the angular feature with factor featM1 and Gaussian word 0xBB449BA6. -/
theorem row_14 : out0_6 (F := Ideal) x0 x1 x2 x3 x4 x5 (ix2 (⟨14, by decide⟩ : Fin 51) q : S51x256.Idx)
    = angRow featM1 0xBB449BA6#32 (fun p => x2 (ix2 p q : S496x256.Idx)) (fun p => x3 (ix2 p q : S496x256.Idx)) (fun p => x4 (ix2 p q : S496x256.Idx)) (fun p => x5 (ix2 p q : S496x256.Idx)) := by
  open_ang_row (⟨6, by decide⟩ : Fin 43) by pay2_row_6

/-- Row 15: the angular feature with factor featP1 and Gaussian word 0xBB449BA6. -/
theorem row_15 : out0_6 (F := Ideal) x0 x1 x2 x3 x4 x5 (ix2 (⟨15, by decide⟩ : Fin 51) q : S51x256.Idx)
    = angRow featP1 0xBB449BA6#32 (fun p => x2 (ix2 p q : S496x256.Idx)) (fun p => x3 (ix2 p q : S496x256.Idx)) (fun p => x4 (ix2 p q : S496x256.Idx)) (fun p => x5 (ix2 p q : S496x256.Idx)) := by
  open_ang_row (⟨7, by decide⟩ : Fin 43) by pay2_row_7

/-- Row 16: the angular feature with factor featM2 and Gaussian word 0xBB449BA6. -/
theorem row_16 : out0_6 (F := Ideal) x0 x1 x2 x3 x4 x5 (ix2 (⟨16, by decide⟩ : Fin 51) q : S51x256.Idx)
    = angRow featM2 0xBB449BA6#32 (fun p => x2 (ix2 p q : S496x256.Idx)) (fun p => x3 (ix2 p q : S496x256.Idx)) (fun p => x4 (ix2 p q : S496x256.Idx)) (fun p => x5 (ix2 p q : S496x256.Idx)) := by
  open_ang_row (⟨8, by decide⟩ : Fin 43) by pay2_row_8

/-- Row 17: the angular feature with factor featP2 and Gaussian word 0xBB449BA6. -/
theorem row_17 : out0_6 (F := Ideal) x0 x1 x2 x3 x4 x5 (ix2 (⟨17, by decide⟩ : Fin 51) q : S51x256.Idx)
    = angRow featP2 0xBB449BA6#32 (fun p => x2 (ix2 p q : S496x256.Idx)) (fun p => x3 (ix2 p q : S496x256.Idx)) (fun p => x4 (ix2 p q : S496x256.Idx)) (fun p => x5 (ix2 p q : S496x256.Idx)) := by
  open_ang_row (⟨9, by decide⟩ : Fin 43) by pay2_row_9

/-- Row 18: the angular feature with factor featM4 and Gaussian word 0xBB449BA6. -/
theorem row_18 : out0_6 (F := Ideal) x0 x1 x2 x3 x4 x5 (ix2 (⟨18, by decide⟩ : Fin 51) q : S51x256.Idx)
    = angRow featM4 0xBB449BA6#32 (fun p => x2 (ix2 p q : S496x256.Idx)) (fun p => x3 (ix2 p q : S496x256.Idx)) (fun p => x4 (ix2 p q : S496x256.Idx)) (fun p => x5 (ix2 p q : S496x256.Idx)) := by
  open_ang_row (⟨10, by decide⟩ : Fin 43) by pay2_row_10

/-- Row 19: the angular feature with factor featP4 and Gaussian word 0xBB449BA6. -/
theorem row_19 : out0_6 (F := Ideal) x0 x1 x2 x3 x4 x5 (ix2 (⟨19, by decide⟩ : Fin 51) q : S51x256.Idx)
    = angRow featP4 0xBB449BA6#32 (fun p => x2 (ix2 p q : S496x256.Idx)) (fun p => x3 (ix2 p q : S496x256.Idx)) (fun p => x4 (ix2 p q : S496x256.Idx)) (fun p => x5 (ix2 p q : S496x256.Idx)) := by
  open_ang_row (⟨11, by decide⟩ : Fin 43) by pay2_row_11

/-- Row 20: the angular feature with factor featM1 and Gaussian word 0xBC03126F. -/
theorem row_20 : out0_6 (F := Ideal) x0 x1 x2 x3 x4 x5 (ix2 (⟨20, by decide⟩ : Fin 51) q : S51x256.Idx)
    = angRow featM1 0xBC03126F#32 (fun p => x2 (ix2 p q : S496x256.Idx)) (fun p => x3 (ix2 p q : S496x256.Idx)) (fun p => x4 (ix2 p q : S496x256.Idx)) (fun p => x5 (ix2 p q : S496x256.Idx)) := by
  open_ang_row (⟨12, by decide⟩ : Fin 43) by pay2_row_12

/-- Row 21: the angular feature with factor featP1 and Gaussian word 0xBC03126F. -/
theorem row_21 : out0_6 (F := Ideal) x0 x1 x2 x3 x4 x5 (ix2 (⟨21, by decide⟩ : Fin 51) q : S51x256.Idx)
    = angRow featP1 0xBC03126F#32 (fun p => x2 (ix2 p q : S496x256.Idx)) (fun p => x3 (ix2 p q : S496x256.Idx)) (fun p => x4 (ix2 p q : S496x256.Idx)) (fun p => x5 (ix2 p q : S496x256.Idx)) := by
  open_ang_row (⟨13, by decide⟩ : Fin 43) by pay2_row_13

/-- Row 22: the angular feature with factor featM2 and Gaussian word 0xBC03126F. -/
theorem row_22 : out0_6 (F := Ideal) x0 x1 x2 x3 x4 x5 (ix2 (⟨22, by decide⟩ : Fin 51) q : S51x256.Idx)
    = angRow featM2 0xBC03126F#32 (fun p => x2 (ix2 p q : S496x256.Idx)) (fun p => x3 (ix2 p q : S496x256.Idx)) (fun p => x4 (ix2 p q : S496x256.Idx)) (fun p => x5 (ix2 p q : S496x256.Idx)) := by
  open_ang_row (⟨14, by decide⟩ : Fin 43) by pay2_row_14

end Cert.KernelIdeal.KerPay
-- ==== Proof.KerRowsB.lean ====
import proofs.«126887_j40243843564182_2_alg».proof.Proof.KerRowLib

set_option maxRecDepth 16384
open Idealize.ShloMosaic Idealize.ShloMosaic.ValueIdx Cert.KernelIdeal Cert.KernelIdeal.Gen Cert.Sym
noncomputable section
namespace Cert.KernelIdeal.KerPay

variable (x0 x1 : Vec Ideal S32x256 .f32) (x2 x3 x4 x5 : Vec Ideal S496x256 .f32) (q : Fin 256)

/-- Row 23: the angular feature with factor featP2 and Gaussian word 0xBC03126F. -/
theorem row_23 : out0_6 (F := Ideal) x0 x1 x2 x3 x4 x5 (ix2 (⟨23, by decide⟩ : Fin 51) q : S51x256.Idx)
    = angRow featP2 0xBC03126F#32 (fun p => x2 (ix2 p q : S496x256.Idx)) (fun p => x3 (ix2 p q : S496x256.Idx)) (fun p => x4 (ix2 p q : S496x256.Idx)) (fun p => x5 (ix2 p q : S496x256.Idx)) := by
  open_ang_row (⟨15, by decide⟩ : Fin 43) by pay2_row_15

/-- Row 24: the angular feature with factor featM4 and Gaussian word 0xBC03126F. -/
theorem row_24 : out0_6 (F := Ideal) x0 x1 x2 x3 x4 x5 (ix2 (⟨24, by decide⟩ : Fin 51) q : S51x256.Idx)
    = angRow featM4 0xBC03126F#32 (fun p => x2 (ix2 p q : S496x256.Idx)) (fun p => x3 (ix2 p q : S496x256.Idx)) (fun p => x4 (ix2 p q : S496x256.Idx)) (fun p => x5 (ix2 p q : S496x256.Idx)) := by
  open_ang_row (⟨16, by decide⟩ : Fin 43) by pay2_row_16

/-- Row 25: the angular feature with factor featP4 and Gaussian word 0xBC03126F. -/
theorem row_25 : out0_6 (F := Ideal) x0 x1 x2 x3 x4 x5 (ix2 (⟨25, by decide⟩ : Fin 51) q : S51x256.Idx)
    = angRow featP4 0xBC03126F#32 (fun p => x2 (ix2 p q : S496x256.Idx)) (fun p => x3 (ix2 p q : S496x256.Idx)) (fun p => x4 (ix2 p q : S496x256.Idx)) (fun p => x5 (ix2 p q : S496x256.Idx)) := by
  open_ang_row (⟨17, by decide⟩ : Fin 43) by pay2_row_17

/-- Row 26: the angular feature with factor featM1 and Gaussian word 0xBC75C28F. -/
theorem row_26 : out0_6 (F := Ideal) x0 x1 x2 x3 x4 x5 (ix2 (⟨26, by decide⟩ : Fin 51) q : S51x256.Idx)
    = angRow featM1 0xBC75C28F#32 (fun p => x2 (ix2 p q : S496x256.Idx)) (fun p => x3 (ix2 p q : S496x256.Idx)) (fun p => x4 (ix2 p q : S496x256.Idx)) (fun p => x5 (ix2 p q : S496x256.Idx)) := by
  open_ang_row (⟨18, by decide⟩ : Fin 43) by pay2_row_18

/-- Row 27: the angular feature with factor featP1 and Gaussian word 0xBC75C28F. -/
theorem row_27 : out0_6 (F := Ideal) x0 x1 x2 x3 x4 x5 (ix2 (⟨27, by decide⟩ : Fin 51) q : S51x256.Idx)
    = angRow featP1 0xBC75C28F#32 (fun p => x2 (ix2 p q : S496x256.Idx)) (fun p => x3 (ix2 p q : S496x256.Idx)) (fun p => x4 (ix2 p q : S496x256.Idx)) (fun p => x5 (ix2 p q : S496x256.Idx)) := by
  open_ang_row (⟨19, by decide⟩ : Fin 43) by pay2_row_19

/-- Row 28: the angular feature with factor featM2 and Gaussian word 0xBC75C28F. -/
theorem row_28 : out0_6 (F := Ideal) x0 x1 x2 x3 x4 x5 (ix2 (⟨28, by decide⟩ : Fin 51) q : S51x256.Idx)
    = angRow featM2 0xBC75C28F#32 (fun p => x2 (ix2 p q : S496x256.Idx)) (fun p => x3 (ix2 p q : S496x256.Idx)) (fun p => x4 (ix2 p q : S496x256.Idx)) (fun p => x5 (ix2 p q : S496x256.Idx)) := by
  open_ang_row (⟨20, by decide⟩ : Fin 43) by pay2_row_20

/-- Row 29: the angular feature with factor featP2 and Gaussian word 0xBC75C28F. -/
theorem row_29 : out0_6 (F := Ideal) x0 x1 x2 x3 x4 x5 (ix2 (⟨29, by decide⟩ : Fin 51) q : S51x256.Idx)
    = angRow featP2 0xBC75C28F#32 (fun p => x2 (ix2 p q : S496x256.Idx)) (fun p => x3 (ix2 p q : S496x256.Idx)) (fun p => x4 (ix2 p q : S496x256.Idx)) (fun p => x5 (ix2 p q : S496x256.Idx)) := by
  open_ang_row (⟨21, by decide⟩ : Fin 43) by pay2_row_21

/-- Row 30: the angular feature with factor featM4 and Gaussian word 0xBC75C28F. -/
theorem row_30 : out0_6 (F := Ideal) x0 x1 x2 x3 x4 x5 (ix2 (⟨30, by decide⟩ : Fin 51) q : S51x256.Idx)
    = angRow featM4 0xBC75C28F#32 (fun p => x2 (ix2 p q : S496x256.Idx)) (fun p => x3 (ix2 p q : S496x256.Idx)) (fun p => x4 (ix2 p q : S496x256.Idx)) (fun p => x5 (ix2 p q : S496x256.Idx)) := by
  open_ang_row (⟨22, by decide⟩ : Fin 43) by pay2_row_22

/-- Row 31: the angular feature with factor featP4 and Gaussian word 0xBC75C28F. -/
theorem row_31 : out0_6 (F := Ideal) x0 x1 x2 x3 x4 x5 (ix2 (⟨31, by decide⟩ : Fin 51) q : S51x256.Idx)
    = angRow featP4 0xBC75C28F#32 (fun p => x2 (ix2 p q : S496x256.Idx)) (fun p => x3 (ix2 p q : S496x256.Idx)) (fun p => x4 (ix2 p q : S496x256.Idx)) (fun p => x5 (ix2 p q : S496x256.Idx)) := by
  open_ang_row (⟨23, by decide⟩ : Fin 43) by pay2_row_23

/-- Row 32: the angular feature with factor featM1 and Gaussian word 0xBCCCCCCD. -/
theorem row_32 : out0_6 (F := Ideal) x0 x1 x2 x3 x4 x5 (ix2 (⟨32, by decide⟩ : Fin 51) q : S51x256.Idx)
    = angRow featM1 0xBCCCCCCD#32 (fun p => x2 (ix2 p q : S496x256.Idx)) (fun p => x3 (ix2 p q : S496x256.Idx)) (fun p => x4 (ix2 p q : S496x256.Idx)) (fun p => x5 (ix2 p q : S496x256.Idx)) := by
  open_ang_row (⟨24, by decide⟩ : Fin 43) by pay2_row_24

/-- Row 33: the angular feature with factor featP1 and Gaussian word 0xBCCCCCCD. -/
theorem row_33 : out0_6 (F := Ideal) x0 x1 x2 x3 x4 x5 (ix2 (⟨33, by decide⟩ : Fin 51) q : S51x256.Idx)
    = angRow featP1 0xBCCCCCCD#32 (fun p => x2 (ix2 p q : S496x256.Idx)) (fun p => x3 (ix2 p q : S496x256.Idx)) (fun p => x4 (ix2 p q : S496x256.Idx)) (fun p => x5 (ix2 p q : S496x256.Idx)) := by
  open_ang_row (⟨25, by decide⟩ : Fin 43) by pay2_row_25

/-- Row 34: the angular feature with factor featM2 and Gaussian word 0xBCCCCCCD. -/
theorem row_34 : out0_6 (F := Ideal) x0 x1 x2 x3 x4 x5 (ix2 (⟨34, by decide⟩ : Fin 51) q : S51x256.Idx)
    = angRow featM2 0xBCCCCCCD#32 (fun p => x2 (ix2 p q : S496x256.Idx)) (fun p => x3 (ix2 p q : S496x256.Idx)) (fun p => x4 (ix2 p q : S496x256.Idx)) (fun p => x5 (ix2 p q : S496x256.Idx)) := by
  open_ang_row (⟨26, by decide⟩ : Fin 43) by pay2_row_26

/-- Row 35: the angular feature with factor featP2 and Gaussian word 0xBCCCCCCD. -/
theorem row_35 : out0_6 (F := Ideal) x0 x1 x2 x3 x4 x5 (ix2 (⟨35, by decide⟩ : Fin 51) q : S51x256.Idx)
    = angRow featP2 0xBCCCCCCD#32 (fun p => x2 (ix2 p q : S496x256.Idx)) (fun p => x3 (ix2 p q : S496x256.Idx)) (fun p => x4 (ix2 p q : S496x256.Idx)) (fun p => x5 (ix2 p q : S496x256.Idx)) := by
  open_ang_row (⟨27, by decide⟩ : Fin 43) by pay2_row_27

/-- Row 36: the angular feature with factor featM4 and Gaussian word 0xBCCCCCCD. -/
theorem row_36 : out0_6 (F := Ideal) x0 x1 x2 x3 x4 x5 (ix2 (⟨36, by decide⟩ : Fin 51) q : S51x256.Idx)
    = angRow featM4 0xBCCCCCCD#32 (fun p => x2 (ix2 p q : S496x256.Idx)) (fun p => x3 (ix2 p q : S496x256.Idx)) (fun p => x4 (ix2 p q : S496x256.Idx)) (fun p => x5 (ix2 p q : S496x256.Idx)) := by
  open_ang_row (⟨28, by decide⟩ : Fin 43) by pay2_row_28

/-- Row 37: the angular feature with factor featP4 and Gaussian word 0xBCCCCCCD. -/
theorem row_37 : out0_6 (F := Ideal) x0 x1 x2 x3 x4 x5 (ix2 (⟨37, by decide⟩ : Fin 51) q : S51x256.Idx)
    = angRow featP4 0xBCCCCCCD#32 (fun p => x2 (ix2 p q : S496x256.Idx)) (fun p => x3 (ix2 p q : S496x256.Idx)) (fun p => x4 (ix2 p q : S496x256.Idx)) (fun p => x5 (ix2 p q : S496x256.Idx)) := by
  open_ang_row (⟨29, by decide⟩ : Fin 43) by pay2_row_29

end Cert.KernelIdeal.KerPay
-- ==== Proof.KerRowsC.lean ====
import proofs.«126887_j40243843564182_2_alg».proof.Proof.KerRowLib

set_option maxRecDepth 16384
open Idealize.ShloMosaic Idealize.ShloMosaic.ValueIdx Cert.KernelIdeal Cert.KernelIdeal.Gen Cert.Sym
noncomputable section
namespace Cert.KernelIdeal.KerPay

variable (x0 x1 : Vec Ideal S32x256 .f32) (x2 x3 x4 x5 : Vec Ideal S496x256 .f32) (q : Fin 256)

/-- Row 38: the angular feature with factor featM1 and Gaussian word 0xBD3851EC. -/
theorem row_38 : out0_6 (F := Ideal) x0 x1 x2 x3 x4 x5 (ix2 (⟨38, by decide⟩ : Fin 51) q : S51x256.Idx)
    = angRow featM1 0xBD3851EC#32 (fun p => x2 (ix2 p q : S496x256.Idx)) (fun p => x3 (ix2 p q : S496x256.Idx)) (fun p => x4 (ix2 p q : S496x256.Idx)) (fun p => x5 (ix2 p q : S496x256.Idx)) := by
  open_ang_row (⟨30, by decide⟩ : Fin 43) by pay2_row_30

/-- Row 39: the angular feature with factor featP1 and Gaussian word 0xBD3851EC. -/
theorem row_39 : out0_6 (F := Ideal) x0 x1 x2 x3 x4 x5 (ix2 (⟨39, by decide⟩ : Fin 51) q : S51x256.Idx)
    = angRow featP1 0xBD3851EC#32 (fun p => x2 (ix2 p q : S496x256.Idx)) (fun p => x3 (ix2 p q : S496x256.Idx)) (fun p => x4 (ix2 p q : S496x256.Idx)) (fun p => x5 (ix2 p q : S496x256.Idx)) := by
  open_ang_row (⟨31, by decide⟩ : Fin 43) by pay2_row_31

/-- Row 40: the angular feature with factor featM2 and Gaussian word 0xBD3851EC. -/
theorem row_40 : out0_6 (F := Ideal) x0 x1 x2 x3 x4 x5 (ix2 (⟨40, by decide⟩ : Fin 51) q : S51x256.Idx)
    = angRow featM2 0xBD3851EC#32 (fun p => x2 (ix2 p q : S496x256.Idx)) (fun p => x3 (ix2 p q : S496x256.Idx)) (fun p => x4 (ix2 p q : S496x256.Idx)) (fun p => x5 (ix2 p q : S496x256.Idx)) := by
  open_ang_row (⟨32, by decide⟩ : Fin 43) by pay2_row_32

/-- Row 41: the angular feature with factor featP2 and Gaussian word 0xBD3851EC. -/
theorem row_41 : out0_6 (F := Ideal) x0 x1 x2 x3 x4 x5 (ix2 (⟨41, by decide⟩ : Fin 51) q : S51x256.Idx)
    = angRow featP2 0xBD3851EC#32 (fun p => x2 (ix2 p q : S496x256.Idx)) (fun p => x3 (ix2 p q : S496x256.Idx)) (fun p => x4 (ix2 p q : S496x256.Idx)) (fun p => x5 (ix2 p q : S496x256.Idx)) := by
  open_ang_row (⟨33, by decide⟩ : Fin 43) by pay2_row_33

/-- Row 42: the angular feature with factor featM4 and Gaussian word 0xBD3851EC. -/
theorem row_42 : out0_6 (F := Ideal) x0 x1 x2 x3 x4 x5 (ix2 (⟨42, by decide⟩ : Fin 51) q : S51x256.Idx)
    = angRow featM4 0xBD3851EC#32 (fun p => x2 (ix2 p q : S496x256.Idx)) (fun p => x3 (ix2 p q : S496x256.Idx)) (fun p => x4 (ix2 p q : S496x256.Idx)) (fun p => x5 (ix2 p q : S496x256.Idx)) := by
  open_ang_row (⟨34, by decide⟩ : Fin 43) by pay2_row_34

/-- Row 43: the angular feature with factor featP4 and Gaussian word 0xBD3851EC. -/
theorem row_43 : out0_6 (F := Ideal) x0 x1 x2 x3 x4 x5 (ix2 (⟨43, by decide⟩ : Fin 51) q : S51x256.Idx)
    = angRow featP4 0xBD3851EC#32 (fun p => x2 (ix2 p q : S496x256.Idx)) (fun p => x3 (ix2 p q : S496x256.Idx)) (fun p => x4 (ix2 p q : S496x256.Idx)) (fun p => x5 (ix2 p q : S496x256.Idx)) := by
  open_ang_row (⟨35, by decide⟩ : Fin 43) by pay2_row_35

/-- Row 44: the angular feature with factor featM1 and Gaussian word 0xBDA3D70A. -/
theorem row_44 : out0_6 (F := Ideal) x0 x1 x2 x3 x4 x5 (ix2 (⟨44, by decide⟩ : Fin 51) q : S51x256.Idx)
    = angRow featM1 0xBDA3D70A#32 (fun p => x2 (ix2 p q : S496x256.Idx)) (fun p => x3 (ix2 p q : S496x256.Idx)) (fun p => x4 (ix2 p q : S496x256.Idx)) (fun p => x5 (ix2 p q : S496x256.Idx)) := by
  open_ang_row (⟨36, by decide⟩ : Fin 43) by pay2_row_36

/-- Row 45: the angular feature with factor featP1 and Gaussian word 0xBDA3D70A. -/
theorem row_45 : out0_6 (F := Ideal) x0 x1 x2 x3 x4 x5 (ix2 (⟨45, by decide⟩ : Fin 51) q : S51x256.Idx)
    = angRow featP1 0xBDA3D70A#32 (fun p => x2 (ix2 p q : S496x256.Idx)) (fun p => x3 (ix2 p q : S496x256.Idx)) (fun p => x4 (ix2 p q : S496x256.Idx)) (fun p => x5 (ix2 p q : S496x256.Idx)) := by
  open_ang_row (⟨37, by decide⟩ : Fin 43) by pay2_row_37

/-- Row 46: the angular feature with factor featM2 and Gaussian word 0xBDA3D70A. -/
theorem row_46 : out0_6 (F := Ideal) x0 x1 x2 x3 x4 x5 (ix2 (⟨46, by decide⟩ : Fin 51) q : S51x256.Idx)
    = angRow featM2 0xBDA3D70A#32 (fun p => x2 (ix2 p q : S496x256.Idx)) (fun p => x3 (ix2 p q : S496x256.Idx)) (fun p => x4 (ix2 p q : S496x256.Idx)) (fun p => x5 (ix2 p q : S496x256.Idx)) := by
  open_ang_row (⟨38, by decide⟩ : Fin 43) by pay2_row_38

/-- Row 47: the angular feature with factor featP2 and Gaussian word 0xBDA3D70A. -/
theorem row_47 : out0_6 (F := Ideal) x0 x1 x2 x3 x4 x5 (ix2 (⟨47, by decide⟩ : Fin 51) q : S51x256.Idx)
    = angRow featP2 0xBDA3D70A#32 (fun p => x2 (ix2 p q : S496x256.Idx)) (fun p => x3 (ix2 p q : S496x256.Idx)) (fun p => x4 (ix2 p q : S496x256.Idx)) (fun p => x5 (ix2 p q : S496x256.Idx)) := by
  open_ang_row (⟨39, by decide⟩ : Fin 43) by pay2_row_39

/-- Row 48: the angular feature with factor featM4 and Gaussian word 0xBDA3D70A. -/
theorem row_48 : out0_6 (F := Ideal) x0 x1 x2 x3 x4 x5 (ix2 (⟨48, by decide⟩ : Fin 51) q : S51x256.Idx)
    = angRow featM4 0xBDA3D70A#32 (fun p => x2 (ix2 p q : S496x256.Idx)) (fun p => x3 (ix2 p q : S496x256.Idx)) (fun p => x4 (ix2 p q : S496x256.Idx)) (fun p => x5 (ix2 p q : S496x256.Idx)) := by
  open_ang_row (⟨40, by decide⟩ : Fin 43) by pay2_row_40

/-- Row 49: the angular feature with factor featP4 and Gaussian word 0xBDA3D70A. -/
theorem row_49 : out0_6 (F := Ideal) x0 x1 x2 x3 x4 x5 (ix2 (⟨49, by decide⟩ : Fin 51) q : S51x256.Idx)
    = angRow featP4 0xBDA3D70A#32 (fun p => x2 (ix2 p q : S496x256.Idx)) (fun p => x3 (ix2 p q : S496x256.Idx)) (fun p => x4 (ix2 p q : S496x256.Idx)) (fun p => x5 (ix2 p q : S496x256.Idx)) := by
  open_ang_row (⟨41, by decide⟩ : Fin 43) by pay2_row_41

/-- Row 50: the angular feature with factor featP16 and Gaussian word 0xBDA3D70A. -/
theorem row_50 : out0_6 (F := Ideal) x0 x1 x2 x3 x4 x5 (ix2 (⟨50, by decide⟩ : Fin 51) q : S51x256.Idx)
    = angRow featP16 0xBDA3D70A#32 (fun p => x2 (ix2 p q : S496x256.Idx)) (fun p => x3 (ix2 p q : S496x256.Idx)) (fun p => x4 (ix2 p q : S496x256.Idx)) (fun p => x5 (ix2 p q : S496x256.Idx)) := by
  open_ang_row (⟨42, by decide⟩ : Fin 43) by pay2_row_42

end Cert.KernelIdeal.KerPay
-- ==== Proof.KerRowsAll.lean ====
import proofs.«126887_j40243843564182_2_alg».proof.Proof.KerRowsRad
import proofs.«126887_j40243843564182_2_alg».proof.Proof.KerRowsA
import proofs.«126887_j40243843564182_2_alg».proof.Proof.KerRowsB
import proofs.«126887_j40243843564182_2_alg».proof.Proof.KerRowsC

set_option maxRecDepth 16384
open Idealize.ShloMosaic Idealize.ShloMosaic.ValueIdx Cert.KernelIdeal Cert.KernelIdeal.Gen Cert.Sym
noncomputable section
namespace Cert.KernelIdeal.KerPay

variable (x0 x1 : Vec Ideal S32x256 .f32) (x2 x3 x4 x5 : Vec Ideal S496x256 .f32) (q : Fin 256)

/-- Every row of the stored block, at lane q, is that row of one atom's features from the lane's columns of the six input blocks. -/
theorem out_apply (f : Fin 51) : out0_6 (F := Ideal) x0 x1 x2 x3 x4 x5 (ix2 f q : S51x256.Idx)
    = KRow f (fun k => x0 (ix2 k q : S32x256.Idx)) (fun k => x1 (ix2 k q : S32x256.Idx)) (fun p => x2 (ix2 p q : S496x256.Idx)) (fun p => x3 (ix2 p q : S496x256.Idx)) (fun p => x4 (ix2 p q : S496x256.Idx)) (fun p => x5 (ix2 p q : S496x256.Idx)) := by
  fin_cases f
  · exact row_0 x0 x1 x2 x3 x4 x5 q
  · exact row_1 x0 x1 x2 x3 x4 x5 q
  · exact row_2 x0 x1 x2 x3 x4 x5 q
  · exact row_3 x0 x1 x2 x3 x4 x5 q
  · exact row_4 x0 x1 x2 x3 x4 x5 q
  · exact row_5 x0 x1 x2 x3 x4 x5 q
  · exact row_6 x0 x1 x2 x3 x4 x5 q
  · exact row_7 x0 x1 x2 x3 x4 x5 q
  · exact row_8 x0 x1 x2 x3 x4 x5 q
  · exact row_9 x0 x1 x2 x3 x4 x5 q
  · exact row_10 x0 x1 x2 x3 x4 x5 q
  · exact row_11 x0 x1 x2 x3 x4 x5 q
  · exact row_12 x0 x1 x2 x3 x4 x5 q
  · exact row_13 x0 x1 x2 x3 x4 x5 q
  · exact row_14 x0 x1 x2 x3 x4 x5 q
  · exact row_15 x0 x1 x2 x3 x4 x5 q
  · exact row_16 x0 x1 x2 x3 x4 x5 q
  · exact row_17 x0 x1 x2 x3 x4 x5 q
  · exact row_18 x0 x1 x2 x3 x4 x5 q
  · exact row_19 x0 x1 x2 x3 x4 x5 q
  · exact row_20 x0 x1 x2 x3 x4 x5 q
  · exact row_21 x0 x1 x2 x3 x4 x5 q
  · exact row_22 x0 x1 x2 x3 x4 x5 q
  · exact row_23 x0 x1 x2 x3 x4 x5 q
  · exact row_24 x0 x1 x2 x3 x4 x5 q
  · exact row_25 x0 x1 x2 x3 x4 x5 q
  · exact row_26 x0 x1 x2 x3 x4 x5 q
  · exact row_27 x0 x1 x2 x3 x4 x5 q
  · exact row_28 x0 x1 x2 x3 x4 x5 q
  · exact row_29 x0 x1 x2 x3 x4 x5 q
  · exact row_30 x0 x1 x2 x3 x4 x5 q
  · exact row_31 x0 x1 x2 x3 x4 x5 q
  · exact row_32 x0 x1 x2 x3 x4 x5 q
  · exact row_33 x0 x1 x2 x3 x4 x5 q
  · exact row_34 x0 x1 x2 x3 x4 x5 q
  · exact row_35 x0 x1 x2 x3 x4 x5 q
  · exact row_36 x0 x1 x2 x3 x4 x5 q
  · exact row_37 x0 x1 x2 x3 x4 x5 q
  · exact row_38 x0 x1 x2 x3 x4 x5 q
  · exact row_39 x0 x1 x2 x3 x4 x5 q
  · exact row_40 x0 x1 x2 x3 x4 x5 q
  · exact row_41 x0 x1 x2 x3 x4 x5 q
  · exact row_42 x0 x1 x2 x3 x4 x5 q
  · exact row_43 x0 x1 x2 x3 x4 x5 q
  · exact row_44 x0 x1 x2 x3 x4 x5 q
  · exact row_45 x0 x1 x2 x3 x4 x5 q
  · exact row_46 x0 x1 x2 x3 x4 x5 q
  · exact row_47 x0 x1 x2 x3 x4 x5 q
  · exact row_48 x0 x1 x2 x3 x4 x5 q
  · exact row_49 x0 x1 x2 x3 x4 x5 q
  · exact row_50 x0 x1 x2 x3 x4 x5 q

end Cert.KernelIdeal.KerPay
-- ==== Proof.SymConsts.lean ====
/-
  The few binary32 words whose values the algebra between the two arrangements uses: 1, −1, 2, 4, 16 and 1/2.
-/
import Idealize.ShloMosaic.PureOps.Ideal

noncomputable section

namespace Cert.Sym.Consts

open Idealize.ShloMosaic

theorem lit_one : Ideal.ofBits .f32 0x3F800000#32 = 1 := by
  simp [Ideal.ofBits, Ideal.ieee, -EReal.coe_mul]; norm_num
theorem lit_negOne : Ideal.ofBits .f32 0xBF800000#32 = ((-1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num

end Cert.Sym.Consts

end
-- ==== Proof.SymPow.lean ====
/-
  Scalar facts behind the agreement of the two arrangements of the angular and radial terms: comparisons as bits,
  the positive bases, and powers of a positive extended real with exponent 1, 2, 4, 16 against repeated squaring.
-/
import proofs.«126887_j40243843564182_2_alg».proof.Proof.SymRows
import proofs.«126887_j40243843564182_2_alg».proof.Proof.SymConsts

noncomputable section

namespace Cert.Sym

open Idealize.ShloMosaic Cert.Sym.Consts

theorem lit_zero : lit 0x00000000#32 = 0 := Ideal.ofBits_zero_f32
theorem lit1 : lit 0x3F800000#32 = 1 := lit_one
theorem litNeg1 : lit 0xBF800000#32 = ((-1 : ℝ) : EReal) := lit_negOne
theorem lit2 : lit 0x40000000#32 = ((2 : ℝ) : EReal) := lit_two
theorem lit4 : lit 0x40800000#32 = ((4 : ℝ) : EReal) := lit_four
theorem lit16 : lit 0x41800000#32 = ((16 : ℝ) : EReal) := lit_sixteen
theorem litHalf : lit 0x3F000000#32 = ((1 / 2 : ℝ) : EReal) := lit_half

/-- The comparison "greater" as a bit: it is 1 exactly when the order says so. -/
theorem cmp_ogt_eq_one {u v : EReal} : Ideal.cmp .ogt u v = 1 ↔ v < u := by
  unfold Ideal.cmp
  by_cases h : v < u <;> simp [h]

/-- A bit compared with one half, read as 0 or 1, gives the bit back. -/
theorem gt_half (b : BitVec 1) : Ideal.cmp .ogt (bitR b) (lit 0x3F000000#32) = b := by
  rw [litHalf]
  obtain ⟨⟨v, hv⟩⟩ := b
  have : v = 0 ∨ v = 1 := by omega
  rcases this with rfl | rfl
  · have : ¬ (((1 / 2 : ℝ) : EReal) < ((((BitVec.ofFin ⟨0, hv⟩ : BitVec 1).toNat : ℝ)) : EReal)) := by
      rw [EReal.coe_lt_coe_iff]; norm_num
    unfold Ideal.cmp; simp only [this, decide_false]; rfl
  · have : (((1 / 2 : ℝ) : EReal) < ((((BitVec.ofFin ⟨1, hv⟩ : BitVec 1).toNat : ℝ)) : EReal)) := by
      rw [EReal.coe_lt_coe_iff]; norm_num
    unfold Ideal.cmp; simp only [this, decide_true]; rfl

/-- A positive extended real is the top or a positive real. -/
theorem pos_cases {x : EReal} (hx : 0 < x) : x = ⊤ ∨ ∃ r : ℝ, 0 < r ∧ x = (r : EReal) := by
  induction x using EReal.rec with
  | bot => exact absurd hx (by simp)
  | top => exact Or.inl rfl
  | coe r => exact Or.inr ⟨r, by exact_mod_cast hx, rfl⟩

theorem pow_one_of_pos {x : EReal} (hx : 0 < x) : Ideal.pow x ((1 : ℝ) : EReal) = x := by
  rcases pos_cases hx with rfl | ⟨r, hr, rfl⟩
  · rw [Ideal.pow_top, if_pos (by exact_mod_cast (zero_lt_one : (0 : ℝ) < 1))]
  · show ((Real.rpow r 1 : ℝ) : EReal) = _
    rw [Real.rpow_eq_pow, Real.rpow_one]

theorem pow_two_of_pos {x : EReal} (hx : 0 < x) : Ideal.pow x ((2 : ℝ) : EReal) = x * x := by
  rcases pos_cases hx with rfl | ⟨r, hr, rfl⟩
  · rw [Ideal.pow_top, if_pos (by exact_mod_cast (two_pos : (0 : ℝ) < 2)), EReal.top_mul_top]
  · show ((Real.rpow r 2 : ℝ) : EReal) = _
    rw [Real.rpow_eq_pow, Real.rpow_two, ← EReal.coe_mul, sq]

theorem pow_four_of_pos {x : EReal} (hx : 0 < x) : Ideal.pow x ((4 : ℝ) : EReal) = (x * x) * (x * x) := by
  rcases pos_cases hx with rfl | ⟨r, hr, rfl⟩
  · rw [Ideal.pow_top, if_pos (by exact_mod_cast (by norm_num : (0 : ℝ) < 4)), EReal.top_mul_top, EReal.top_mul_top]
  · show ((Real.rpow r 4 : ℝ) : EReal) = _
    rw [Real.rpow_eq_pow, show (4 : ℝ) = ((4 : ℕ) : ℝ) by norm_num, Real.rpow_natCast, ← EReal.coe_mul, ← EReal.coe_mul]
    congr 1; ring

theorem pow_sixteen_of_pos {x : EReal} (hx : 0 < x) : Ideal.pow x ((16 : ℝ) : EReal)
    = (((x * x) * (x * x)) * ((x * x) * (x * x))) * (((x * x) * (x * x)) * ((x * x) * (x * x))) := by
  rcases pos_cases hx with rfl | ⟨r, hr, rfl⟩
  · rw [Ideal.pow_top, if_pos (by exact_mod_cast (by norm_num : (0 : ℝ) < 16))]; simp only [EReal.top_mul_top]
  · show ((Real.rpow r 16 : ℝ) : EReal) = _
    rw [Real.rpow_eq_pow, show (16 : ℝ) = ((16 : ℕ) : ℝ) by norm_num, Real.rpow_natCast]
    simp only [← EReal.coe_mul]
    congr 1; ring

/-- The base 1 + c made positive is positive. -/
theorem baseP_pos (c : EReal) : 0 < baseP c := by
  unfold baseP Scalar.select
  by_cases h : Ideal.cmp .ogt (lit 0x3F800000#32 + c) (lit 0x00000000#32) = 1
  · rw [if_pos h]; rw [cmp_ogt_eq_one, lit_zero] at h; exact h
  · rw [if_neg h, lit1]; exact zero_lt_one

/-- The base 1 − c made positive is positive. -/
theorem baseM_pos (c : EReal) : 0 < baseM c := by
  unfold baseM Scalar.select
  by_cases h : Ideal.cmp .ogt (lit 0x3F800000#32 - c) (lit 0x00000000#32) = 1
  · rw [if_pos h]; rw [cmp_ogt_eq_one, lit_zero] at h; exact h
  · rw [if_neg h, lit1]; exact zero_lt_one

end Cert.Sym
-- ==== Proof.SymLaw.lean ====
/-
  The two arrangements agree. Per pair of slots the squared third side is the same number whether its three squares
  are summed from zero or added left to right; the triangle count is the same bit whether the second slot's
  conditions are spelt out or read back from its 0/1 count; and a factor by repeated squaring times the Gaussian, the
  cutoffs and the count is the table form's weight · (1 ± cos)^zeta · Gaussian · cutoffs · count: products of extended
  reals commute and associate, 1 · y = y, (−1) · c = −c, and a positive base to the power 1, 2, 4, 16 is its
  repeated square. No finiteness is used.
-/
import proofs.«126887_j40243843564182_2_alg».proof.Proof.SymPow

noncomputable section

namespace Cert.Sym

open Idealize.ShloMosaic

/-! ## The squared third side and the triangle count -/

theorem rjksq_eq (g : Geo) (n : Fin 2000) (p : Fin 496) : g.rjksqChain n p = g.rjksqSum n p := by
  unfold Geo.rjksqChain Geo.rjksqSum
  rw [lit_zero, zero_add, Fin.sum_univ_three]

theorem tri_eq (g : Geo) (n : Fin 2000) (p : Fin 496) (s : EReal) : g.triHalf n p s = g.triSpelt n p s := by
  unfold Geo.triHalf Geo.triSpelt
  rw [gt_half, gt_half]
  simp only [Geo.mask, IntOp.andi, BitVec.and_assoc]

/-! ## Powers at the words 1, 2, 4, 16 -/

theorem pow_lit1 {x : EReal} (hx : 0 < x) : Ideal.pow x (lit 0x3F800000#32) = x := by
  rw [lit1, ← EReal.coe_one]; exact pow_one_of_pos hx
theorem pow_lit2 {x : EReal} (hx : 0 < x) : Ideal.pow x (lit 0x40000000#32) = x * x := by
  rw [lit2]; exact pow_two_of_pos hx
theorem pow_lit4 {x : EReal} (hx : 0 < x) : Ideal.pow x (lit 0x40800000#32) = (x * x) * (x * x) := by
  rw [lit4]; exact pow_four_of_pos hx
theorem pow_lit16 {x : EReal} (hx : 0 < x) : Ideal.pow x (lit 0x41800000#32)
    = (((x * x) * (x * x)) * ((x * x) * (x * x))) * (((x * x) * (x * x)) * ((x * x) * (x * x))) := by
  rw [lit16]; exact pow_sixteen_of_pos hx

/-! ## The table form with the sign word resolved -/

section
variable (eta : BitVec 32) (a b s : EReal) (t : BitVec 1)

theorem plus_mul (c : EReal) : lit 0x3F800000#32 * c = c := by rw [lit1, one_mul]
theorem minus_mul (c : EReal) : lit 0x3F800000#32 + lit 0xBF800000#32 * c = lit 0x3F800000#32 - c := by
  rw [litNeg1, EReal.coe_neg, EReal.coe_one, neg_one_mul, ← sub_eq_add_neg]

theorem table_plus (zeta coef : BitVec 32) : angTermTable 0x3F800000#32 zeta eta coef a b s t
    = ((((lit coef * (Ideal.pow (baseP (cosA a b s)) (lit zeta) * posP (cosA a b s))) * Ideal.exp (lit eta * ssumA a b s))
        * fcprod a b s) * bitR t) := by
  unfold angTermTable; rw [plus_mul]; rfl

theorem table_minus (zeta coef : BitVec 32) : angTermTable 0xBF800000#32 zeta eta coef a b s t
    = ((((lit coef * (Ideal.pow (baseM (cosA a b s)) (lit zeta) * posM (cosA a b s))) * Ideal.exp (lit eta * ssumA a b s))
        * fcprod a b s) * bitR t) := by
  unfold angTermTable; rw [minus_mul]; rfl

/-! ## The seven families -/

theorem famP1 : angTermShared featP1 eta a b s (bitR t) = angTermTable 0x3F800000#32 0x3F800000#32 eta 0x3F800000#32 a b s t := by
  rw [table_plus]; unfold angTermShared featP1
  rw [pow_lit1 (baseP_pos _), lit1, one_mul]; ac_rfl
theorem famM1 : angTermShared featM1 eta a b s (bitR t) = angTermTable 0xBF800000#32 0x3F800000#32 eta 0x3F800000#32 a b s t := by
  rw [table_minus]; unfold angTermShared featM1
  rw [pow_lit1 (baseM_pos _), lit1, one_mul]; ac_rfl
theorem famP2 : angTermShared featP2 eta a b s (bitR t) = angTermTable 0x3F800000#32 0x40000000#32 eta 0x3F000000#32 a b s t := by
  rw [table_plus]; unfold angTermShared featP2
  rw [pow_lit2 (baseP_pos _)]; ac_rfl
theorem famM2 : angTermShared featM2 eta a b s (bitR t) = angTermTable 0xBF800000#32 0x40000000#32 eta 0x3F000000#32 a b s t := by
  rw [table_minus]; unfold angTermShared featM2
  rw [pow_lit2 (baseM_pos _)]; ac_rfl
theorem famP4 : angTermShared featP4 eta a b s (bitR t) = angTermTable 0x3F800000#32 0x40800000#32 eta 0x3E000000#32 a b s t := by
  rw [table_plus]; unfold angTermShared featP4
  rw [pow_lit4 (baseP_pos _)]; ac_rfl
theorem famM4 : angTermShared featM4 eta a b s (bitR t) = angTermTable 0xBF800000#32 0x40800000#32 eta 0x3E000000#32 a b s t := by
  rw [table_minus]; unfold angTermShared featM4
  rw [pow_lit4 (baseM_pos _)]; ac_rfl
theorem famP16 : angTermShared featP16 eta a b s (bitR t) = angTermTable 0x3F800000#32 0x41800000#32 eta 0x38000000#32 a b s t := by
  rw [table_plus]; unfold angTermShared featP16
  rw [pow_lit16 (baseP_pos _)]; ac_rfl

end

/-- The sign, exponent and weight words of the six factors of a group, in row order. -/
def lam6 : Fin 6 → BitVec 32 := ![0xBF800000#32, 0x3F800000#32, 0xBF800000#32, 0x3F800000#32, 0xBF800000#32, 0x3F800000#32]
def zeta6 : Fin 6 → BitVec 32 := ![0x3F800000#32, 0x3F800000#32, 0x40000000#32, 0x40000000#32, 0x40800000#32, 0x40800000#32]
def coef6 : Fin 6 → BitVec 32 := ![0x3F800000#32, 0x3F800000#32, 0x3F000000#32, 0x3F000000#32, 0x3E000000#32, 0x3E000000#32]

theorem fam6 (i : Fin 6) (eta : BitVec 32) (a b s : EReal) (t : BitVec 1) :
    angTermShared (feat6 i) eta a b s (bitR t) = angTermTable (lam6 i) (zeta6 i) eta (coef6 i) a b s t := by
  fin_cases i
  · exact famM1 eta a b s t
  · exact famP1 eta a b s t
  · exact famM2 eta a b s t
  · exact famP2 eta a b s t
  · exact famM4 eta a b s t
  · exact famP4 eta a b s t

/-! ## Rows -/

/-- A radial row from the atom's distances and counts is the radial feature with the Gaussian centred at zero. -/
theorem rad_law (g : Geo) (e : BitVec 32) (n : Fin 2000) :
    radRow e (g.r n) (fun k => bitR (g.mask n k)) = radialShift g e 0x00000000#32 n := by
  unfold radRow radialShift radTermShift
  rw [lit_zero, zero_add]
  simp only [sub_zero]

/-- An angular row from the atom's pair columns is the table form's angular feature, for any factor that meets the
    table form pair by pair. -/
theorem ang_law (g : Geo) (feat : EReal → EReal) (lam zeta eta coef : BitVec 32)
    (hfam : ∀ (a b s : EReal) (t : BitVec 1), angTermShared feat eta a b s (bitR t) = angTermTable lam zeta eta coef a b s t)
    (n : Fin 2000) :
    angRow feat eta (g.rij n) (g.rik n) (g.rjksqChain n) (fun p => bitR (g.triHalf n p (g.rjksqChain n p)))
      = angularTable g lam zeta eta coef n := by
  unfold angRow angularTable
  rw [lit_zero, zero_add]
  refine Finset.sum_congr rfl fun p _ => ?_
  rw [hfam, tri_eq, rjksq_eq]

/-- The sign, exponent, Gaussian and weight words of the 43 angular features, in feature order. -/
def lamT (q : Fin 43) : BitVec 32 := if h : q.val < 42 then lam6 ⟨q.val % 6, Nat.mod_lt _ (by decide)⟩ else 0x3F800000#32
def zetaT (q : Fin 43) : BitVec 32 := if h : q.val < 42 then zeta6 ⟨q.val % 6, Nat.mod_lt _ (by decide)⟩ else 0x41800000#32
def etaT (q : Fin 43) : BitVec 32 := if h : q.val < 42 then angWord ⟨q.val / 6, by omega⟩ else angWord 6
def coefT (q : Fin 43) : BitVec 32 := if h : q.val < 42 then coef6 ⟨q.val % 6, Nat.mod_lt _ (by decide)⟩ else 0x38000000#32

/-- Every row of one atom's features, from the columns the device kernel reads, is the reference arrangement's
    feature: rows 0–7 the radial ones, rows 8–50 the angular ones of the tables above. -/
theorem law (g : Geo) (n : Fin 2000) (f : Fin 51) :
    KRow f (g.r n) (fun k => bitR (g.mask n k)) (g.rij n) (g.rik n) (g.rjksqChain n)
        (fun p => bitR (g.triHalf n p (g.rjksqChain n p)))
      = if h : f.val < 8 then radialShift g (radWord ⟨f.val, h⟩) 0x00000000#32 n
        else angularTable g (lamT ⟨f.val - 8, by omega⟩) (zetaT ⟨f.val - 8, by omega⟩) (etaT ⟨f.val - 8, by omega⟩)
          (coefT ⟨f.val - 8, by omega⟩) n := by
  unfold KRow
  by_cases h : f.val < 8
  · rw [dif_pos h, dif_pos h]; exact rad_law g _ n
  · rw [dif_neg h, dif_neg h]
    by_cases h2 : f.val < 50
    · have h42 : f.val - 8 < 42 := by omega
      rw [dif_pos h2]
      unfold lamT zetaT etaT coefT
      simp only [dif_pos h42]
      exact ang_law g _ _ _ _ _ (fam6 _ _) n
    · have h42 : ¬ f.val - 8 < 42 := by omega
      rw [dif_neg h2]
      unfold lamT zetaT etaT coefT
      simp only [dif_neg h42]
      exact ang_law g _ _ _ _ _ (famP16 _) n

end Cert.Sym
-- ==== Proof.KerFinal.lean ====
/-
  The device program's result, entry by entry: entry (n, f) is row f of atom n's features computed from the atom's
  columns of the six arrays the region reads, and those columns hold the atom's distances, slot counts, pair distances,
  squared third sides and triangle counts; by the agreement of the two arrangements this is the reference arrangement's
  feature f of atom n over the same geometry.
-/
import proofs.«126887_j40243843564182_2_alg».proof.Proof.KerOut
import proofs.«126887_j40243843564182_2_alg».proof.Proof.KerArr0
import proofs.«126887_j40243843564182_2_alg».proof.Proof.KerArr1
import proofs.«126887_j40243843564182_2_alg».proof.Proof.KerArr23
import proofs.«126887_j40243843564182_2_alg».proof.Proof.KerArr4At
import proofs.«126887_j40243843564182_2_alg».proof.Proof.KerArr5
import proofs.«126887_j40243843564182_2_alg».proof.Proof.KerRowsAll
import proofs.«126887_j40243843564182_2_alg».proof.Proof.SymLaw

noncomputable section

namespace Cert.KernelIdeal.KerValue

open Cert.KernelIdeal Cert.KernelIdeal.Gen Idealize.ShloMosaic Idealize.ShloMosaic.TcCoe Idealize.SL.Sem
open Idealize.ShloMosaic.ValueIdx Cert.Sym

variable (m : (ℓ : Loc nD τ sig) → Buf (Elt Ideal) ℓ)

/-- A row of one atom's features depends on the atom's six columns only. -/
theorem KRow_congr (f : Fin 51) {r r' mk mk' : Fin 32 → EReal} {a a' b b' s s' x x' : Fin 496 → EReal}
    (h0 : r = r') (h1 : mk = mk') (h2 : a = a') (h3 : b = b') (h4 : s = s') (h5 : x = x') :
    KRow f r mk a b s x = KRow f r' mk' a' b' s' x' := by
  subst h0 h1 h2 h3 h4 h5; rfl

/-- Entry (n, f) of the device program's result in the reference arrangement, over the device program's geometry. -/
theorem kout_final (c : Dev nD) (n : Fin 2000) (f : Fin 51) :
    (kout m c : S2000x51.Idx → EReal) (ix2 n f)
      = if h : f.val < 8 then radialShift (geo m c) (radWord ⟨f.val, h⟩) 0x00000000#32 n
        else angularTable (geo m c) (lamT ⟨f.val - 8, by omega⟩) (zetaT ⟨f.val - 8, by omega⟩) (etaT ⟨f.val - 8, by omega⟩)
          (coefT ⟨f.val - 8, by omega⟩) n := by
  have hrow : ∀ (x0 x1 : Vec Ideal S32x256 .f32) (x2 x3 x4 x5 : Vec Ideal S496x256 .f32) (f : Fin 51) (q : Fin 256),
      Gen.out0_6 (F := Ideal) x0 x1 x2 x3 x4 x5 (ix2 f q)
        = KRow f (fun k => x0 (ix2 k q)) (fun k => x1 (ix2 k q)) (fun p => x2 (ix2 p q)) (fun p => x3 (ix2 p q))
            (fun p => x4 (ix2 p q)) (fun p => x5 (ix2 p q)) :=
    fun x0 x1 x2 x3 x4 x5 f q => Cert.KernelIdeal.KerPay.out_apply x0 x1 x2 x3 x4 x5 q f
  refine (kout_apply m hrow c n f).trans ?_
  refine Eq.trans ?_ (Cert.Sym.law (geo m c) n f)
  exact KRow_congr f (funext fun k => arr0 m c n k) (funext fun k => arr1 m c n k) (funext fun p => arr2 m c n p)
    (funext fun p => arr3 m c n p) (funext fun p => arr4 m c n p) (funext fun p => arr5 m c n p)

end Cert.KernelIdeal.KerValue
-- ==== Proof.GeoK.lean ====
/-
  The geometry as the program's first lines compute it from the three argument arrays: the neighbour index of every
  atom and slot (a negative index counted from the end), the displacement to that neighbour, its squared length summed
  from zero, and whether the slot's number is below the atom's neighbour count.
-/
import proofs.«126887_j40243843564182_2_alg».proof.KernelIdeal
import Idealize.ShloMosaic.PureOps.Ideal

noncomputable section

namespace Cert.KernelIdeal.KerGeo

open Idealize.ShloMosaic Cert.KernelIdeal

variable [Cert.KernelIdeal.Facts]
open Cert.KernelIdeal.Facts₀ Cert.KernelIdeal.Facts

/-- The neighbour indices as a [2000, 32, 1] array of index vectors. -/
def idxT (a2 : IVec S64000 32) : IVec S2000x32x1 32 :=
  broadcastInDim S2000x32x1 ![0, 1] bcast_S2000x32_S2000x32x1_0_1
    (select
      (cmpi .slt (shapeCast S2000x32 a2 shapeCasts_S64000_S2000x32)
        (broadcastInDim S2000x32 ![] bcast_S_S2000x32 (constantI S_ 32 0#32)))
      (addi (shapeCast S2000x32 a2 shapeCasts_S64000_S2000x32)
        (broadcastInDim S2000x32 ![] bcast_S_S2000x32 (constantI S_ 32 2000#32)))
      (shapeCast S2000x32 a2 shapeCasts_S64000_S2000x32))

/-- The displacement vectors: neighbour position minus own position. -/
def rvT (a0 : FVec Ideal S2000x3 .f32) (a2 : IVec S64000 32) : FVec Ideal S2000x32x3 .f32 :=
  subf (Host.gather gather_S2000x3_S2000x32x1_S2000x32x3_2_0_n_n_0_2_13 a0 (idxT a2))
    (broadcastInDim S2000x32x3 ![0, 1, 2] bcast_S2000x1x3_S2000x32x3_0_1_2
      (broadcastInDim S2000x1x3 ![0, 2] bcast_S2000x3_S2000x1x3_0_2 a0))

/-- The squared distances: the three squared components summed from zero. -/
def rsqT (a0 : FVec Ideal S2000x3 .f32) (a2 : IVec S64000 32) : FVec Ideal S2000x32 .f32 :=
  Host.reduceAdd (mulf (rvT a0 a2) (rvT a0 a2)) (constant S_ .f32 0x00000000#32) reducesTo_S2000x32x3_S2000x32_d2 h_S_

/-- Whether slot k of atom n is in use: k below the atom's neighbour count. -/
def vdT (a1 : IVec S2000 32) : IVec S2000x32 1 :=
  cmpi .slt
    (broadcastInDim S2000x32 ![0, 1] bcast_S1x32_S2000x32_0_1 (broadcastInDim S1x32 ![1] bcast_S32_S1x32_1 (iotaInDim S32 32 0)))
    (broadcastInDim S2000x32 ![0, 1] bcast_S2000x1_S2000x32_0_1 (broadcastInDim S2000x1 ![0] bcast_S2000_S2000x1_0 a1))

end Cert.KernelIdeal.KerGeo
-- ==== Proof.KerGeoArgs.lean ====
/-
  The geometry buffers as terms of the three argument arrays: the displacement vectors, their squared lengths and the
  slot-in-use bits, read off the first stretch of host operations one operation at a time.
-/
import proofs.«126887_j40243843564182_2_alg».proof.Proof.KerStep
import proofs.«126887_j40243843564182_2_alg».proof.Proof.GeoK

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.StableHlo

variable (m : (ℓ : Loc nD τ sig) → Buf (Elt Ideal) ℓ) (c : Dev nD)

/-! ## The neighbour indices -/

theorem v0_eq : (V m c main_v0 : S2000x32.Idx → BitVec 32)
    = shapeCast S2000x32 (V m c main_arg2 : S64000.Idx → BitVec 32) shapeCasts_S64000_S2000x32 := by
  read_at m c 0 hostOps0 12 main_v0
  read_in m c 0 hostOps0 12 main_arg2
  rw [reshape_result]
  rfl
theorem c11_eq : (V m c main_c_11 : S_.Idx → BitVec 32) = constantI S_ 32 0#32 := by
  step0 m c 0 hostOps0 19 main_c_11
theorem v7_eq : (V m c main_v7 : S2000x32.Idx → BitVec 32)
    = broadcastInDim S2000x32 ![] bcast_S_S2000x32 (V m c main_c_11 : S_.Idx → BitVec 32) := by
  step1 m c 0 hostOps0 20 main_v7 main_c_11
theorem v8_eq : (V m c main_v8 : S2000x32.Idx → BitVec 1)
    = cmpi .slt (V m c main_v0 : S2000x32.Idx → BitVec 32) (V m c main_v7 : S2000x32.Idx → BitVec 32) := by
  step2 m c 0 hostOps0 21 main_v8 main_v0 main_v7
theorem c12_eq : (V m c main_c_12 : S_.Idx → BitVec 32) = constantI S_ 32 2000#32 := by
  step0 m c 0 hostOps0 22 main_c_12
theorem v9_eq : (V m c main_v9 : S2000x32.Idx → BitVec 32)
    = broadcastInDim S2000x32 ![] bcast_S_S2000x32 (V m c main_c_12 : S_.Idx → BitVec 32) := by
  step1 m c 0 hostOps0 23 main_v9 main_c_12
theorem v10_eq : (V m c main_v10 : S2000x32.Idx → BitVec 32)
    = addi (V m c main_v0 : S2000x32.Idx → BitVec 32) (V m c main_v9 : S2000x32.Idx → BitVec 32) := by
  step2 m c 0 hostOps0 24 main_v10 main_v0 main_v9
set_option maxHeartbeats 4000000 in
theorem v11_eq : (V m c main_v11 : S2000x32.Idx → BitVec 32)
    = select (V m c main_v8 : S2000x32.Idx → BitVec 1) (V m c main_v10 : S2000x32.Idx → BitVec 32)
        (V m c main_v0 : S2000x32.Idx → BitVec 32) := by
  step3 m c 0 hostOps0 25 main_v11 main_v8 main_v10 main_v0
theorem v12_eq : (V m c main_v12 : S2000x32x1.Idx → BitVec 32)
    = broadcastInDim S2000x32x1 ![0, 1] bcast_S2000x32_S2000x32x1_0_1 (V m c main_v11 : S2000x32.Idx → BitVec 32) := by
  step1 m c 0 hostOps0 26 main_v12 main_v11

/-! ## The displacement vectors and their squared lengths -/

theorem v13_eq : (V m c main_v13 : S2000x32x3.Idx → EReal)
    = Host.gather gather_S2000x3_S2000x32x1_S2000x32x3_2_0_n_n_0_2_13 (V m c main_arg0 : S2000x3.Idx → EReal)
        (V m c main_v12 : S2000x32x1.Idx → BitVec 32) := by
  step2 m c 0 hostOps0 27 main_v13 main_arg0 main_v12
theorem v14_eq : (V m c main_v14 : S2000x1x3.Idx → EReal)
    = broadcastInDim S2000x1x3 ![0, 2] bcast_S2000x3_S2000x1x3_0_2 (V m c main_arg0 : S2000x3.Idx → EReal) := by
  step1 m c 0 hostOps0 28 main_v14 main_arg0
theorem v15_eq : (V m c main_v15 : S2000x32x3.Idx → EReal)
    = broadcastInDim S2000x32x3 ![0, 1, 2] bcast_S2000x1x3_S2000x32x3_0_1_2 (V m c main_v14 : S2000x1x3.Idx → EReal) := by
  step1 m c 0 hostOps0 29 main_v15 main_v14
theorem v16_eq : (V m c main_v16 : S2000x32x3.Idx → EReal)
    = subf (F := Ideal) (φ := .f32) (V m c main_v13 : S2000x32x3.Idx → EReal) (V m c main_v15 : S2000x32x3.Idx → EReal) := by
  step2 m c 0 hostOps0 30 main_v16 main_v13 main_v15
theorem v17_eq : (V m c main_v17 : S2000x32x3.Idx → EReal)
    = mulf (F := Ideal) (φ := .f32) (V m c main_v16 : S2000x32x3.Idx → EReal) (V m c main_v16 : S2000x32x3.Idx → EReal) := by
  step2same m c 0 hostOps0 31 main_v17 main_v16
theorem cst_eq : (V m c main_cst : S_.Idx → EReal) = constant (F := Ideal) S_ .f32 0x00000000#32 := by
  step0 m c 0 hostOps0 32 main_cst
theorem v18_eq : (V m c main_v18 : S2000x32.Idx → EReal)
    = Host.reduceAdd (F := Ideal) (φ := .f32) (V m c main_v17 : S2000x32x3.Idx → EReal) (V m c main_cst : S_.Idx → EReal)
        reducesTo_S2000x32x3_S2000x32_d2 h_S_ := by
  step2 m c 0 hostOps0 33 main_v18 main_v17 main_cst

/-! ## The slot-in-use bits -/

theorem v1_eq : (V m c main_v1 : S32.Idx → BitVec 32) = iotaInDim S32 32 0 := by
  step0 m c 0 hostOps0 13 main_v1
theorem v2_eq : (V m c main_v2 : S1x32.Idx → BitVec 32)
    = broadcastInDim S1x32 ![1] bcast_S32_S1x32_1 (V m c main_v1 : S32.Idx → BitVec 32) := by
  step1 m c 0 hostOps0 14 main_v2 main_v1
theorem v3_eq : (V m c main_v3 : S2000x1.Idx → BitVec 32)
    = broadcastInDim S2000x1 ![0] bcast_S2000_S2000x1_0 (V m c main_arg1 : S2000.Idx → BitVec 32) := by
  step1 m c 0 hostOps0 15 main_v3 main_arg1
theorem v4_eq : (V m c main_v4 : S2000x32.Idx → BitVec 32)
    = broadcastInDim S2000x32 ![0, 1] bcast_S1x32_S2000x32_0_1 (V m c main_v2 : S1x32.Idx → BitVec 32) := by
  step1 m c 0 hostOps0 16 main_v4 main_v2
theorem v5_eq : (V m c main_v5 : S2000x32.Idx → BitVec 32)
    = broadcastInDim S2000x32 ![0, 1] bcast_S2000x1_S2000x32_0_1 (V m c main_v3 : S2000x1.Idx → BitVec 32) := by
  step1 m c 0 hostOps0 17 main_v5 main_v3
theorem v6_eq : (V m c main_v6 : S2000x32.Idx → BitVec 1)
    = cmpi .slt (V m c main_v4 : S2000x32.Idx → BitVec 32) (V m c main_v5 : S2000x32.Idx → BitVec 32) := by
  step2 m c 0 hostOps0 18 main_v6 main_v4 main_v5

/-! ## The three buffers as terms of the arguments -/

/-- The displacement vectors. -/
theorem geo_rv : (V m c main_v16 : S2000x32x3.Idx → EReal)
    = Cert.KernelIdeal.KerGeo.rvT (m ((c.tc : Thread nD τ).loc main_arg0)) (m ((c.tc : Thread nD τ).loc main_arg2)) := by
  rw [v16_eq, v13_eq, v15_eq, v14_eq, v12_eq, v11_eq, v8_eq, v10_eq, v7_eq, v9_eq, c11_eq, c12_eq, v0_eq, V_main_arg0, V_main_arg2]
  rfl

/-- The squared lengths. -/
theorem geo_rsq : (V m c main_v18 : S2000x32.Idx → EReal)
    = Cert.KernelIdeal.KerGeo.rsqT (m ((c.tc : Thread nD τ).loc main_arg0)) (m ((c.tc : Thread nD τ).loc main_arg2)) := by
  rw [v18_eq, v17_eq, cst_eq, geo_rv]
  rfl

/-- The slot-in-use bits. -/
theorem geo_vd : (V m c main_v6 : S2000x32.Idx → BitVec 1)
    = Cert.KernelIdeal.KerGeo.vdT (m ((c.tc : Thread nD τ).loc main_arg1)) := by
  rw [v6_eq, v4_eq, v5_eq, v2_eq, v3_eq, v1_eq, V_main_arg1]
  rfl

end Cert.KernelIdeal.KerValue

end
-- ==== Proof.RefRunOps.lean ====
/-
  The reference program's @main as lists of its host operations, one list per printed window, the three-line
  functions it calls written out at each call over that call's buffers; and that every operation touches
  TensorCore references only.
-/
import proofs.«126887_j40243843564182_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Window 0 of @main: 60 operations, in order. -/
abbrev ops0 : List (HloOp τ sig (Elt F)) :=
  [ StableHlo.nullary main_cst (constant S8 .f32 0x00000000#32),
    StableHlo.unary main_cst main_v0 (broadcastInDim S1x1x8 ![2] bcast_S8_S1x1x8_2 : (⟨S8, .f32⟩ : BufTy).Contents (Elt F) → (⟨S1x1x8, .f32⟩ : BufTy).Contents (Elt F)),
    StableHlo.nullary main_cst_0 (fun i => FloatOps.ofBits .f32 (lit0 (S1x1x8.rowMajor i))),
    StableHlo.nullary main_c (fun i => lit1 (S496.rowMajor i)),
    StableHlo.nullary main_c_1 (constantI S496 1 0#1),
    StableHlo.nullary main_c_2 (fun i => lit2 (S496.rowMajor i)),
    StableHlo.nullary main_c_3 (constantI S496 1 0#1),
    StableHlo.nullary main_c_4 (constantI S496 1 0#1),
    StableHlo.nullary main_c_5 (constantI S496 1 0#1),
    StableHlo.nullary main_c_6 (constantI S496 1 0#1),
    StableHlo.nullary main_c_7 (constantI S496 1 0#1),
    StableHlo.nullary main_c_8 (constantI S496 1 0#1),
    StableHlo.nullary main_cst_9 (fun i => FloatOps.ofBits .f32 (lit3 (S43.rowMajor i))),
    StableHlo.unary main_cst_9 main_v1 (broadcastInDim S1x1x43 ![2] bcast_S43_S1x1x43_2 : (⟨S43, .f32⟩ : BufTy).Contents (Elt F) → (⟨S1x1x43, .f32⟩ : BufTy).Contents (Elt F)),
    StableHlo.nullary main_cst_10 (fun i => FloatOps.ofBits .f32 (lit4 (S43.rowMajor i))),
    StableHlo.unary main_cst_10 main_v2 (broadcastInDim S1x1x43 ![2] bcast_S43_S1x1x43_2 : (⟨S43, .f32⟩ : BufTy).Contents (Elt F) → (⟨S1x1x43, .f32⟩ : BufTy).Contents (Elt F)),
    StableHlo.nullary main_cst_11 (fun i => FloatOps.ofBits .f32 (lit5 (S1x1x43.rowMajor i))),
    StableHlo.nullary main_cst_12 (fun i => FloatOps.ofBits .f32 (lit6 (S43.rowMajor i))),
    StableHlo.unary main_cst_12 main_v3 (broadcastInDim S1x1x43 ![2] bcast_S43_S1x1x43_2 : (⟨S43, .f32⟩ : BufTy).Contents (Elt F) → (⟨S1x1x43, .f32⟩ : BufTy).Contents (Elt F)),
    StableHlo.reshape main_arg2 main_v4 rfl shapeCasts_S64000_S2000x32,
    StableHlo.nullary main_v5 (iotaInDim S32 32 0),
    StableHlo.unary main_v5 main_v6 (broadcastInDim S1x32 ![1] bcast_S32_S1x32_1 : (⟨S32, .i32⟩ : BufTy).Contents (Elt F) → (⟨S1x32, .i32⟩ : BufTy).Contents (Elt F)),
    StableHlo.unary main_arg1 main_v7 (broadcastInDim S2000x1 ![0] bcast_S2000_S2000x1_0 : (⟨S2000, .i32⟩ : BufTy).Contents (Elt F) → (⟨S2000x1, .i32⟩ : BufTy).Contents (Elt F)),
    StableHlo.unary main_v6 main_v8 (broadcastInDim S2000x32 ![0, 1] bcast_S1x32_S2000x32_0_1 : (⟨S1x32, .i32⟩ : BufTy).Contents (Elt F) → (⟨S2000x32, .i32⟩ : BufTy).Contents (Elt F)),
    StableHlo.unary main_v7 main_v9 (broadcastInDim S2000x32 ![0, 1] bcast_S2000x1_S2000x32_0_1 : (⟨S2000x1, .i32⟩ : BufTy).Contents (Elt F) → (⟨S2000x32, .i32⟩ : BufTy).Contents (Elt F)),
    StableHlo.binary main_v8 main_v9 main_v10 (cmpi .slt : (⟨S2000x32, .i32⟩ : BufTy).Contents (Elt F) → (⟨S2000x32, .i32⟩ : BufTy).Contents (Elt F) → (⟨S2000x32, .i1⟩ : BufTy).Contents (Elt F)),
    StableHlo.nullary main_c_13 (constantI S_ 32 0#32),
    StableHlo.unary main_c_13 main_v11 (broadcastInDim S2000x32 ![] bcast_S_S2000x32 : (⟨S_, .i32⟩ : BufTy).Contents (Elt F) → (⟨S2000x32, .i32⟩ : BufTy).Contents (Elt F)),
    StableHlo.binary main_v4 main_v11 main_v12 (cmpi .slt : (⟨S2000x32, .i32⟩ : BufTy).Contents (Elt F) → (⟨S2000x32, .i32⟩ : BufTy).Contents (Elt F) → (⟨S2000x32, .i1⟩ : BufTy).Contents (Elt F)),
    StableHlo.nullary main_c_14 (constantI S_ 32 2000#32),
    StableHlo.unary main_c_14 main_v13 (broadcastInDim S2000x32 ![] bcast_S_S2000x32 : (⟨S_, .i32⟩ : BufTy).Contents (Elt F) → (⟨S2000x32, .i32⟩ : BufTy).Contents (Elt F)),
    StableHlo.binary main_v4 main_v13 main_v14 (addi : (⟨S2000x32, .i32⟩ : BufTy).Contents (Elt F) → (⟨S2000x32, .i32⟩ : BufTy).Contents (Elt F) → (⟨S2000x32, .i32⟩ : BufTy).Contents (Elt F)),
    StableHlo.ternary main_v12 main_v14 main_v4 main_v15 (select : (⟨S2000x32, .i1⟩ : BufTy).Contents (Elt F) → (⟨S2000x32, .i32⟩ : BufTy).Contents (Elt F) → (⟨S2000x32, .i32⟩ : BufTy).Contents (Elt F) → (⟨S2000x32, .i32⟩ : BufTy).Contents (Elt F)),
    StableHlo.unary main_v15 main_v16 (broadcastInDim S2000x32x1 ![0, 1] bcast_S2000x32_S2000x32x1_0_1 : (⟨S2000x32, .i32⟩ : BufTy).Contents (Elt F) → (⟨S2000x32x1, .i32⟩ : BufTy).Contents (Elt F)),
    StableHlo.binary main_arg0 main_v16 main_v17 ((fun x i => Host.gather gather_S2000x3_S2000x32x1_S2000x32x3_2_0_n_n_0_2_13 x i) : (⟨S2000x3, .f32⟩ : BufTy).Contents (Elt F) → (⟨S2000x32x1, .i32⟩ : BufTy).Contents (Elt F) → (⟨S2000x32x3, .f32⟩ : BufTy).Contents (Elt F)),
    StableHlo.unary main_arg0 main_v18 (broadcastInDim S2000x1x3 ![0, 2] bcast_S2000x3_S2000x1x3_0_2 : (⟨S2000x3, .f32⟩ : BufTy).Contents (Elt F) → (⟨S2000x1x3, .f32⟩ : BufTy).Contents (Elt F)),
    StableHlo.unary main_v18 main_v19 (broadcastInDim S2000x32x3 ![0, 1, 2] bcast_S2000x1x3_S2000x32x3_0_1_2 : (⟨S2000x1x3, .f32⟩ : BufTy).Contents (Elt F) → (⟨S2000x32x3, .f32⟩ : BufTy).Contents (Elt F)),
    StableHlo.binary main_v17 main_v19 main_v20 (subf : (⟨S2000x32x3, .f32⟩ : BufTy).Contents (Elt F) → (⟨S2000x32x3, .f32⟩ : BufTy).Contents (Elt F) → (⟨S2000x32x3, .f32⟩ : BufTy).Contents (Elt F)),
    StableHlo.binary main_v20 main_v20 main_v21 (mulf : (⟨S2000x32x3, .f32⟩ : BufTy).Contents (Elt F) → (⟨S2000x32x3, .f32⟩ : BufTy).Contents (Elt F) → (⟨S2000x32x3, .f32⟩ : BufTy).Contents (Elt F)),
    StableHlo.nullary main_cst_15 (constant S_ .f32 0x00000000#32),
    StableHlo.binary main_v21 main_cst_15 main_v22 ((fun x v => Host.reduceAdd x v reducesTo_S2000x32x3_S2000x32_d2 h_S_) : (⟨S2000x32x3, .f32⟩ : BufTy).Contents (Elt F) → (⟨S_, .f32⟩ : BufTy).Contents (Elt F) → (⟨S2000x32, .f32⟩ : BufTy).Contents (Elt F)),
    StableHlo.unary main_v22 main_v23 (Host.sqrt : (⟨S2000x32, .f32⟩ : BufTy).Contents (Elt F) → (⟨S2000x32, .f32⟩ : BufTy).Contents (Elt F)),
    StableHlo.nullary main_cst_16 (constant S_ .f32 0x42800000#32),
    StableHlo.unary main_cst_16 main_v24 (broadcastInDim S2000x32 ![] bcast_S_S2000x32 : (⟨S_, .f32⟩ : BufTy).Contents (Elt F) → (⟨S2000x32, .f32⟩ : BufTy).Contents (Elt F)),
    StableHlo.binary main_v22 main_v24 main_v25 (cmpf .ole : (⟨S2000x32, .f32⟩ : BufTy).Contents (Elt F) → (⟨S2000x32, .f32⟩ : BufTy).Contents (Elt F) → (⟨S2000x32, .i1⟩ : BufTy).Contents (Elt F)),
    StableHlo.binary main_v10 main_v25 main_v26 (andi : (⟨S2000x32, .i1⟩ : BufTy).Contents (Elt F) → (⟨S2000x32, .i1⟩ : BufTy).Contents (Elt F) → (⟨S2000x32, .i1⟩ : BufTy).Contents (Elt F)),
    StableHlo.nullary main_cst_17 (constant S_ .f32 0x41000000#32),
    StableHlo.unary main_cst_17 main_v27 (broadcastInDim S2000x32 ![] bcast_S_S2000x32 : (⟨S_, .f32⟩ : BufTy).Contents (Elt F) → (⟨S2000x32, .f32⟩ : BufTy).Contents (Elt F)),
    StableHlo.binary main_v23 main_v27 main_v28 (cmpf .olt : (⟨S2000x32, .f32⟩ : BufTy).Contents (Elt F) → (⟨S2000x32, .f32⟩ : BufTy).Contents (Elt F) → (⟨S2000x32, .i1⟩ : BufTy).Contents (Elt F)),
    StableHlo.nullary main_cst_18 (constant S_ .f32 0x40490FDB#32),
    StableHlo.unary main_cst_18 main_v29 (broadcastInDim S2000x32 ![] bcast_S_S2000x32 : (⟨S_, .f32⟩ : BufTy).Contents (Elt F) → (⟨S2000x32, .f32⟩ : BufTy).Contents (Elt F)),
    StableHlo.binary main_v29 main_v23 main_v30 (mulf : (⟨S2000x32, .f32⟩ : BufTy).Contents (Elt F) → (⟨S2000x32, .f32⟩ : BufTy).Contents (Elt F) → (⟨S2000x32, .f32⟩ : BufTy).Contents (Elt F)),
    StableHlo.nullary main_cst_19 (constant S_ .f32 0x41000000#32),
    StableHlo.unary main_cst_19 main_v31 (broadcastInDim S2000x32 ![] bcast_S_S2000x32 : (⟨S_, .f32⟩ : BufTy).Contents (Elt F) → (⟨S2000x32, .f32⟩ : BufTy).Contents (Elt F)),
    StableHlo.binary main_v30 main_v31 main_v32 (Host.divf : (⟨S2000x32, .f32⟩ : BufTy).Contents (Elt F) → (⟨S2000x32, .f32⟩ : BufTy).Contents (Elt F) → (⟨S2000x32, .f32⟩ : BufTy).Contents (Elt F)),
    StableHlo.unary main_v32 main_v33 (Host.cos : (⟨S2000x32, .f32⟩ : BufTy).Contents (Elt F) → (⟨S2000x32, .f32⟩ : BufTy).Contents (Elt F)),
    StableHlo.nullary main_cst_20 (constant S_ .f32 0x3F800000#32),
    StableHlo.unary main_cst_20 main_v34 (broadcastInDim S2000x32 ![] bcast_S_S2000x32 : (⟨S_, .f32⟩ : BufTy).Contents (Elt F) → (⟨S2000x32, .f32⟩ : BufTy).Contents (Elt F)),
    StableHlo.binary main_v33 main_v34 main_v35 (addf : (⟨S2000x32, .f32⟩ : BufTy).Contents (Elt F) → (⟨S2000x32, .f32⟩ : BufTy).Contents (Elt F) → (⟨S2000x32, .f32⟩ : BufTy).Contents (Elt F)),
    StableHlo.nullary main_cst_21 (constant S_ .f32 0x3F000000#32) ]

theorem ops0_sub : (ops0 : List (HloOp τ sig (Elt F))).Forall fun op => op.bufs ⊆ tcRefs τ sig :=
  ⟨nullary_bufs_sub .., unary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., nullary_bufs_sub .., unary_bufs_sub .., nullary_bufs_sub .., nullary_bufs_sub .., unary_bufs_sub .., reshape_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 1 of @main: 66 operations, in order. -/
abbrev ops1 : List (HloOp τ sig (Elt F)) :=
  [ StableHlo.unary main_cst_21 main_v36 (broadcastInDim S2000x32 ![] bcast_S_S2000x32 : (⟨S_, .f32⟩ : BufTy).Contents (Elt F) → (⟨S2000x32, .f32⟩ : BufTy).Contents (Elt F)),
    StableHlo.binary main_v36 main_v35 main_v37 (mulf : (⟨S2000x32, .f32⟩ : BufTy).Contents (Elt F) → (⟨S2000x32, .f32⟩ : BufTy).Contents (Elt F) → (⟨S2000x32, .f32⟩ : BufTy).Contents (Elt F)),
    StableHlo.nullary main_cst_22 (constant S_ .f32 0x00000000#32),
    StableHlo.TRef.unary (.of main_cst_22) main_call0.v0 id,
    StableHlo.TRef.unary main_call0.v0 main_call0.v1 (broadcastInDim S2000x32 ![] bcast_S_S2000x32),
    StableHlo.TRef.ternary (.of main_v28) (.of main_v37) main_call0.v1 main_call0.v2 select,
    StableHlo.unary main_v23 main_v39 (broadcastInDim S2000x32x1 ![0, 1] bcast_S2000x32_S2000x32x1_0_1 : (⟨S2000x32, .f32⟩ : BufTy).Contents (Elt F) → (⟨S2000x32x1, .f32⟩ : BufTy).Contents (Elt F)),
    StableHlo.unary main_v39 main_v40 (broadcastInDim S2000x32x8 ![0, 1, 2] bcast_S2000x32x1_S2000x32x8_0_1_2 : (⟨S2000x32x1, .f32⟩ : BufTy).Contents (Elt F) → (⟨S2000x32x8, .f32⟩ : BufTy).Contents (Elt F)),
    StableHlo.unary main_v0 main_v41 (broadcastInDim S2000x32x8 ![0, 1, 2] bcast_S1x1x8_S2000x32x8_0_1_2 : (⟨S1x1x8, .f32⟩ : BufTy).Contents (Elt F) → (⟨S2000x32x8, .f32⟩ : BufTy).Contents (Elt F)),
    StableHlo.binary main_v40 main_v41 main_v42 (subf : (⟨S2000x32x8, .f32⟩ : BufTy).Contents (Elt F) → (⟨S2000x32x8, .f32⟩ : BufTy).Contents (Elt F) → (⟨S2000x32x8, .f32⟩ : BufTy).Contents (Elt F)),
    StableHlo.binary main_v42 main_v42 main_v43 (mulf : (⟨S2000x32x8, .f32⟩ : BufTy).Contents (Elt F) → (⟨S2000x32x8, .f32⟩ : BufTy).Contents (Elt F) → (⟨S2000x32x8, .f32⟩ : BufTy).Contents (Elt F)),
    StableHlo.unary main_cst_0 main_v44 (broadcastInDim S2000x32x8 ![0, 1, 2] bcast_S1x1x8_S2000x32x8_0_1_2 : (⟨S1x1x8, .f32⟩ : BufTy).Contents (Elt F) → (⟨S2000x32x8, .f32⟩ : BufTy).Contents (Elt F)),
    StableHlo.binary main_v44 main_v43 main_v45 (mulf : (⟨S2000x32x8, .f32⟩ : BufTy).Contents (Elt F) → (⟨S2000x32x8, .f32⟩ : BufTy).Contents (Elt F) → (⟨S2000x32x8, .f32⟩ : BufTy).Contents (Elt F)),
    StableHlo.unary main_v45 main_v46 (Host.exp : (⟨S2000x32x8, .f32⟩ : BufTy).Contents (Elt F) → (⟨S2000x32x8, .f32⟩ : BufTy).Contents (Elt F)),
    StableHlo.unary main_v38 main_v47 (broadcastInDim S2000x32x1 ![0, 1] bcast_S2000x32_S2000x32x1_0_1 : (⟨S2000x32, .f32⟩ : BufTy).Contents (Elt F) → (⟨S2000x32x1, .f32⟩ : BufTy).Contents (Elt F)),
    StableHlo.unary main_v47 main_v48 (broadcastInDim S2000x32x8 ![0, 1, 2] bcast_S2000x32x1_S2000x32x8_0_1_2 : (⟨S2000x32x1, .f32⟩ : BufTy).Contents (Elt F) → (⟨S2000x32x8, .f32⟩ : BufTy).Contents (Elt F)),
    StableHlo.binary main_v46 main_v48 main_v49 (mulf : (⟨S2000x32x8, .f32⟩ : BufTy).Contents (Elt F) → (⟨S2000x32x8, .f32⟩ : BufTy).Contents (Elt F) → (⟨S2000x32x8, .f32⟩ : BufTy).Contents (Elt F)),
    StableHlo.unary main_v26 main_v50 (broadcastInDim S2000x32x1 ![0, 1] bcast_S2000x32_S2000x32x1_0_1 : (⟨S2000x32, .i1⟩ : BufTy).Contents (Elt F) → (⟨S2000x32x1, .i1⟩ : BufTy).Contents (Elt F)),
    StableHlo.unary main_v50 main_v51 (uitofp .f32 : (⟨S2000x32x1, .i1⟩ : BufTy).Contents (Elt F) → (⟨S2000x32x1, .f32⟩ : BufTy).Contents (Elt F)),
    StableHlo.unary main_v51 main_v52 (broadcastInDim S2000x32x8 ![0, 1, 2] bcast_S2000x32x1_S2000x32x8_0_1_2 : (⟨S2000x32x1, .f32⟩ : BufTy).Contents (Elt F) → (⟨S2000x32x8, .f32⟩ : BufTy).Contents (Elt F)),
    StableHlo.binary main_v49 main_v52 main_v53 (mulf : (⟨S2000x32x8, .f32⟩ : BufTy).Contents (Elt F) → (⟨S2000x32x8, .f32⟩ : BufTy).Contents (Elt F) → (⟨S2000x32x8, .f32⟩ : BufTy).Contents (Elt F)),
    StableHlo.nullary main_cst_23 (constant S_ .f32 0x00000000#32),
    StableHlo.binary main_v53 main_cst_23 main_v54 ((fun x v => Host.reduceAdd x v reducesTo_S2000x32x8_S2000x8_d1 h_S_) : (⟨S2000x32x8, .f32⟩ : BufTy).Contents (Elt F) → (⟨S_, .f32⟩ : BufTy).Contents (Elt F) → (⟨S2000x8, .f32⟩ : BufTy).Contents (Elt F)),
    StableHlo.nullary main_c_24 (constantI S_ 32 32#32),
    StableHlo.unary main_c_24 main_v55 (broadcastInDim S496 ![] bcast_S_S496 : (⟨S_, .i32⟩ : BufTy).Contents (Elt F) → (⟨S496, .i32⟩ : BufTy).Contents (Elt F)),
    StableHlo.binary main_c main_v55 main_v56 (addi : (⟨S496, .i32⟩ : BufTy).Contents (Elt F) → (⟨S496, .i32⟩ : BufTy).Contents (Elt F) → (⟨S496, .i32⟩ : BufTy).Contents (Elt F)),
    StableHlo.ternary main_c_1 main_v56 main_c main_v57 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v57 main_v58 (broadcastInDim S496x1 ![0] bcast_S496_S496x1_0 : (⟨S496, .i32⟩ : BufTy).Contents (Elt F) → (⟨S496x1, .i32⟩ : BufTy).Contents (Elt F)),
    StableHlo.binary main_v23 main_v58 main_v59 ((fun x i => Host.gather gather_S2000x32_S496x1_S2000x496_0_1_n_n_1_1_20001 x i) : (⟨S2000x32, .f32⟩ : BufTy).Contents (Elt F) → (⟨S496x1, .i32⟩ : BufTy).Contents (Elt F) → (⟨S2000x496, .f32⟩ : BufTy).Contents (Elt F)),
    StableHlo.nullary main_c_25 (constantI S_ 32 32#32),
    StableHlo.unary main_c_25 main_v60 (broadcastInDim S496 ![] bcast_S_S496 : (⟨S_, .i32⟩ : BufTy).Contents (Elt F) → (⟨S496, .i32⟩ : BufTy).Contents (Elt F)),
    StableHlo.binary main_c_2 main_v60 main_v61 (addi : (⟨S496, .i32⟩ : BufTy).Contents (Elt F) → (⟨S496, .i32⟩ : BufTy).Contents (Elt F) → (⟨S496, .i32⟩ : BufTy).Contents (Elt F)),
    StableHlo.ternary main_c_3 main_v61 main_c_2 main_v62 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v62 main_v63 (broadcastInDim S496x1 ![0] bcast_S496_S496x1_0 : (⟨S496, .i32⟩ : BufTy).Contents (Elt F) → (⟨S496x1, .i32⟩ : BufTy).Contents (Elt F)),
    StableHlo.binary main_v23 main_v63 main_v64 ((fun x i => Host.gather gather_S2000x32_S496x1_S2000x496_0_1_n_n_1_1_20001 x i) : (⟨S2000x32, .f32⟩ : BufTy).Contents (Elt F) → (⟨S496x1, .i32⟩ : BufTy).Contents (Elt F) → (⟨S2000x496, .f32⟩ : BufTy).Contents (Elt F)),
    StableHlo.nullary main_c_26 (constantI S_ 32 32#32),
    StableHlo.unary main_c_26 main_v65 (broadcastInDim S496 ![] bcast_S_S496 : (⟨S_, .i32⟩ : BufTy).Contents (Elt F) → (⟨S496, .i32⟩ : BufTy).Contents (Elt F)),
    StableHlo.binary main_c_2 main_v65 main_v66 (addi : (⟨S496, .i32⟩ : BufTy).Contents (Elt F) → (⟨S496, .i32⟩ : BufTy).Contents (Elt F) → (⟨S496, .i32⟩ : BufTy).Contents (Elt F)),
    StableHlo.ternary main_c_4 main_v66 main_c_2 main_v67 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v67 main_v68 (broadcastInDim S496x1 ![0] bcast_S496_S496x1_0 : (⟨S496, .i32⟩ : BufTy).Contents (Elt F) → (⟨S496x1, .i32⟩ : BufTy).Contents (Elt F)),
    StableHlo.binary main_v20 main_v68 main_v69 ((fun x i => Host.gather gather_S2000x32x3_S496x1_S2000x496x3_02_1_n_n_1_1_200013 x i) : (⟨S2000x32x3, .f32⟩ : BufTy).Contents (Elt F) → (⟨S496x1, .i32⟩ : BufTy).Contents (Elt F) → (⟨S2000x496x3, .f32⟩ : BufTy).Contents (Elt F)),
    StableHlo.nullary main_c_27 (constantI S_ 32 32#32),
    StableHlo.unary main_c_27 main_v70 (broadcastInDim S496 ![] bcast_S_S496 : (⟨S_, .i32⟩ : BufTy).Contents (Elt F) → (⟨S496, .i32⟩ : BufTy).Contents (Elt F)),
    StableHlo.binary main_c main_v70 main_v71 (addi : (⟨S496, .i32⟩ : BufTy).Contents (Elt F) → (⟨S496, .i32⟩ : BufTy).Contents (Elt F) → (⟨S496, .i32⟩ : BufTy).Contents (Elt F)),
    StableHlo.ternary main_c_5 main_v71 main_c main_v72 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v72 main_v73 (broadcastInDim S496x1 ![0] bcast_S496_S496x1_0 : (⟨S496, .i32⟩ : BufTy).Contents (Elt F) → (⟨S496x1, .i32⟩ : BufTy).Contents (Elt F)),
    StableHlo.binary main_v20 main_v73 main_v74 ((fun x i => Host.gather gather_S2000x32x3_S496x1_S2000x496x3_02_1_n_n_1_1_200013 x i) : (⟨S2000x32x3, .f32⟩ : BufTy).Contents (Elt F) → (⟨S496x1, .i32⟩ : BufTy).Contents (Elt F) → (⟨S2000x496x3, .f32⟩ : BufTy).Contents (Elt F)),
    StableHlo.binary main_v69 main_v74 main_v75 (subf : (⟨S2000x496x3, .f32⟩ : BufTy).Contents (Elt F) → (⟨S2000x496x3, .f32⟩ : BufTy).Contents (Elt F) → (⟨S2000x496x3, .f32⟩ : BufTy).Contents (Elt F)),
    StableHlo.binary main_v75 main_v75 main_v76 (mulf : (⟨S2000x496x3, .f32⟩ : BufTy).Contents (Elt F) → (⟨S2000x496x3, .f32⟩ : BufTy).Contents (Elt F) → (⟨S2000x496x3, .f32⟩ : BufTy).Contents (Elt F)),
    StableHlo.nullary main_cst_28 (constant S_ .f32 0x00000000#32),
    StableHlo.binary main_v76 main_cst_28 main_v77 ((fun x v => Host.reduceAdd x v reducesTo_S2000x496x3_S2000x496_d2 h_S_) : (⟨S2000x496x3, .f32⟩ : BufTy).Contents (Elt F) → (⟨S_, .f32⟩ : BufTy).Contents (Elt F) → (⟨S2000x496, .f32⟩ : BufTy).Contents (Elt F)),
    StableHlo.nullary main_cst_29 (constant S_ .f32 0x00000000#32),
    StableHlo.unary main_cst_29 main_v78 (broadcastInDim S2000x496 ![] bcast_S_S2000x496 : (⟨S_, .f32⟩ : BufTy).Contents (Elt F) → (⟨S2000x496, .f32⟩ : BufTy).Contents (Elt F)),
    StableHlo.binary main_v77 main_v78 main_v79 (cmpf .ogt : (⟨S2000x496, .f32⟩ : BufTy).Contents (Elt F) → (⟨S2000x496, .f32⟩ : BufTy).Contents (Elt F) → (⟨S2000x496, .i1⟩ : BufTy).Contents (Elt F)),
    StableHlo.nullary main_cst_30 (constant S_ .f32 0x00000000#32),
    StableHlo.unary main_cst_30 main_v80 (broadcastInDim S2000x496 ![] bcast_S_S2000x496 : (⟨S_, .f32⟩ : BufTy).Contents (Elt F) → (⟨S2000x496, .f32⟩ : BufTy).Contents (Elt F)),
    StableHlo.binary main_v77 main_v80 main_v81 (cmpf .ogt : (⟨S2000x496, .f32⟩ : BufTy).Contents (Elt F) → (⟨S2000x496, .f32⟩ : BufTy).Contents (Elt F) → (⟨S2000x496, .i1⟩ : BufTy).Contents (Elt F)),
    StableHlo.nullary main_cst_31 (constant S_ .f32 0x3F800000#32),
    StableHlo.TRef.unary (.of main_cst_31) main_call1.v0 id,
    StableHlo.TRef.unary main_call1.v0 main_call1.v1 (broadcastInDim S2000x496 ![] bcast_S_S2000x496),
    StableHlo.TRef.ternary (.of main_v81) (.of main_v77) main_call1.v1 main_call1.v2 select,
    StableHlo.unary main_v82 main_v83 (Host.sqrt : (⟨S2000x496, .f32⟩ : BufTy).Contents (Elt F) → (⟨S2000x496, .f32⟩ : BufTy).Contents (Elt F)),
    StableHlo.nullary main_cst_32 (constant S_ .f32 0x00000000#32),
    StableHlo.TRef.unary (.of main_cst_32) main_call2.v0 id,
    StableHlo.TRef.unary main_call2.v0 main_call2.v1 (broadcastInDim S2000x496 ![] bcast_S_S2000x496),
    StableHlo.TRef.ternary (.of main_v79) (.of main_v83) main_call2.v1 main_call2.v2 select ]

theorem ops1_sub : (ops1 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., unary_bufs_sub .., binary_bufs_sub .., binary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 2 of @main: 62 operations, in order. -/
abbrev ops2 : List (HloOp τ sig (Elt F)) :=
  [ StableHlo.nullary main_c_33 (constantI S_ 32 32#32),
    StableHlo.unary main_c_33 main_v85 (broadcastInDim S496 ![] bcast_S_S496 : (⟨S_, .i32⟩ : BufTy).Contents (Elt F) → (⟨S496, .i32⟩ : BufTy).Contents (Elt F)),
    StableHlo.binary main_c main_v85 main_v86 (addi : (⟨S496, .i32⟩ : BufTy).Contents (Elt F) → (⟨S496, .i32⟩ : BufTy).Contents (Elt F) → (⟨S496, .i32⟩ : BufTy).Contents (Elt F)),
    StableHlo.ternary main_c_6 main_v86 main_c main_v87 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v87 main_v88 (broadcastInDim S496x1 ![0] bcast_S496_S496x1_0 : (⟨S496, .i32⟩ : BufTy).Contents (Elt F) → (⟨S496x1, .i32⟩ : BufTy).Contents (Elt F)),
    StableHlo.binary main_v26 main_v88 main_v89 ((fun x i => Host.gather gather_S2000x32_S496x1_S2000x496_0_1_n_n_1_1_20001 x i) : (⟨S2000x32, .i1⟩ : BufTy).Contents (Elt F) → (⟨S496x1, .i32⟩ : BufTy).Contents (Elt F) → (⟨S2000x496, .i1⟩ : BufTy).Contents (Elt F)),
    StableHlo.nullary main_c_34 (constantI S_ 32 32#32),
    StableHlo.unary main_c_34 main_v90 (broadcastInDim S496 ![] bcast_S_S496 : (⟨S_, .i32⟩ : BufTy).Contents (Elt F) → (⟨S496, .i32⟩ : BufTy).Contents (Elt F)),
    StableHlo.binary main_c_2 main_v90 main_v91 (addi : (⟨S496, .i32⟩ : BufTy).Contents (Elt F) → (⟨S496, .i32⟩ : BufTy).Contents (Elt F) → (⟨S496, .i32⟩ : BufTy).Contents (Elt F)),
    StableHlo.ternary main_c_7 main_v91 main_c_2 main_v92 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v92 main_v93 (broadcastInDim S496x1 ![0] bcast_S496_S496x1_0 : (⟨S496, .i32⟩ : BufTy).Contents (Elt F) → (⟨S496x1, .i32⟩ : BufTy).Contents (Elt F)),
    StableHlo.binary main_v10 main_v93 main_v94 ((fun x i => Host.gather gather_S2000x32_S496x1_S2000x496_0_1_n_n_1_1_20001 x i) : (⟨S2000x32, .i1⟩ : BufTy).Contents (Elt F) → (⟨S496x1, .i32⟩ : BufTy).Contents (Elt F) → (⟨S2000x496, .i1⟩ : BufTy).Contents (Elt F)),
    StableHlo.binary main_v89 main_v94 main_v95 (andi : (⟨S2000x496, .i1⟩ : BufTy).Contents (Elt F) → (⟨S2000x496, .i1⟩ : BufTy).Contents (Elt F) → (⟨S2000x496, .i1⟩ : BufTy).Contents (Elt F)),
    StableHlo.nullary main_c_35 (constantI S_ 32 32#32),
    StableHlo.unary main_c_35 main_v96 (broadcastInDim S496 ![] bcast_S_S496 : (⟨S_, .i32⟩ : BufTy).Contents (Elt F) → (⟨S496, .i32⟩ : BufTy).Contents (Elt F)),
    StableHlo.binary main_c_2 main_v96 main_v97 (addi : (⟨S496, .i32⟩ : BufTy).Contents (Elt F) → (⟨S496, .i32⟩ : BufTy).Contents (Elt F) → (⟨S496, .i32⟩ : BufTy).Contents (Elt F)),
    StableHlo.ternary main_c_8 main_v97 main_c_2 main_v98 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v98 main_v99 (broadcastInDim S496x1 ![0] bcast_S496_S496x1_0 : (⟨S496, .i32⟩ : BufTy).Contents (Elt F) → (⟨S496x1, .i32⟩ : BufTy).Contents (Elt F)),
    StableHlo.binary main_v22 main_v99 main_v100 ((fun x i => Host.gather gather_S2000x32_S496x1_S2000x496_0_1_n_n_1_1_20001 x i) : (⟨S2000x32, .f32⟩ : BufTy).Contents (Elt F) → (⟨S496x1, .i32⟩ : BufTy).Contents (Elt F) → (⟨S2000x496, .f32⟩ : BufTy).Contents (Elt F)),
    StableHlo.nullary main_cst_36 (constant S_ .f32 0x42800000#32),
    StableHlo.unary main_cst_36 main_v101 (broadcastInDim S2000x496 ![] bcast_S_S2000x496 : (⟨S_, .f32⟩ : BufTy).Contents (Elt F) → (⟨S2000x496, .f32⟩ : BufTy).Contents (Elt F)),
    StableHlo.binary main_v100 main_v101 main_v102 (cmpf .ole : (⟨S2000x496, .f32⟩ : BufTy).Contents (Elt F) → (⟨S2000x496, .f32⟩ : BufTy).Contents (Elt F) → (⟨S2000x496, .i1⟩ : BufTy).Contents (Elt F)),
    StableHlo.binary main_v95 main_v102 main_v103 (andi : (⟨S2000x496, .i1⟩ : BufTy).Contents (Elt F) → (⟨S2000x496, .i1⟩ : BufTy).Contents (Elt F) → (⟨S2000x496, .i1⟩ : BufTy).Contents (Elt F)),
    StableHlo.nullary main_cst_37 (constant S_ .f32 0x41000000#32),
    StableHlo.unary main_cst_37 main_v104 (broadcastInDim S2000x496 ![] bcast_S_S2000x496 : (⟨S_, .f32⟩ : BufTy).Contents (Elt F) → (⟨S2000x496, .f32⟩ : BufTy).Contents (Elt F)),
    StableHlo.binary main_v84 main_v104 main_v105 (cmpf .ole : (⟨S2000x496, .f32⟩ : BufTy).Contents (Elt F) → (⟨S2000x496, .f32⟩ : BufTy).Contents (Elt F) → (⟨S2000x496, .i1⟩ : BufTy).Contents (Elt F)),
    StableHlo.binary main_v103 main_v105 main_v106 (andi : (⟨S2000x496, .i1⟩ : BufTy).Contents (Elt F) → (⟨S2000x496, .i1⟩ : BufTy).Contents (Elt F) → (⟨S2000x496, .i1⟩ : BufTy).Contents (Elt F)),
    StableHlo.binary main_v59 main_v59 main_v107 (mulf : (⟨S2000x496, .f32⟩ : BufTy).Contents (Elt F) → (⟨S2000x496, .f32⟩ : BufTy).Contents (Elt F) → (⟨S2000x496, .f32⟩ : BufTy).Contents (Elt F)),
    StableHlo.binary main_v64 main_v64 main_v108 (mulf : (⟨S2000x496, .f32⟩ : BufTy).Contents (Elt F) → (⟨S2000x496, .f32⟩ : BufTy).Contents (Elt F) → (⟨S2000x496, .f32⟩ : BufTy).Contents (Elt F)),
    StableHlo.binary main_v107 main_v108 main_v109 (addf : (⟨S2000x496, .f32⟩ : BufTy).Contents (Elt F) → (⟨S2000x496, .f32⟩ : BufTy).Contents (Elt F) → (⟨S2000x496, .f32⟩ : BufTy).Contents (Elt F)),
    StableHlo.binary main_v109 main_v77 main_v110 (subf : (⟨S2000x496, .f32⟩ : BufTy).Contents (Elt F) → (⟨S2000x496, .f32⟩ : BufTy).Contents (Elt F) → (⟨S2000x496, .f32⟩ : BufTy).Contents (Elt F)),
    StableHlo.nullary main_cst_38 (constant S_ .f32 0x40000000#32),
    StableHlo.unary main_cst_38 main_v111 (broadcastInDim S2000x496 ![] bcast_S_S2000x496 : (⟨S_, .f32⟩ : BufTy).Contents (Elt F) → (⟨S2000x496, .f32⟩ : BufTy).Contents (Elt F)),
    StableHlo.binary main_v111 main_v59 main_v112 (mulf : (⟨S2000x496, .f32⟩ : BufTy).Contents (Elt F) → (⟨S2000x496, .f32⟩ : BufTy).Contents (Elt F) → (⟨S2000x496, .f32⟩ : BufTy).Contents (Elt F)),
    StableHlo.binary main_v112 main_v64 main_v113 (mulf : (⟨S2000x496, .f32⟩ : BufTy).Contents (Elt F) → (⟨S2000x496, .f32⟩ : BufTy).Contents (Elt F) → (⟨S2000x496, .f32⟩ : BufTy).Contents (Elt F)),
    StableHlo.binary main_v110 main_v113 main_v114 (Host.divf : (⟨S2000x496, .f32⟩ : BufTy).Contents (Elt F) → (⟨S2000x496, .f32⟩ : BufTy).Contents (Elt F) → (⟨S2000x496, .f32⟩ : BufTy).Contents (Elt F)),
    StableHlo.unary main_v114 main_v115 (broadcastInDim S2000x496x1 ![0, 1] bcast_S2000x496_S2000x496x1_0_1 : (⟨S2000x496, .f32⟩ : BufTy).Contents (Elt F) → (⟨S2000x496x1, .f32⟩ : BufTy).Contents (Elt F)),
    StableHlo.unary main_v1 main_v116 (broadcastInDim S2000x496x43 ![0, 1, 2] bcast_S1x1x43_S2000x496x43_0_1_2 : (⟨S1x1x43, .f32⟩ : BufTy).Contents (Elt F) → (⟨S2000x496x43, .f32⟩ : BufTy).Contents (Elt F)),
    StableHlo.unary main_v115 main_v117 (broadcastInDim S2000x496x43 ![0, 1, 2] bcast_S2000x496x1_S2000x496x43_0_1_2 : (⟨S2000x496x1, .f32⟩ : BufTy).Contents (Elt F) → (⟨S2000x496x43, .f32⟩ : BufTy).Contents (Elt F)),
    StableHlo.binary main_v116 main_v117 main_v118 (mulf : (⟨S2000x496x43, .f32⟩ : BufTy).Contents (Elt F) → (⟨S2000x496x43, .f32⟩ : BufTy).Contents (Elt F) → (⟨S2000x496x43, .f32⟩ : BufTy).Contents (Elt F)),
    StableHlo.nullary main_cst_39 (constant S_ .f32 0x3F800000#32),
    StableHlo.unary main_cst_39 main_v119 (broadcastInDim S2000x496x43 ![] bcast_S_S2000x496x43 : (⟨S_, .f32⟩ : BufTy).Contents (Elt F) → (⟨S2000x496x43, .f32⟩ : BufTy).Contents (Elt F)),
    StableHlo.binary main_v119 main_v118 main_v120 (addf : (⟨S2000x496x43, .f32⟩ : BufTy).Contents (Elt F) → (⟨S2000x496x43, .f32⟩ : BufTy).Contents (Elt F) → (⟨S2000x496x43, .f32⟩ : BufTy).Contents (Elt F)),
    StableHlo.nullary main_cst_40 (constant S_ .f32 0x00000000#32),
    StableHlo.unary main_cst_40 main_v121 (broadcastInDim S2000x496x43 ![] bcast_S_S2000x496x43 : (⟨S_, .f32⟩ : BufTy).Contents (Elt F) → (⟨S2000x496x43, .f32⟩ : BufTy).Contents (Elt F)),
    StableHlo.binary main_v120 main_v121 main_v122 (cmpf .ogt : (⟨S2000x496x43, .f32⟩ : BufTy).Contents (Elt F) → (⟨S2000x496x43, .f32⟩ : BufTy).Contents (Elt F) → (⟨S2000x496x43, .i1⟩ : BufTy).Contents (Elt F)),
    StableHlo.nullary main_cst_41 (constant S_ .f32 0x3F800000#32),
    StableHlo.TRef.unary (.of main_cst_41) main_call3.v0 id,
    StableHlo.TRef.unary main_call3.v0 main_call3.v1 (broadcastInDim S2000x496x43 ![] bcast_S_S2000x496x43),
    StableHlo.TRef.ternary (.of main_v122) (.of main_v120) main_call3.v1 main_call3.v2 select,
    StableHlo.unary main_v2 main_v124 (broadcastInDim S2000x496x43 ![0, 1, 2] bcast_S1x1x43_S2000x496x43_0_1_2 : (⟨S1x1x43, .f32⟩ : BufTy).Contents (Elt F) → (⟨S2000x496x43, .f32⟩ : BufTy).Contents (Elt F)),
    StableHlo.binary main_v123 main_v124 main_v125 (Host.powf : (⟨S2000x496x43, .f32⟩ : BufTy).Contents (Elt F) → (⟨S2000x496x43, .f32⟩ : BufTy).Contents (Elt F) → (⟨S2000x496x43, .f32⟩ : BufTy).Contents (Elt F)),
    StableHlo.unary main_v122 main_v126 (uitofp .f32 : (⟨S2000x496x43, .i1⟩ : BufTy).Contents (Elt F) → (⟨S2000x496x43, .f32⟩ : BufTy).Contents (Elt F)),
    StableHlo.binary main_v125 main_v126 main_v127 (mulf : (⟨S2000x496x43, .f32⟩ : BufTy).Contents (Elt F) → (⟨S2000x496x43, .f32⟩ : BufTy).Contents (Elt F) → (⟨S2000x496x43, .f32⟩ : BufTy).Contents (Elt F)),
    StableHlo.binary main_v59 main_v59 main_v128 (mulf : (⟨S2000x496, .f32⟩ : BufTy).Contents (Elt F) → (⟨S2000x496, .f32⟩ : BufTy).Contents (Elt F) → (⟨S2000x496, .f32⟩ : BufTy).Contents (Elt F)),
    StableHlo.binary main_v64 main_v64 main_v129 (mulf : (⟨S2000x496, .f32⟩ : BufTy).Contents (Elt F) → (⟨S2000x496, .f32⟩ : BufTy).Contents (Elt F) → (⟨S2000x496, .f32⟩ : BufTy).Contents (Elt F)),
    StableHlo.binary main_v128 main_v129 main_v130 (addf : (⟨S2000x496, .f32⟩ : BufTy).Contents (Elt F) → (⟨S2000x496, .f32⟩ : BufTy).Contents (Elt F) → (⟨S2000x496, .f32⟩ : BufTy).Contents (Elt F)),
    StableHlo.binary main_v130 main_v77 main_v131 (addf : (⟨S2000x496, .f32⟩ : BufTy).Contents (Elt F) → (⟨S2000x496, .f32⟩ : BufTy).Contents (Elt F) → (⟨S2000x496, .f32⟩ : BufTy).Contents (Elt F)),
    StableHlo.unary main_v131 main_v132 (broadcastInDim S2000x496x1 ![0, 1] bcast_S2000x496_S2000x496x1_0_1 : (⟨S2000x496, .f32⟩ : BufTy).Contents (Elt F) → (⟨S2000x496x1, .f32⟩ : BufTy).Contents (Elt F)),
    StableHlo.unary main_cst_11 main_v133 (broadcastInDim S2000x496x43 ![0, 1, 2] bcast_S1x1x43_S2000x496x43_0_1_2 : (⟨S1x1x43, .f32⟩ : BufTy).Contents (Elt F) → (⟨S2000x496x43, .f32⟩ : BufTy).Contents (Elt F)),
    StableHlo.unary main_v132 main_v134 (broadcastInDim S2000x496x43 ![0, 1, 2] bcast_S2000x496x1_S2000x496x43_0_1_2 : (⟨S2000x496x1, .f32⟩ : BufTy).Contents (Elt F) → (⟨S2000x496x43, .f32⟩ : BufTy).Contents (Elt F)),
    StableHlo.binary main_v133 main_v134 main_v135 (mulf : (⟨S2000x496x43, .f32⟩ : BufTy).Contents (Elt F) → (⟨S2000x496x43, .f32⟩ : BufTy).Contents (Elt F) → (⟨S2000x496x43, .f32⟩ : BufTy).Contents (Elt F)) ]

theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., binary_bufs_sub .., binary_bufs_sub .., binary_bufs_sub .., unary_bufs_sub .., unary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 3 of @main: 66 operations, in order. -/
abbrev ops3 : List (HloOp τ sig (Elt F)) :=
  [ StableHlo.unary main_v135 main_v136 (Host.exp : (⟨S2000x496x43, .f32⟩ : BufTy).Contents (Elt F) → (⟨S2000x496x43, .f32⟩ : BufTy).Contents (Elt F)),
    StableHlo.nullary main_cst_42 (constant S_ .f32 0x41000000#32),
    StableHlo.unary main_cst_42 main_v137 (broadcastInDim S2000x496 ![] bcast_S_S2000x496 : (⟨S_, .f32⟩ : BufTy).Contents (Elt F) → (⟨S2000x496, .f32⟩ : BufTy).Contents (Elt F)),
    StableHlo.binary main_v59 main_v137 main_v138 (cmpf .olt : (⟨S2000x496, .f32⟩ : BufTy).Contents (Elt F) → (⟨S2000x496, .f32⟩ : BufTy).Contents (Elt F) → (⟨S2000x496, .i1⟩ : BufTy).Contents (Elt F)),
    StableHlo.nullary main_cst_43 (constant S_ .f32 0x40490FDB#32),
    StableHlo.unary main_cst_43 main_v139 (broadcastInDim S2000x496 ![] bcast_S_S2000x496 : (⟨S_, .f32⟩ : BufTy).Contents (Elt F) → (⟨S2000x496, .f32⟩ : BufTy).Contents (Elt F)),
    StableHlo.binary main_v139 main_v59 main_v140 (mulf : (⟨S2000x496, .f32⟩ : BufTy).Contents (Elt F) → (⟨S2000x496, .f32⟩ : BufTy).Contents (Elt F) → (⟨S2000x496, .f32⟩ : BufTy).Contents (Elt F)),
    StableHlo.nullary main_cst_44 (constant S_ .f32 0x41000000#32),
    StableHlo.unary main_cst_44 main_v141 (broadcastInDim S2000x496 ![] bcast_S_S2000x496 : (⟨S_, .f32⟩ : BufTy).Contents (Elt F) → (⟨S2000x496, .f32⟩ : BufTy).Contents (Elt F)),
    StableHlo.binary main_v140 main_v141 main_v142 (Host.divf : (⟨S2000x496, .f32⟩ : BufTy).Contents (Elt F) → (⟨S2000x496, .f32⟩ : BufTy).Contents (Elt F) → (⟨S2000x496, .f32⟩ : BufTy).Contents (Elt F)),
    StableHlo.unary main_v142 main_v143 (Host.cos : (⟨S2000x496, .f32⟩ : BufTy).Contents (Elt F) → (⟨S2000x496, .f32⟩ : BufTy).Contents (Elt F)),
    StableHlo.nullary main_cst_45 (constant S_ .f32 0x3F800000#32),
    StableHlo.unary main_cst_45 main_v144 (broadcastInDim S2000x496 ![] bcast_S_S2000x496 : (⟨S_, .f32⟩ : BufTy).Contents (Elt F) → (⟨S2000x496, .f32⟩ : BufTy).Contents (Elt F)),
    StableHlo.binary main_v143 main_v144 main_v145 (addf : (⟨S2000x496, .f32⟩ : BufTy).Contents (Elt F) → (⟨S2000x496, .f32⟩ : BufTy).Contents (Elt F) → (⟨S2000x496, .f32⟩ : BufTy).Contents (Elt F)),
    StableHlo.nullary main_cst_46 (constant S_ .f32 0x3F000000#32),
    StableHlo.unary main_cst_46 main_v146 (broadcastInDim S2000x496 ![] bcast_S_S2000x496 : (⟨S_, .f32⟩ : BufTy).Contents (Elt F) → (⟨S2000x496, .f32⟩ : BufTy).Contents (Elt F)),
    StableHlo.binary main_v146 main_v145 main_v147 (mulf : (⟨S2000x496, .f32⟩ : BufTy).Contents (Elt F) → (⟨S2000x496, .f32⟩ : BufTy).Contents (Elt F) → (⟨S2000x496, .f32⟩ : BufTy).Contents (Elt F)),
    StableHlo.nullary main_cst_47 (constant S_ .f32 0x00000000#32),
    StableHlo.TRef.unary (.of main_cst_47) main_call4.v0 id,
    StableHlo.TRef.unary main_call4.v0 main_call4.v1 (broadcastInDim S2000x496 ![] bcast_S_S2000x496),
    StableHlo.TRef.ternary (.of main_v138) (.of main_v147) main_call4.v1 main_call4.v2 select,
    StableHlo.nullary main_cst_48 (constant S_ .f32 0x41000000#32),
    StableHlo.unary main_cst_48 main_v149 (broadcastInDim S2000x496 ![] bcast_S_S2000x496 : (⟨S_, .f32⟩ : BufTy).Contents (Elt F) → (⟨S2000x496, .f32⟩ : BufTy).Contents (Elt F)),
    StableHlo.binary main_v64 main_v149 main_v150 (cmpf .olt : (⟨S2000x496, .f32⟩ : BufTy).Contents (Elt F) → (⟨S2000x496, .f32⟩ : BufTy).Contents (Elt F) → (⟨S2000x496, .i1⟩ : BufTy).Contents (Elt F)),
    StableHlo.nullary main_cst_49 (constant S_ .f32 0x40490FDB#32),
    StableHlo.unary main_cst_49 main_v151 (broadcastInDim S2000x496 ![] bcast_S_S2000x496 : (⟨S_, .f32⟩ : BufTy).Contents (Elt F) → (⟨S2000x496, .f32⟩ : BufTy).Contents (Elt F)),
    StableHlo.binary main_v151 main_v64 main_v152 (mulf : (⟨S2000x496, .f32⟩ : BufTy).Contents (Elt F) → (⟨S2000x496, .f32⟩ : BufTy).Contents (Elt F) → (⟨S2000x496, .f32⟩ : BufTy).Contents (Elt F)),
    StableHlo.nullary main_cst_50 (constant S_ .f32 0x41000000#32),
    StableHlo.unary main_cst_50 main_v153 (broadcastInDim S2000x496 ![] bcast_S_S2000x496 : (⟨S_, .f32⟩ : BufTy).Contents (Elt F) → (⟨S2000x496, .f32⟩ : BufTy).Contents (Elt F)),
    StableHlo.binary main_v152 main_v153 main_v154 (Host.divf : (⟨S2000x496, .f32⟩ : BufTy).Contents (Elt F) → (⟨S2000x496, .f32⟩ : BufTy).Contents (Elt F) → (⟨S2000x496, .f32⟩ : BufTy).Contents (Elt F)),
    StableHlo.unary main_v154 main_v155 (Host.cos : (⟨S2000x496, .f32⟩ : BufTy).Contents (Elt F) → (⟨S2000x496, .f32⟩ : BufTy).Contents (Elt F)),
    StableHlo.nullary main_cst_51 (constant S_ .f32 0x3F800000#32),
    StableHlo.unary main_cst_51 main_v156 (broadcastInDim S2000x496 ![] bcast_S_S2000x496 : (⟨S_, .f32⟩ : BufTy).Contents (Elt F) → (⟨S2000x496, .f32⟩ : BufTy).Contents (Elt F)),
    StableHlo.binary main_v155 main_v156 main_v157 (addf : (⟨S2000x496, .f32⟩ : BufTy).Contents (Elt F) → (⟨S2000x496, .f32⟩ : BufTy).Contents (Elt F) → (⟨S2000x496, .f32⟩ : BufTy).Contents (Elt F)),
    StableHlo.nullary main_cst_52 (constant S_ .f32 0x3F000000#32),
    StableHlo.unary main_cst_52 main_v158 (broadcastInDim S2000x496 ![] bcast_S_S2000x496 : (⟨S_, .f32⟩ : BufTy).Contents (Elt F) → (⟨S2000x496, .f32⟩ : BufTy).Contents (Elt F)),
    StableHlo.binary main_v158 main_v157 main_v159 (mulf : (⟨S2000x496, .f32⟩ : BufTy).Contents (Elt F) → (⟨S2000x496, .f32⟩ : BufTy).Contents (Elt F) → (⟨S2000x496, .f32⟩ : BufTy).Contents (Elt F)),
    StableHlo.nullary main_cst_53 (constant S_ .f32 0x00000000#32),
    StableHlo.TRef.unary (.of main_cst_53) main_call5.v0 id,
    StableHlo.TRef.unary main_call5.v0 main_call5.v1 (broadcastInDim S2000x496 ![] bcast_S_S2000x496),
    StableHlo.TRef.ternary (.of main_v150) (.of main_v159) main_call5.v1 main_call5.v2 select,
    StableHlo.binary main_v148 main_v160 main_v161 (mulf : (⟨S2000x496, .f32⟩ : BufTy).Contents (Elt F) → (⟨S2000x496, .f32⟩ : BufTy).Contents (Elt F) → (⟨S2000x496, .f32⟩ : BufTy).Contents (Elt F)),
    StableHlo.nullary main_cst_54 (constant S_ .f32 0x41000000#32),
    StableHlo.unary main_cst_54 main_v162 (broadcastInDim S2000x496 ![] bcast_S_S2000x496 : (⟨S_, .f32⟩ : BufTy).Contents (Elt F) → (⟨S2000x496, .f32⟩ : BufTy).Contents (Elt F)),
    StableHlo.binary main_v84 main_v162 main_v163 (cmpf .olt : (⟨S2000x496, .f32⟩ : BufTy).Contents (Elt F) → (⟨S2000x496, .f32⟩ : BufTy).Contents (Elt F) → (⟨S2000x496, .i1⟩ : BufTy).Contents (Elt F)),
    StableHlo.nullary main_cst_55 (constant S_ .f32 0x40490FDB#32),
    StableHlo.unary main_cst_55 main_v164 (broadcastInDim S2000x496 ![] bcast_S_S2000x496 : (⟨S_, .f32⟩ : BufTy).Contents (Elt F) → (⟨S2000x496, .f32⟩ : BufTy).Contents (Elt F)),
    StableHlo.binary main_v164 main_v84 main_v165 (mulf : (⟨S2000x496, .f32⟩ : BufTy).Contents (Elt F) → (⟨S2000x496, .f32⟩ : BufTy).Contents (Elt F) → (⟨S2000x496, .f32⟩ : BufTy).Contents (Elt F)),
    StableHlo.nullary main_cst_56 (constant S_ .f32 0x41000000#32),
    StableHlo.unary main_cst_56 main_v166 (broadcastInDim S2000x496 ![] bcast_S_S2000x496 : (⟨S_, .f32⟩ : BufTy).Contents (Elt F) → (⟨S2000x496, .f32⟩ : BufTy).Contents (Elt F)),
    StableHlo.binary main_v165 main_v166 main_v167 (Host.divf : (⟨S2000x496, .f32⟩ : BufTy).Contents (Elt F) → (⟨S2000x496, .f32⟩ : BufTy).Contents (Elt F) → (⟨S2000x496, .f32⟩ : BufTy).Contents (Elt F)),
    StableHlo.unary main_v167 main_v168 (Host.cos : (⟨S2000x496, .f32⟩ : BufTy).Contents (Elt F) → (⟨S2000x496, .f32⟩ : BufTy).Contents (Elt F)),
    StableHlo.nullary main_cst_57 (constant S_ .f32 0x3F800000#32),
    StableHlo.unary main_cst_57 main_v169 (broadcastInDim S2000x496 ![] bcast_S_S2000x496 : (⟨S_, .f32⟩ : BufTy).Contents (Elt F) → (⟨S2000x496, .f32⟩ : BufTy).Contents (Elt F)),
    StableHlo.binary main_v168 main_v169 main_v170 (addf : (⟨S2000x496, .f32⟩ : BufTy).Contents (Elt F) → (⟨S2000x496, .f32⟩ : BufTy).Contents (Elt F) → (⟨S2000x496, .f32⟩ : BufTy).Contents (Elt F)),
    StableHlo.nullary main_cst_58 (constant S_ .f32 0x3F000000#32),
    StableHlo.unary main_cst_58 main_v171 (broadcastInDim S2000x496 ![] bcast_S_S2000x496 : (⟨S_, .f32⟩ : BufTy).Contents (Elt F) → (⟨S2000x496, .f32⟩ : BufTy).Contents (Elt F)),
    StableHlo.binary main_v171 main_v170 main_v172 (mulf : (⟨S2000x496, .f32⟩ : BufTy).Contents (Elt F) → (⟨S2000x496, .f32⟩ : BufTy).Contents (Elt F) → (⟨S2000x496, .f32⟩ : BufTy).Contents (Elt F)),
    StableHlo.nullary main_cst_59 (constant S_ .f32 0x00000000#32),
    StableHlo.TRef.unary (.of main_cst_59) main_call6.v0 id,
    StableHlo.TRef.unary main_call6.v0 main_call6.v1 (broadcastInDim S2000x496 ![] bcast_S_S2000x496),
    StableHlo.TRef.ternary (.of main_v163) (.of main_v172) main_call6.v1 main_call6.v2 select,
    StableHlo.binary main_v161 main_v173 main_v174 (mulf : (⟨S2000x496, .f32⟩ : BufTy).Contents (Elt F) → (⟨S2000x496, .f32⟩ : BufTy).Contents (Elt F) → (⟨S2000x496, .f32⟩ : BufTy).Contents (Elt F)),
    StableHlo.unary main_v3 main_v175 (broadcastInDim S2000x496x43 ![0, 1, 2] bcast_S1x1x43_S2000x496x43_0_1_2 : (⟨S1x1x43, .f32⟩ : BufTy).Contents (Elt F) → (⟨S2000x496x43, .f32⟩ : BufTy).Contents (Elt F)),
    StableHlo.binary main_v175 main_v127 main_v176 (mulf : (⟨S2000x496x43, .f32⟩ : BufTy).Contents (Elt F) → (⟨S2000x496x43, .f32⟩ : BufTy).Contents (Elt F) → (⟨S2000x496x43, .f32⟩ : BufTy).Contents (Elt F)),
    StableHlo.binary main_v176 main_v136 main_v177 (mulf : (⟨S2000x496x43, .f32⟩ : BufTy).Contents (Elt F) → (⟨S2000x496x43, .f32⟩ : BufTy).Contents (Elt F) → (⟨S2000x496x43, .f32⟩ : BufTy).Contents (Elt F)) ]

theorem ops3_sub : (ops3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., binary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 4 of @main: 10 operations, in order. -/
abbrev ops4 : List (HloOp τ sig (Elt F)) :=
  [ StableHlo.unary main_v174 main_v178 (broadcastInDim S2000x496x1 ![0, 1] bcast_S2000x496_S2000x496x1_0_1 : (⟨S2000x496, .f32⟩ : BufTy).Contents (Elt F) → (⟨S2000x496x1, .f32⟩ : BufTy).Contents (Elt F)),
    StableHlo.unary main_v178 main_v179 (broadcastInDim S2000x496x43 ![0, 1, 2] bcast_S2000x496x1_S2000x496x43_0_1_2 : (⟨S2000x496x1, .f32⟩ : BufTy).Contents (Elt F) → (⟨S2000x496x43, .f32⟩ : BufTy).Contents (Elt F)),
    StableHlo.binary main_v177 main_v179 main_v180 (mulf : (⟨S2000x496x43, .f32⟩ : BufTy).Contents (Elt F) → (⟨S2000x496x43, .f32⟩ : BufTy).Contents (Elt F) → (⟨S2000x496x43, .f32⟩ : BufTy).Contents (Elt F)),
    StableHlo.unary main_v106 main_v181 (broadcastInDim S2000x496x1 ![0, 1] bcast_S2000x496_S2000x496x1_0_1 : (⟨S2000x496, .i1⟩ : BufTy).Contents (Elt F) → (⟨S2000x496x1, .i1⟩ : BufTy).Contents (Elt F)),
    StableHlo.unary main_v181 main_v182 (uitofp .f32 : (⟨S2000x496x1, .i1⟩ : BufTy).Contents (Elt F) → (⟨S2000x496x1, .f32⟩ : BufTy).Contents (Elt F)),
    StableHlo.unary main_v182 main_v183 (broadcastInDim S2000x496x43 ![0, 1, 2] bcast_S2000x496x1_S2000x496x43_0_1_2 : (⟨S2000x496x1, .f32⟩ : BufTy).Contents (Elt F) → (⟨S2000x496x43, .f32⟩ : BufTy).Contents (Elt F)),
    StableHlo.binary main_v180 main_v183 main_v184 (mulf : (⟨S2000x496x43, .f32⟩ : BufTy).Contents (Elt F) → (⟨S2000x496x43, .f32⟩ : BufTy).Contents (Elt F) → (⟨S2000x496x43, .f32⟩ : BufTy).Contents (Elt F)),
    StableHlo.nullary main_cst_60 (constant S_ .f32 0x00000000#32),
    StableHlo.binary main_v184 main_cst_60 main_v185 ((fun x v => Host.reduceAdd x v reducesTo_S2000x496x43_S2000x43_d1 h_S_) : (⟨S2000x496x43, .f32⟩ : BufTy).Contents (Elt F) → (⟨S_, .f32⟩ : BufTy).Contents (Elt F) → (⟨S2000x43, .f32⟩ : BufTy).Contents (Elt F)),
    StableHlo.binary main_v54 main_v185 main_v186 ((fun a b => concatenate S2000x51 1 [⟨S2000x8, a⟩, ⟨S2000x43, b⟩] concatenates_S2000x8_S2000x43_S2000x51_d1) : (⟨S2000x8, .f32⟩ : BufTy).Contents (Elt F) → (⟨S2000x43, .f32⟩ : BufTy).Contents (Elt F) → (⟨S2000x51, .f32⟩ : BufTy).Contents (Elt F)) ]

theorem ops4_sub : (ops4 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., nullary_bufs_sub .., binary_bufs_sub .., binary_bufs_sub ..⟩

theorem ops4_fresh : (ops4 : List (HloOp τ sig (Elt F))).Forall fun op => op.fresh = ∅ :=
  ⟨rfl, rfl, rfl, rfl, rfl, rfl, rfl, rfl, rfl, rfl⟩

end Cert.ReferenceIdeal.RefRun

end
-- ==== Proof.RefRun.lean ====
/-
  The reference program run: its @main is the straight line of the operations listed window by window, so every
  fair execution ends with each buffer at the fold of the operations' results over the launch contents.
-/
import proofs.«126887_j40243843564182_2_alg».proof.Proof.RefRunOps
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's operations: the five windows in order. -/
abbrev ops : List (HloOp τ sig (Elt F)) := ops0 ++ (ops1 ++ (ops2 ++ (ops3 ++ ops4)))

set_option maxRecDepth 8192 in
/-- Window 0 is the line of its operations (no calls in it). -/
theorem part0_eq (c : Dev nD) : main_part0 (F := F) c = seq ops0 := by
  simp only [main_part0, seq, bind_assoc, pure_bind] <;> rfl

set_option maxRecDepth 8192 in
/-- Window 1, the called functions' bodies unfolded at their calls. -/
theorem part1_eq (c : Dev nD) : main_part1 (F := F) c = seq ops1 := by
  simp only [main_part1, fn_where.body, fn_where_0.body, fn_where_1.body, seq, bind_assoc, pure_bind] <;> rfl

set_option maxRecDepth 8192 in
theorem part2_eq (c : Dev nD) : main_part2 (F := F) c = seq ops2 := by
  simp only [main_part2, fn_where.body, fn_where_0.body, fn_where_1.body, seq, bind_assoc, pure_bind] <;> rfl

set_option maxRecDepth 8192 in
theorem part3_eq (c : Dev nD) : main_part3 (F := F) c = seq ops3 := by
  simp only [main_part3, fn_where.body, fn_where_0.body, fn_where_1.body, seq, bind_assoc, pure_bind] <;> rfl

set_option maxRecDepth 8192 in
theorem part4_eq (c : Dev nD) : main_part4 (F := F) c = seq ops4 := by
  simp only [main_part4, seq, bind_assoc, pure_bind] <;> rfl

/-- @main runs its windows in order, so it is the line of all the operations. -/
theorem main_eq (c : Dev nD) : main (F := F) c = seq ops := by
  simp only [main, ops, seq_append, part0_eq, part1_eq, part2_eq, part3_eq, part4_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

theorem ops_fresh : ∀ op ∈ (ops : List (HloOp τ sig (Elt F))), op.fresh = ∅ := by
  intro op h
  simp only [ops, List.mem_append] at h
  rcases h with h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h

/-- From any memory with zero counters every weakly fair execution of @main terminates, each TensorCore buffer at
    the operations' fold over the launch contents. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b) = after (ops (F := Ideal)) (launchContents m c) (b : DevRef τ sig) :=
  run_seq scopedRefs_eq scopedSems_eq defs (main (F := Ideal)) (fun _ => ops) main_eq (fun _ => ops_sub) m ρ (fun _ => ops_fresh)

end Cert.ReferenceIdeal.RefRun

end
-- ==== Proof.RefRunSplit.lean ====
/-
  Window 0 of the reference program's @main cut in two: the operations up to the squared distances, and the rest.
-/
import proofs.«126887_j40243843564182_2_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Window 0 up to the squared distances. -/
abbrev ops0a : List (HloOp τ sig (Elt F)) :=
  [ StableHlo.nullary main_cst (constant S8 .f32 0x00000000#32),
    StableHlo.unary main_cst main_v0 (broadcastInDim S1x1x8 ![2] bcast_S8_S1x1x8_2 : (⟨S8, .f32⟩ : BufTy).Contents (Elt F) → (⟨S1x1x8, .f32⟩ : BufTy).Contents (Elt F)),
    StableHlo.nullary main_cst_0 (fun i => FloatOps.ofBits .f32 (lit0 (S1x1x8.rowMajor i))),
    StableHlo.nullary main_c (fun i => lit1 (S496.rowMajor i)),
    StableHlo.nullary main_c_1 (constantI S496 1 0#1),
    StableHlo.nullary main_c_2 (fun i => lit2 (S496.rowMajor i)),
    StableHlo.nullary main_c_3 (constantI S496 1 0#1),
    StableHlo.nullary main_c_4 (constantI S496 1 0#1),
    StableHlo.nullary main_c_5 (constantI S496 1 0#1),
    StableHlo.nullary main_c_6 (constantI S496 1 0#1),
    StableHlo.nullary main_c_7 (constantI S496 1 0#1),
    StableHlo.nullary main_c_8 (constantI S496 1 0#1),
    StableHlo.nullary main_cst_9 (fun i => FloatOps.ofBits .f32 (lit3 (S43.rowMajor i))),
    StableHlo.unary main_cst_9 main_v1 (broadcastInDim S1x1x43 ![2] bcast_S43_S1x1x43_2 : (⟨S43, .f32⟩ : BufTy).Contents (Elt F) → (⟨S1x1x43, .f32⟩ : BufTy).Contents (Elt F)),
    StableHlo.nullary main_cst_10 (fun i => FloatOps.ofBits .f32 (lit4 (S43.rowMajor i))),
    StableHlo.unary main_cst_10 main_v2 (broadcastInDim S1x1x43 ![2] bcast_S43_S1x1x43_2 : (⟨S43, .f32⟩ : BufTy).Contents (Elt F) → (⟨S1x1x43, .f32⟩ : BufTy).Contents (Elt F)),
    StableHlo.nullary main_cst_11 (fun i => FloatOps.ofBits .f32 (lit5 (S1x1x43.rowMajor i))),
    StableHlo.nullary main_cst_12 (fun i => FloatOps.ofBits .f32 (lit6 (S43.rowMajor i))),
    StableHlo.unary main_cst_12 main_v3 (broadcastInDim S1x1x43 ![2] bcast_S43_S1x1x43_2 : (⟨S43, .f32⟩ : BufTy).Contents (Elt F) → (⟨S1x1x43, .f32⟩ : BufTy).Contents (Elt F)),
    StableHlo.reshape main_arg2 main_v4 rfl shapeCasts_S64000_S2000x32,
    StableHlo.nullary main_v5 (iotaInDim S32 32 0),
    StableHlo.unary main_v5 main_v6 (broadcastInDim S1x32 ![1] bcast_S32_S1x32_1 : (⟨S32, .i32⟩ : BufTy).Contents (Elt F) → (⟨S1x32, .i32⟩ : BufTy).Contents (Elt F)),
    StableHlo.unary main_arg1 main_v7 (broadcastInDim S2000x1 ![0] bcast_S2000_S2000x1_0 : (⟨S2000, .i32⟩ : BufTy).Contents (Elt F) → (⟨S2000x1, .i32⟩ : BufTy).Contents (Elt F)),
    StableHlo.unary main_v6 main_v8 (broadcastInDim S2000x32 ![0, 1] bcast_S1x32_S2000x32_0_1 : (⟨S1x32, .i32⟩ : BufTy).Contents (Elt F) → (⟨S2000x32, .i32⟩ : BufTy).Contents (Elt F)),
    StableHlo.unary main_v7 main_v9 (broadcastInDim S2000x32 ![0, 1] bcast_S2000x1_S2000x32_0_1 : (⟨S2000x1, .i32⟩ : BufTy).Contents (Elt F) → (⟨S2000x32, .i32⟩ : BufTy).Contents (Elt F)),
    StableHlo.binary main_v8 main_v9 main_v10 (cmpi .slt : (⟨S2000x32, .i32⟩ : BufTy).Contents (Elt F) → (⟨S2000x32, .i32⟩ : BufTy).Contents (Elt F) → (⟨S2000x32, .i1⟩ : BufTy).Contents (Elt F)),
    StableHlo.nullary main_c_13 (constantI S_ 32 0#32),
    StableHlo.unary main_c_13 main_v11 (broadcastInDim S2000x32 ![] bcast_S_S2000x32 : (⟨S_, .i32⟩ : BufTy).Contents (Elt F) → (⟨S2000x32, .i32⟩ : BufTy).Contents (Elt F)),
    StableHlo.binary main_v4 main_v11 main_v12 (cmpi .slt : (⟨S2000x32, .i32⟩ : BufTy).Contents (Elt F) → (⟨S2000x32, .i32⟩ : BufTy).Contents (Elt F) → (⟨S2000x32, .i1⟩ : BufTy).Contents (Elt F)),
    StableHlo.nullary main_c_14 (constantI S_ 32 2000#32),
    StableHlo.unary main_c_14 main_v13 (broadcastInDim S2000x32 ![] bcast_S_S2000x32 : (⟨S_, .i32⟩ : BufTy).Contents (Elt F) → (⟨S2000x32, .i32⟩ : BufTy).Contents (Elt F)),
    StableHlo.binary main_v4 main_v13 main_v14 (addi : (⟨S2000x32, .i32⟩ : BufTy).Contents (Elt F) → (⟨S2000x32, .i32⟩ : BufTy).Contents (Elt F) → (⟨S2000x32, .i32⟩ : BufTy).Contents (Elt F)),
    StableHlo.ternary main_v12 main_v14 main_v4 main_v15 (select : (⟨S2000x32, .i1⟩ : BufTy).Contents (Elt F) → (⟨S2000x32, .i32⟩ : BufTy).Contents (Elt F) → (⟨S2000x32, .i32⟩ : BufTy).Contents (Elt F) → (⟨S2000x32, .i32⟩ : BufTy).Contents (Elt F)),
    StableHlo.unary main_v15 main_v16 (broadcastInDim S2000x32x1 ![0, 1] bcast_S2000x32_S2000x32x1_0_1 : (⟨S2000x32, .i32⟩ : BufTy).Contents (Elt F) → (⟨S2000x32x1, .i32⟩ : BufTy).Contents (Elt F)),
    StableHlo.binary main_arg0 main_v16 main_v17 ((fun x i => Host.gather gather_S2000x3_S2000x32x1_S2000x32x3_2_0_n_n_0_2_13 x i) : (⟨S2000x3, .f32⟩ : BufTy).Contents (Elt F) → (⟨S2000x32x1, .i32⟩ : BufTy).Contents (Elt F) → (⟨S2000x32x3, .f32⟩ : BufTy).Contents (Elt F)),
    StableHlo.unary main_arg0 main_v18 (broadcastInDim S2000x1x3 ![0, 2] bcast_S2000x3_S2000x1x3_0_2 : (⟨S2000x3, .f32⟩ : BufTy).Contents (Elt F) → (⟨S2000x1x3, .f32⟩ : BufTy).Contents (Elt F)),
    StableHlo.unary main_v18 main_v19 (broadcastInDim S2000x32x3 ![0, 1, 2] bcast_S2000x1x3_S2000x32x3_0_1_2 : (⟨S2000x1x3, .f32⟩ : BufTy).Contents (Elt F) → (⟨S2000x32x3, .f32⟩ : BufTy).Contents (Elt F)),
    StableHlo.binary main_v17 main_v19 main_v20 (subf : (⟨S2000x32x3, .f32⟩ : BufTy).Contents (Elt F) → (⟨S2000x32x3, .f32⟩ : BufTy).Contents (Elt F) → (⟨S2000x32x3, .f32⟩ : BufTy).Contents (Elt F)),
    StableHlo.binary main_v20 main_v20 main_v21 (mulf : (⟨S2000x32x3, .f32⟩ : BufTy).Contents (Elt F) → (⟨S2000x32x3, .f32⟩ : BufTy).Contents (Elt F) → (⟨S2000x32x3, .f32⟩ : BufTy).Contents (Elt F)),
    StableHlo.nullary main_cst_15 (constant S_ .f32 0x00000000#32),
    StableHlo.binary main_v21 main_cst_15 main_v22 ((fun x v => Host.reduceAdd x v reducesTo_S2000x32x3_S2000x32_d2 h_S_) : (⟨S2000x32x3, .f32⟩ : BufTy).Contents (Elt F) → (⟨S_, .f32⟩ : BufTy).Contents (Elt F) → (⟨S2000x32, .f32⟩ : BufTy).Contents (Elt F)) ]

/-- The rest of window 0. -/
abbrev ops0b : List (HloOp τ sig (Elt F)) :=
  [ StableHlo.unary main_v22 main_v23 (Host.sqrt : (⟨S2000x32, .f32⟩ : BufTy).Contents (Elt F) → (⟨S2000x32, .f32⟩ : BufTy).Contents (Elt F)),
    StableHlo.nullary main_cst_16 (constant S_ .f32 0x42800000#32),
    StableHlo.unary main_cst_16 main_v24 (broadcastInDim S2000x32 ![] bcast_S_S2000x32 : (⟨S_, .f32⟩ : BufTy).Contents (Elt F) → (⟨S2000x32, .f32⟩ : BufTy).Contents (Elt F)),
    StableHlo.binary main_v22 main_v24 main_v25 (cmpf .ole : (⟨S2000x32, .f32⟩ : BufTy).Contents (Elt F) → (⟨S2000x32, .f32⟩ : BufTy).Contents (Elt F) → (⟨S2000x32, .i1⟩ : BufTy).Contents (Elt F)),
    StableHlo.binary main_v10 main_v25 main_v26 (andi : (⟨S2000x32, .i1⟩ : BufTy).Contents (Elt F) → (⟨S2000x32, .i1⟩ : BufTy).Contents (Elt F) → (⟨S2000x32, .i1⟩ : BufTy).Contents (Elt F)),
    StableHlo.nullary main_cst_17 (constant S_ .f32 0x41000000#32),
    StableHlo.unary main_cst_17 main_v27 (broadcastInDim S2000x32 ![] bcast_S_S2000x32 : (⟨S_, .f32⟩ : BufTy).Contents (Elt F) → (⟨S2000x32, .f32⟩ : BufTy).Contents (Elt F)),
    StableHlo.binary main_v23 main_v27 main_v28 (cmpf .olt : (⟨S2000x32, .f32⟩ : BufTy).Contents (Elt F) → (⟨S2000x32, .f32⟩ : BufTy).Contents (Elt F) → (⟨S2000x32, .i1⟩ : BufTy).Contents (Elt F)),
    StableHlo.nullary main_cst_18 (constant S_ .f32 0x40490FDB#32),
    StableHlo.unary main_cst_18 main_v29 (broadcastInDim S2000x32 ![] bcast_S_S2000x32 : (⟨S_, .f32⟩ : BufTy).Contents (Elt F) → (⟨S2000x32, .f32⟩ : BufTy).Contents (Elt F)),
    StableHlo.binary main_v29 main_v23 main_v30 (mulf : (⟨S2000x32, .f32⟩ : BufTy).Contents (Elt F) → (⟨S2000x32, .f32⟩ : BufTy).Contents (Elt F) → (⟨S2000x32, .f32⟩ : BufTy).Contents (Elt F)),
    StableHlo.nullary main_cst_19 (constant S_ .f32 0x41000000#32),
    StableHlo.unary main_cst_19 main_v31 (broadcastInDim S2000x32 ![] bcast_S_S2000x32 : (⟨S_, .f32⟩ : BufTy).Contents (Elt F) → (⟨S2000x32, .f32⟩ : BufTy).Contents (Elt F)),
    StableHlo.binary main_v30 main_v31 main_v32 (Host.divf : (⟨S2000x32, .f32⟩ : BufTy).Contents (Elt F) → (⟨S2000x32, .f32⟩ : BufTy).Contents (Elt F) → (⟨S2000x32, .f32⟩ : BufTy).Contents (Elt F)),
    StableHlo.unary main_v32 main_v33 (Host.cos : (⟨S2000x32, .f32⟩ : BufTy).Contents (Elt F) → (⟨S2000x32, .f32⟩ : BufTy).Contents (Elt F)),
    StableHlo.nullary main_cst_20 (constant S_ .f32 0x3F800000#32),
    StableHlo.unary main_cst_20 main_v34 (broadcastInDim S2000x32 ![] bcast_S_S2000x32 : (⟨S_, .f32⟩ : BufTy).Contents (Elt F) → (⟨S2000x32, .f32⟩ : BufTy).Contents (Elt F)),
    StableHlo.binary main_v33 main_v34 main_v35 (addf : (⟨S2000x32, .f32⟩ : BufTy).Contents (Elt F) → (⟨S2000x32, .f32⟩ : BufTy).Contents (Elt F) → (⟨S2000x32, .f32⟩ : BufTy).Contents (Elt F)),
    StableHlo.nullary main_cst_21 (constant S_ .f32 0x3F000000#32) ]

theorem ops0_split : (ops0 : List (HloOp τ sig (Elt F))) = ops0a ++ ops0b := rfl

end Cert.ReferenceIdeal.RefRun

end
-- ==== Proof.RefStages.lean ====
/-
  The reference computation from the displacement vectors on: radial and angular symmetry functions of a neighbour
  list, written as one function of three arrays — the displacement of each neighbour slot from its atom, its squared
  length, and whether the slot is in use — in the order and grouping the reference program applies its operations.
  Each definition below is a few of those operations; `out` is the whole.
-/
import proofs.«126887_j40243843564182_2_alg».proof.Proof.Gen.ReferenceIdeal
import proofs.«126887_j40243843564182_2_alg».proof.Proof.Sym

noncomputable section

namespace Cert.ReferenceIdeal.RefValue

open Idealize.ShloMosaic Cert.ReferenceIdeal Cert.ReferenceIdeal.Facts₀

/-- A number spread over every (atom, slot). -/
abbrev sp32 (w : BitVec 32) : FVec Ideal S2000x32 .f32 :=
  broadcastInDim S2000x32 ![] bcast_S_S2000x32 (constant (F := Ideal) S_ .f32 w)
/-- A number spread over every (atom, pair). -/
abbrev sp496 (w : BitVec 32) : FVec Ideal S2000x496 .f32 :=
  broadcastInDim S2000x496 ![] bcast_S_S2000x496 (constant (F := Ideal) S_ .f32 w)
/-- A number spread over every (atom, pair, angular feature). -/
abbrev sp43 (w : BitVec 32) : FVec Ideal S2000x496x43 .f32 :=
  broadcastInDim S2000x496x43 ![] bcast_S_S2000x496x43 (constant (F := Ideal) S_ .f32 w)

/-- An (atom, slot) array repeated along a last axis of 8 radial features. -/
abbrev up8 {α : Type} (x : S2000x32.Idx → α) : S2000x32x8.Idx → α :=
  broadcastInDim S2000x32x8 ![0, 1, 2] bcast_S2000x32x1_S2000x32x8_0_1_2
    (broadcastInDim S2000x32x1 ![0, 1] bcast_S2000x32_S2000x32x1_0_1 x)
/-- An (atom, pair) array repeated along a last axis of 43 angular features. -/
abbrev up43 {α : Type} (x : S2000x496.Idx → α) : S2000x496x43.Idx → α :=
  broadcastInDim S2000x496x43 ![0, 1, 2] bcast_S2000x496x1_S2000x496x43_0_1_2
    (broadcastInDim S2000x496x1 ![0, 1] bcast_S2000x496_S2000x496x1_0_1 x)
/-- A table of 43 numbers, held as [1, 1, 43], repeated over every (atom, pair). -/
abbrev row43 (x : FVec Ideal S1x1x43 .f32) : FVec Ideal S2000x496x43 .f32 :=
  broadcastInDim S2000x496x43 ![0, 1, 2] bcast_S1x1x43_S2000x496x43_0_1_2 x
/-- A table of 43 words as the [1, 1, 43] array of the numbers they denote. -/
abbrev tab43 (t : Fin 43 → BitVec 32) : FVec Ideal S1x1x43 .f32 :=
  broadcastInDim S1x1x43 ![2] bcast_S43_S1x1x43_2 (fun i => FloatOps.ofBits (F := Ideal) .f32 (t (S43.rowMajor i)))
/-- A table of 8 numbers, held as [1, 1, 8], repeated over every (atom, slot). -/
abbrev row8 (x : FVec Ideal S1x1x8 .f32) : FVec Ideal S2000x32x8 .f32 :=
  broadcastInDim S2000x32x8 ![0, 1, 2] bcast_S1x1x8_S2000x32x8_0_1_2 x

/-- The start indices of a gather along the slot axis: a table of 496 slot words as a column; a word would be raised
    by 32 where the (constant, false) flag held. -/
abbrev idxOf (t : IVec S496 32) : IVec S496x1 32 :=
  broadcastInDim S496x1 ![0] bcast_S496_S496x1_0
    (select (constantI S496 1 0#1) (addi t (broadcastInDim S496 ![] bcast_S_S496 (constantI S_ 32 32#32))) t)
/-- The table of first slots of the pairs. -/
abbrev tabJ : IVec S496 32 := fun i => lit1 (S496.rowMajor i)
/-- The table of second slots of the pairs. -/
abbrev tabK : IVec S496 32 := fun i => lit2 (S496.rowMajor i)
/-- An (atom, slot) array read at a table's slot for every (atom, pair). -/
abbrev take2 {α : Type} (x : S2000x32.Idx → α) (t : IVec S496 32) : S2000x496.Idx → α :=
  Host.gather gather_S2000x32_S496x1_S2000x496_0_1_n_n_1_1_20001 x (idxOf t)
/-- An (atom, slot, component) array read at a table's slot for every (atom, pair, component). -/
abbrev take3 {α : Type} (x : S2000x32x3.Idx → α) (t : IVec S496 32) : S2000x496x3.Idx → α :=
  Host.gather gather_S2000x32x3_S496x1_S2000x496x3_02_1_n_n_1_1_200013 x (idxOf t)

/-- The cosine cutoff of an (atom, slot) array of distances: half of cos(π x / 8) + 1 below 8, else 0. -/
def fc32 (x : FVec Ideal S2000x32 .f32) : FVec Ideal S2000x32 .f32 :=
  select (cmpf .olt x (sp32 0x41000000#32))
    (mulf (sp32 0x3F000000#32)
      (addf (Host.cos (Host.divf (mulf (sp32 0x40490FDB#32) x) (sp32 0x41000000#32))) (sp32 0x3F800000#32)))
    (broadcastInDim S2000x32 ![] bcast_S_S2000x32 (id (constant (F := Ideal) S_ .f32 0x00000000#32)))
/-- The cosine cutoff of an (atom, pair) array of distances. -/
def fc496 (x : FVec Ideal S2000x496 .f32) : FVec Ideal S2000x496 .f32 :=
  select (cmpf .olt x (sp496 0x41000000#32))
    (mulf (sp496 0x3F000000#32)
      (addf (Host.cos (Host.divf (mulf (sp496 0x40490FDB#32) x) (sp496 0x41000000#32))) (sp496 0x3F800000#32)))
    (broadcastInDim S2000x496 ![] bcast_S_S2000x496 (id (constant (F := Ideal) S_ .f32 0x00000000#32)))

/-- A 0/1 count per (atom, slot) as numbers, repeated along the 8 radial features. -/
abbrev cnt8 (m : IVec S2000x32 1) : FVec Ideal S2000x32x8 .f32 :=
  broadcastInDim S2000x32x8 ![0, 1, 2] bcast_S2000x32x1_S2000x32x8_0_1_2
    (uitofp (F := Ideal) .f32 (broadcastInDim S2000x32x1 ![0, 1] bcast_S2000x32_S2000x32x1_0_1 m))
/-- A 0/1 count per (atom, pair) as numbers, repeated along the 43 angular features. -/
abbrev cnt43 (m : IVec S2000x496 1) : FVec Ideal S2000x496x43 .f32 :=
  broadcastInDim S2000x496x43 ![0, 1, 2] bcast_S2000x496x1_S2000x496x43_0_1_2
    (uitofp (F := Ideal) .f32 (broadcastInDim S2000x496x1 ![0, 1] bcast_S2000x496_S2000x496x1_0_1 m))

section
variable (rv : FVec Ideal S2000x32x3 .f32) (rsq : FVec Ideal S2000x32 .f32) (vd : IVec S2000x32 1)

/-! ## Radial features -/

/-- Distance to each neighbour slot. -/
def r : FVec Ideal S2000x32 .f32 := Host.sqrt rsq
/-- The slot counts: in use and within the squared radius 64. -/
def mask : IVec S2000x32 1 := andi vd (cmpf .ole rsq (sp32 0x42800000#32))
/-- Distance minus the radial centre (a table of 8 zeros), per slot and radial feature. -/
def radD : FVec Ideal S2000x32x8 .f32 :=
  subf (up8 (r rsq)) (row8 (broadcastInDim S1x1x8 ![2] bcast_S8_S1x1x8_2 (constant (F := Ideal) S8 .f32 0x00000000#32)))
/-- exp(e_f (r − centre)²) for each slot and radial feature f. -/
def radE : FVec Ideal S2000x32x8 .f32 :=
  Host.exp (mulf (row8 (fun i => FloatOps.ofBits (F := Ideal) .f32 (lit0 (S1x1x8.rowMajor i))))
    (mulf (radD rsq) (radD rsq)))
/-- One slot's radial terms: Gaussian times cutoff, counted or not. -/
def radT : FVec Ideal S2000x32x8 .f32 :=
  mulf (mulf (radE rsq) (up8 (fc32 (r rsq)))) (cnt8 (mask rsq vd))
/-- The 8 radial features of each atom: the terms summed over the slots from zero. -/
def radial : FVec Ideal S2000x8 .f32 :=
  Host.reduceAdd (radT rsq vd) (constant (F := Ideal) S_ .f32 0x00000000#32) reducesTo_S2000x32x8_S2000x8_d1 h_S_

/-! ## One pair of slots -/

/-- Distance to the pair's first neighbour. -/
def rij : FVec Ideal S2000x496 .f32 := take2 (r rsq) tabJ
/-- Distance to the pair's second neighbour. -/
def rik : FVec Ideal S2000x496 .f32 := take2 (r rsq) tabK
/-- The vector from the first to the second neighbour of the pair. -/
def djk : FVec Ideal S2000x496x3 .f32 := subf (take3 rv tabK) (take3 rv tabJ)
/-- Its squared length, the three squares summed from zero. -/
def rjksq : FVec Ideal S2000x496 .f32 :=
  Host.reduceAdd (mulf (djk rv) (djk rv)) (constant (F := Ideal) S_ .f32 0x00000000#32) reducesTo_S2000x496x3_S2000x496_d2 h_S_
/-- Whether that squared length is positive. -/
def pos : IVec S2000x496 1 := cmpf .ogt (rjksq rv) (sp496 0x00000000#32)
/-- Its square root, zero kept where it is not positive. -/
def rjk : FVec Ideal S2000x496 .f32 :=
  select (pos rv)
    (Host.sqrt (select (pos rv) (rjksq rv)
      (broadcastInDim S2000x496 ![] bcast_S_S2000x496 (id (constant (F := Ideal) S_ .f32 0x3F800000#32)))))
    (broadcastInDim S2000x496 ![] bcast_S_S2000x496 (id (constant (F := Ideal) S_ .f32 0x00000000#32)))
/-- The triangle counts: first slot counts, second slot in use and within the radius, third side within the radius. -/
def tri : IVec S2000x496 1 :=
  andi (andi (andi (take2 (mask rsq vd) tabJ) (take2 vd tabK)) (cmpf .ole (take2 rsq tabK) (sp496 0x42800000#32)))
    (cmpf .ole (rjk rv) (sp496 0x41000000#32))
/-- The sum of the two squared sides at the atom. -/
def sq2 : FVec Ideal S2000x496 .f32 := addf (mulf (rij rsq) (rij rsq)) (mulf (rik rsq) (rik rsq))
/-- Cosine of the angle at the atom, by the law of cosines. -/
def cosv : FVec Ideal S2000x496 .f32 :=
  Host.divf (subf (sq2 rsq) (rjksq rv)) (mulf (mulf (sp496 0x40000000#32) (rij rsq)) (rik rsq))
/-- 1 + sign · cosine, per angular feature. -/
def base : FVec Ideal S2000x496x43 .f32 := addf (sp43 0x3F800000#32) (mulf (row43 (tab43 lit3)) (up43 (cosv rv rsq)))
/-- Whether that base is positive. -/
def bpos : IVec S2000x496x43 1 := cmpf .ogt (base rv rsq) (sp43 0x00000000#32)
/-- The base (1 where not positive) to the feature's exponent, times whether it was positive. -/
def powT : FVec Ideal S2000x496x43 .f32 :=
  mulf (Host.powf (select (bpos rv rsq) (base rv rsq)
      (broadcastInDim S2000x496x43 ![] bcast_S_S2000x496x43 (id (constant (F := Ideal) S_ .f32 0x3F800000#32))))
    (row43 (tab43 lit4))) (uitofp (F := Ideal) .f32 (bpos rv rsq))
/-- Sum of the three squared sides. -/
def ssum : FVec Ideal S2000x496 .f32 := addf (sq2 rsq) (rjksq rv)
/-- The angular Gaussian exp(η_f Σ sides²). -/
def angE : FVec Ideal S2000x496x43 .f32 :=
  Host.exp (mulf (row43 (fun i => FloatOps.ofBits (F := Ideal) .f32 (lit5 (S1x1x43.rowMajor i)))) (up43 (ssum rv rsq)))
/-- Product of the three cutoffs. -/
def fc3 : FVec Ideal S2000x496 .f32 := mulf (mulf (fc496 (rij rsq)) (fc496 (rik rsq))) (fc496 (rjk rv))
/-- One pair's angular terms: weight · power · Gaussian · cutoffs · counted. -/
def angT : FVec Ideal S2000x496x43 .f32 :=
  mulf (mulf (mulf (mulf (row43 (tab43 lit6)) (powT rv rsq)) (angE rv rsq)) (up43 (fc3 rv rsq))) (cnt43 (tri rv rsq vd))
/-- The 43 angular features of each atom: the terms summed over the pairs from zero. -/
def angular : FVec Ideal S2000x43 .f32 :=
  Host.reduceAdd (angT rv rsq vd) (constant (F := Ideal) S_ .f32 0x00000000#32) reducesTo_S2000x496x43_S2000x43_d1 h_S_

/-- All 51 features of each atom: the radial ones, then the angular ones. -/
def out : FVec Ideal S2000x51 .f32 :=
  concatenate S2000x51 1 [⟨S2000x8, radial rsq vd⟩, ⟨S2000x43, angular rv rsq vd⟩] concatenates_S2000x8_S2000x43_S2000x51_d1

/-- The geometry the three arrays hold, read by coordinates, with the two slot tables of the pairs. -/
def geo : Cert.Sym.Geo :=
  ⟨fun n k d => rv (ValueIdx.ix3 n k d), fun n k => rsq (ValueIdx.ix2 n k), fun n k => vd (ValueIdx.ix2 n k), lit1, lit2⟩

end

end Cert.ReferenceIdeal.RefValue

end
-- ==== Proof.LibFoldReads.lean ====
/-
  Reading buffers through a straight line of host operations.

  The buffer contents after a line of operations are a fold over the operations: each operation's result at its own
  buffer is its function of its operands' contents, and at any other buffer what was there before. The tactic below
  rewrites a read of the fold, outermost operation first, until only reads of the starting contents are left; the
  inequalities of buffer references are decided. Lemmas given in the brackets are added to the rewriting set (the
  names of the operation lists to open, facts about what a region leaves, earlier reads).
-/
import Idealize.ShloMosaic.Lib.StableHlo.Run

namespace Cert.LibFoldReads

open Idealize.ShloMosaic Idealize.ShloMosaic.StableHlo

/-- Read buffers through stretches of host operations: each operation's result at its own buffer is its function of
    its operands' contents, and at any other buffer what was there. -/
syntax "fold_reads" "[" Lean.Parser.Tactic.simpLemma,* "]" : tactic
macro_rules
  | `(tactic| fold_reads [$ls,*]) =>
    `(tactic| simp (disch := decide) only [after_cons, after_nil, nullary_result', unary_result', binary_result', ternary_result',
        reshape_result', nullary_result_ne', unary_result_ne', binary_result_ne', ternary_result_ne', reshape_result_ne', $ls,*])

end Cert.LibFoldReads
-- ==== Proof.RefRunOut.lean ====
/-
  What the reference program leaves: its arguments as they were, and its result buffer at the reference
  computation `RefValue.out` of the displacement vectors, squared distances and in-use flags its own earlier
  operations computed. The line of operations is read in two stretches, cut after the squared distances.
-/
import proofs.«126887_j40243843564182_2_alg».proof.Proof.RefRun
import proofs.«126887_j40243843564182_2_alg».proof.Proof.RefRunSplit
import proofs.«126887_j40243843564182_2_alg».proof.Proof.RefStages
import proofs.«126887_j40243843564182_2_alg».proof.Proof.LibFoldReads
import proofs.«126887_j40243843564182_2_alg».proof.Proof.LibStretches

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-! ## The arguments are not written -/

theorem arg0_keep (V : Valuation τ sig (Elt Ideal)) :
    after (ops (F := Ideal)) V (main_arg0 : DevRef τ sig) = V (main_arg0 : DevRef τ sig) := by
  simp only [ops, Cert.LibStretches.after_append]
  fold_reads [ops0, ops1, ops2, ops3, ops4]

theorem arg1_keep (V : Valuation τ sig (Elt Ideal)) :
    after (ops (F := Ideal)) V (main_arg1 : DevRef τ sig) = V (main_arg1 : DevRef τ sig) := by
  simp only [ops, Cert.LibStretches.after_append]
  fold_reads [ops0, ops1, ops2, ops3, ops4]

theorem arg2_keep (V : Valuation τ sig (Elt Ideal)) :
    after (ops (F := Ideal)) V (main_arg2 : DevRef τ sig) = V (main_arg2 : DevRef τ sig) := by
  simp only [ops, Cert.LibStretches.after_append]
  fold_reads [ops0, ops1, ops2, ops3, ops4]

/-! ## The constant tables the first stretch leaves -/

section Consts
variable (V : Valuation τ sig (Elt Ideal))

theorem v0_read : after (ops0a (F := Ideal)) V (main_v0 : DevRef τ sig)
    = broadcastInDim S1x1x8 ![2] bcast_S8_S1x1x8_2 (constant (F := Ideal) S8 .f32 0x00000000#32) := by fold_reads [ops0a] <;> rfl
theorem cst_0_read : after (ops0a (F := Ideal)) V (main_cst_0 : DevRef τ sig)
    = fun i => FloatOps.ofBits (F := Ideal) .f32 (lit0 (S1x1x8.rowMajor i)) := by fold_reads [ops0a] <;> rfl
theorem c_read : after (ops0a (F := Ideal)) V (main_c : DevRef τ sig) = fun i => lit1 (S496.rowMajor i) := by fold_reads [ops0a] <;> rfl
theorem c_2_read : after (ops0a (F := Ideal)) V (main_c_2 : DevRef τ sig) = fun i => lit2 (S496.rowMajor i) := by fold_reads [ops0a] <;> rfl
theorem c_1_read : after (ops0a (F := Ideal)) V (main_c_1 : DevRef τ sig) = constantI S496 1 0#1 := by fold_reads [ops0a] <;> rfl
theorem c_3_read : after (ops0a (F := Ideal)) V (main_c_3 : DevRef τ sig) = constantI S496 1 0#1 := by fold_reads [ops0a] <;> rfl
theorem c_4_read : after (ops0a (F := Ideal)) V (main_c_4 : DevRef τ sig) = constantI S496 1 0#1 := by fold_reads [ops0a] <;> rfl
theorem c_5_read : after (ops0a (F := Ideal)) V (main_c_5 : DevRef τ sig) = constantI S496 1 0#1 := by fold_reads [ops0a] <;> rfl
theorem c_6_read : after (ops0a (F := Ideal)) V (main_c_6 : DevRef τ sig) = constantI S496 1 0#1 := by fold_reads [ops0a] <;> rfl
theorem c_7_read : after (ops0a (F := Ideal)) V (main_c_7 : DevRef τ sig) = constantI S496 1 0#1 := by fold_reads [ops0a] <;> rfl
theorem c_8_read : after (ops0a (F := Ideal)) V (main_c_8 : DevRef τ sig) = constantI S496 1 0#1 := by fold_reads [ops0a] <;> rfl
theorem v1_read : after (ops0a (F := Ideal)) V (main_v1 : DevRef τ sig)
    = broadcastInDim S1x1x43 ![2] bcast_S43_S1x1x43_2 (fun i => FloatOps.ofBits (F := Ideal) .f32 (lit3 (S43.rowMajor i))) := by
  fold_reads [ops0a] <;> rfl
theorem v2_read : after (ops0a (F := Ideal)) V (main_v2 : DevRef τ sig)
    = broadcastInDim S1x1x43 ![2] bcast_S43_S1x1x43_2 (fun i => FloatOps.ofBits (F := Ideal) .f32 (lit4 (S43.rowMajor i))) := by
  fold_reads [ops0a] <;> rfl
theorem v3_read : after (ops0a (F := Ideal)) V (main_v3 : DevRef τ sig)
    = broadcastInDim S1x1x43 ![2] bcast_S43_S1x1x43_2 (fun i => FloatOps.ofBits (F := Ideal) .f32 (lit6 (S43.rowMajor i))) := by
  fold_reads [ops0a] <;> rfl
theorem cst_11_read : after (ops0a (F := Ideal)) V (main_cst_11 : DevRef τ sig)
    = fun i => FloatOps.ofBits (F := Ideal) .f32 (lit5 (S1x1x43.rowMajor i)) := by fold_reads [ops0a] <;> rfl

end Consts

end Cert.ReferenceIdeal.RefRun

end
-- ==== Proof.RefRunOutEq.lean ====
/-
  The reference program's result buffer holds the reference computation of what its own earlier operations left in
  the buffers of the displacement vectors, the squared distances and the in-use flags.
-/
import proofs.«126887_j40243843564182_2_alg».proof.Proof.RefRunOut

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- The line of operations cut after the squared distances. -/
theorem ops_split : (ops (F := Ideal)) = ops0a ++ (ops0b ++ (ops1 ++ (ops2 ++ (ops3 ++ ops4)))) := by
  rw [show (ops (F := Ideal)) = ops0 ++ (ops1 ++ (ops2 ++ (ops3 ++ ops4))) from rfl, ops0_split, List.append_assoc]

set_option maxRecDepth 100000 in
set_option maxHeartbeats 8000000 in
/-- The second stretch read back: each operation's result is its function of its operands' contents, down to the
    three arrays and the constant tables the first stretch left; what is read is `RefValue.out` of the three arrays,
    operation for operation. -/
theorem out_eq (V : Valuation τ sig (Elt Ideal)) :
    after (ops (F := Ideal)) V (main_v186 : DevRef τ sig)
      = RefValue.out (after (ops (F := Ideal)) V (main_v20 : DevRef τ sig))
          (after (ops (F := Ideal)) V (main_v22 : DevRef τ sig)) (after (ops (F := Ideal)) V (main_v10 : DevRef τ sig)) := by
  rw [ops_split]
  simp only [Cert.LibStretches.after_append]
  fold_reads [ops0b, ops1, ops2, ops3, ops4, Cert.LibStretches.ofBuf_toBuf, Cert.LibStretches.toBuf_ofBuf,
    v0_read, cst_0_read, c_read, c_2_read, c_1_read, c_3_read, c_4_read, c_5_read, c_6_read, c_7_read, c_8_read,
    v1_read, v2_read, v3_read, cst_11_read]
  generalize after (ops0a (F := Ideal)) V (main_v20 : DevRef τ sig) = rv
  generalize after (ops0a (F := Ideal)) V (main_v22 : DevRef τ sig) = rsq
  generalize after (ops0a (F := Ideal)) V (main_v10 : DevRef τ sig) = vd
  rfl

end Cert.ReferenceIdeal.RefRun

end
-- ==== Proof.GeoR.lean ====
/-
  The geometry as the program's first lines compute it from the three argument arrays: the neighbour index of every
  atom and slot (a negative index counted from the end), the displacement to that neighbour, its squared length summed
  from zero, and whether the slot's number is below the atom's neighbour count.
-/
import proofs.«126887_j40243843564182_2_alg».proof.ReferenceIdeal
import Idealize.ShloMosaic.PureOps.Ideal

noncomputable section

namespace Cert.ReferenceIdeal.RefGeo

open Idealize.ShloMosaic Cert.ReferenceIdeal

variable [Cert.ReferenceIdeal.Facts]
open Cert.ReferenceIdeal.Facts₀ Cert.ReferenceIdeal.Facts

/-- The neighbour indices as a [2000, 32, 1] array of index vectors. -/
def idxT (a2 : IVec S64000 32) : IVec S2000x32x1 32 :=
  broadcastInDim S2000x32x1 ![0, 1] bcast_S2000x32_S2000x32x1_0_1
    (select
      (cmpi .slt (shapeCast S2000x32 a2 shapeCasts_S64000_S2000x32)
        (broadcastInDim S2000x32 ![] bcast_S_S2000x32 (constantI S_ 32 0#32)))
      (addi (shapeCast S2000x32 a2 shapeCasts_S64000_S2000x32)
        (broadcastInDim S2000x32 ![] bcast_S_S2000x32 (constantI S_ 32 2000#32)))
      (shapeCast S2000x32 a2 shapeCasts_S64000_S2000x32))

/-- The displacement vectors: neighbour position minus own position. -/
def rvT (a0 : FVec Ideal S2000x3 .f32) (a2 : IVec S64000 32) : FVec Ideal S2000x32x3 .f32 :=
  subf (Host.gather gather_S2000x3_S2000x32x1_S2000x32x3_2_0_n_n_0_2_13 a0 (idxT a2))
    (broadcastInDim S2000x32x3 ![0, 1, 2] bcast_S2000x1x3_S2000x32x3_0_1_2
      (broadcastInDim S2000x1x3 ![0, 2] bcast_S2000x3_S2000x1x3_0_2 a0))

/-- The squared distances: the three squared components summed from zero. -/
def rsqT (a0 : FVec Ideal S2000x3 .f32) (a2 : IVec S64000 32) : FVec Ideal S2000x32 .f32 :=
  Host.reduceAdd (mulf (rvT a0 a2) (rvT a0 a2)) (constant S_ .f32 0x00000000#32) reducesTo_S2000x32x3_S2000x32_d2 h_S_

/-- Whether slot k of atom n is in use: k below the atom's neighbour count. -/
def vdT (a1 : IVec S2000 32) : IVec S2000x32 1 :=
  cmpi .slt
    (broadcastInDim S2000x32 ![0, 1] bcast_S1x32_S2000x32_0_1 (broadcastInDim S1x32 ![1] bcast_S32_S1x32_1 (iotaInDim S32 32 0)))
    (broadcastInDim S2000x32 ![0, 1] bcast_S2000x1_S2000x32_0_1 (broadcastInDim S2000x1 ![0] bcast_S2000_S2000x1_0 a1))

end Cert.ReferenceIdeal.RefGeo
-- ==== Proof.RefRunGeo.lean ====
/-
  The three geometry buffers of the reference program as terms of its arguments: the displacement vectors, the
  squared distances and the in-use flags are what the program's first operations compute from the positions, the
  neighbour counts and the neighbour list, and no later operation writes them.
-/
import proofs.«126887_j40243843564182_2_alg».proof.Proof.RefRun
import proofs.«126887_j40243843564182_2_alg».proof.Proof.RefRunSplit
import proofs.«126887_j40243843564182_2_alg».proof.Proof.GeoR
import proofs.«126887_j40243843564182_2_alg».proof.Proof.LibFoldReads
import proofs.«126887_j40243843564182_2_alg».proof.Proof.LibStretches

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- The line of operations cut after the squared distances. -/
theorem ops_cut : (ops (F := Ideal)) = ops0a ++ (ops0b ++ (ops1 ++ (ops2 ++ (ops3 ++ ops4)))) := by
  rw [show (ops (F := Ideal)) = ops0 ++ (ops1 ++ (ops2 ++ (ops3 ++ ops4))) from rfl, ops0_split, List.append_assoc]

set_option maxRecDepth 8192 in
/-- The displacement vectors: each neighbour's position minus the atom's own. -/
theorem geo_rv (V : Valuation τ sig (Elt Ideal)) :
    (after (ops (F := Ideal)) V (main_v20 : DevRef τ sig) : S2000x32x3.Idx → EReal)
      = Cert.ReferenceIdeal.RefGeo.rvT (V (main_arg0 : DevRef τ sig)) (V (main_arg2 : DevRef τ sig)) := by
  rw [ops_cut]
  simp only [Cert.LibStretches.after_append]
  fold_reads [ops0a, ops0b, ops1, ops2, ops3, ops4] <;> rfl

set_option maxRecDepth 8192 in
/-- The squared distances: the three squared components summed from zero. -/
theorem geo_rsq (V : Valuation τ sig (Elt Ideal)) :
    (after (ops (F := Ideal)) V (main_v22 : DevRef τ sig) : S2000x32.Idx → EReal)
      = Cert.ReferenceIdeal.RefGeo.rsqT (V (main_arg0 : DevRef τ sig)) (V (main_arg2 : DevRef τ sig)) := by
  rw [ops_cut]
  simp only [Cert.LibStretches.after_append]
  fold_reads [ops0a, ops0b, ops1, ops2, ops3, ops4] <;> rfl

set_option maxRecDepth 8192 in
/-- The in-use flags: the slot's number below the atom's neighbour count. -/
theorem geo_vd (V : Valuation τ sig (Elt Ideal)) :
    (after (ops (F := Ideal)) V (main_v10 : DevRef τ sig) : S2000x32.Idx → BitVec 1)
      = Cert.ReferenceIdeal.RefGeo.vdT (V (main_arg1 : DevRef τ sig)) := by
  rw [ops_cut]
  simp only [Cert.LibStretches.after_append]
  fold_reads [ops0a, ops0b, ops1, ops2, ops3, ops4] <;> rfl

end Cert.ReferenceIdeal.RefRun

end
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.LibJoinCols.lean ====
/-
  Two matrices with the same rows joined side by side, read at an entry.

  The concatenation along the columns of u : [a, b] and v : [a, c] into [a, n] (n = b + c) has, at (p, k) with
  k < b, the value u(p, k), and at (p, b + k) with k < c the value v(p, k).
-/
import Idealize.ShloMosaic.Lib.Pipeline.Value
import Idealize.ShloMosaic.Lib.ValueIdx

namespace Cert.LibJoinCols

open Idealize.ShloMosaic Idealize.ShloMosaic.ValueIdx

variable {α : Type} {a b c n : ℕ}

/-- A column of the left piece. -/
theorem left_apply (u : (⟨2, ![a, b]⟩ : Shape).Idx → α) (v : (⟨2, ![a, c]⟩ : Shape).Idx → α)
    (h : Shape.Concatenates [⟨2, ![a, b]⟩, ⟨2, ![a, c]⟩] ⟨2, ![a, n]⟩ 1) (p : Fin a) (k : Fin b) (hk : k.val < n) :
    concatenate ⟨2, ![a, n]⟩ 1 [⟨⟨2, ![a, b]⟩, u⟩, ⟨⟨2, ![a, c]⟩, v⟩] h (ix2 p ⟨k.val, hk⟩) = u (ix2 p k) :=
  concatenate_pair_apply_left 1 u v h (ix2 p ⟨k.val, hk⟩) rfl (ix2 p k) fun d => match d with
    | ⟨0, _⟩ => rfl
    | ⟨1, _⟩ => rfl

/-- A column of the right piece. -/
theorem right_apply (u : (⟨2, ![a, b]⟩ : Shape).Idx → α) (v : (⟨2, ![a, c]⟩ : Shape).Idx → α)
    (h : Shape.Concatenates [⟨2, ![a, b]⟩, ⟨2, ![a, c]⟩] ⟨2, ![a, n]⟩ 1) (p : Fin a) (k : Fin c) (hk : b + k.val < n) :
    concatenate ⟨2, ![a, n]⟩ 1 [⟨⟨2, ![a, b]⟩, u⟩, ⟨⟨2, ![a, c]⟩, v⟩] h (ix2 p ⟨b + k.val, hk⟩) = v (ix2 p k) :=
  concatenate_pair_apply_right 1 u v h (ix2 p ⟨b + k.val, hk⟩) rfl rfl (ix2 p k)
    (fun d hd => match d, hd with
      | ⟨0, _⟩, _ => rfl
      | ⟨1, _⟩, hd => absurd rfl hd)
    (Nat.add_comm k.val b)

end Cert.LibJoinCols
-- ==== Proof.RefStagesIdx.lean ====
/-
  Layout operations of the reference computation read at an index given by coordinates: the broadcasts that add a
  trailing unit axis and spread along it, the broadcasts of a table over leading axes, the gathers along the slot
  axis, the sums over the last and over the middle axis of a rank-3 array, and dense tables read at a position.
-/
import proofs.«126887_j40243843564182_2_alg».proof.Proof.RefStages
import proofs.«126887_j40243843564182_2_alg».proof.Proof.LibBroadcastInDim
import proofs.«126887_j40243843564182_2_alg».proof.Proof.LibJoinCols
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Facts₀

variable {α : Type}

/-! ## Broadcasts -/

/-- `[a, b]` set as `[a, b, 1]`: at `(i, j, 0)` the operand at `(i, j)`. -/
theorem ab_to_ab1_apply {a b : ℕ} (dims : Fin 2 → Fin 3) (hd0 : dims 0 = 0) (hd1 : dims 1 = 1)
    (h : (⟨2, ![a, b]⟩ : Shape).BroadcastsInDim ⟨3, ![a, b, 1]⟩ dims) (v : (⟨2, ![a, b]⟩ : Shape).Idx → α)
    (i : Fin a) (j : Fin b) (u : Fin 1) :
    broadcastInDim ⟨3, ![a, b, 1]⟩ dims h v (ix3 i j u) = v (ix2 i j) := by
  refine broadcastInDim_apply dims h v (ix3 i j u) (ix2 i j) fun ax => ?_
  match ax with
  | ⟨0, _⟩ =>
    show i.val = if a = 1 then 0 else ((ix3 i j u : (⟨3, ![a, b, 1]⟩ : Shape).Idx) (dims 0)).val
    rw [hd0]
    show i.val = if a = 1 then 0 else i.val
    split
    · have := i.isLt; omega
    · rfl
  | ⟨1, _⟩ =>
    show j.val = if b = 1 then 0 else ((ix3 i j u : (⟨3, ![a, b, 1]⟩ : Shape).Idx) (dims 1)).val
    rw [hd1]
    show j.val = if b = 1 then 0 else j.val
    split
    · have := j.isLt; omega
    · rfl

/-- `[a, b, 1]` spread along its last axis over `[a, b, c]`: at `(i, j, k)` the operand at `(i, j, 0)`. -/
theorem ab1_to_abc_apply {a b c : ℕ} (dims : Fin 3 → Fin 3) (hd0 : dims 0 = 0) (hd1 : dims 1 = 1)
    (h : (⟨3, ![a, b, 1]⟩ : Shape).BroadcastsInDim ⟨3, ![a, b, c]⟩ dims) (v : (⟨3, ![a, b, 1]⟩ : Shape).Idx → α)
    (i : Fin a) (j : Fin b) (k : Fin c) :
    broadcastInDim ⟨3, ![a, b, c]⟩ dims h v (ix3 i j k) = v (ix3 i j (0 : Fin 1)) := by
  refine broadcastInDim_apply dims h v (ix3 i j k) (ix3 i j (0 : Fin 1)) fun ax => ?_
  match ax with
  | ⟨0, _⟩ =>
    show i.val = if a = 1 then 0 else ((ix3 i j k : (⟨3, ![a, b, c]⟩ : Shape).Idx) (dims 0)).val
    rw [hd0]
    show i.val = if a = 1 then 0 else i.val
    split
    · have := i.isLt; omega
    · rfl
  | ⟨1, _⟩ =>
    show j.val = if b = 1 then 0 else ((ix3 i j k : (⟨3, ![a, b, c]⟩ : Shape).Idx) (dims 1)).val
    rw [hd1]
    show j.val = if b = 1 then 0 else j.val
    split
    · have := j.isLt; omega
    · rfl
  | ⟨2, _⟩ =>
    show 0 = if (1 : ℕ) = 1 then 0 else ((ix3 i j k : (⟨3, ![a, b, c]⟩ : Shape).Idx) (dims 2)).val
    rw [if_pos rfl]

/-- A table `[1, 1, c]` spread over `[a, b, c]`: at `(i, j, k)` the table at `(0, 0, k)`. -/
theorem r11c_to_abc_apply {a b c : ℕ} (dims : Fin 3 → Fin 3) (hd2 : dims 2 = 2)
    (h : (⟨3, ![1, 1, c]⟩ : Shape).BroadcastsInDim ⟨3, ![a, b, c]⟩ dims) (v : (⟨3, ![1, 1, c]⟩ : Shape).Idx → α)
    (i : Fin a) (j : Fin b) (k : Fin c) :
    broadcastInDim ⟨3, ![a, b, c]⟩ dims h v (ix3 i j k) = v (ix3 (0 : Fin 1) (0 : Fin 1) k) := by
  refine broadcastInDim_apply dims h v (ix3 i j k) (ix3 (0 : Fin 1) (0 : Fin 1) k) fun ax => ?_
  match ax with
  | ⟨0, _⟩ =>
    show 0 = if (1 : ℕ) = 1 then 0 else ((ix3 i j k : (⟨3, ![a, b, c]⟩ : Shape).Idx) (dims 0)).val
    rw [if_pos rfl]
  | ⟨1, _⟩ =>
    show 0 = if (1 : ℕ) = 1 then 0 else ((ix3 i j k : (⟨3, ![a, b, c]⟩ : Shape).Idx) (dims 1)).val
    rw [if_pos rfl]
  | ⟨2, _⟩ =>
    show k.val = if c = 1 then 0 else ((ix3 i j k : (⟨3, ![a, b, c]⟩ : Shape).Idx) (dims 2)).val
    rw [hd2]
    show k.val = if c = 1 then 0 else k.val
    split
    · have := k.isLt; omega
    · rfl

/-- A vector of length `c` set as the table `[1, 1, c]`: at `(0, 0, k)` the vector at `k`. -/
theorem vec_to_11c_apply {c : ℕ} (dims : Fin 1 → Fin 3) (hd : dims 0 = 2)
    (h : (⟨1, ![c]⟩ : Shape).BroadcastsInDim ⟨3, ![1, 1, c]⟩ dims) (v : (⟨1, ![c]⟩ : Shape).Idx → α)
    (u u' : Fin 1) (k : Fin c) :
    broadcastInDim ⟨3, ![1, 1, c]⟩ dims h v (ix3 u u' k) = v (ix1 k) := by
  refine broadcastInDim_apply dims h v (ix3 u u' k) (ix1 k) fun ax => ?_
  match ax with
  | ⟨0, _⟩ =>
    show k.val = if c = 1 then 0 else ((ix3 u u' k : (⟨3, ![1, 1, c]⟩ : Shape).Idx) (dims 0)).val
    rw [hd]
    show k.val = if c = 1 then 0 else k.val
    split
    · have := k.isLt; omega
    · rfl

/-! ## Dense tables at a position -/

/-- The row-major position of a rank-1 index is its coordinate. -/
theorem rowMajor_ix1 {n : ℕ} (q : Fin n) (hq : q.val < (⟨1, ![n]⟩ : Shape).numel) :
    (⟨1, ![n]⟩ : Shape).rowMajor (ix1 q) = ⟨q.val, hq⟩ :=
  Fin.ext (Shape.rowMajor_val_one (ix1 q))

/-- The row-major position of `(0, 0, k)` in `[1, 1, c]` is `k`. -/
theorem rowMajor_ix3_11c {c : ℕ} (k : Fin c) (hk : k.val < (⟨3, ![1, 1, c]⟩ : Shape).numel) :
    (⟨3, ![1, 1, c]⟩ : Shape).rowMajor (ix3 (0 : Fin 1) (0 : Fin 1) k) = ⟨k.val, hk⟩ :=
  Fin.ext (by
    rw [Shape.rowMajor_val_three]
    show ((0 : ℕ) * 1 + 0) * c + k.val = k.val
    omega)

end Cert.ReferenceIdeal.RefValue

end
-- ==== Proof.RefStagesIdx2.lean ====
/-
  The gathers along the slot axis and the sums over one axis of a rank-3 array, read at an index given by
  coordinates: a gather reads its operand at the slot its index word names (read signed, brought into 0 … 31); a sum
  from an initial value over the last or the middle axis is the initial value plus the sum over that coordinate.
-/
import proofs.«126887_j40243843564182_2_alg».proof.Proof.RefStagesIdx

noncomputable section

namespace Cert.ReferenceIdeal.RefValue

open Idealize.ShloMosaic Idealize.ShloMosaic.ValueIdx Cert.ReferenceIdeal Cert.ReferenceIdeal.Facts₀

/-- The gather of an (atom, slot) array along the slot axis, at (atom `n`, pair `p`): the array at atom `n` and the
    slot the start index at `(p, 0)` names. -/
theorem gather2_apply {α : Type} {w : ℕ} (x : S2000x32.Idx → α) (idx : IVec S496x1 w) (n : Fin 2000) (p : Fin 496) :
    Host.gather gather_S2000x32_S496x1_S2000x496_0_1_n_n_1_1_20001 x idx (ix2 n p) = x (ix2 n ⟨min (idx (ix2 p (0 : Fin 1))).toInt.toNat 31, by omega⟩) := by
  unfold Host.gather
  congr 1
  funext a
  refine Fin.ext ?_
  match a with
  | ⟨0, _⟩ =>
    show gather_S2000x32_S496x1_S2000x496_0_1_n_n_1_1_20001.start (ix2 n p) idx 0 + gather_S2000x32_S496x1_S2000x496_0_1_n_n_1_1_20001.batchCoord (ix2 n p) 0 + gather_S2000x32_S496x1_S2000x496_0_1_n_n_1_1_20001.offCoord (ix2 n p) 0 = n.val
    rw [GatherDims.batchCoord_eq_zero _ _ _ List.not_mem_nil]
    have hs : gather_S2000x32_S496x1_S2000x496_0_1_n_n_1_1_20001.start (ix2 n p) idx 0 = 0 := by
      unfold GatherDims.start
      rw [dif_neg (by decide)]
    have ho : gather_S2000x32_S496x1_S2000x496_0_1_n_n_1_1_20001.offCoord (ix2 n p) 0 = n.val := by
      unfold GatherDims.offCoord
      rw [dif_pos (by decide)]
      rfl
    rw [hs, ho]; omega
  | ⟨1, _⟩ =>
    show gather_S2000x32_S496x1_S2000x496_0_1_n_n_1_1_20001.start (ix2 n p) idx 1 + gather_S2000x32_S496x1_S2000x496_0_1_n_n_1_1_20001.batchCoord (ix2 n p) 1 + gather_S2000x32_S496x1_S2000x496_0_1_n_n_1_1_20001.offCoord (ix2 n p) 1 = min _ 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2000x32_S496x1_S2000x496_0_1_n_n_1_1_20001.startIndexMap from List.mem_singleton.mpr rfl)]
    have hsi : gather_S2000x32_S496x1_S2000x496_0_1_n_n_1_1_20001.siIdx (ix2 n p) ⟨List.idxOf (1 : Fin 2) gather_S2000x32_S496x1_S2000x496_0_1_n_n_1_1_20001.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The gather of an (atom, slot, component) array along the slot axis, at (atom `n`, pair `p`, component `d`). -/
theorem gather3_apply {α : Type} {w : ℕ} (x : S2000x32x3.Idx → α) (idx : IVec S496x1 w) (n : Fin 2000) (p : Fin 496) (d : Fin 3) :
    Host.gather gather_S2000x32x3_S496x1_S2000x496x3_02_1_n_n_1_1_200013 x idx (ix3 n p d) = x (ix3 n ⟨min (idx (ix2 p (0 : Fin 1))).toInt.toNat 31, by omega⟩ d) := by
  unfold Host.gather
  congr 1
  funext a
  refine Fin.ext ?_
  match a with
  | ⟨0, _⟩ =>
    show gather_S2000x32x3_S496x1_S2000x496x3_02_1_n_n_1_1_200013.start (ix3 n p d) idx 0 + gather_S2000x32x3_S496x1_S2000x496x3_02_1_n_n_1_1_200013.batchCoord (ix3 n p d) 0 + gather_S2000x32x3_S496x1_S2000x496x3_02_1_n_n_1_1_200013.offCoord (ix3 n p d) 0 = n.val
    rw [GatherDims.batchCoord_eq_zero _ _ _ List.not_mem_nil]
    have hs : gather_S2000x32x3_S496x1_S2000x496x3_02_1_n_n_1_1_200013.start (ix3 n p d) idx 0 = 0 := by
      unfold GatherDims.start
      rw [dif_neg (by decide)]
    have ho : gather_S2000x32x3_S496x1_S2000x496x3_02_1_n_n_1_1_200013.offCoord (ix3 n p d) 0 = n.val := by
      unfold GatherDims.offCoord
      rw [dif_pos (by decide)]
      rfl
    rw [hs, ho]; omega
  | ⟨1, _⟩ =>
    show gather_S2000x32x3_S496x1_S2000x496x3_02_1_n_n_1_1_200013.start (ix3 n p d) idx 1 + gather_S2000x32x3_S496x1_S2000x496x3_02_1_n_n_1_1_200013.batchCoord (ix3 n p d) 1 + gather_S2000x32x3_S496x1_S2000x496x3_02_1_n_n_1_1_200013.offCoord (ix3 n p d) 1 = min _ 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S2000x32x3_S496x1_S2000x496x3_02_1_n_n_1_1_200013.startIndexMap from List.mem_singleton.mpr rfl)]
    have hsi : gather_S2000x32x3_S496x1_S2000x496x3_02_1_n_n_1_1_200013.siIdx (ix3 n p d) ⟨List.idxOf (1 : Fin 3) gather_S2000x32x3_S496x1_S2000x496x3_02_1_n_n_1_1_200013.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨2, _⟩ =>
    show gather_S2000x32x3_S496x1_S2000x496x3_02_1_n_n_1_1_200013.start (ix3 n p d) idx 2 + gather_S2000x32x3_S496x1_S2000x496x3_02_1_n_n_1_1_200013.batchCoord (ix3 n p d) 2 + gather_S2000x32x3_S496x1_S2000x496x3_02_1_n_n_1_1_200013.offCoord (ix3 n p d) 2 = d.val
    rw [GatherDims.batchCoord_eq_zero _ _ _ List.not_mem_nil]
    have hs : gather_S2000x32x3_S496x1_S2000x496x3_02_1_n_n_1_1_200013.start (ix3 n p d) idx 2 = 0 := by
      unfold GatherDims.start
      rw [dif_neg (by decide)]
    have ho : gather_S2000x32x3_S496x1_S2000x496x3_02_1_n_n_1_1_200013.offCoord (ix3 n p d) 2 = d.val := by
      unfold GatherDims.offCoord
      rw [dif_pos (by decide)]
      rfl
    rw [hs, ho]; omega

/-- The sum over the slots of an (atom, slot, radial feature) array, from an initial value. -/
theorem sum_slots_apply (x : FVec Ideal S2000x32x8 .f32) (init : FVec Ideal S_ .f32) (n : Fin 2000) (f : Fin 8) :
    Host.reduceAdd x init reducesTo_S2000x32x8_S2000x8_d1 h_S_ (ix2 n f) = init ix0 + ∑ k : Fin 32, x (ix3 n k f) := by
  have h : S2000x32x8.Reduces [1] S2000x8 := by decide
  refine (Ideal.hostReduceAdd_single reducesTo_S2000x32x8_S2000x8_d1 h x _ (ix2 n f)).trans ?_
  congr 1
  · exact congrArg init (eq_ix0 _)
  · refine Finset.sum_congr rfl fun k _ => congrArg x ?_
    funext c
    refine Fin.ext ?_
    match c with
    | ⟨0, _⟩ => rfl
    | ⟨1, _⟩ => rfl
    | ⟨2, _⟩ => rfl

/-- The sum over the pairs of an (atom, pair, angular feature) array, from an initial value. -/
theorem sum_pairs_apply (x : FVec Ideal S2000x496x43 .f32) (init : FVec Ideal S_ .f32) (n : Fin 2000) (f : Fin 43) :
    Host.reduceAdd x init reducesTo_S2000x496x43_S2000x43_d1 h_S_ (ix2 n f) = init ix0 + ∑ p : Fin 496, x (ix3 n p f) := by
  have h : S2000x496x43.Reduces [1] S2000x43 := by decide
  refine (Ideal.hostReduceAdd_single reducesTo_S2000x496x43_S2000x43_d1 h x _ (ix2 n f)).trans ?_
  congr 1
  · exact congrArg init (eq_ix0 _)
  · refine Finset.sum_congr rfl fun k _ => congrArg x ?_
    funext c
    refine Fin.ext ?_
    match c with
    | ⟨0, _⟩ => rfl
    | ⟨1, _⟩ => rfl
    | ⟨2, _⟩ => rfl

/-- The sum over the three components of an (atom, pair, component) array, from an initial value. -/
theorem sum_comps_apply (x : FVec Ideal S2000x496x3 .f32) (init : FVec Ideal S_ .f32) (n : Fin 2000) (p : Fin 496) :
    Host.reduceAdd x init reducesTo_S2000x496x3_S2000x496_d2 h_S_ (ix2 n p) = init ix0 + ∑ d : Fin 3, x (ix3 n p d) := by
  have h : S2000x496x3.Reduces [2] S2000x496 := by decide
  refine (Ideal.hostReduceAdd_single reducesTo_S2000x496x3_S2000x496_d2 h x _ (ix2 n p)).trans ?_
  congr 1
  · exact congrArg init (eq_ix0 _)
  · refine Finset.sum_congr rfl fun k _ => congrArg x ?_
    funext c
    refine Fin.ext ?_
    match c with
    | ⟨0, _⟩ => rfl
    | ⟨1, _⟩ => rfl
    | ⟨2, _⟩ => rfl

end Cert.ReferenceIdeal.RefValue

end
-- ==== Proof.RefStagesRad.lean ====
/-
  The radial half of the reference computation read at an atom and a feature: each stage at an index is the scalar
  quantity of that atom and slot, and the feature is the sum over the 32 slots.
-/
import proofs.«126887_j40243843564182_2_alg».proof.Proof.RefStagesIdx2

noncomputable section

namespace Cert.ReferenceIdeal.RefValue

open Idealize.ShloMosaic Idealize.ShloMosaic.ValueIdx Cert.ReferenceIdeal Cert.ReferenceIdeal.Facts₀

/-! ## The small layout pieces at an index -/

/-- A number spread over every (atom, slot) is that number everywhere. -/
theorem sp32_eq (w : BitVec 32) : sp32 w = fun _ => Cert.Sym.lit w :=
  funext fun j => Cert.LibBroadcastInDim.scalar_apply _ _ _ j
/-- A number spread over every (atom, pair) is that number everywhere. -/
theorem sp496_eq (w : BitVec 32) : sp496 w = fun _ => Cert.Sym.lit w :=
  funext fun j => Cert.LibBroadcastInDim.scalar_apply _ _ _ j
/-- A number spread over every (atom, pair, feature) is that number everywhere. -/
theorem sp43_eq (w : BitVec 32) : sp43 w = fun _ => Cert.Sym.lit w :=
  funext fun j => Cert.LibBroadcastInDim.scalar_apply _ _ _ j

theorem up8_apply {α : Type} (x : S2000x32.Idx → α) (n : Fin 2000) (k : Fin 32) (f : Fin 8) :
    up8 x (ix3 n k f) = x (ix2 n k) :=
  (ab1_to_abc_apply _ rfl rfl _ _ n k f).trans (ab_to_ab1_apply _ rfl rfl _ _ n k 0)

theorem up43_apply {α : Type} (x : S2000x496.Idx → α) (n : Fin 2000) (p : Fin 496) (f : Fin 43) :
    up43 x (ix3 n p f) = x (ix2 n p) :=
  (ab1_to_abc_apply _ rfl rfl _ _ n p f).trans (ab_to_ab1_apply _ rfl rfl _ _ n p 0)

theorem row8_apply (t : FVec Ideal S1x1x8 .f32) (n : Fin 2000) (k : Fin 32) (f : Fin 8) :
    row8 t (ix3 n k f) = t (ix3 (0 : Fin 1) (0 : Fin 1) f) :=
  r11c_to_abc_apply _ rfl _ _ n k f

theorem row43_apply (t : FVec Ideal S1x1x43 .f32) (n : Fin 2000) (p : Fin 496) (f : Fin 43) :
    row43 t (ix3 n p f) = t (ix3 (0 : Fin 1) (0 : Fin 1) f) :=
  r11c_to_abc_apply _ rfl _ _ n p f

theorem cnt8_apply (m : IVec S2000x32 1) (n : Fin 2000) (k : Fin 32) (f : Fin 8) :
    cnt8 m (ix3 n k f) = Cert.Sym.bitR (m (ix2 n k)) := by
  refine (ab1_to_abc_apply _ rfl rfl _ _ n k f).trans ?_
  show Cert.Sym.bitR (broadcastInDim S2000x32x1 ![0, 1] bcast_S2000x32_S2000x32x1_0_1 m (ix3 n k (0 : Fin 1))) = _
  rw [ab_to_ab1_apply _ rfl rfl]

theorem cnt43_apply (m : IVec S2000x496 1) (n : Fin 2000) (p : Fin 496) (f : Fin 43) :
    cnt43 m (ix3 n p f) = Cert.Sym.bitR (m (ix2 n p)) := by
  refine (ab1_to_abc_apply _ rfl rfl _ _ n p f).trans ?_
  show Cert.Sym.bitR (broadcastInDim S2000x496x1 ![0, 1] bcast_S2000x496_S2000x496x1_0_1 m (ix3 n p (0 : Fin 1))) = _
  rw [ab_to_ab1_apply _ rfl rfl]

/-- The table of 8 radial Gaussian words, held as [1, 1, 8], at position f. -/
theorem tab8_apply (f : Fin 8) :
    FloatOps.ofBits (F := Ideal) .f32 (lit0 (S1x1x8.rowMajor (ix3 (0 : Fin 1) (0 : Fin 1) f))) = Cert.Sym.lit (lit0 f) := by
  show Cert.Sym.lit (lit0 (S1x1x8.rowMajor (ix3 (0 : Fin 1) (0 : Fin 1) f))) = _
  rw [rowMajor_ix3_11c f (by have := f.isLt; show f.val < 8; omega)]
  rfl

/-- The cutoff of an (atom, slot) array at an index is the scalar cutoff of the element. -/
theorem fc32_apply (x : FVec Ideal S2000x32 .f32) (j : S2000x32.Idx) : fc32 x j = Cert.Sym.fc (x j) := by
  unfold fc32
  simp only [id_eq, sp32_eq]
  rfl

/-- The cutoff of an (atom, pair) array at an index is the scalar cutoff of the element. -/
theorem fc496_apply (x : FVec Ideal S2000x496 .f32) (j : S2000x496.Idx) : fc496 x j = Cert.Sym.fc (x j) := by
  unfold fc496
  simp only [id_eq, sp496_eq]
  rfl

section
variable (rv : FVec Ideal S2000x32x3 .f32) (rsq : FVec Ideal S2000x32 .f32) (vd : IVec S2000x32 1)

theorem r_apply (n : Fin 2000) (k : Fin 32) : r rsq (ix2 n k) = (geo rv rsq vd).r n k := rfl

theorem mask_apply (n : Fin 2000) (k : Fin 32) : mask rsq vd (ix2 n k) = (geo rv rsq vd).mask n k := by
  unfold mask
  simp only [sp32_eq]
  rfl

theorem radD_apply (n : Fin 2000) (k : Fin 32) (f : Fin 8) :
    radD rsq (ix3 n k f) = (geo rv rsq vd).r n k - Cert.Sym.lit 0x00000000#32 := by
  show up8 (r rsq) (ix3 n k f)
      - row8 (broadcastInDim S1x1x8 ![2] bcast_S8_S1x1x8_2 (constant (F := Ideal) S8 .f32 0x00000000#32)) (ix3 n k f) = _
  rw [up8_apply, row8_apply, vec_to_11c_apply _ rfl]
  rfl

theorem radE_apply (n : Fin 2000) (k : Fin 32) (f : Fin 8) :
    radE rsq (ix3 n k f) = Ideal.exp (Cert.Sym.lit (lit0 f)
      * (((geo rv rsq vd).r n k - Cert.Sym.lit 0x00000000#32) * ((geo rv rsq vd).r n k - Cert.Sym.lit 0x00000000#32))) := by
  show Ideal.exp (row8 (fun i => FloatOps.ofBits (F := Ideal) .f32 (lit0 (S1x1x8.rowMajor i))) (ix3 n k f)
      * (radD rsq (ix3 n k f) * radD rsq (ix3 n k f))) = _
  rw [row8_apply, tab8_apply, radD_apply rv rsq vd]

/-- One slot's radial term at (atom, slot, feature). -/
theorem radT_apply (n : Fin 2000) (k : Fin 32) (f : Fin 8) :
    radT rsq vd (ix3 n k f)
      = Cert.Sym.radTermShift (lit0 f) 0x00000000#32 ((geo rv rsq vd).r n k) ((geo rv rsq vd).mask n k) := by
  show (radE rsq (ix3 n k f) * up8 (fc32 (r rsq)) (ix3 n k f)) * cnt8 (mask rsq vd) (ix3 n k f) = _
  rw [radE_apply rv rsq vd, up8_apply, cnt8_apply, fc32_apply, mask_apply rv rsq vd, r_apply rv rsq vd]
  rfl

/-- A radial feature of an atom is the sum of its slots' terms from zero. -/
theorem radial_apply (n : Fin 2000) (f : Fin 8) :
    radial rsq vd (ix2 n f) = Cert.Sym.radialShift (geo rv rsq vd) (lit0 f) 0x00000000#32 n := by
  unfold radial
  rw [sum_slots_apply]
  unfold Cert.Sym.radialShift
  congr 1
  exact Finset.sum_congr rfl fun k _ => radT_apply rv rsq vd n k f

end

end Cert.ReferenceIdeal.RefValue

end
-- ==== Proof.RefStagesAng.lean ====
/-
  The angular half of the reference computation read at an atom and a feature, and the whole output at an atom and
  any of the 51 features: each stage at an index is the scalar quantity of that atom and pair of slots, an angular
  feature is the sum over the 496 pairs, and the output is the radial features followed by the angular ones.
-/
import proofs.«126887_j40243843564182_2_alg».proof.Proof.RefStagesRad

noncomputable section

namespace Cert.ReferenceIdeal.RefValue

open Idealize.ShloMosaic Idealize.ShloMosaic.ValueIdx Cert.ReferenceIdeal Cert.ReferenceIdeal.Facts₀

/-! ## Slot tables and gathers -/

/-- The start index a table gives pair `p`: the table's word (the flag that would raise it by 32 is constant false). -/
theorem idxOf_apply (t : IVec S496 32) (p : Fin 496) : idxOf t (ix2 p (0 : Fin 1)) = t (ix1 p) := by
  show broadcastInDim S496x1 ![0] bcast_S496_S496x1_0
      (select (constantI S496 1 0#1) (addi t (broadcastInDim S496 ![] bcast_S_S496 (constantI S_ 32 32#32))) t)
      (ix2 p (0 : Fin 1)) = _
  rw [Cert.LibBroadcastInDim.vec_to_col_apply _ rfl]
  exact select_zero _ _

theorem tabJ_apply (p : Fin 496) : tabJ (ix1 p) = lit1 p := by
  show lit1 (S496.rowMajor (ix1 p)) = _
  rw [rowMajor_ix1 p (by have := p.isLt; show p.val < 496; omega)]

theorem tabK_apply (p : Fin 496) : tabK (ix1 p) = lit2 p := by
  show lit2 (S496.rowMajor (ix1 p)) = _
  rw [rowMajor_ix1 p (by have := p.isLt; show p.val < 496; omega)]

/-- An (atom, slot) array read through a table, at (atom, pair): the array at the slot the table's word names. -/
theorem take2_apply {α : Type} (x : S2000x32.Idx → α) (t : IVec S496 32) (n : Fin 2000) (p : Fin 496) :
    take2 x t (ix2 n p) = x (ix2 n (Cert.Sym.pairIdx (t (ix1 p)))) := by
  show Host.gather gather_S2000x32_S496x1_S2000x496_0_1_n_n_1_1_20001 x (idxOf t) (ix2 n p) = _
  rw [gather2_apply]
  simp only [idxOf_apply]
  rfl

/-- An (atom, slot, component) array read through a table, at (atom, pair, component). -/
theorem take3_apply {α : Type} (x : S2000x32x3.Idx → α) (t : IVec S496 32) (n : Fin 2000) (p : Fin 496) (d : Fin 3) :
    take3 x t (ix3 n p d) = x (ix3 n (Cert.Sym.pairIdx (t (ix1 p))) d) := by
  show Host.gather gather_S2000x32x3_S496x1_S2000x496x3_02_1_n_n_1_1_200013 x (idxOf t) (ix3 n p d) = _
  rw [gather3_apply]
  simp only [idxOf_apply]
  rfl

/-- A table of 43 words, held as [1, 1, 43], at position f. -/
theorem tab43_apply (t : Fin 43 → BitVec 32) (f : Fin 43) :
    tab43 t (ix3 (0 : Fin 1) (0 : Fin 1) f) = Cert.Sym.lit (t f) := by
  show broadcastInDim S1x1x43 ![2] bcast_S43_S1x1x43_2 (fun i => FloatOps.ofBits (F := Ideal) .f32 (t (S43.rowMajor i)))
      (ix3 (0 : Fin 1) (0 : Fin 1) f) = _
  rw [vec_to_11c_apply _ rfl]
  show Cert.Sym.lit (t (S43.rowMajor (ix1 f))) = _
  rw [rowMajor_ix1 f (by have := f.isLt; show f.val < 43; omega)]
  rfl

/-- The table of 43 angular Gaussian words, given as [1, 1, 43], at position f. -/
theorem tab5_apply (f : Fin 43) :
    FloatOps.ofBits (F := Ideal) .f32 (lit5 (S1x1x43.rowMajor (ix3 (0 : Fin 1) (0 : Fin 1) f))) = Cert.Sym.lit (lit5 f) := by
  show Cert.Sym.lit (lit5 (S1x1x43.rowMajor (ix3 (0 : Fin 1) (0 : Fin 1) f))) = _
  rw [rowMajor_ix3_11c f (by have := f.isLt; show f.val < 43; omega)]
  rfl

section
variable (rv : FVec Ideal S2000x32x3 .f32) (rsq : FVec Ideal S2000x32 .f32) (vd : IVec S2000x32 1)

local notation "𝔤" => geo rv rsq vd

/-! ## One pair of slots -/

theorem rij_apply (n : Fin 2000) (p : Fin 496) : rij rsq (ix2 n p) = Cert.Sym.Geo.rij 𝔤 n p := by
  unfold rij
  rw [take2_apply, tabJ_apply]
  rfl

theorem rik_apply (n : Fin 2000) (p : Fin 496) : rik rsq (ix2 n p) = Cert.Sym.Geo.rik 𝔤 n p := by
  unfold rik
  rw [take2_apply, tabK_apply]
  rfl

theorem djk_apply (n : Fin 2000) (p : Fin 496) (d : Fin 3) : djk rv (ix3 n p d) = Cert.Sym.Geo.djk 𝔤 n p d := by
  show take3 rv tabK (ix3 n p d) - take3 rv tabJ (ix3 n p d) = _
  rw [take3_apply, take3_apply, tabK_apply, tabJ_apply]
  rfl

theorem rjksq_apply (n : Fin 2000) (p : Fin 496) : rjksq rv (ix2 n p) = Cert.Sym.Geo.rjksqSum 𝔤 n p := by
  unfold rjksq
  rw [sum_comps_apply]
  unfold Cert.Sym.Geo.rjksqSum
  congr 1
  refine Finset.sum_congr rfl fun d _ => ?_
  show djk rv (ix3 n p d) * djk rv (ix3 n p d) = _
  rw [djk_apply rv rsq vd]

theorem rjk_apply (n : Fin 2000) (p : Fin 496) :
    rjk rv (ix2 n p) = Cert.Sym.guardSqrt (Cert.Sym.Geo.rjksqSum 𝔤 n p) := by
  unfold rjk pos
  simp only [id_eq, sp496_eq]
  show Scalar.select (Ideal.cmp .ogt (rjksq rv (ix2 n p)) (Cert.Sym.lit 0x00000000#32))
      (Ideal.sqrt (Scalar.select (Ideal.cmp .ogt (rjksq rv (ix2 n p)) (Cert.Sym.lit 0x00000000#32)) (rjksq rv (ix2 n p))
        (Cert.Sym.lit 0x3F800000#32))) (Cert.Sym.lit 0x00000000#32) = _
  rw [rjksq_apply rv rsq vd]
  rfl

theorem tri_apply (n : Fin 2000) (p : Fin 496) :
    tri rv rsq vd (ix2 n p) = Cert.Sym.Geo.triSpelt 𝔤 n p (Cert.Sym.Geo.rjksqSum 𝔤 n p) := by
  unfold tri
  simp only [sp496_eq]
  show IntOp.andi (IntOp.andi (IntOp.andi (take2 (mask rsq vd) tabJ (ix2 n p)) (take2 vd tabK (ix2 n p)))
        (Ideal.cmp .ole (take2 rsq tabK (ix2 n p)) (Cert.Sym.lit 0x42800000#32)))
      (Ideal.cmp .ole (rjk rv (ix2 n p)) (Cert.Sym.lit 0x41000000#32)) = _
  rw [take2_apply, take2_apply, take2_apply, tabJ_apply, tabK_apply, mask_apply rv rsq vd, rjk_apply rv rsq vd]
  rfl

theorem cosv_apply (n : Fin 2000) (p : Fin 496) :
    cosv rv rsq (ix2 n p) = Cert.Sym.cosA (Cert.Sym.Geo.rij 𝔤 n p) (Cert.Sym.Geo.rik 𝔤 n p) (Cert.Sym.Geo.rjksqSum 𝔤 n p) := by
  unfold cosv sq2
  simp only [sp496_eq]
  show Ideal.div ((rij rsq (ix2 n p) * rij rsq (ix2 n p) + rik rsq (ix2 n p) * rik rsq (ix2 n p)) - rjksq rv (ix2 n p))
      ((Cert.Sym.lit 0x40000000#32 * rij rsq (ix2 n p)) * rik rsq (ix2 n p)) = _
  rw [rij_apply rv rsq vd, rik_apply rv rsq vd, rjksq_apply rv rsq vd]
  rfl

theorem ssum_apply (n : Fin 2000) (p : Fin 496) :
    ssum rv rsq (ix2 n p) = Cert.Sym.ssumA (Cert.Sym.Geo.rij 𝔤 n p) (Cert.Sym.Geo.rik 𝔤 n p) (Cert.Sym.Geo.rjksqSum 𝔤 n p) := by
  show (rij rsq (ix2 n p) * rij rsq (ix2 n p) + rik rsq (ix2 n p) * rik rsq (ix2 n p)) + rjksq rv (ix2 n p) = _
  rw [rij_apply rv rsq vd, rik_apply rv rsq vd, rjksq_apply rv rsq vd]
  rfl

theorem fc3_apply (n : Fin 2000) (p : Fin 496) :
    fc3 rv rsq (ix2 n p) = Cert.Sym.fcprod (Cert.Sym.Geo.rij 𝔤 n p) (Cert.Sym.Geo.rik 𝔤 n p) (Cert.Sym.Geo.rjksqSum 𝔤 n p) := by
  show (fc496 (rij rsq) (ix2 n p) * fc496 (rik rsq) (ix2 n p)) * fc496 (rjk rv) (ix2 n p) = _
  rw [fc496_apply, fc496_apply, fc496_apply, rij_apply rv rsq vd, rik_apply rv rsq vd, rjk_apply rv rsq vd]
  rfl

/-! ## One pair and one angular feature -/

theorem base_apply (n : Fin 2000) (p : Fin 496) (f : Fin 43) :
    base rv rsq (ix3 n p f) = Cert.Sym.lit 0x3F800000#32 + Cert.Sym.lit (lit3 f)
      * Cert.Sym.cosA (Cert.Sym.Geo.rij 𝔤 n p) (Cert.Sym.Geo.rik 𝔤 n p) (Cert.Sym.Geo.rjksqSum 𝔤 n p) := by
  unfold base
  simp only [sp43_eq]
  show Cert.Sym.lit 0x3F800000#32 + row43 (tab43 lit3) (ix3 n p f) * up43 (cosv rv rsq) (ix3 n p f) = _
  rw [row43_apply, tab43_apply, up43_apply, cosv_apply rv rsq vd]

theorem powT_apply (n : Fin 2000) (p : Fin 496) (f : Fin 43) :
    powT rv rsq (ix3 n p f)
      = Ideal.pow (Scalar.select (Ideal.cmp .ogt (base rv rsq (ix3 n p f)) (Cert.Sym.lit 0x00000000#32))
            (base rv rsq (ix3 n p f)) (Cert.Sym.lit 0x3F800000#32)) (Cert.Sym.lit (lit4 f))
          * Cert.Sym.bitR (Ideal.cmp .ogt (base rv rsq (ix3 n p f)) (Cert.Sym.lit 0x00000000#32)) := by
  unfold powT bpos
  simp only [id_eq, sp43_eq]
  show Ideal.pow (Scalar.select (Ideal.cmp .ogt (base rv rsq (ix3 n p f)) (Cert.Sym.lit 0x00000000#32))
        (base rv rsq (ix3 n p f)) (Cert.Sym.lit 0x3F800000#32)) (row43 (tab43 lit4) (ix3 n p f))
      * Cert.Sym.bitR (Ideal.cmp .ogt (base rv rsq (ix3 n p f)) (Cert.Sym.lit 0x00000000#32)) = _
  rw [row43_apply, tab43_apply]

theorem angE_apply (n : Fin 2000) (p : Fin 496) (f : Fin 43) :
    angE rv rsq (ix3 n p f) = Ideal.exp (Cert.Sym.lit (lit5 f)
      * Cert.Sym.ssumA (Cert.Sym.Geo.rij 𝔤 n p) (Cert.Sym.Geo.rik 𝔤 n p) (Cert.Sym.Geo.rjksqSum 𝔤 n p)) := by
  show Ideal.exp (row43 (fun i => FloatOps.ofBits (F := Ideal) .f32 (lit5 (S1x1x43.rowMajor i))) (ix3 n p f)
      * up43 (ssum rv rsq) (ix3 n p f)) = _
  rw [row43_apply, tab5_apply, up43_apply, ssum_apply rv rsq vd]

/-- One pair's angular term at (atom, pair, feature). -/
theorem angT_apply (n : Fin 2000) (p : Fin 496) (f : Fin 43) :
    angT rv rsq vd (ix3 n p f)
      = Cert.Sym.angTermTable (lit3 f) (lit4 f) (lit5 f) (lit6 f) (Cert.Sym.Geo.rij 𝔤 n p) (Cert.Sym.Geo.rik 𝔤 n p)
          (Cert.Sym.Geo.rjksqSum 𝔤 n p) (Cert.Sym.Geo.triSpelt 𝔤 n p (Cert.Sym.Geo.rjksqSum 𝔤 n p)) := by
  show ((((row43 (tab43 lit6) (ix3 n p f) * powT rv rsq (ix3 n p f)) * angE rv rsq (ix3 n p f))
      * up43 (fc3 rv rsq) (ix3 n p f)) * cnt43 (tri rv rsq vd) (ix3 n p f)) = _
  rw [row43_apply, tab43_apply, powT_apply rv rsq, base_apply rv rsq vd, angE_apply rv rsq vd, up43_apply,
    fc3_apply rv rsq vd, cnt43_apply, tri_apply rv rsq vd]
  rfl

/-- An angular feature of an atom is the sum of its pairs' terms from zero. -/
theorem angular_apply (n : Fin 2000) (f : Fin 43) :
    angular rv rsq vd (ix2 n f) = Cert.Sym.angularTable 𝔤 (lit3 f) (lit4 f) (lit5 f) (lit6 f) n := by
  unfold angular
  rw [sum_pairs_apply]
  unfold Cert.Sym.angularTable
  congr 1
  exact Finset.sum_congr rfl fun p _ => angT_apply rv rsq vd n p f

/-! ## The output -/

/-- The output at atom `n` and feature `f`: a radial feature for `f < 8`, else the angular feature `f − 8`. -/
theorem out_apply (n : Fin 2000) (f : Fin 51) :
    out rv rsq vd (ix2 n f) =
      if h : f.val < 8 then Cert.Sym.radialShift 𝔤 (lit0 ⟨f.val, h⟩) 0x00000000#32 n
      else Cert.Sym.angularTable 𝔤 (lit3 ⟨f.val - 8, by omega⟩) (lit4 ⟨f.val - 8, by omega⟩)
        (lit5 ⟨f.val - 8, by omega⟩) (lit6 ⟨f.val - 8, by omega⟩) n := by
  unfold out
  split
  · rename_i h
    exact (Cert.LibJoinCols.left_apply (radial rsq vd) (angular rv rsq vd)
      concatenates_S2000x8_S2000x43_S2000x51_d1 n ⟨f.val, h⟩ f.isLt).trans (radial_apply rv rsq vd n ⟨f.val, h⟩)
  · rename_i h
    have hk : f.val - 8 < 43 := by have := f.isLt; omega
    have key := (Cert.LibJoinCols.right_apply (radial rsq vd) (angular rv rsq vd)
      concatenates_S2000x8_S2000x43_S2000x51_d1 n ⟨f.val - 8, hk⟩ (by show 8 + (f.val - 8) < 51; omega)).trans
        (angular_apply rv rsq vd n ⟨f.val - 8, hk⟩)
    have hf : ∀ pf, (⟨8 + (⟨f.val - 8, hk⟩ : Fin 43).val, pf⟩ : Fin 51) = f :=
      fun _ => Fin.ext (by show 8 + (f.val - 8) = f.val; omega)
    rw [hf] at key
    exact key

end

end Cert.ReferenceIdeal.RefValue

end
-- ==== Proof.Tables.lean ====
/-
  The constant tables of the two programs: the reference's eight radial Gaussian words and its four tables of 43 sign,
  exponent, Gaussian and weight words are the words the device kernel spells one by one, in the same order; and the two
  programs enumerate the unordered pairs of slots by the same two tables of 496 slot numbers.
-/
import proofs.«126887_j40243843564182_2_alg».proof.KernelIdeal
import proofs.«126887_j40243843564182_2_alg».proof.ReferenceIdeal
import proofs.«126887_j40243843564182_2_alg».proof.Proof.SymLaw

set_option maxRecDepth 16384

namespace Cert.Tables

open Cert.Sym

theorem rad_words : Cert.ReferenceIdeal.lit0 = radWord := by funext j; fin_cases j <;> rfl
theorem lam_words : Cert.ReferenceIdeal.lit3 = lamT := by funext q; fin_cases q <;> rfl
theorem zeta_words : Cert.ReferenceIdeal.lit4 = zetaT := by funext q; fin_cases q <;> rfl
theorem eta_words : Cert.ReferenceIdeal.lit5 = etaT := by funext q; fin_cases q <;> rfl
theorem coef_words : Cert.ReferenceIdeal.lit6 = coefT := by funext q; fin_cases q <;> rfl

theorem first_slots : Cert.KernelIdeal.lit0 = Cert.ReferenceIdeal.lit1 := by
  funext i; revert i; decide +kernel
theorem second_slots : Cert.KernelIdeal.lit1 = Cert.ReferenceIdeal.lit2 := by
  funext i; revert i; decide +kernel

end Cert.Tables
-- ==== Proof.RefFinal.lean ====
/-
  The reference program's result, entry by entry, over the geometry its first lines compute from the arguments, with its
  constant tables replaced by the words they hold.
-/
import proofs.«126887_j40243843564182_2_alg».proof.Proof.RefRunOutEq
import proofs.«126887_j40243843564182_2_alg».proof.Proof.RefRunGeo
import proofs.«126887_j40243843564182_2_alg».proof.Proof.RefStagesAng
import proofs.«126887_j40243843564182_2_alg».proof.Proof.Tables

noncomputable section

namespace Cert.ReferenceIdeal.RefRun

open Cert.ReferenceIdeal Idealize.ShloMosaic Idealize.ShloMosaic.TcCoe Idealize.SL.Sem Idealize.ShloMosaic.StableHlo
open Idealize.ShloMosaic.ValueIdx Cert.Sym

variable [Cert.ReferenceIdeal.Facts]

/-- The geometry of the reference program as a function of the three argument arrays. -/
def geoArgs (a0 : FVec Ideal S2000x3 .f32) (a1 : IVec S2000 32) (a2 : IVec S64000 32) : Cert.Sym.Geo :=
  Cert.ReferenceIdeal.RefValue.geo (Cert.ReferenceIdeal.RefGeo.rvT a0 a2) (Cert.ReferenceIdeal.RefGeo.rsqT a0 a2)
    (Cert.ReferenceIdeal.RefGeo.vdT a1)

/-- Entry (n, f) of the reference program's result: feature f of atom n over that geometry. -/
theorem ref_final (V : Valuation τ sig (Elt Ideal)) (n : Fin 2000) (f : Fin 51) :
    (after (ops (F := Ideal)) V (main_v186 : DevRef τ sig) : S2000x51.Idx → EReal) (ix2 n f)
      = if h : f.val < 8 then
          radialShift (geoArgs (V (main_arg0 : DevRef τ sig)) (V (main_arg1 : DevRef τ sig)) (V (main_arg2 : DevRef τ sig)))
            (radWord ⟨f.val, h⟩) 0x00000000#32 n
        else angularTable (geoArgs (V (main_arg0 : DevRef τ sig)) (V (main_arg1 : DevRef τ sig)) (V (main_arg2 : DevRef τ sig)))
          (lamT ⟨f.val - 8, by omega⟩) (zetaT ⟨f.val - 8, by omega⟩) (etaT ⟨f.val - 8, by omega⟩) (coefT ⟨f.val - 8, by omega⟩) n := by
  rw [out_eq, Cert.ReferenceIdeal.RefValue.out_apply, geo_rv, geo_rsq, geo_vd, Cert.Tables.rad_words, Cert.Tables.lam_words,
    Cert.Tables.zeta_words, Cert.Tables.eta_words, Cert.Tables.coef_words]
  rfl

end Cert.ReferenceIdeal.RefRun
-- ==== Proof.GeoEq.lean ====
/-
  The two programs compute the same geometry from the same arguments: their first lines are the same operations.
-/
import proofs.«126887_j40243843564182_2_alg».proof.Proof.GeoK
import proofs.«126887_j40243843564182_2_alg».proof.Proof.GeoR

noncomputable section

namespace Cert.GeoEq

open Idealize.ShloMosaic

variable [Cert.KernelIdeal.Facts] [Cert.ReferenceIdeal.Facts]

theorem rv_eq (a0 : FVec Ideal Cert.KernelIdeal.S2000x3 .f32) (a2 : IVec Cert.KernelIdeal.S64000 32) :
    Cert.KernelIdeal.KerGeo.rvT a0 a2 = Cert.ReferenceIdeal.RefGeo.rvT a0 a2 := rfl
theorem rsq_eq (a0 : FVec Ideal Cert.KernelIdeal.S2000x3 .f32) (a2 : IVec Cert.KernelIdeal.S64000 32) :
    Cert.KernelIdeal.KerGeo.rsqT a0 a2 = Cert.ReferenceIdeal.RefGeo.rsqT a0 a2 := rfl
theorem vd_eq (a1 : IVec Cert.KernelIdeal.S2000 32) :
    Cert.KernelIdeal.KerGeo.vdT a1 = Cert.ReferenceIdeal.RefGeo.vdT a1 := rfl

end Cert.GeoEq
-- ==== Proof.GeoAgree.lean ====
/-
  From the same three argument arrays both programs compute the same geometry: their first lines are the same
  operations, and their two tables of slot pairs hold the same numbers.
-/
import proofs.«126887_j40243843564182_2_alg».proof.Proof.KerGeo
import proofs.«126887_j40243843564182_2_alg».proof.Proof.KerGeoArgs
import proofs.«126887_j40243843564182_2_alg».proof.Proof.RefFinal
import proofs.«126887_j40243843564182_2_alg».proof.Proof.GeoEq
import proofs.«126887_j40243843564182_2_alg».proof.Proof.Tables

noncomputable section

namespace Cert.Proof.Bridge

open Idealize.ShloMosaic Idealize.ShloMosaic.TcCoe Idealize.SL.Sem Idealize.ShloMosaic.StableHlo Idealize.ShloMosaic.ValueIdx

variable [hK : Cert.KernelIdeal.Facts] [hR : Cert.ReferenceIdeal.Facts]

/-- The device program's geometry is the reference program's geometry of the same argument arrays. -/
theorem geo_agree (m : (ℓ : Loc Cert.KernelIdeal.nD Cert.KernelIdeal.τ Cert.KernelIdeal.sig) → Buf (Elt Ideal) ℓ)
    (c : Dev Cert.KernelIdeal.nD) :
    Cert.KernelIdeal.KerValue.geo m c
      = Cert.ReferenceIdeal.RefRun.geoArgs
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  unfold Cert.KernelIdeal.KerValue.geo Cert.ReferenceIdeal.RefRun.geoArgs Cert.ReferenceIdeal.RefValue.geo
  rw [Cert.KernelIdeal.KerValue.geo_rv m c, Cert.KernelIdeal.KerValue.geo_rsq m c, Cert.KernelIdeal.KerValue.geo_vd m c,
    Cert.GeoEq.rv_eq, Cert.GeoEq.rsq_eq, Cert.GeoEq.vd_eq, Cert.Tables.first_slots, Cert.Tables.second_slots]

end Cert.Proof.Bridge
-- ==== Proof.Final.lean ====
/-
  The two programs end with equal results, and the reference program leaves its arguments as it found them.

  The reference program is host operations only: its run leaves every buffer at the fold of the operations over the
  launch contents, none of which writes an argument. From memories that agree on the three argument arrays the two
  programs compute the same geometry; over one geometry, entry (n, f) of the device program's result and of the reference
  program's result are both feature f of atom n in the reference arrangement, by the agreement of the two arrangements
  proved over the extended reals (products commute and associate, 1 · y = y, (−1) · c = −c, a positive base to the power
  1, 2, 4, 16 is its repeated square): no finiteness of the inputs is used.
-/
import proofs.«126887_j40243843564182_2_alg».proof.Defs
import proofs.«126887_j40243843564182_2_alg».proof.Proof.Gen.KernelIdeal
import proofs.«126887_j40243843564182_2_alg».proof.Proof.Gen.ReferenceIdeal
import proofs.«126887_j40243843564182_2_alg».proof.Proof.Gen.Pre_finite_inputs
import proofs.«126887_j40243843564182_2_alg».proof.Proof.KerFinal
import proofs.«126887_j40243843564182_2_alg».proof.Proof.GeoAgree
import proofs.«126887_j40243843564182_2_alg».proof.Proof.RefFinal
import proofs.«126887_j40243843564182_2_alg».proof.Proof.RefRunOut

noncomputable section

namespace Cert.Proof.Final

open Idealize.ShloMosaic Idealize.ShloMosaic.TcCoe Idealize.SL.Sem Idealize.ShloMosaic.StableHlo Idealize.ShloMosaic.ValueIdx

/-- The reference program runs and its three argument arrays end as launched. -/
theorem frame_ri : Cert.frame_ReferenceIdeal := fun m ρ _ =>
  (θ_run (Cert.ReferenceIdeal.defs (F := Ideal)) _ _).mono
    (fun _ h c =>
      ⟨(h c Cert.ReferenceIdeal.main_arg0).trans (Cert.ReferenceIdeal.RefRun.arg0_keep _),
       (h c Cert.ReferenceIdeal.main_arg1).trans (Cert.ReferenceIdeal.RefRun.arg1_keep _),
       (h c Cert.ReferenceIdeal.main_arg2).trans (Cert.ReferenceIdeal.RefRun.arg2_keep _)⟩)
    (Cert.ReferenceIdeal.RefRun.run m ρ)

/-- From memories agreeing on the arguments both programs run, end with equal results, entry by entry, and leave their
    arguments as launched. -/
theorem algebraic : Cert.algebraic_KernelIdeal_ReferenceIdeal := by
  intro m ρ m' ρ' _ hagree
  refine ⟨fun c => Cert.KernelIdeal.KerValue.kout m c, Cert.KernelIdeal.KerValue.run m ρ, ?_⟩
  refine (θ_run (Cert.ReferenceIdeal.defs (F := Ideal)) _ _).mono (fun r h c => ⟨?_, ?_, ?_, ?_⟩)
    (Cert.ReferenceIdeal.RefRun.run m' ρ')
  · refine (h c Cert.ReferenceIdeal.main_v186).trans ?_
    show (after (Cert.ReferenceIdeal.RefRun.ops (F := Ideal)) (launchContents m' c)
        (Cert.ReferenceIdeal.main_v186 : DevRef Cert.ReferenceIdeal.τ Cert.ReferenceIdeal.sig)
          : Cert.ReferenceIdeal.S2000x51.Idx → EReal) = (Cert.KernelIdeal.KerValue.kout m c : Cert.KernelIdeal.S2000x51.Idx → EReal)
    funext i
    obtain ⟨n, f, rfl⟩ : ∃ (n : Fin 2000) (f : Fin 51), i = ix2 n f := ⟨i 0, i 1, eq_ix2 i⟩
    refine (Cert.ReferenceIdeal.RefRun.ref_final _ n f).trans ?_
    refine Eq.trans ?_ (Cert.KernelIdeal.KerValue.kout_final m c n f).symm
    rw [Cert.Proof.Bridge.geo_agree m c, ← (hagree c).1, ← (hagree c).2.1, ← (hagree c).2.2]
  · exact (h c Cert.ReferenceIdeal.main_arg0).trans (Cert.ReferenceIdeal.RefRun.arg0_keep _)
  · exact (h c Cert.ReferenceIdeal.main_arg1).trans (Cert.ReferenceIdeal.RefRun.arg1_keep _)
  · exact (h c Cert.ReferenceIdeal.main_arg2).trans (Cert.ReferenceIdeal.RefRun.arg2_keep _)

end Cert.Proof.Final
-- ==== Proof.lean ====
/-
  Atom-centred symmetry functions of a neighbour list (8 radial, 43 angular features of each of 2000 atoms): a device
  kernel over blocks of 256 atoms, with its host lines before and after, against a host-only reference.

  The three frames: the device program at both instances runs and leaves its arguments unchanged (the class-A frame of its
  one region with the host lines around it); the reference program is host operations only. The idealization rewrote no
  operation. The two idealized programs end with equal results: Proof/Final.lean.
-/
import proofs.«126887_j40243843564182_2_alg».proof.Defs
import proofs.«126887_j40243843564182_2_alg».proof.Proof.Gen.Kernel
import proofs.«126887_j40243843564182_2_alg».proof.Proof.Gen.Kernel.Frame
import proofs.«126887_j40243843564182_2_alg».proof.Proof.Gen.KernelIdeal
import proofs.«126887_j40243843564182_2_alg».proof.Proof.Gen.KernelIdeal.Frame
import proofs.«126887_j40243843564182_2_alg».proof.Proof.Gen.ReferenceIdeal
import proofs.«126887_j40243843564182_2_alg».proof.Proof.Gen.Pre_finite_inputs
import proofs.«126887_j40243843564182_2_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Proof.Final.frame_ri,
    trivial,
    Cert.Proof.Final.algebraic⟩

end Cert.Proof

end
